-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S2x1600000 : Shape := ⟨2, ![2, 1600000]⟩
abbrev S100000 : Shape := ⟨1, ![100000]⟩
abbrev S12x128 : Shape := ⟨2, ![12, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x12 : Shape := ⟨2, ![256, 12]⟩
abbrev S12 : Shape := ⟨1, ![12]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S12x128 : S_.BroadcastsInDim S12x128 (![] : Fin 0 → Fin S12x128.rank)
  reducesTo_S12x128_S_d0_1 : S12x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x12 : S_.BroadcastsInDim S256x12 (![] : Fin 0 → Fin S256x12.rank)
  reducesTo_S256x12_S_d0_1 : S256x12.ReducesTo [0, 1] S_
  bcast_S_S12 : S_.BroadcastsInDim S12 (![] : Fin 0 → Fin S12.rank)
  reducesTo_S12_S_d0 : S12.ReducesTo [0] S_

variable [Facts]

def fn_part7 {F : FTy → Type} [FloatOps F] (main_v118 : IVec S_ 1) (main_v119 : FVec F S12 .f32) : IVec S_ 1 :=
  let main_cst_46 : FVec F S_ .f32 := constant S_ .f32 0x7F800000#32
  let main_v120 : FVec F S12 .f32 := broadcastInDim S12 ![] bcast_S_S12 main_cst_46
  let main_v121 : IVec S12 1 := cmpf .olt main_v119 main_v120
  let main_c_47 : IVec S_ 1 := constantI S_ 1 1#1
  let main_v122 : IVec S_ 1 := (fun x v => Host.reduce IntOp.andi x v reducesTo_S12_S_d0 h_S_) main_v121 main_c_47
  let main_v123 : IVec S_ 1 := andi main_v118 main_v122
  main_v123

def fn_part6 {F : FTy → Type} [FloatOps F] (main_arg23 : FVec F S512x256 .f32) (main_arg24 : FVec F S256 .f32) (main_arg25 : FVec F S256x12 .f32) (main_arg26 : FVec F S12 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512x256 .f32 := Host.absf main_arg23
  let main_cst_40 : FVec F S_ .f32 := constant S_ .f32 0x7F800000#32
  let main_v105 : FVec F S512x256 .f32 := broadcastInDim S512x256 ![] bcast_S_S512x256 main_cst_40
  let main_v106 : IVec S512x256 1 := cmpf .olt main_v104 main_v105
  let main_c_41 : IVec S_ 1 := constantI S_ 1 1#1
  let main_v107 : IVec S_ 1 := (fun x v => Host.reduce IntOp.andi x v reducesTo_S512x256_S_d0_1 h_S_) main_v106 main_c_41
  let main_v108 : IVec S_ 1 := andi main_v103 main_v107
  let main_v109 : FVec F S256 .f32 := Host.absf main_arg24
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x12 .f32 := Host.absf main_arg25
  let main_cst_44 : FVec F S_ .f32 := constant S_ .f32 0x7F800000#32
  let main_v115 : FVec F S256x12 .f32 := broadcastInDim S256x12 ![] bcast_S_S256x12 main_cst_44
  let main_v116 : IVec S256x12 1 := cmpf .olt main_v114 main_v115
  let main_c_45 : IVec S_ 1 := constantI S_ 1 1#1
  let main_v117 : IVec S_ 1 := (fun x v => Host.reduce IntOp.andi x v reducesTo_S256x12_S_d0_1 h_S_) main_v116 main_c_45
  let main_v118 : IVec S_ 1 := andi main_v113 main_v117
  let main_v119 : FVec F S12 .f32 := Host.absf main_arg26
  fn_part7 (F := F) main_v118 main_v119

def fn_part5 {F : FTy → Type} [FloatOps F] (main_arg20 : FVec F S128 .f32) (main_arg21 : FVec F S128x512 .f32) (main_arg22 : FVec F S512 .f32) (main_arg23 : FVec F S512x256 .f32) (main_arg24 : FVec F S256 .f32) (main_arg25 : FVec F S256x12 .f32) (main_arg26 : FVec F S12 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x512 .f32 := Host.absf main_arg21
  let main_cst_36 : FVec F S_ .f32 := constant S_ .f32 0x7F800000#32
  let main_v95 : FVec F S128x512 .f32 := broadcastInDim S128x512 ![] bcast_S_S128x512 main_cst_36
  let main_v96 : IVec S128x512 1 := cmpf .olt main_v94 main_v95
  let main_c_37 : IVec S_ 1 := constantI S_ 1 1#1
  let main_v97 : IVec S_ 1 := (fun x v => Host.reduce IntOp.andi x v reducesTo_S128x512_S_d0_1 h_S_) main_v96 main_c_37
  let main_v98 : IVec S_ 1 := andi main_v93 main_v97
  let main_v99 : FVec F S512 .f32 := Host.absf main_arg22
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S128 .f32) (main_arg17 : FVec F S128x128 .f32) (main_arg18 : FVec F S128 .f32) (main_arg19 : FVec F S128 .f32) (main_arg20 : FVec F S128 .f32) (main_arg21 : FVec F S128x512 .f32) (main_arg22 : FVec F S512 .f32) (main_arg23 : FVec F S512x256 .f32) (main_arg24 : FVec F S256 .f32) (main_arg25 : FVec F S256x12 .f32) (main_arg26 : FVec F S12 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S128x512 .f32) (main_arg22 : FVec F S512 .f32) (main_arg23 : FVec F S512x256 .f32) (main_arg24 : FVec F S256 .f32) (main_arg25 : FVec F S256x12 .f32) (main_arg26 : FVec F S12 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S128x512 .f32) (main_arg22 : FVec F S512 .f32) (main_arg23 : FVec F S512x256 .f32) (main_arg24 : FVec F S256 .f32) (main_arg25 : FVec F S256x12 .f32) (main_arg26 : FVec F S12 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S128x512 .f32) (main_arg22 : FVec F S512 .f32) (main_arg23 : FVec F S512x256 .f32) (main_arg24 : FVec F S256 .f32) (main_arg25 : FVec F S256x12 .f32) (main_arg26 : FVec F S12 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x12 .f32) (main_arg1 : IVec S2x1600000 32) (main_arg2 : IVec S100000 32) (main_arg3 : FVec F S12x128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S128x512 .f32) (main_arg22 : FVec F S512 .f32) (main_arg23 : FVec F S512x256 .f32) (main_arg24 : FVec F S256 .f32) (main_arg25 : FVec F S256x12 .f32) (main_arg26 : FVec F S12 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S12x128 .f32 := Host.absf main_arg3
  let main_cst_0 : FVec F S_ .f32 := constant S_ .f32 0x7F800000#32
  let main_v5 : FVec F S12x128 .f32 := broadcastInDim S12x128 ![] bcast_S_S12x128 main_cst_0
  let main_v6 : IVec S12x128 1 := cmpf .olt main_v4 main_v5
  let main_c_1 : IVec S_ 1 := constantI S_ 1 1#1
  let main_v7 : IVec S_ 1 := (fun x v => Host.reduce IntOp.andi x v reducesTo_S12x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x12 : Shape := ⟨2, ![100000, 12]⟩
abbrev S2x1600000 : Shape := ⟨2, ![2, 1600000]⟩
abbrev S100000 : Shape := ⟨1, ![100000]⟩
abbrev S12x128 : Shape := ⟨2, ![12, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x12 : Shape := ⟨2, ![256, 12]⟩
abbrev S12 : Shape := ⟨1, ![12]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x12 : Shape := ⟨2, ![1600000, 12]⟩
abbrev S1x128 : Shape := ⟨2, ![1, 128]⟩
abbrev S100000x128 : Shape := ⟨2, ![100000, 128]⟩
abbrev S2000x12 : Shape := ⟨2, ![2000, 12]⟩
abbrev S2000x128 : Shape := ⟨2, ![2000, 128]⟩
abbrev S1600000x128 : Shape := ⟨2, ![1600000, 128]⟩
abbrev S1024x128 : Shape := ⟨2, ![1024, 128]⟩
abbrev S100000x1 : Shape := ⟨2, ![100000, 1]⟩
abbrev S1x512 : Shape := ⟨2, ![1, 512]⟩
abbrev S1x256 : Shape := ⟨2, ![1, 256]⟩
abbrev S1x12 : Shape := ⟨2, ![1, 12]⟩
abbrev S1024x12 : Shape := ⟨2, ![1024, 12]⟩
abbrev S1024x512 : Shape := ⟨2, ![1024, 512]⟩
abbrev S1024x256 : Shape := ⟨2, ![1024, 256]⟩

abbrev nBuf : Space → Nat
  | .hbm => 126
  | .vmem => 68
  | .smem => 0
  | _ => 0

abbrev bufTy : (tb : Table) → Fin (tcTables nBuf tb) → BufTy
  | .hbm, ⟨0, _⟩ => ⟨S100000x12, .f32⟩
  | .hbm, ⟨1, _⟩ => ⟨S2x1600000, .i32⟩
  | .hbm, ⟨2, _⟩ => ⟨S100000, .i32⟩
  | .hbm, ⟨3, _⟩ => ⟨S12x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128x512, .f32⟩
  | .hbm, ⟨22, _⟩ => ⟨S512, .f32⟩
  | .hbm, ⟨23, _⟩ => ⟨S512x256, .f32⟩
  | .hbm, ⟨24, _⟩ => ⟨S256, .f32⟩
  | .hbm, ⟨25, _⟩ => ⟨S256x12, .f32⟩
  | .hbm, ⟨26, _⟩ => ⟨S12, .f32⟩
  | .hbm, ⟨27, _⟩ => ⟨S1x1600000, .i32⟩
  | .hbm, ⟨28, _⟩ => ⟨S1600000, .i32⟩
  | .hbm, ⟨29, _⟩ => ⟨S1x1600000, .i32⟩
  | .hbm, ⟨30, _⟩ => ⟨S1600000, .i32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x12, .f32⟩
  | .hbm, ⟨40, _⟩ => ⟨S_, .f32⟩
  | .hbm, ⟨41, _⟩ => ⟨S100000x12, .f32⟩
  | .hbm, ⟨42, _⟩ => ⟨S1600000x1, .i32⟩
  | .hbm, ⟨43, _⟩ => ⟨S100000x12, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S100000x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S100000x128, .f32⟩
  | .hbm, ⟨78, _⟩ => ⟨S1x128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S100000x128, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x128, .f32⟩
  | .hbm, ⟨98, _⟩ => ⟨S_, .f32⟩
  | .hbm, ⟨99, _⟩ => ⟨S100000x128, .f32⟩
  | .hbm, ⟨100, _⟩ => ⟨S1600000x1, .i32⟩
  | .hbm, ⟨101, _⟩ => ⟨S100000x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S100000x128, .f32⟩
  | .hbm, ⟨107, _⟩ => ⟨S1x128, .f32⟩
  | .hbm, ⟨108, _⟩ => ⟨S1x128, .f32⟩
  | .hbm, ⟨109, _⟩ => ⟨S_, .f32⟩
  | .hbm, ⟨110, _⟩ => ⟨S1x128, .f32⟩
  | .hbm, ⟨111, _⟩ => ⟨S1x128, .f32⟩
  | .hbm, ⟨112, _⟩ => ⟨S_, .f32⟩
  | .hbm, ⟨113, _⟩ => ⟨S1x128, .f32⟩
  | .hbm, ⟨114, _⟩ => ⟨S1x128, .f32⟩
  | .hbm, ⟨115, _⟩ => ⟨S1x128, .f32⟩
  | .hbm, ⟨116, _⟩ => ⟨S1x128, .f32⟩
  | .hbm, ⟨117, _⟩ => ⟨S100000x128, .f32⟩
  | .hbm, ⟨118, _⟩ => ⟨S_, .f32⟩
  | .hbm, ⟨119, _⟩ => ⟨S1024x128, .f32⟩
  | .hbm, ⟨120, _⟩ => ⟨S100000x1, .i32⟩
  | .hbm, ⟨121, _⟩ => ⟨S1024x128, .f32⟩
  | .hbm, ⟨122, _⟩ => ⟨S1x512, .f32⟩
  | .hbm, ⟨123, _⟩ => ⟨S1x256, .f32⟩
  | .hbm, ⟨124, _⟩ => ⟨S1x12, .f32⟩
  | .hbm, ⟨125, _⟩ => ⟨S1024x12, .f32⟩
  | .local _ .vmem, ⟨0, _⟩ => ⟨S2000x12, .f32⟩
  | .local _ .vmem, ⟨1, _⟩ => ⟨S2000x12, .f32⟩
  | .local _ .vmem, ⟨2, _⟩ => ⟨S2000x12, .f32⟩
  | .local _ .vmem, ⟨3, _⟩ => ⟨S2000x12, .f32⟩
  | .local _ .vmem, ⟨4, _⟩ => ⟨S12x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S1024x128, .f32⟩
  | .local _ .vmem, ⟨61, _⟩ => ⟨S128x512, .f32⟩
  | .local _ .vmem, ⟨62, _⟩ => ⟨S1x512, .f32⟩
  | .local _ .vmem, ⟨63, _⟩ => ⟨S512x256, .f32⟩
  | .local _ .vmem, ⟨64, _⟩ => ⟨S1x256, .f32⟩
  | .local _ .vmem, ⟨65, _⟩ => ⟨S256x12, .f32⟩
  | .local _ .vmem, ⟨66, _⟩ => ⟨S1x12, .f32⟩
  | .local _ .vmem, ⟨67, _⟩ => ⟨S1024x12, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18_0 : Ref sig .tc := ⟨.hbm, 48, rfl⟩
abbrev main_v18_1 : Ref sig .tc := ⟨.hbm, 49, rfl⟩
abbrev main_v18_2 : Ref sig .tc := ⟨.hbm, 50, rfl⟩
abbrev main_cst_1 : Ref sig .tc := ⟨.hbm, 51, rfl⟩
abbrev main_v19 : Ref sig .tc := ⟨.hbm, 52, rfl⟩
abbrev main_v20 : Ref sig .tc := ⟨.hbm, 53, rfl⟩
abbrev main_cst_2 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_3 : Ref sig .tc := ⟨.hbm, 60, rfl⟩
abbrev main_v26 : Ref sig .tc := ⟨.hbm, 61, rfl⟩
abbrev main_v27 : Ref sig .tc := ⟨.hbm, 62, rfl⟩
abbrev main_c_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_5 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40_0 : Ref sig .tc := ⟨.hbm, 77, rfl⟩
abbrev main_v40_1 : Ref sig .tc := ⟨.hbm, 78, rfl⟩
abbrev main_v40_2 : Ref sig .tc := ⟨.hbm, 79, rfl⟩
abbrev main_cst_6 : Ref sig .tc := ⟨.hbm, 80, rfl⟩
abbrev main_v41 : Ref sig .tc := ⟨.hbm, 81, rfl⟩
abbrev main_v42 : Ref sig .tc := ⟨.hbm, 82, rfl⟩
abbrev main_cst_7 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_8 : Ref sig .tc := ⟨.hbm, 89, rfl⟩
abbrev main_v48 : Ref sig .tc := ⟨.hbm, 90, rfl⟩
abbrev main_v49 : Ref sig .tc := ⟨.hbm, 91, rfl⟩
abbrev main_c_9 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_10 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62_0 : Ref sig .tc := ⟨.hbm, 106, rfl⟩
abbrev main_v62_1 : Ref sig .tc := ⟨.hbm, 107, rfl⟩
abbrev main_v62_2 : Ref sig .tc := ⟨.hbm, 108, rfl⟩
abbrev main_cst_11 : Ref sig .tc := ⟨.hbm, 109, rfl⟩
abbrev main_v63 : Ref sig .tc := ⟨.hbm, 110, rfl⟩
abbrev main_v64 : Ref sig .tc := ⟨.hbm, 111, rfl⟩
abbrev main_cst_12 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_13 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg6_0 : Ref sig .tc := ⟨.vmem, 66, rfl⟩
abbrev cc6_stg7_0 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem1_0 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem6_0 : DmaSem sig := 66
abbrev cc6_sem7_0 : DmaSem sig := 67

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_17 : BitVec 32 := 0#32
  let v30 : BitVec 1 := Scalar.cmpi .ne v29 c0_i32_17
  v30

def k0_cond2 (i : grid0.Coords) : BitVec 1 :=
  let arg0 : BitVec 32 := BitVec.ofNat 32 (i 0).val
  let c0_i32_18 : BitVec 32 := 0#32
  let v31 : BitVec 1 := Scalar.cmpi .ne arg0 c0_i32_18
  let v32 : BitVec 32 := Scalar.extui v31
  let c0_i32_19 : BitVec 32 := 0#32
  let v33 : BitVec 1 := Scalar.cmpi .ne v32 c0_i32_19
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond1 (i : grid2.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_17 : BitVec 32 := 0#32
  let v31 : BitVec 1 := Scalar.cmpi .ne v30 c0_i32_17
  v31

def k2_cond2 (i : grid2.Coords) : BitVec 1 :=
  let arg0 : BitVec 32 := BitVec.ofNat 32 (i 0).val
  let c0_i32_18 : BitVec 32 := 0#32
  let v32 : BitVec 1 := Scalar.cmpi .ne arg0 c0_i32_18
  let v33 : BitVec 32 := Scalar.extui v32
  let c0_i32_19 : BitVec 32 := 0#32
  let v34 : BitVec 1 := Scalar.cmpi .ne v33 c0_i32_19
  v34

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def k4_cond1 (i : grid4.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_17 : BitVec 32 := 0#32
  let v31 : BitVec 1 := Scalar.cmpi .ne v30 c0_i32_17
  v31

def k4_cond2 (i : grid4.Coords) : BitVec 1 :=
  let arg0 : BitVec 32 := BitVec.ofNat 32 (i 0).val
  let c0_i32_18 : BitVec 32 := 0#32
  let v32 : BitVec 1 := Scalar.cmpi .ne arg0 c0_i32_18
  let v33 : BitVec 32 := Scalar.extui v32
  let c0_i32_19 : BitVec 32 := 0#32
  let v34 : BitVec 1 := Scalar.cmpi .ne v33 c0_i32_19
  v34

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1024x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x12 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x12 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1024x12 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x12 : S_.BroadcastsInDim S100000x12 (![] : Fin 0 → Fin S100000x12.rank)
  shapeCasts_S128_S1x128 : S128.ShapeCasts S1x128
  inb_S2000x12_S2000x12_0_0 : ∀ a, (![0, 0] : Fin 2 → Nat) a + S2000x12.size a ≤ S2000x12.size a
  h_S2000x12 : 0 < S2000x12.numel
  shapeCasts_S2000x12_S2000x12 : S2000x12.ShapeCasts S2000x12
  inb_S12x128_S12x128_0_0 : ∀ a, (![0, 0] : Fin 2 → Nat) a + S12x128.size a ≤ S12x128.size a
  h_S12x128 : 0 < S12x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  reduces_S2000x128_S128 : S2000x128.Reduces [0] S128
  bcast_S_S1x128 : S_.BroadcastsInDim S1x128 (![] : Fin 0 → Fin S1x128.rank)
  shapeCasts_S2000x128_S2000x128 : S2000x128.ShapeCasts S2000x128
  bcast_S_S100000x128 : S_.BroadcastsInDim S100000x128 (![] : Fin 0 → Fin S100000x128.rank)
  bcast_S_S1024x128 : S_.BroadcastsInDim S1024x128 (![] : Fin 0 → Fin S1024x128.rank)
  bcast_S100000_S100000x1_0 : S100000.BroadcastsInDim S100000x1 (![0] : Fin 1 → Fin S100000x1.rank)
  shapeCasts_S512_S1x512 : S512.ShapeCasts S1x512
  shapeCasts_S256_S1x256 : S256.ShapeCasts S1x256
  shapeCasts_S12_S1x12 : S12.ShapeCasts S1x12
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x12_S256x12_0_0 : ∀ a, (![0, 0] : Fin 2 → Nat) a + S256x12.size a ≤ S256x12.size a
  h_S256x12 : 0 < S256x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S1024x12 : S1x12.Broadcasts S1024x12
  inb_S1024x12_S1024x12_0_0 : ∀ a, (![0, 0] : Fin 2 → Nat) a + S1024x12.size a ≤ S1024x12.size a
  h_S1024x12 : 0 < S1024x12.numel
  gather_S100000x12_S1600000x1_S1600000x12_1_0_n_n_0_1_112_wf : GatherDims.WF S100000x12 S1600000x1 S1600000x12 [1] [0] [] [0] [] 1 ![1, 12]
  scatter_S100000x12_S1600000x1_S1600000x12_1_0_0_1_wf : ScatterDims.WF S100000x12 S1600000x1 S1600000x12 [1] [0] [0] 1
  dot_S2000x12_S12x128_S2000x128_1_0_0_1_n_n_wf : DotDims.WF S2000x12 S12x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S1024x128_S100000x1_S100000x128_1_0_0_1_wf : ScatterDims.WF S1024x128 S100000x1 S100000x128 [1] [0] [0] 1
  dot_S1024x128_S128x512_S1024x512_1_0_0_1_n_n_wf : DotDims.WF S1024x128 S128x512 S1024x512 [1] [0] [0] [1] [] []
  dot_S1024x512_S512x256_S1024x256_1_0_0_1_n_n_wf : DotDims.WF S1024x512 S512x256 S1024x256 [1] [0] [0] [1] [] []
  dot_S1024x256_S256x12_S1024x12_1_0_0_1_n_n_wf : DotDims.WF S1024x256 S256x12 S1024x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x12.size a ≤ S100000x12.size a
  hwx0_0 : ∀ i : grid0.Coords, EltTy.bits .f32 = 32 ∨ (Rect.block (s := S100000x12) S2000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x12.size a ≤ S100000x12.size a
  hwx0_1 : ∀ i : grid0.Coords, EltTy.bits .f32 = 32 ∨ (Rect.block (s := S100000x12) S2000x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x128.size a ≤ S12x128.size a
  hwx0_2 : ∀ i : grid0.Coords, EltTy.bits .f32 = 32 ∨ (Rect.block (s := S12x128) S12x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S1024x128.size a
  hwx6_0 : ∀ i : grid6.Coords, EltTy.bits .f32 = 32 ∨ (Rect.block (s := S1024x128) S1024x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x512.size a ≤ S128x512.size a
  hwx6_1 : ∀ i : grid6.Coords, EltTy.bits .f32 = 32 ∨ (Rect.block (s := S128x512) S128x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x256.size a ≤ S512x256.size a
  hwx6_3 : ∀ i : grid6.Coords, EltTy.bits .f32 = 32 ∨ (Rect.block (s := S512x256) S512x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x12.size a ≤ S256x12.size a
  hwx6_5 : ∀ i : grid6.Coords, EltTy.bits .f32 = 32 ∨ (Rect.block (s := S256x12) S256x12.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x12.size a ≤ S1x12.size a
  hwx6_6 : ∀ i : grid6.Coords, EltTy.bits .f32 = 32 ∨ (Rect.block (s := S1x12) S1x12.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1024x12.size a ≤ S1024x12.size a
  hwx6_7 : ∀ i : grid6.Coords, EltTy.bits .f32 = 32 ∨ (Rect.block (s := S1024x12) S1024x12.size (cc6_transform_7 i) (hinb6_7 i)).WholeWords (EltTy.packing .f32)

variable [Facts₀]

def gather_S100000x12_S1600000x1_S1600000x12_1_0_n_n_0_1_112 : GatherDims S100000x12 S1600000x1 S1600000x12 where
  offsetDims := [1]
  collapsedSliceDims := [0]
  operandBatchingDims := []
  startIndicesBatchingDims := []
  startIndexMap := [0]
  indexVectorDim := 1
  sliceSizes := ![1, 12]
  wf := gather_S100000x12_S1600000x1_S1600000x12_1_0_n_n_0_1_112_wf
def scatter_S100000x12_S1600000x1_S1600000x12_1_0_0_1 : ScatterDims S100000x12 S1600000x1 S1600000x12 where
  updateWindowDims := [1]
  insertedWindowDims := [0]
  scatterDimsToOperandDims := [0]
  indexVectorDim := 1
  wf := scatter_S100000x12_S1600000x1_S1600000x12_1_0_0_1_wf
def dot_S2000x12_S12x128_S2000x128_1_0_0_1_n_n : DotDims S2000x12 S12x128 S2000x128 where
  lhsContracting := [1]
  rhsContracting := [0]
  lhsNonContracting := [0]
  rhsNonContracting := [1]
  lhsBatch := []
  rhsBatch := []
  wf := dot_S2000x12_S12x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x12_S1024x12_1_0_0_1_n_n : DotDims S1024x256 S256x12 S1024x12 where
  lhsContracting := [1]
  rhsContracting := [0]
  lhsNonContracting := [0]
  rhsNonContracting := [1]
  lhsBatch := []
  rhsBatch := []
  wf := dot_S1024x256_S256x12_S1024x12_1_0_0_1_n_n_wf

abbrev win0_0 : Pipeline.Window sig grid0 :=
  Pipeline.Window.ofSpec (Memref.whole main_arg0) S2000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S12x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) | 8 => fun i => !(k0_cond1 i == 1#1) && !(k0_cond2 i == 1#1) | ⟨_ + 9, h⟩ => absurd h (Nat.not_lt.2 (Nat.le_add_left _ _))

abbrev win1_0 : Pipeline.Window sig grid1 :=
  Pipeline.Window.ofSpec (Memref.whole main_v18_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v40_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v40_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond1 i == 1#1) && !(k2_cond2 i == 1#1) | 8 => fun i => !(k2_cond1 i == 1#1) && !(k2_cond2 i == 1#1) | ⟨_ + 9, h⟩ => absurd h (Nat.not_lt.2 (Nat.le_add_left _ _))

abbrev win3_0 : Pipeline.Window sig grid3 :=
  Pipeline.Window.ofSpec (Memref.whole main_v40_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v47) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v59) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v62_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v62_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v62_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond1 i == 1#1) && !(k4_cond2 i == 1#1) | 8 => fun i => !(k4_cond1 i == 1#1) && !(k4_cond2 i == 1#1) | ⟨_ + 9, h⟩ => absurd h (Nat.not_lt.2 (Nat.le_add_left _ _))

abbrev win5_0 : Pipeline.Window sig grid5 :=
  Pipeline.Window.ofSpec (Memref.whole main_v62_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v61) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v69) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v72) S1024x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S128x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v73) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg23) S512x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v74) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg25) S256x12.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v75) S1x12.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v76) S1024x12.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x12 : Shape := ⟨2, ![100000, 12]⟩
abbrev S2x1600000 : Shape := ⟨2, ![2, 1600000]⟩
abbrev S100000 : Shape := ⟨1, ![100000]⟩
abbrev S12x128 : Shape := ⟨2, ![12, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x12 : Shape := ⟨2, ![256, 12]⟩
abbrev S12 : Shape := ⟨1, ![12]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x12 : Shape := ⟨2, ![1600000, 12]⟩
abbrev S100000x128 : Shape := ⟨2, ![100000, 128]⟩
abbrev S1x128 : Shape := ⟨2, ![1, 128]⟩
abbrev S1600000x128 : Shape := ⟨2, ![1600000, 128]⟩
abbrev S1024x128 : Shape := ⟨2, ![1024, 128]⟩
abbrev S100000x1 : Shape := ⟨2, ![100000, 1]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩
abbrev S1024x12 : Shape := ⟨2, ![1024, 12]⟩
abbrev S1x12 : Shape := ⟨2, ![1, 12]⟩

abbrev nBuf : Space → Nat
  | .hbm => 269
  | .vmem => 0
  | .smem => 0
  | _ => 0

abbrev hbmTy0_0 (i : Nat) : BufTy := match i % 128 with
  | 0 => ⟨S100000x12, .f32⟩
  | 1 => ⟨S2x1600000, .i32⟩
  | 2 => ⟨S100000, .i32⟩
  | 3 => ⟨S12x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128, .f32⟩
  | 20 => ⟨S128, .f32⟩
  | 21 => ⟨S128x512, .f32⟩
  | 22 => ⟨S512, .f32⟩
  | 23 => ⟨S512x256, .f32⟩
  | 24 => ⟨S256, .f32⟩
  | 25 => ⟨S256x12, .f32⟩
  | 26 => ⟨S12, .f32⟩
  | 27 => ⟨S1x1600000, .i32⟩
  | 28 => ⟨S1600000, .i32⟩
  | 29 => ⟨S1x1600000, .i32⟩
  | 30 => ⟨S1600000, .i32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x12, .f32⟩
  | 40 => ⟨S_, .f32⟩
  | 41 => ⟨S100000x12, .f32⟩
  | 42 => ⟨S1600000x1, .i32⟩
  | 43 => ⟨S100000x12, .f32⟩
  | 44 => ⟨S100000x12, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S100000x128, .f32⟩
  | 69 => ⟨S100000x128, .f32⟩
  | 70 => ⟨S100000x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S_, .f32⟩
  | 88 => ⟨S128, .f32⟩
  | 89 => ⟨S128, .f32⟩
  | 90 => ⟨S128, .f32⟩
  | 91 => ⟨S1x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x12, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S100000x128, .f32⟩
  | 13 => ⟨S100000x128, .f32⟩
  | 14 => ⟨S100000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S_, .f32⟩
  | 32 => ⟨S128, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S100000x128, .f32⟩
  | 85 => ⟨S100000x128, .f32⟩
  | 86 => ⟨S100000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S_, .f32⟩
  | 104 => ⟨S128, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S_, .f32⟩
  | 120 => ⟨S1024x128, .f32⟩
  | 121 => ⟨S100000x1, .i32⟩
  | 122 => ⟨S1024x128, .f32⟩
  | 123 => ⟨S1024x512, .f32⟩
  | 124 => ⟨S1x512, .f32⟩
  | 125 => ⟨S1024x512, .f32⟩
  | 126 => ⟨S1024x512, .f32⟩
  | 127 => ⟨S_, .f32⟩
  | _ => ⟨S100000x12, .f32⟩

abbrev hbmTy0_2 (i : Nat) : BufTy := match i % 128 with
  | 0 => ⟨S1024x512, .f32⟩
  | 1 => ⟨S1024x512, .f32⟩
  | 2 => ⟨S1024x256, .f32⟩
  | 3 => ⟨S1x256, .f32⟩
  | 4 => ⟨S1024x256, .f32⟩
  | 5 => ⟨S1024x256, .f32⟩
  | 6 => ⟨S_, .f32⟩
  | 7 => ⟨S1024x256, .f32⟩
  | 8 => ⟨S1024x256, .f32⟩
  | 9 => ⟨S1024x12, .f32⟩
  | 10 => ⟨S1x12, .f32⟩
  | 11 => ⟨S1024x12, .f32⟩
  | 12 => ⟨S1024x12, .f32⟩
  | _ => ⟨S100000x12, .f32⟩

abbrev hbmTy (i : Nat) : BufTy := match i / 128 with
  | 0 => hbmTy0_0 i
  | 1 => hbmTy0_1 i
  | 2 => hbmTy0_2 i
  | _ => ⟨S100000x12, .f32⟩

abbrev bufTy : (tb : Table) → Fin (tcTables nBuf tb) → BufTy
  | .hbm, ⟨i, _⟩ => hbmTy i
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_1 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_2 : Ref sig .tc := ⟨.hbm, 56, rfl⟩
abbrev main_v25 : Ref sig .tc := ⟨.hbm, 57, rfl⟩
abbrev main_cst_3 : Ref sig .tc := ⟨.hbm, 58, rfl⟩
abbrev main_v26 : Ref sig .tc := ⟨.hbm, 59, rfl⟩
abbrev main_v27 : Ref sig .tc := ⟨.hbm, 60, rfl⟩
abbrev main_c_4 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_cst_1 : Ref sig .tc := ⟨.hbm, 72, rfl⟩
abbrev main_call0_v8 : Ref sig .tc := ⟨.hbm, 73, rfl⟩
abbrev main_call0_cst_2 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_cst_3 : Ref sig .tc := ⟨.hbm, 78, rfl⟩
abbrev main_call0_v12 : Ref sig .tc := ⟨.hbm, 79, rfl⟩
abbrev main_call0_cst_4 : Ref sig .tc := ⟨.hbm, 80, rfl⟩
abbrev main_call0_call0_v0 : Ref sig .tc := ⟨.hbm, 81, rfl⟩
abbrev main_call0_call0_v1 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_cst_5 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_cst_6 : Ref sig .tc := ⟨.hbm, 100, rfl⟩
abbrev main_v44 : Ref sig .tc := ⟨.hbm, 101, rfl⟩
abbrev main_v45 : Ref sig .tc := ⟨.hbm, 102, rfl⟩
abbrev main_c_7 : Ref sig .tc := ⟨.hbm, 103, rfl⟩
abbrev main_v46 : Ref sig .tc := ⟨.hbm, 104, rfl⟩
abbrev main_v47 : Ref sig .tc := ⟨.hbm, 105, rfl⟩
abbrev main_c_8 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_cst_9 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_cst_10 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_11 : Ref sig .tc := ⟨.hbm, 128, rfl⟩
abbrev main_v67 : Ref sig .tc := ⟨.hbm, 129, rfl⟩
abbrev main_cst_12 : Ref sig .tc := ⟨.hbm, 130, rfl⟩
abbrev main_v68 : Ref sig .tc := ⟨.hbm, 131, rfl⟩
abbrev main_v69 : Ref sig .tc := ⟨.hbm, 132, rfl⟩
abbrev main_c_13 : Ref sig .tc := ⟨.hbm, 133, rfl⟩
abbrev main_call1_cst : Ref sig .tc := ⟨.hbm, 134, rfl⟩
abbrev main_call1_v0 : Ref sig .tc := ⟨.hbm, 135, rfl⟩
abbrev main_call1_v1 : Ref sig .tc := ⟨.hbm, 136, rfl⟩
abbrev main_call1_cst_0 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_call1_v5 : Ref sig .tc := ⟨.hbm, 141, rfl⟩
abbrev main_call1_v6 : Ref sig .tc := ⟨.hbm, 142, rfl⟩
abbrev main_call1_v7 : Ref sig .tc := ⟨.hbm, 143, rfl⟩
abbrev main_call1_cst_1 : Ref sig .tc := ⟨.hbm, 144, rfl⟩
abbrev main_call1_v8 : Ref sig .tc := ⟨.hbm, 145, rfl⟩
abbrev main_call1_cst_2 : Ref sig .tc := ⟨.hbm, 146, rfl⟩
abbrev main_call1_v9 : Ref sig .tc := ⟨.hbm, 147, rfl⟩
abbrev main_call1_v10 : Ref sig .tc := ⟨.hbm, 148, rfl⟩
abbrev main_call1_v11 : Ref sig .tc := ⟨.hbm, 149, rfl⟩
abbrev main_call1_cst_3 : Ref sig .tc := ⟨.hbm, 150, rfl⟩
abbrev main_call1_v12 : Ref sig .tc := ⟨.hbm, 151, rfl⟩
abbrev main_call1_cst_4 : Ref sig .tc := ⟨.hbm, 152, rfl⟩
abbrev main_call1_call0_v0 : Ref sig .tc := ⟨.hbm, 153, rfl⟩
abbrev main_call1_call0_v1 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_cst_14 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_cst_15 : Ref sig .tc := ⟨.hbm, 172, rfl⟩
abbrev main_v86 : Ref sig .tc := ⟨.hbm, 173, rfl⟩
abbrev main_v87 : Ref sig .tc := ⟨.hbm, 174, rfl⟩
abbrev main_c_16 : Ref sig .tc := ⟨.hbm, 175, rfl⟩
abbrev main_v88 : Ref sig .tc := ⟨.hbm, 176, rfl⟩
abbrev main_v89 : Ref sig .tc := ⟨.hbm, 177, rfl⟩
abbrev main_c_17 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_cst_18 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_cst_19 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_cst_20 : Ref sig .tc := ⟨.hbm, 200, rfl⟩
abbrev main_v109 : Ref sig .tc := ⟨.hbm, 201, rfl⟩
abbrev main_cst_21 : Ref sig .tc := ⟨.hbm, 202, rfl⟩
abbrev main_v110 : Ref sig .tc := ⟨.hbm, 203, rfl⟩
abbrev main_v111 : Ref sig .tc := ⟨.hbm, 204, rfl⟩
abbrev main_c_22 : Ref sig .tc := ⟨.hbm, 205, rfl⟩
abbrev main_call2_cst : Ref sig .tc := ⟨.hbm, 206, rfl⟩
abbrev main_call2_v0 : Ref sig .tc := ⟨.hbm, 207, rfl⟩
abbrev main_call2_v1 : Ref sig .tc := ⟨.hbm, 208, rfl⟩
abbrev main_call2_cst_0 : Ref sig .tc := ⟨.hbm, 209, rfl⟩
abbrev main_call2_v2 : Ref sig .tc := ⟨.hbm, 210, rfl⟩
abbrev main_call2_v3 : Ref sig .tc := ⟨.hbm, 211, rfl⟩
abbrev main_call2_v4 : Ref sig .tc := ⟨.hbm, 212, rfl⟩
abbrev main_call2_v5 : Ref sig .tc := ⟨.hbm, 213, rfl⟩
abbrev main_call2_v6 : Ref sig .tc := ⟨.hbm, 214, rfl⟩
abbrev main_call2_v7 : Ref sig .tc := ⟨.hbm, 215, rfl⟩
abbrev main_call2_cst_1 : Ref sig .tc := ⟨.hbm, 216, rfl⟩
abbrev main_call2_v8 : Ref sig .tc := ⟨.hbm, 217, rfl⟩
abbrev main_call2_cst_2 : Ref sig .tc := ⟨.hbm, 218, rfl⟩
abbrev main_call2_v9 : Ref sig .tc := ⟨.hbm, 219, rfl⟩
abbrev main_call2_v10 : Ref sig .tc := ⟨.hbm, 220, rfl⟩
abbrev main_call2_v11 : Ref sig .tc := ⟨.hbm, 221, rfl⟩
abbrev main_call2_cst_3 : Ref sig .tc := ⟨.hbm, 222, rfl⟩
abbrev main_call2_v12 : Ref sig .tc := ⟨.hbm, 223, rfl⟩
abbrev main_call2_cst_4 : Ref sig .tc := ⟨.hbm, 224, rfl⟩
abbrev main_call2_call0_v0 : Ref sig .tc := ⟨.hbm, 225, rfl⟩
abbrev main_call2_call0_v1 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_v115 : Ref sig .tc := ⟨.hbm, 230, rfl⟩
abbrev main_cst_23 : Ref sig .tc := ⟨.hbm, 231, rfl⟩
abbrev main_v116 : Ref sig .tc := ⟨.hbm, 232, rfl⟩
abbrev main_v117 : Ref sig .tc := ⟨.hbm, 233, rfl⟩
abbrev main_v118 : Ref sig .tc := ⟨.hbm, 234, rfl⟩
abbrev main_v119 : Ref sig .tc := ⟨.hbm, 235, rfl⟩
abbrev main_v120 : Ref sig .tc := ⟨.hbm, 236, rfl⟩
abbrev main_v121 : Ref sig .tc := ⟨.hbm, 237, rfl⟩
abbrev main_v122 : Ref sig .tc := ⟨.hbm, 238, rfl⟩
abbrev main_v123 : Ref sig .tc := ⟨.hbm, 239, rfl⟩
abbrev main_v124 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_cst_24 : Ref sig .tc := ⟨.hbm, 244, rfl⟩
abbrev main_v128 : Ref sig .tc := ⟨.hbm, 245, rfl⟩
abbrev main_v129 : Ref sig .tc := ⟨.hbm, 246, rfl⟩
abbrev main_cst_25 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩
abbrev main_cst_26 : Ref sig .tc := ⟨.hbm, 255, rfl⟩
abbrev main_v137 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_cst_27 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x12 : S_.BroadcastsInDim S100000x12 (![] : Fin 0 → Fin S100000x12.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S12_S1x12_1 : S12.BroadcastsInDim S1x12 (![1] : Fin 1 → Fin S1x12.rank)
  bcast_S1x12_S1024x12_0_1 : S1x12.BroadcastsInDim S1024x12 (![0, 1] : Fin 2 → Fin S1024x12.rank)
  gather_S100000x12_S1600000x1_S1600000x12_1_0_n_n_0_1_112_wf : GatherDims.WF S100000x12 S1600000x1 S1600000x12 [1] [0] [] [0] [] 1 ![1, 12]
  scatter_S100000x12_S1600000x1_S1600000x12_1_0_0_1_wf : ScatterDims.WF S100000x12 S1600000x1 S1600000x12 [1] [0] [0] 1
  dot_S100000x12_S12x128_S100000x128_1_0_0_1_n_n_wf : DotDims.WF S100000x12 S12x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S1024x128_S100000x1_S100000x128_1_0_0_1_wf : ScatterDims.WF S1024x128 S100000x1 S100000x128 [1] [0] [0] 1
  dot_S1024x128_S128x512_S1024x512_1_0_0_1_n_n_wf : DotDims.WF S1024x128 S128x512 S1024x512 [1] [0] [0] [1] [] []
  dot_S1024x512_S512x256_S1024x256_1_0_0_1_n_n_wf : DotDims.WF S1024x512 S512x256 S1024x256 [1] [0] [0] [1] [] []
  dot_S1024x256_S256x12_S1024x12_1_0_0_1_n_n_wf : DotDims.WF S1024x256 S256x12 S1024x12 [1] [0] [0] [1] [] []

variable [Facts₀]

def gather_S100000x12_S1600000x1_S1600000x12_1_0_n_n_0_1_112 : GatherDims S100000x12 S1600000x1 S1600000x12 where
  offsetDims := [1]
  collapsedSliceDims := [0]
  operandBatchingDims := []
  startIndicesBatchingDims := []
  startIndexMap := [0]
  indexVectorDim := 1
  sliceSizes := ![1, 12]
  wf := gather_S100000x12_S1600000x1_S1600000x12_1_0_n_n_0_1_112_wf
def scatter_S100000x12_S1600000x1_S1600000x12_1_0_0_1 : ScatterDims S100000x12 S1600000x1 S1600000x12 where
  updateWindowDims := [1]
  insertedWindowDims := [0]
  scatterDimsToOperandDims := [0]
  indexVectorDim := 1
  wf := scatter_S100000x12_S1600000x1_S1600000x12_1_0_0_1_wf
def dot_S100000x12_S12x128_S100000x128_1_0_0_1_n_n : DotDims S100000x12 S12x128 S100000x128 where
  lhsContracting := [1]
  rhsContracting := [0]
  lhsNonContracting := [0]
  rhsNonContracting := [1]
  lhsBatch := []
  rhsBatch := []
  wf := dot_S100000x12_S12x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x12_S1024x12_1_0_0_1_n_n : DotDims S1024x256 S256x12 S1024x12 where
  lhsContracting := [1]
  rhsContracting := [0]
  lhsNonContracting := [0]
  rhsNonContracting := [1]
  lhsBatch := []
  rhsBatch := []
  wf := dot_S1024x256_S256x12_S1024x12_1_0_0_1_n_n_wf

class Facts : Prop extends Facts₀ where

variable [Facts]
-- ==== Proof.WholeStore.lean ====
import Idealize.ShloMosaic.Lib.Pipeline.FrameBody
import Idealize.ShloMosaic.Lib.Pipeline.Value

/-! A store through the whole-shape rectangle at zero offsets leaves its payload, whatever the buffer held: the one
    piece covers every index (`View.read_writes_eq_canon`), and its canon is the payload (`View.canon_unit_zero`). -/

noncomputable section

namespace Cert.WholeStore

open Idealize.ShloMosaic

variable {Val : EltTy → Type} [∀ e, Nonempty (Val e)]

/-- The rank-2 zero offsets, as the printed programs spell them. -/
theorem hz2 : (![0, 0] : Fin 2 → Nat) = fun _ => 0 := funext fun a => by fin_cases a <;> rfl

/-- Reading back one covering store: the payload. -/
theorem read_writes_unit_zero {sig : RefSig} {κ : Kind} {sp : Space} {S : Shape} {e : EltTy} (v : View sig κ sp S e)
    (f : v.ty.Contents Val) {off : Fin S.rank → Nat} (h : off = fun _ => 0) (inb : ∀ a, off a + S.size a ≤ S.size a)
    (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

end Cert.WholeStore

end
-- ==== Proof.K.R0Body.lean ====
import proofs.«142609_j54228257079879_1_alg».proof.Proof.Gen.Kernel.Launch
import proofs.«142609_j54228257079879_1_alg».proof.Proof.Gen.Kernel.Skeleton
import proofs.«142609_j54228257079879_1_alg».proof.Proof.Gen.Kernel.Points
import proofs.«142609_j54228257079879_1_alg».proof.Proof.WholeStore
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of `cc0__gin_mm_kernel` on whole staging memrefs, in its two control cases over the grid coordinate: the
    first point (the sums stored) and a later point (the sums added to what windows 7 and 8's buffers hold). -/

/-- What the body stores into window 6's buffer: the MLP of the six input blocks (the skeleton's payload). -/
def out0_6 (x0 x1 : Vec F S2000x12 .f32) (x2 : Vec F S12x128 .f32) (x3 : Vec F S1x128 .f32) (x4 : Vec F S128x128 .f32) (x5 : Vec F S1x128 .f32) : Vec F S2000x128 .f32 := k0_pay3 x0 x1 x2 x3 x4 x5
/-- The column sums of that block, -/
def sum0_7 (x0 x1 : Vec F S2000x12 .f32) (x2 : Vec F S12x128 .f32) (x3 : Vec F S1x128 .f32) (x4 : Vec F S128x128 .f32) (x5 : Vec F S1x128 .f32) : Vec F S1x128 .f32 := k0_pay4 x0 x1 x2 x3 x4 x5
/-- and of its elementwise square. -/
def sum0_8 (x0 x1 : Vec F S2000x12 .f32) (x2 : Vec F S12x128 .f32) (x3 : Vec F S1x128 .f32) (x4 : Vec F S128x128 .f32) (x5 : Vec F S1x128 .f32) : Vec F S1x128 .f32 := k0_pay5 x0 x1 x2 x3 x4 x5

set_option maxHeartbeats 4000000 in
/-- The body at the FIRST point (`i = 0`: the first conditional taken, the second not): on whole staging memrefs, the
    inputs' at read contents and the outputs' at anything, it leaves the block in window 6's buffer and the block's
    column sums in windows 7 and 8's. -/
theorem sound_kernel0_A (c : Dev nD) (E : Set ℕ) (i : grid0.Coords)
    (arg1 : Memref sig .tc .vmem S2000x12 .f32) (harg1 : arg1.IsWhole) (arg2 : Memref sig .tc .vmem S2000x12 .f32) (harg2 : arg2.IsWhole)
    (arg3 : Memref sig .tc .vmem S12x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : k0_cond1 i = 1#1) (hc2 : ¬ k0_cond2 i = 1#1)
    (x0 x1 : Vec F S2000x12 .f32) (x2 : Vec F S12x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)
            ∗ owns (c : Thread nD τ) arg8 fullShare (sum0_7 x0 x1 x2 x3 x4 x5)
            ∗ owns (c : Thread nD τ) arg9 fullShare (sum0_8 x0 x1 x2 x3 x4 x5)) -∗ K ⟨⟩))
      ⊢ wp frame (wpE (defs₀ (F := F)) Variants.none c none) E (cc0__gin_mm_kernel i arg1 harg1 arg2 harg2 arg3 harg3 arg4 harg4 arg5 harg5 arg6 harg6 arg7 harg7 arg8 harg8 arg9 harg9) K := by
  simp only [cc0__gin_mm_kernel_eq_skeleton]; unfold cc0__gin_mm_kernel_skel
  unfold owns out0_6 sum0_7 sum0_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x12) hz2, View.ld_unit_zero (S := S12x128) hz2, View.ld_unit_zero (S := S1x128) hz2, View.ld_unit_zero (S := S128x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x12) hz2, View.ld_unit_zero (S := S12x128) hz2, View.ld_unit_zero (S := S1x128) hz2, View.ld_unit_zero (S := S128x128) hz2]
  iexists _; isplitr
  swap; · iexact H8
  ipureintro
  refine (read_writes_unit_zero _ _ hz2 _ _).trans ?_
  sl_unfold_run_names
  simp only [View.readAt_eq_ld, View.ld_unit_zero (S := S2000x12) hz2, View.ld_unit_zero (S := S12x128) hz2, View.ld_unit_zero (S := S1x128) hz2, View.ld_unit_zero (S := S128x128) hz2]

set_option maxHeartbeats 4000000 in
/-- The body at a LATER point (`i ≠ 0`: the second conditional taken, the first not): windows 7 and 8's buffers hold
    the running sums `a7`, `a8`; it leaves the block in window 6's buffer and adds the block's column sums to them. -/
theorem sound_kernel0_B (c : Dev nD) (E : Set ℕ) (i : grid0.Coords)
    (arg1 : Memref sig .tc .vmem S2000x12 .f32) (harg1 : arg1.IsWhole) (arg2 : Memref sig .tc .vmem S2000x12 .f32) (harg2 : arg2.IsWhole)
    (arg3 : Memref sig .tc .vmem S12x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : ¬ k0_cond1 i = 1#1) (hc2 : k0_cond2 i = 1#1)
    (x0 x1 : Vec F S2000x12 .f32) (x2 : Vec F S12x128 .f32) (x3 : Vec F S1x128 .f32) (x4 : Vec F S128x128 .f32) (x5 : Vec F S1x128 .f32) (a7 a8 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare a7 ∗ owns (c : Thread nD τ) arg9 fullShare a8
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)
            ∗ owns (c : Thread nD τ) arg8 fullShare (k0_pay1 (sum0_7 x0 x1 x2 x3 x4 x5) a7)
            ∗ owns (c : Thread nD τ) arg9 fullShare (k0_pay2 (sum0_8 x0 x1 x2 x3 x4 x5) a8)) -∗ K ⟨⟩))
      ⊢ wp frame (wpE (defs₀ (F := F)) Variants.none c none) E (cc0__gin_mm_kernel i arg1 harg1 arg2 harg2 arg3 harg3 arg4 harg4 arg5 harg5 arg6 harg6 arg7 harg7 arg8 harg8 arg9 harg9) K := by
  simp only [cc0__gin_mm_kernel_eq_skeleton]; unfold cc0__gin_mm_kernel_skel
  unfold owns out0_6 sum0_7 sum0_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x12) hz2, View.ld_unit_zero (S := S12x128) hz2, View.ld_unit_zero (S := S1x128) hz2, View.ld_unit_zero (S := S128x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x12) hz2, View.ld_unit_zero (S := S12x128) hz2, View.ld_unit_zero (S := S1x128) hz2, View.ld_unit_zero (S := S128x128) hz2]
  iexists _; isplitr
  swap; · iexact H8
  ipureintro
  refine (read_writes_unit_zero _ _ hz2 _ _).trans ?_
  sl_unfold_run_names
  simp only [View.readAt_eq_ld, View.ld_unit_zero (S := S2000x12) hz2, View.ld_unit_zero (S := S12x128) hz2, View.ld_unit_zero (S := S1x128) hz2, View.ld_unit_zero (S := S128x128) hz2]

end Cert.Kernel.Hand
end
-- ==== Proof.K.R0.lean ====
import proofs.«142609_j54228257079879_1_alg».proof.Proof.Gen.Kernel.Launch
import proofs.«142609_j54228257079879_1_alg».proof.Proof.Gen.Kernel.Skeleton
import proofs.«142609_j54228257079879_1_alg».proof.Proof.Gen.Kernel.Points
import proofs.«142609_j54228257079879_1_alg».proof.Proof.WholeStore
import proofs.«142609_j54228257079879_1_alg».proof.Proof.K.R0Body
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION of `cc0__gin_mm_kernel` (pipeline 0), at the contents `V` the region finds: the windows' blocks, the running
    column sums of windows 7 and 8 by recursion on the grid point, the proof data and the body obligation. -/

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place (the window is uncut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place (the window is uncut and never idle). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place (the window is uncut and never idle). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place (the window is uncut and never idle). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place (the window is uncut and never idle). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is `V`'s and whose body leaves the block in place (the window is uncut and never idle). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The conditions over the grid, and where the accumulators' windows are live -/

/-- The first conditional (`program_id == 0`) is taken at the first point only, -/
theorem hcond0_1 : ∀ t : Fin cfg0.N, k0_cond1 (grid0.coords t) = 1#1 ↔ t.val % 50 = 0 :=
  (by decide +kernel : ∀ t : Fin grid0.N, k0_cond1 (grid0.coords t) = 1#1 ↔ t.val % 50 = 0)
/-- the second (`program_id != 0`) at every other point. -/
theorem hcond0_2 : ∀ t : Fin cfg0.N, k0_cond2 (grid0.coords t) = 1#1 ↔ ¬ t.val % 50 = 0 :=
  (by decide +kernel : ∀ t : Fin grid0.N, k0_cond2 (grid0.coords t) = 1#1 ↔ ¬ t.val % 50 = 0)

/-- One of the two conditionals stores into windows 7 and 8 at every setting of the coordinates: they are never idle. -/
theorem live0_7 : ∀ i : grid0.Coords, cfg0.idle 7 i = false := by decide +kernel
theorem live0_8 : ∀ i : grid0.Coords, cfg0.idle 8 i = false := by decide +kernel

/-! ## The accumulators, point by point -/

/-- The running column sum window 7's buffer holds after the body at position `n`: the first point stores the
    block's sum; each later point adds its block's sum to what the point before left. -/
def acc0_7' (c : Dev nD) : (n : ℕ) → n < cfg0.N → Vec F S1x128 .f32
  | 0, hn => sum0_7 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn => k0_pay1 (sum0_7 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) (acc0_7' c n (Nat.lt_of_succ_lt hn))

/-- The same, at a point of the grid. -/
def acc0_7 (c : Dev nD) (t : Fin cfg0.N) : Vec F S1x128 .f32 := acc0_7' V c t.val t.isLt

/-- At the first point the accumulator is the first block's sum. -/
theorem acc0_7_zero (c : Dev nD) (t : Fin cfg0.N) (h0 : t.val = 0) :
    acc0_7 V c t = sum0_7 (iblk0 V c 0 t) (iblk0 V c 1 t) (iblk0 V c 2 t) (iblk0 V c 3 t) (iblk0 V c 4 t) (iblk0 V c 5 t) := by
  obtain ⟨n, hn⟩ := t
  cases n with
  | zero => rfl
  | succ n => exact absurd h0 (Nat.succ_ne_zero n)

/-- At a later point it is the point's block sum added to the accumulator of the point before. -/
theorem acc0_7_succ (c : Dev nD) (t : Fin cfg0.N) (h0 : t.val ≠ 0) :
    acc0_7 V c t = k0_pay1 (sum0_7 (iblk0 V c 0 t) (iblk0 V c 1 t) (iblk0 V c 2 t) (iblk0 V c 3 t) (iblk0 V c 4 t) (iblk0 V c 5 t))
      (acc0_7 V c ⟨t.val - 1, Nat.lt_of_le_of_lt (Nat.sub_le _ _) t.isLt⟩) := by
  obtain ⟨n, hn⟩ := t
  cases n with
  | zero => exact absurd rfl h0
  | succ n => rfl

/-- The running column sum window 8's buffer holds after the body at position `n`: the first point stores the
    block's sum; each later point adds its block's sum to what the point before left. -/
def acc0_8' (c : Dev nD) : (n : ℕ) → n < cfg0.N → Vec F S1x128 .f32
  | 0, hn => sum0_8 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn => k0_pay2 (sum0_8 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) (acc0_8' c n (Nat.lt_of_succ_lt hn))

/-- The same, at a point of the grid. -/
def acc0_8 (c : Dev nD) (t : Fin cfg0.N) : Vec F S1x128 .f32 := acc0_8' V c t.val t.isLt

/-- At the first point the accumulator is the first block's sum. -/
theorem acc0_8_zero (c : Dev nD) (t : Fin cfg0.N) (h0 : t.val = 0) :
    acc0_8 V c t = sum0_8 (iblk0 V c 0 t) (iblk0 V c 1 t) (iblk0 V c 2 t) (iblk0 V c 3 t) (iblk0 V c 4 t) (iblk0 V c 5 t) := by
  obtain ⟨n, hn⟩ := t
  cases n with
  | zero => rfl
  | succ n => exact absurd h0 (Nat.succ_ne_zero n)

/-- At a later point it is the point's block sum added to the accumulator of the point before. -/
theorem acc0_8_succ (c : Dev nD) (t : Fin cfg0.N) (h0 : t.val ≠ 0) :
    acc0_8 V c t = k0_pay2 (sum0_8 (iblk0 V c 0 t) (iblk0 V c 1 t) (iblk0 V c 2 t) (iblk0 V c 3 t) (iblk0 V c 4 t) (iblk0 V c 5 t))
      (acc0_8 V c ⟨t.val - 1, Nat.lt_of_le_of_lt (Nat.sub_le _ _) t.isLt⟩) := by
  obtain ⟨n, hn⟩ := t
  cases n with
  | zero => exact absurd rfl h0
  | succ n => rfl

/-! ## The pipeline's proof data -/

/-- The proof data of pipeline 0 on core `c`: the arrays as the region finds them (`V`); after the body at point `t`
    each input's buffer at its block, window 6's at the block the body computes, windows 7 and 8's at the running sums;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => acc0_7 V c t
    | ⟨8, _⟩ => acc0_8 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = acc0_7 V c t := by dsimp only [dat0]
theorem after0_8 (c : Dev nD) (t : Fin cfg0.N) : (dat0 V c).after 8 t = acc0_8 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a point after the first, window 7's buffer holds what the body left at the point before: the block is not
    written back in between (only the last point writes it back), the window is live and uncut. -/
theorem before0_7_B (c : Dev nD) (t : Fin cfg0.N) (h0 : t.val ≠ 0) (d) :
    (dat0 V c).before 7 t d = acc0_7 V c ⟨t.val - 1, Nat.lt_of_le_of_lt (Nat.sub_le _ _) t.isLt⟩ := by
  have hN : t.val < 50 := lt_of_lt_of_eq t.isLt (show cfg0.N = 50 from N_0)
  rw [Dat.before_out_kept _ 7 rfl t h0 (Bool.eq_false_iff.mpr fun h => by have := (flush0_7 _).mp h; dsimp only at this; omega)
    live0_7 (fun _ _ => rfl)]
  dsimp only [dat0]

/-- At a point after the first, window 8's buffer holds what the body left at the point before: the block is not
    written back in between (only the last point writes it back), the window is live and uncut. -/
theorem before0_8_B (c : Dev nD) (t : Fin cfg0.N) (h0 : t.val ≠ 0) (d) :
    (dat0 V c).before 8 t d = acc0_8 V c ⟨t.val - 1, Nat.lt_of_le_of_lt (Nat.sub_le _ _) t.isLt⟩ := by
  have hN : t.val < 50 := lt_of_lt_of_eq t.isLt (show cfg0.N = 50 from N_0)
  rw [Dat.before_out_kept _ 8 rfl t h0 (Bool.eq_false_iff.mpr fun h => by have := (flush0_8 _).mp h; dsimp only at this; omega)
    live0_8 (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ (dat0 V c).leavesExact 7 t
    ∗ (dat0 V c).leavesExact 8 t)

set_option maxHeartbeats 4000000 in
/-- The body at any point: the inputs' memrefs hold their blocks; at the first point the first conditional stores the
    block's sums; at a later point windows 7 and 8's buffers hold the running sums of the point before, and the second
    conditional adds the block's sums to them. The invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).leavesExact 7 t = owns (c : Thread nD τ) (st0_7 t) fullShare ((dat0 V c).after 7 t) from by
      unfold Dat.leavesExact; rw [live0_7 (cfg0.grid.coords t)],
    show (dat0 V c).leavesExact 8 t = owns (c : Thread nD τ) (st0_8 t) fullShare ((dat0 V c).after 8 t) from by
      unfold Dat.leavesExact; rw [live0_8 (cfg0.grid.coords t)]]
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  have hN : t.val < 50 := lt_of_lt_of_eq t.isLt (show cfg0.N = 50 from N_0)
  by_cases h0 : t.val = 0
  · rw [acc0_7_zero V c t h0, acc0_8_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_A c Set.univ (grid0.coords t) _ _ _ _ _ _ _ _ _ _ _ _ _ _ _ _ _ _
      ((hcond0_1 t).mpr (by omega)) (fun h => (hcond0_2 t).mp h (by omega)) (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc0_7_succ V c t h0, acc0_8_succ V c t h0]
    simp only [before0_7_B V c t h0, before0_8_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_B c Set.univ (grid0.coords t) _ _ _ _ _ _ _ _ _ _ _ _ _ _ _ _ _ _
      (fun h => absurd ((hcond0_1 t).mp h) (by omega)) ((hcond0_2 t).mpr (by omega)) (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand
end
-- ==== Proof.K.R1.lean ====
import proofs.«142609_j54228257079879_1_alg».proof.Proof.Gen.Kernel.Launch
import proofs.«142609_j54228257079879_1_alg».proof.Proof.Gen.Kernel.Skeleton
import proofs.«142609_j54228257079879_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the batch-normalisation kernel `cc1__bn_relu_kernel`

Six windows: inputs 0..4 (the 2000x128 block of rows and four 1x128 rows: mean, variance, scale, shift), output 5
(the 2000x128 block). The body loads each input whole, computes the normalised, scaled, shifted and clamped block
and stores it over the whole output buffer. Windows 1..4 have a constant block index: they are fetched at the
first point only and keep their block at every later point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: where it is not
    fetched its block index has not moved, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: where it is not
    fetched its block index has not moved, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: where it is not
    fetched its block index has not moved, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not: where it is not
    fetched its block index has not moved, and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000x128 buffer. -/
abbrev r1_0 : Rect S2000x128 := Rect.unit (s := S2000x128) ![0, 0] S2000x128.size inb_S2000x128_S2000x128_0_0
/-- The whole 1x128 buffer. -/
abbrev r1_1 : Rect S1x128 := Rect.unit (s := S1x128) ![0, 0] S1x128.size inb_S1x128_S1x128_0_0

/-! ## What the body leaves in the output window's buffer -/

/-- Window 5's staging buffer after the body, from the input windows' blocks: its one store, over the whole buffer. -/
def out1_5 (x0 : Vec F S2000x128 .f32) (x1 x2 x3 x4 : Vec F S1x128 .f32) : Vec F S2000x128 .f32 :=
  View.canon [⟨r1_0, k1_pay1 (View.ld x0 r1_0) (View.ld x2 r1_1) (View.ld x1 r1_1) (View.ld x3 r1_1) (View.ld x4 r1_1)⟩]

/-- The store covers the buffer. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pipeline on core `c`: the arrays as the region finds them; after the body at point `t`
    each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Body.lean ====
import proofs.«142609_j54228257079879_1_alg».proof.Proof.Gen.Kernel.Launch
import proofs.«142609_j54228257079879_1_alg».proof.Proof.Gen.Kernel.Skeleton
import proofs.«142609_j54228257079879_1_alg».proof.Proof.Gen.Kernel.Points
import proofs.«142609_j54228257079879_1_alg».proof.Proof.WholeStore
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of `cc2__gin_mm_kernel` on whole staging memrefs, in its two control cases over the grid coordinate: the
    first point (the sums stored) and a later point (the sums added to what windows 7 and 8's buffers hold). -/

/-- What the body stores into window 6's buffer: the MLP of the six input blocks (the skeleton's payload). -/
def out2_6 (x0 x1 : Vec F S2000x128 .f32) (x2 : Vec F S128x128 .f32) (x3 : Vec F S1x128 .f32) (x4 : Vec F S128x128 .f32) (x5 : Vec F S1x128 .f32) : Vec F S2000x128 .f32 := k2_pay3 x0 x1 x2 x3 x4 x5
/-- The column sums of that block, -/
def sum2_7 (x0 x1 : Vec F S2000x128 .f32) (x2 : Vec F S128x128 .f32) (x3 : Vec F S1x128 .f32) (x4 : Vec F S128x128 .f32) (x5 : Vec F S1x128 .f32) : Vec F S1x128 .f32 := k2_pay4 x0 x1 x2 x3 x4 x5
/-- and of its elementwise square. -/
def sum2_8 (x0 x1 : Vec F S2000x128 .f32) (x2 : Vec F S128x128 .f32) (x3 : Vec F S1x128 .f32) (x4 : Vec F S128x128 .f32) (x5 : Vec F S1x128 .f32) : Vec F S1x128 .f32 := k2_pay5 x0 x1 x2 x3 x4 x5

set_option maxHeartbeats 4000000 in
/-- The body at the FIRST point (`i = 0`: the first conditional taken, the second not): on whole staging memrefs, the
    inputs' at read contents and the outputs' at anything, it leaves the block in window 6's buffer and the block's
    column sums in windows 7 and 8's. -/
theorem sound_kernel2_A (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : k2_cond1 i = 1#1) (hc2 : ¬ k2_cond2 i = 1#1)
    (x0 x1 : Vec F S2000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (sum2_7 x0 x1 x2 x3 x4 x5)
            ∗ owns (c : Thread nD τ) arg9 fullShare (sum2_8 x0 x1 x2 x3 x4 x5)) -∗ K ⟨⟩))
      ⊢ wp frame (wpE (defs₀ (F := F)) Variants.none c none) E (cc2__gin_mm_kernel i arg1 harg1 arg2 harg2 arg3 harg3 arg4 harg4 arg5 harg5 arg6 harg6 arg7 harg7 arg8 harg8 arg9 harg9) K := by
  simp only [cc2__gin_mm_kernel_eq_skeleton]; unfold cc2__gin_mm_kernel_skel
  unfold owns out2_6 sum2_7 sum2_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  iexists _; isplitr
  swap; · iexact H8
  ipureintro
  refine (read_writes_unit_zero _ _ hz2 _ _).trans ?_
  sl_unfold_run_names
  simp only [View.readAt_eq_ld, View.ld_unit_zero (S := S2000x128) hz2, View.ld_unit_zero (S := S128x128) hz2, View.ld_unit_zero (S := S1x128) hz2]

set_option maxHeartbeats 4000000 in
/-- The body at a LATER point (`i ≠ 0`: the second conditional taken, the first not): windows 7 and 8's buffers hold
    the running sums `a7`, `a8`; it leaves the block in window 6's buffer and adds the block's column sums to them. -/
theorem sound_kernel2_B (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : ¬ k2_cond1 i = 1#1) (hc2 : k2_cond2 i = 1#1)
    (x0 x1 : Vec F S2000x128 .f32) (x2 : Vec F S128x128 .f32) (x3 : Vec F S1x128 .f32) (x4 : Vec F S128x128 .f32) (x5 : Vec F S1x128 .f32) (a7 a8 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare a7 ∗ owns (c : Thread nD τ) arg9 fullShare a8
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (k2_pay1 (sum2_7 x0 x1 x2 x3 x4 x5) a7)
            ∗ owns (c : Thread nD τ) arg9 fullShare (k2_pay2 (sum2_8 x0 x1 x2 x3 x4 x5) a8)) -∗ K ⟨⟩))
      ⊢ wp frame (wpE (defs₀ (F := F)) Variants.none c none) E (cc2__gin_mm_kernel i arg1 harg1 arg2 harg2 arg3 harg3 arg4 harg4 arg5 harg5 arg6 harg6 arg7 harg7 arg8 harg8 arg9 harg9) K := by
  simp only [cc2__gin_mm_kernel_eq_skeleton]; unfold cc2__gin_mm_kernel_skel
  unfold owns out2_6 sum2_7 sum2_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  iexists _; isplitr
  swap; · iexact H8
  ipureintro
  refine (read_writes_unit_zero _ _ hz2 _ _).trans ?_
  sl_unfold_run_names
  simp only [View.readAt_eq_ld, View.ld_unit_zero (S := S2000x128) hz2, View.ld_unit_zero (S := S128x128) hz2, View.ld_unit_zero (S := S1x128) hz2]

end Cert.Kernel.Hand
end
-- ==== Proof.K.R2.lean ====
import proofs.«142609_j54228257079879_1_alg».proof.Proof.Gen.Kernel.Launch
import proofs.«142609_j54228257079879_1_alg».proof.Proof.Gen.Kernel.Skeleton
import proofs.«142609_j54228257079879_1_alg».proof.Proof.Gen.Kernel.Points
import proofs.«142609_j54228257079879_1_alg».proof.Proof.WholeStore
import proofs.«142609_j54228257079879_1_alg».proof.Proof.K.R2Body
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION of `cc2__gin_mm_kernel` (pipeline 2), at the contents `V` the region finds: the windows' blocks, the running
    column sums of windows 7 and 8 by recursion on the grid point, the proof data and the body obligation. -/

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place (the window is uncut and never idle). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place (the window is uncut and never idle). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place (the window is uncut and never idle). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place (the window is uncut and never idle). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place (the window is uncut and never idle). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is `V`'s and whose body leaves the block in place (the window is uncut and never idle). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The conditions over the grid, and where the accumulators' windows are live -/

/-- The first conditional (`program_id == 0`) is taken at the first point only, -/
theorem hcond2_1 : ∀ t : Fin cfg2.N, k2_cond1 (grid2.coords t) = 1#1 ↔ t.val % 50 = 0 :=
  (by decide +kernel : ∀ t : Fin grid2.N, k2_cond1 (grid2.coords t) = 1#1 ↔ t.val % 50 = 0)
/-- the second (`program_id != 0`) at every other point. -/
theorem hcond2_2 : ∀ t : Fin cfg2.N, k2_cond2 (grid2.coords t) = 1#1 ↔ ¬ t.val % 50 = 0 :=
  (by decide +kernel : ∀ t : Fin grid2.N, k2_cond2 (grid2.coords t) = 1#1 ↔ ¬ t.val % 50 = 0)

/-- One of the two conditionals stores into windows 7 and 8 at every setting of the coordinates: they are never idle. -/
theorem live2_7 : ∀ i : grid2.Coords, cfg2.idle 7 i = false := by decide +kernel
theorem live2_8 : ∀ i : grid2.Coords, cfg2.idle 8 i = false := by decide +kernel

/-! ## The accumulators, point by point -/

/-- The running column sum window 7's buffer holds after the body at position `n`: the first point stores the
    block's sum; each later point adds its block's sum to what the point before left. -/
def acc2_7' (c : Dev nD) : (n : ℕ) → n < cfg2.N → Vec F S1x128 .f32
  | 0, hn => sum2_7 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn => k2_pay1 (sum2_7 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) (acc2_7' c n (Nat.lt_of_succ_lt hn))

/-- The same, at a point of the grid. -/
def acc2_7 (c : Dev nD) (t : Fin cfg2.N) : Vec F S1x128 .f32 := acc2_7' V c t.val t.isLt

/-- At the first point the accumulator is the first block's sum. -/
theorem acc2_7_zero (c : Dev nD) (t : Fin cfg2.N) (h0 : t.val = 0) :
    acc2_7 V c t = sum2_7 (iblk2 V c 0 t) (iblk2 V c 1 t) (iblk2 V c 2 t) (iblk2 V c 3 t) (iblk2 V c 4 t) (iblk2 V c 5 t) := by
  obtain ⟨n, hn⟩ := t
  cases n with
  | zero => rfl
  | succ n => exact absurd h0 (Nat.succ_ne_zero n)

/-- At a later point it is the point's block sum added to the accumulator of the point before. -/
theorem acc2_7_succ (c : Dev nD) (t : Fin cfg2.N) (h0 : t.val ≠ 0) :
    acc2_7 V c t = k2_pay1 (sum2_7 (iblk2 V c 0 t) (iblk2 V c 1 t) (iblk2 V c 2 t) (iblk2 V c 3 t) (iblk2 V c 4 t) (iblk2 V c 5 t))
      (acc2_7 V c ⟨t.val - 1, Nat.lt_of_le_of_lt (Nat.sub_le _ _) t.isLt⟩) := by
  obtain ⟨n, hn⟩ := t
  cases n with
  | zero => exact absurd rfl h0
  | succ n => rfl

/-- The running column sum window 8's buffer holds after the body at position `n`: the first point stores the
    block's sum; each later point adds its block's sum to what the point before left. -/
def acc2_8' (c : Dev nD) : (n : ℕ) → n < cfg2.N → Vec F S1x128 .f32
  | 0, hn => sum2_8 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn => k2_pay2 (sum2_8 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) (acc2_8' c n (Nat.lt_of_succ_lt hn))

/-- The same, at a point of the grid. -/
def acc2_8 (c : Dev nD) (t : Fin cfg2.N) : Vec F S1x128 .f32 := acc2_8' V c t.val t.isLt

/-- At the first point the accumulator is the first block's sum. -/
theorem acc2_8_zero (c : Dev nD) (t : Fin cfg2.N) (h0 : t.val = 0) :
    acc2_8 V c t = sum2_8 (iblk2 V c 0 t) (iblk2 V c 1 t) (iblk2 V c 2 t) (iblk2 V c 3 t) (iblk2 V c 4 t) (iblk2 V c 5 t) := by
  obtain ⟨n, hn⟩ := t
  cases n with
  | zero => rfl
  | succ n => exact absurd h0 (Nat.succ_ne_zero n)

/-- At a later point it is the point's block sum added to the accumulator of the point before. -/
theorem acc2_8_succ (c : Dev nD) (t : Fin cfg2.N) (h0 : t.val ≠ 0) :
    acc2_8 V c t = k2_pay2 (sum2_8 (iblk2 V c 0 t) (iblk2 V c 1 t) (iblk2 V c 2 t) (iblk2 V c 3 t) (iblk2 V c 4 t) (iblk2 V c 5 t))
      (acc2_8 V c ⟨t.val - 1, Nat.lt_of_le_of_lt (Nat.sub_le _ _) t.isLt⟩) := by
  obtain ⟨n, hn⟩ := t
  cases n with
  | zero => exact absurd rfl h0
  | succ n => rfl

/-! ## The pipeline's proof data -/

/-- The proof data of pipeline 2 on core `c`: the arrays as the region finds them (`V`); after the body at point `t`
    each input's buffer at its block, window 6's at the block the body computes, windows 7 and 8's at the running sums;
    the invariant the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => acc2_7 V c t
    | ⟨8, _⟩ => acc2_8 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = acc2_7 V c t := by dsimp only [dat2]
theorem after2_8 (c : Dev nD) (t : Fin cfg2.N) : (dat2 V c).after 8 t = acc2_8 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- At a point after the first, window 7's buffer holds what the body left at the point before: the block is not
    written back in between (only the last point writes it back), the window is live and uncut. -/
theorem before2_7_B (c : Dev nD) (t : Fin cfg2.N) (h0 : t.val ≠ 0) (d) :
    (dat2 V c).before 7 t d = acc2_7 V c ⟨t.val - 1, Nat.lt_of_le_of_lt (Nat.sub_le _ _) t.isLt⟩ := by
  have hN : t.val < 50 := lt_of_lt_of_eq t.isLt (show cfg2.N = 50 from N_2)
  rw [Dat.before_out_kept _ 7 rfl t h0 (Bool.eq_false_iff.mpr fun h => by have := (flush2_7 _).mp h; dsimp only at this; omega)
    live2_7 (fun _ _ => rfl)]
  dsimp only [dat2]

/-- At a point after the first, window 8's buffer holds what the body left at the point before: the block is not
    written back in between (only the last point writes it back), the window is live and uncut. -/
theorem before2_8_B (c : Dev nD) (t : Fin cfg2.N) (h0 : t.val ≠ 0) (d) :
    (dat2 V c).before 8 t d = acc2_8 V c ⟨t.val - 1, Nat.lt_of_le_of_lt (Nat.sub_le _ _) t.isLt⟩ := by
  have hN : t.val < 50 := lt_of_lt_of_eq t.isLt (show cfg2.N = 50 from N_2)
  rw [Dat.before_out_kept _ 8 rfl t h0 (Bool.eq_false_iff.mpr fun h => by have := (flush2_8 _).mp h; dsimp only at this; omega)
    live2_8 (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ (dat2 V c).leavesExact 7 t
    ∗ (dat2 V c).leavesExact 8 t)

set_option maxHeartbeats 4000000 in
/-- The body at any point: the inputs' memrefs hold their blocks; at the first point the first conditional stores the
    block's sums; at a later point windows 7 and 8's buffers hold the running sums of the point before, and the second
    conditional adds the block's sums to them. The invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).leavesExact 7 t = owns (c : Thread nD τ) (st2_7 t) fullShare ((dat2 V c).after 7 t) from by
      unfold Dat.leavesExact; rw [live2_7 (cfg2.grid.coords t)],
    show (dat2 V c).leavesExact 8 t = owns (c : Thread nD τ) (st2_8 t) fullShare ((dat2 V c).after 8 t) from by
      unfold Dat.leavesExact; rw [live2_8 (cfg2.grid.coords t)]]
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  have hN : t.val < 50 := lt_of_lt_of_eq t.isLt (show cfg2.N = 50 from N_2)
  by_cases h0 : t.val = 0
  · rw [acc2_7_zero V c t h0, acc2_8_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_A c Set.univ (grid2.coords t) _ _ _ _ _ _ _ _ _ _ _ _ _ _ _ _ _ _
      ((hcond2_1 t).mpr (by omega)) (fun h => (hcond2_2 t).mp h (by omega)) (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc2_7_succ V c t h0, acc2_8_succ V c t h0]
    simp only [before2_7_B V c t h0, before2_8_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_B c Set.univ (grid2.coords t) _ _ _ _ _ _ _ _ _ _ _ _ _ _ _ _ _ _
      (fun h => absurd ((hcond2_1 t).mp h) (by omega)) ((hcond2_2 t).mpr (by omega)) (iblk2 V c 0 t) (iblk2 V c 1 t) (iblk2 V c 2 t) (iblk2 V c 3 t) (iblk2 V c 4 t) (iblk2 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand
end
-- ==== Proof.K.R3.lean ====
import proofs.«142609_j54228257079879_1_alg».proof.Proof.Gen.Kernel.Launch
import proofs.«142609_j54228257079879_1_alg».proof.Proof.Gen.Kernel.Skeleton
import proofs.«142609_j54228257079879_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the batch-normalisation kernel `cc3__bn_relu_kernel`

Six windows: inputs 0..4 (the 2000x128 block of rows and four 1x128 rows: mean, variance, scale, shift), output 5
(the 2000x128 block). The body loads each input whole, computes the normalised, scaled, shifted and clamped block
and stores it over the whole output buffer. Windows 1..4 have a constant block index: they are fetched at the
first point only and keep their block at every later point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where it is not
    fetched its block index has not moved, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not: where it is not
    fetched its block index has not moved, and the body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not: where it is not
    fetched its block index has not moved, and the body leaves the buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not: where it is not
    fetched its block index has not moved, and the body leaves the buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not: where it is not
    fetched its block index has not moved, and the body leaves the buffer as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 2000x128 buffer. -/
abbrev r3_0 : Rect S2000x128 := Rect.unit (s := S2000x128) ![0, 0] S2000x128.size inb_S2000x128_S2000x128_0_0
/-- The whole 1x128 buffer. -/
abbrev r3_1 : Rect S1x128 := Rect.unit (s := S1x128) ![0, 0] S1x128.size inb_S1x128_S1x128_0_0

/-! ## What the body leaves in the output window's buffer -/

/-- Window 5's staging buffer after the body, from the input windows' blocks: its one store, over the whole buffer. -/
def out3_5 (x0 : Vec F S2000x128 .f32) (x1 x2 x3 x4 : Vec F S1x128 .f32) : Vec F S2000x128 .f32 :=
  View.canon [⟨r3_0, k3_pay1 (View.ld x0 r3_0) (View.ld x2 r3_1) (View.ld x1 r3_1) (View.ld x3 r3_1) (View.ld x4 r3_1)⟩]

/-- The store covers the buffer. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the pipeline on core `c`: the arrays as the region finds them; after the body at point `t`
    each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4Body.lean ====
import proofs.«142609_j54228257079879_1_alg».proof.Proof.Gen.Kernel.Launch
import proofs.«142609_j54228257079879_1_alg».proof.Proof.Gen.Kernel.Skeleton
import proofs.«142609_j54228257079879_1_alg».proof.Proof.Gen.Kernel.Points
import proofs.«142609_j54228257079879_1_alg».proof.Proof.WholeStore
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of `cc4__gin_mm_kernel` on whole staging memrefs, in its two control cases over the grid coordinate: the
    first point (the sums stored) and a later point (the sums added to what windows 7 and 8's buffers hold). -/

/-- What the body stores into window 6's buffer: the MLP of the six input blocks (the skeleton's payload). -/
def out4_6 (x0 x1 : Vec F S2000x128 .f32) (x2 : Vec F S128x128 .f32) (x3 : Vec F S1x128 .f32) (x4 : Vec F S128x128 .f32) (x5 : Vec F S1x128 .f32) : Vec F S2000x128 .f32 := k4_pay3 x0 x1 x2 x3 x4 x5
/-- The column sums of that block, -/
def sum4_7 (x0 x1 : Vec F S2000x128 .f32) (x2 : Vec F S128x128 .f32) (x3 : Vec F S1x128 .f32) (x4 : Vec F S128x128 .f32) (x5 : Vec F S1x128 .f32) : Vec F S1x128 .f32 := k4_pay4 x0 x1 x2 x3 x4 x5
/-- and of its elementwise square. -/
def sum4_8 (x0 x1 : Vec F S2000x128 .f32) (x2 : Vec F S128x128 .f32) (x3 : Vec F S1x128 .f32) (x4 : Vec F S128x128 .f32) (x5 : Vec F S1x128 .f32) : Vec F S1x128 .f32 := k4_pay5 x0 x1 x2 x3 x4 x5

set_option maxHeartbeats 4000000 in
/-- The body at the FIRST point (`i = 0`: the first conditional taken, the second not): on whole staging memrefs, the
    inputs' at read contents and the outputs' at anything, it leaves the block in window 6's buffer and the block's
    column sums in windows 7 and 8's. -/
theorem sound_kernel4_A (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : k4_cond1 i = 1#1) (hc2 : ¬ k4_cond2 i = 1#1)
    (x0 x1 : Vec F S2000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)
            ∗ owns (c : Thread nD τ) arg8 fullShare (sum4_7 x0 x1 x2 x3 x4 x5)
            ∗ owns (c : Thread nD τ) arg9 fullShare (sum4_8 x0 x1 x2 x3 x4 x5)) -∗ K ⟨⟩))
      ⊢ wp frame (wpE (defs₀ (F := F)) Variants.none c none) E (cc4__gin_mm_kernel i arg1 harg1 arg2 harg2 arg3 harg3 arg4 harg4 arg5 harg5 arg6 harg6 arg7 harg7 arg8 harg8 arg9 harg9) K := by
  simp only [cc4__gin_mm_kernel_eq_skeleton]; unfold cc4__gin_mm_kernel_skel
  unfold owns out4_6 sum4_7 sum4_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  iexists _; isplitr
  swap; · iexact H8
  ipureintro
  refine (read_writes_unit_zero _ _ hz2 _ _).trans ?_
  sl_unfold_run_names
  simp only [View.readAt_eq_ld, View.ld_unit_zero (S := S2000x128) hz2, View.ld_unit_zero (S := S128x128) hz2, View.ld_unit_zero (S := S1x128) hz2]

set_option maxHeartbeats 4000000 in
/-- The body at a LATER point (`i ≠ 0`: the second conditional taken, the first not): windows 7 and 8's buffers hold
    the running sums `a7`, `a8`; it leaves the block in window 6's buffer and adds the block's column sums to them. -/
theorem sound_kernel4_B (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : ¬ k4_cond1 i = 1#1) (hc2 : k4_cond2 i = 1#1)
    (x0 x1 : Vec F S2000x128 .f32) (x2 : Vec F S128x128 .f32) (x3 : Vec F S1x128 .f32) (x4 : Vec F S128x128 .f32) (x5 : Vec F S1x128 .f32) (a7 a8 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare a7 ∗ owns (c : Thread nD τ) arg9 fullShare a8
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)
            ∗ owns (c : Thread nD τ) arg8 fullShare (k4_pay1 (sum4_7 x0 x1 x2 x3 x4 x5) a7)
            ∗ owns (c : Thread nD τ) arg9 fullShare (k4_pay2 (sum4_8 x0 x1 x2 x3 x4 x5) a8)) -∗ K ⟨⟩))
      ⊢ wp frame (wpE (defs₀ (F := F)) Variants.none c none) E (cc4__gin_mm_kernel i arg1 harg1 arg2 harg2 arg3 harg3 arg4 harg4 arg5 harg5 arg6 harg6 arg7 harg7 arg8 harg8 arg9 harg9) K := by
  simp only [cc4__gin_mm_kernel_eq_skeleton]; unfold cc4__gin_mm_kernel_skel
  unfold owns out4_6 sum4_7 sum4_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  iexists _; isplitr
  swap; · iexact H8
  ipureintro
  refine (read_writes_unit_zero _ _ hz2 _ _).trans ?_
  sl_unfold_run_names
  simp only [View.readAt_eq_ld, View.ld_unit_zero (S := S2000x128) hz2, View.ld_unit_zero (S := S128x128) hz2, View.ld_unit_zero (S := S1x128) hz2]

end Cert.Kernel.Hand
end
-- ==== Proof.K.R4.lean ====
import proofs.«142609_j54228257079879_1_alg».proof.Proof.Gen.Kernel.Launch
import proofs.«142609_j54228257079879_1_alg».proof.Proof.Gen.Kernel.Skeleton
import proofs.«142609_j54228257079879_1_alg».proof.Proof.Gen.Kernel.Points
import proofs.«142609_j54228257079879_1_alg».proof.Proof.WholeStore
import proofs.«142609_j54228257079879_1_alg».proof.Proof.K.R4Body
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION of `cc4__gin_mm_kernel` (pipeline 4), at the contents `V` the region finds: the windows' blocks, the running
    column sums of windows 7 and 8 by recursion on the grid point, the proof data and the body obligation. -/

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place (the window is uncut and never idle). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is `V`'s and whose body leaves the block in place (the window is uncut and never idle). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is `V`'s and whose body leaves the block in place (the window is uncut and never idle). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is `V`'s and whose body leaves the block in place (the window is uncut and never idle). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data
    whose array is `V`'s and whose body leaves the block in place (the window is uncut and never idle). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof data
    whose array is `V`'s and whose body leaves the block in place (the window is uncut and never idle). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The conditions over the grid, and where the accumulators' windows are live -/

/-- The first conditional (`program_id == 0`) is taken at the first point only, -/
theorem hcond4_1 : ∀ t : Fin cfg4.N, k4_cond1 (grid4.coords t) = 1#1 ↔ t.val % 50 = 0 :=
  (by decide +kernel : ∀ t : Fin grid4.N, k4_cond1 (grid4.coords t) = 1#1 ↔ t.val % 50 = 0)
/-- the second (`program_id != 0`) at every other point. -/
theorem hcond4_2 : ∀ t : Fin cfg4.N, k4_cond2 (grid4.coords t) = 1#1 ↔ ¬ t.val % 50 = 0 :=
  (by decide +kernel : ∀ t : Fin grid4.N, k4_cond2 (grid4.coords t) = 1#1 ↔ ¬ t.val % 50 = 0)

/-- One of the two conditionals stores into windows 7 and 8 at every setting of the coordinates: they are never idle. -/
theorem live4_7 : ∀ i : grid4.Coords, cfg4.idle 7 i = false := by decide +kernel
theorem live4_8 : ∀ i : grid4.Coords, cfg4.idle 8 i = false := by decide +kernel

/-! ## The accumulators, point by point -/

/-- The running column sum window 7's buffer holds after the body at position `n`: the first point stores the
    block's sum; each later point adds its block's sum to what the point before left. -/
def acc4_7' (c : Dev nD) : (n : ℕ) → n < cfg4.N → Vec F S1x128 .f32
  | 0, hn => sum4_7 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)
  | n + 1, hn => k4_pay1 (sum4_7 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)) (acc4_7' c n (Nat.lt_of_succ_lt hn))

/-- The same, at a point of the grid. -/
def acc4_7 (c : Dev nD) (t : Fin cfg4.N) : Vec F S1x128 .f32 := acc4_7' V c t.val t.isLt

/-- At the first point the accumulator is the first block's sum. -/
theorem acc4_7_zero (c : Dev nD) (t : Fin cfg4.N) (h0 : t.val = 0) :
    acc4_7 V c t = sum4_7 (iblk4 V c 0 t) (iblk4 V c 1 t) (iblk4 V c 2 t) (iblk4 V c 3 t) (iblk4 V c 4 t) (iblk4 V c 5 t) := by
  obtain ⟨n, hn⟩ := t
  cases n with
  | zero => rfl
  | succ n => exact absurd h0 (Nat.succ_ne_zero n)

/-- At a later point it is the point's block sum added to the accumulator of the point before. -/
theorem acc4_7_succ (c : Dev nD) (t : Fin cfg4.N) (h0 : t.val ≠ 0) :
    acc4_7 V c t = k4_pay1 (sum4_7 (iblk4 V c 0 t) (iblk4 V c 1 t) (iblk4 V c 2 t) (iblk4 V c 3 t) (iblk4 V c 4 t) (iblk4 V c 5 t))
      (acc4_7 V c ⟨t.val - 1, Nat.lt_of_le_of_lt (Nat.sub_le _ _) t.isLt⟩) := by
  obtain ⟨n, hn⟩ := t
  cases n with
  | zero => exact absurd rfl h0
  | succ n => rfl

/-- The running column sum window 8's buffer holds after the body at position `n`: the first point stores the
    block's sum; each later point adds its block's sum to what the point before left. -/
def acc4_8' (c : Dev nD) : (n : ℕ) → n < cfg4.N → Vec F S1x128 .f32
  | 0, hn => sum4_8 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)
  | n + 1, hn => k4_pay2 (sum4_8 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)) (acc4_8' c n (Nat.lt_of_succ_lt hn))

/-- The same, at a point of the grid. -/
def acc4_8 (c : Dev nD) (t : Fin cfg4.N) : Vec F S1x128 .f32 := acc4_8' V c t.val t.isLt

/-- At the first point the accumulator is the first block's sum. -/
theorem acc4_8_zero (c : Dev nD) (t : Fin cfg4.N) (h0 : t.val = 0) :
    acc4_8 V c t = sum4_8 (iblk4 V c 0 t) (iblk4 V c 1 t) (iblk4 V c 2 t) (iblk4 V c 3 t) (iblk4 V c 4 t) (iblk4 V c 5 t) := by
  obtain ⟨n, hn⟩ := t
  cases n with
  | zero => rfl
  | succ n => exact absurd h0 (Nat.succ_ne_zero n)

/-- At a later point it is the point's block sum added to the accumulator of the point before. -/
theorem acc4_8_succ (c : Dev nD) (t : Fin cfg4.N) (h0 : t.val ≠ 0) :
    acc4_8 V c t = k4_pay2 (sum4_8 (iblk4 V c 0 t) (iblk4 V c 1 t) (iblk4 V c 2 t) (iblk4 V c 3 t) (iblk4 V c 4 t) (iblk4 V c 5 t))
      (acc4_8 V c ⟨t.val - 1, Nat.lt_of_le_of_lt (Nat.sub_le _ _) t.isLt⟩) := by
  obtain ⟨n, hn⟩ := t
  cases n with
  | zero => exact absurd rfl h0
  | succ n => rfl

/-! ## The pipeline's proof data -/

/-- The proof data of pipeline 4 on core `c`: the arrays as the region finds them (`V`); after the body at point `t`
    each input's buffer at its block, window 6's at the block the body computes, windows 7 and 8's at the running sums;
    the invariant the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
    | ⟨7, _⟩ => acc4_7 V c t
    | ⟨8, _⟩ => acc4_8 V c t
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]
theorem after4_7 (c : Dev nD) (t : Fin cfg4.N) : (dat4 V c).after 7 t = acc4_7 V c t := by dsimp only [dat4]
theorem after4_8 (c : Dev nD) (t : Fin cfg4.N) : (dat4 V c).after 8 t = acc4_8 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- At a point after the first, window 7's buffer holds what the body left at the point before: the block is not
    written back in between (only the last point writes it back), the window is live and uncut. -/
theorem before4_7_B (c : Dev nD) (t : Fin cfg4.N) (h0 : t.val ≠ 0) (d) :
    (dat4 V c).before 7 t d = acc4_7 V c ⟨t.val - 1, Nat.lt_of_le_of_lt (Nat.sub_le _ _) t.isLt⟩ := by
  have hN : t.val < 50 := lt_of_lt_of_eq t.isLt (show cfg4.N = 50 from N_4)
  rw [Dat.before_out_kept _ 7 rfl t h0 (Bool.eq_false_iff.mpr fun h => by have := (flush4_7 _).mp h; dsimp only at this; omega)
    live4_7 (fun _ _ => rfl)]
  dsimp only [dat4]

/-- At a point after the first, window 8's buffer holds what the body left at the point before: the block is not
    written back in between (only the last point writes it back), the window is live and uncut. -/
theorem before4_8_B (c : Dev nD) (t : Fin cfg4.N) (h0 : t.val ≠ 0) (d) :
    (dat4 V c).before 8 t d = acc4_8 V c ⟨t.val - 1, Nat.lt_of_le_of_lt (Nat.sub_le _ _) t.isLt⟩ := by
  have hN : t.val < 50 := lt_of_lt_of_eq t.isLt (show cfg4.N = 50 from N_4)
  rw [Dat.before_out_kept _ 8 rfl t h0 (Bool.eq_false_iff.mpr fun h => by have := (flush4_8 _).mp h; dsimp only at this; omega)
    live4_8 (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ (dat4 V c).leavesExact 7 t
    ∗ (dat4 V c).leavesExact 8 t)

set_option maxHeartbeats 4000000 in
/-- The body at any point: the inputs' memrefs hold their blocks; at the first point the first conditional stores the
    block's sums; at a later point windows 7 and 8's buffers hold the running sums of the point before, and the second
    conditional adds the block's sums to them. The invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).leavesExact 7 t = owns (c : Thread nD τ) (st4_7 t) fullShare ((dat4 V c).after 7 t) from by
      unfold Dat.leavesExact; rw [live4_7 (cfg4.grid.coords t)],
    show (dat4 V c).leavesExact 8 t = owns (c : Thread nD τ) (st4_8 t) fullShare ((dat4 V c).after 8 t) from by
      unfold Dat.leavesExact; rw [live4_8 (cfg4.grid.coords t)]]
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  have hN : t.val < 50 := lt_of_lt_of_eq t.isLt (show cfg4.N = 50 from N_4)
  by_cases h0 : t.val = 0
  · rw [acc4_7_zero V c t h0, acc4_8_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel4_A c Set.univ (grid4.coords t) _ _ _ _ _ _ _ _ _ _ _ _ _ _ _ _ _ _
      ((hcond4_1 t).mpr (by omega)) (fun h => (hcond4_2 t).mp h (by omega)) (iblk4 V c 0 t) (iblk4 V c 1 t) (iblk4 V c 2 t) (iblk4 V c 3 t) (iblk4 V c 4 t) (iblk4 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc4_7_succ V c t h0, acc4_8_succ V c t h0]
    simp only [before4_7_B V c t h0, before4_8_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel4_B c Set.univ (grid4.coords t) _ _ _ _ _ _ _ _ _ _ _ _ _ _ _ _ _ _
      (fun h => absurd ((hcond4_1 t).mp h) (by omega)) ((hcond4_2 t).mpr (by omega)) (iblk4 V c 0 t) (iblk4 V c 1 t) (iblk4 V c 2 t) (iblk4 V c 3 t) (iblk4 V c 4 t) (iblk4 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.Kernel.Hand
end
-- ==== Proof.K.R5.lean ====
import proofs.«142609_j54228257079879_1_alg».proof.Proof.Gen.Kernel.Launch
import proofs.«142609_j54228257079879_1_alg».proof.Proof.Gen.Kernel.Skeleton
import proofs.«142609_j54228257079879_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the batch-normalisation kernel `cc5__bn_relu_kernel`

Six windows: inputs 0..4 (the 2000x128 block of rows and four 1x128 rows: mean, variance, scale, shift), output 5
(the 2000x128 block). The body loads each input whole, computes the normalised, scaled, shifted and clamped block
and stores it over the whole output buffer. Windows 1..4 have a constant block index: they are fetched at the
first point only and keep their block at every later point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: where it is not
    fetched its block index has not moved, and the body leaves the buffer as it found it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not: where it is not
    fetched its block index has not moved, and the body leaves the buffer as it found it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not: where it is not
    fetched its block index has not moved, and the body leaves the buffer as it found it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not: where it is not
    fetched its block index has not moved, and the body leaves the buffer as it found it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not: where it is not
    fetched its block index has not moved, and the body leaves the buffer as it found it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000x128 buffer. -/
abbrev r5_0 : Rect S2000x128 := Rect.unit (s := S2000x128) ![0, 0] S2000x128.size inb_S2000x128_S2000x128_0_0
/-- The whole 1x128 buffer. -/
abbrev r5_1 : Rect S1x128 := Rect.unit (s := S1x128) ![0, 0] S1x128.size inb_S1x128_S1x128_0_0

/-! ## What the body leaves in the output window's buffer -/

/-- Window 5's staging buffer after the body, from the input windows' blocks: its one store, over the whole buffer. -/
def out5_5 (x0 : Vec F S2000x128 .f32) (x1 x2 x3 x4 : Vec F S1x128 .f32) : Vec F S2000x128 .f32 :=
  View.canon [⟨r5_0, k5_pay1 (View.ld x0 r5_0) (View.ld x2 r5_1) (View.ld x1 r5_1) (View.ld x3 r5_1) (View.ld x4 r5_1)⟩]

/-- The store covers the buffer. -/
theorem cover5_5 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the pipeline on core `c`: the arrays as the region finds them; after the body at point `t`
    each input's buffer at its block and the output's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    the core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
import proofs.«142609_j54228257079879_1_alg».proof.Proof.Gen.Kernel.Launch
import proofs.«142609_j54228257079879_1_alg».proof.Proof.Gen.Kernel.Skeleton
import proofs.«142609_j54228257079879_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the readout kernel `cc6__readout_kernel`

Eight windows on a grid of one point: inputs 0..6 (the 1024x128 pooled rows, and the weights and bias rows of three
dense layers), output 7 (the 1024x12 result). The body loads each input whole, computes the three layers and stores
the result over the whole output buffer. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, fetched there or not. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S1024x128 := Rect.unit (s := S1024x128) ![0, 0] S1024x128.size inb_S1024x128_S1024x128_0_0
abbrev r6_1 : Rect S128x512 := Rect.unit (s := S128x512) ![0, 0] S128x512.size inb_S128x512_S128x512_0_0
abbrev r6_2 : Rect S1x512 := Rect.unit (s := S1x512) ![0, 0] S1x512.size inb_S1x512_S1x512_0_0
abbrev r6_3 : Rect S512x256 := Rect.unit (s := S512x256) ![0, 0] S512x256.size inb_S512x256_S512x256_0_0
abbrev r6_4 : Rect S1x256 := Rect.unit (s := S1x256) ![0, 0] S1x256.size inb_S1x256_S1x256_0_0
abbrev r6_5 : Rect S256x12 := Rect.unit (s := S256x12) ![0, 0] S256x12.size inb_S256x12_S256x12_0_0
abbrev r6_6 : Rect S1x12 := Rect.unit (s := S1x12) ![0, 0] S1x12.size inb_S1x12_S1x12_0_0
abbrev r6_7 : Rect S1024x12 := Rect.unit (s := S1024x12) ![0, 0] S1024x12.size inb_S1024x12_S1024x12_0_0

/-! ## What the body leaves in the output window's buffer -/

/-- Window 7's staging buffer after the body, from the input windows' blocks: its one store, over the whole buffer. -/
def out6_7 (x0 : Vec F S1024x128 .f32) (x1 : Vec F S128x512 .f32) (x2 : Vec F S1x512 .f32) (x3 : Vec F S512x256 .f32) (x4 : Vec F S1x256 .f32) (x5 : Vec F S256x12 .f32) (x6 : Vec F S1x12 .f32) : Vec F S1024x12 .f32 :=
  View.canon [⟨r6_7, k6_pay1 (View.ld x0 r6_0) (View.ld x1 r6_1) (View.ld x2 r6_2) (View.ld x3 r6_3) (View.ld x4 r6_4) (View.ld x5 r6_5) (View.ld x6 r6_6)⟩]

/-- The store covers the buffer. -/
theorem cover6_7 (p0 : Vec F S1024x12 .f32) (y : S1024x12.Idx) :
    ∃ pc ∈ ([⟨r6_7, p0⟩] : List (View.Piece (Elt F) S1024x12 .f32)), y ∈ pc.1.set :=
  View.cover_of_tiled [⟨r6_7, p0⟩] S1024x12.size (by rfl) y

/-! ## The body's triple -/

set_option maxHeartbeats 1000000 in
/-- The kernel body on whole staging memrefs, the inputs' at read contents `xW` and the output's at anything, runs to
    the continuation holding the inputs' as they were and the output's at `out6_7` of the inputs'. -/
theorem sound_kernel6 (c : Dev nD) (E : Set ℕ) (i : grid6.Coords)
    (arg1 : Memref sig .tc .vmem S1024x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S512x256 .f32) (harg4 : arg4.IsWhole)
    (arg5 : Memref sig .tc .vmem S1x256 .f32) (harg5 : arg5.IsWhole)
    (arg6 : Memref sig .tc .vmem S256x12 .f32) (harg6 : arg6.IsWhole)
    (arg7 : Memref sig .tc .vmem S1x12 .f32) (harg7 : arg7.IsWhole)
    (arg8 : Memref sig .tc .vmem S1024x12 .f32) (harg8 : arg8.IsWhole)
    (x0 : Vec F S1024x128 .f32) (x1 : Vec F S128x512 .f32) (x2 : Vec F S1x512 .f32) (x3 : Vec F S512x256 .f32) (x4 : Vec F S1x256 .f32) (x5 : Vec F S256x12 .f32) (x6 : Vec F S1x12 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out6_7 x0 x1 x2 x3 x4 x5 x6)) -∗ K ⟨⟩))
      ⊢ wp frame (wpE (defs₀ (F := F)) Variants.none c none) E (cc6__readout_kernel i arg1 harg1 arg2 harg2 arg3 harg3 arg4 harg4 arg5 harg5 arg6 harg6 arg7 harg7 arg8 harg8) K := by
  simp only [cc6__readout_kernel_eq_skeleton]; unfold cc6__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of the pipeline on core `c`: the arrays as the region finds them; after the body at point `t`
    each input's buffer at its block and the output's at `out6_7` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so `sound_kernel6` applies; the invariant and
    the core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Run.lean ====
/-
  The kernel program as printed, run from launch to return: seven kernel regions with a stretch of host operations
  before each. Between two items every buffer that is not scoped to a kernel is held at a known content: the launch
  memory, then each host stretch applied, then at each region's exit its windows' arrays at what the pipeline leaves
  (an input's array as entered, an output's array with every block written back) and every other buffer as entered.
  The run ends with every such buffer at the last of these contents; in particular the result array holds what the
  last region wrote and every argument array holds its launch contents.
-/
import proofs.«142609_j54228257079879_1_alg».proof.Proof.K.R0
import proofs.«142609_j54228257079879_1_alg».proof.Proof.K.R1
import proofs.«142609_j54228257079879_1_alg».proof.Proof.K.R2
import proofs.«142609_j54228257079879_1_alg».proof.Proof.K.R3
import proofs.«142609_j54228257079879_1_alg».proof.Proof.K.R4
import proofs.«142609_j54228257079879_1_alg».proof.Proof.K.R5
import proofs.«142609_j54228257079879_1_alg».proof.Proof.K.R6
import proofs.«142609_j54228257079879_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch before region 0. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the host stretch before region 1. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After the host stretch before region 2. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After the host stretch before region 3. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array leaves region 3 as it entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-- After the host stretch before region 4. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- An input window's array leaves region 4 as it entered. -/
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))

/-- After the host stretch before region 5. -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b
/-- At region 5's exit: its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- An input window's array leaves region 5 as it entered. -/
theorem W12_in (c : Dev nD) (w : Fin cfg5.W) (hw : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hw _).trans (A_eq5 (V11 m ρ) c w))

/-- After the host stretch before region 6. -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b
/-- At region 6's exit: its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- An input window's array leaves region 6 as it entered. -/
theorem W14_in (c : Dev nD) (w : Fin cfg6.W) (hw : (cfg6.win w).isOut = false) :
    W14 m ρ c (Proc.devRef .tc (Pipeline.arrRef spec6 w)) = W13 m ρ c (Proc.devRef .tc (Pipeline.arrRef spec6 w)) :=
  (W14_arr m ρ c w).trans (((dat6 (V13 m ρ) c).arrAt_in w hw _).trans (A_eq6 (V13 m ρ) c w))

/-! ## The arguments end as launched: no host operation writes one, and a region reads one only through an input window -/
theorem W14_main_arg0 (c : Dev nD) : W14 m ρ c (Proc.devRef .tc main_arg0) = m ((c : Thread nD τ).loc main_arg0) :=
  (W14_of_ne m ρ c main_arg0 (by decide)).trans <|
  (StableHlo.after_of_writes_sub hostOps6 _ hostOps6_writes (by decide : main_arg0 ∉ hostOps6_W)).trans <|
  (W12_of_ne m ρ c main_arg0 (by decide)).trans <|
  (StableHlo.after_of_writes_sub hostOps5 _ hostOps5_writes (by decide : main_arg0 ∉ hostOps5_W)).trans <|
  (W10_of_ne m ρ c main_arg0 (by decide)).trans <|
  (StableHlo.after_of_writes_sub hostOps4 _ hostOps4_writes (by decide : main_arg0 ∉ hostOps4_W)).trans <|
  (W8_of_ne m ρ c main_arg0 (by decide)).trans <|
  (StableHlo.after_of_writes_sub hostOps3 _ hostOps3_writes (by decide : main_arg0 ∉ hostOps3_W)).trans <|
  (W6_of_ne m ρ c main_arg0 (by decide)).trans <|
  (StableHlo.after_of_writes_sub hostOps2 _ hostOps2_writes (by decide : main_arg0 ∉ hostOps2_W)).trans <|
  (W4_of_ne m ρ c main_arg0 (by decide)).trans <|
  (StableHlo.after_of_writes_sub hostOps1 _ hostOps1_writes (by decide : main_arg0 ∉ hostOps1_W)).trans <|
  (W2_in m ρ c 0 rfl).trans <|
  (StableHlo.after_of_writes_sub hostOps0 _ hostOps0_writes (by decide : main_arg0 ∉ hostOps0_W)).trans rfl
theorem W14_main_arg1 (c : Dev nD) : W14 m ρ c (Proc.devRef .tc main_arg1) = m ((c : Thread nD τ).loc main_arg1) :=
  (W14_of_ne m ρ c main_arg1 (by decide)).trans <|
  (StableHlo.after_of_writes_sub hostOps6 _ hostOps6_writes (by decide : main_arg1 ∉ hostOps6_W)).trans <|
  (W12_of_ne m ρ c main_arg1 (by decide)).trans <|
  (StableHlo.after_of_writes_sub hostOps5 _ hostOps5_writes (by decide : main_arg1 ∉ hostOps5_W)).trans <|
  (W10_of_ne m ρ c main_arg1 (by decide)).trans <|
  (StableHlo.after_of_writes_sub hostOps4 _ hostOps4_writes (by decide : main_arg1 ∉ hostOps4_W)).trans <|
  (W8_of_ne m ρ c main_arg1 (by decide)).trans <|
  (StableHlo.after_of_writes_sub hostOps3 _ hostOps3_writes (by decide : main_arg1 ∉ hostOps3_W)).trans <|
  (W6_of_ne m ρ c main_arg1 (by decide)).trans <|
  (StableHlo.after_of_writes_sub hostOps2 _ hostOps2_writes (by decide : main_arg1 ∉ hostOps2_W)).trans <|
  (W4_of_ne m ρ c main_arg1 (by decide)).trans <|
  (StableHlo.after_of_writes_sub hostOps1 _ hostOps1_writes (by decide : main_arg1 ∉ hostOps1_W)).trans <|
  (W2_of_ne m ρ c main_arg1 (by decide)).trans <|
  (StableHlo.after_of_writes_sub hostOps0 _ hostOps0_writes (by decide : main_arg1 ∉ hostOps0_W)).trans rfl
theorem W14_main_arg2 (c : Dev nD) : W14 m ρ c (Proc.devRef .tc main_arg2) = m ((c : Thread nD τ).loc main_arg2) :=
  (W14_of_ne m ρ c main_arg2 (by decide)).trans <|
  (StableHlo.after_of_writes_sub hostOps6 _ hostOps6_writes (by decide : main_arg2 ∉ hostOps6_W)).trans <|
  (W12_of_ne m ρ c main_arg2 (by decide)).trans <|
  (StableHlo.after_of_writes_sub hostOps5 _ hostOps5_writes (by decide : main_arg2 ∉ hostOps5_W)).trans <|
  (W10_of_ne m ρ c main_arg2 (by decide)).trans <|
  (StableHlo.after_of_writes_sub hostOps4 _ hostOps4_writes (by decide : main_arg2 ∉ hostOps4_W)).trans <|
  (W8_of_ne m ρ c main_arg2 (by decide)).trans <|
  (StableHlo.after_of_writes_sub hostOps3 _ hostOps3_writes (by decide : main_arg2 ∉ hostOps3_W)).trans <|
  (W6_of_ne m ρ c main_arg2 (by decide)).trans <|
  (StableHlo.after_of_writes_sub hostOps2 _ hostOps2_writes (by decide : main_arg2 ∉ hostOps2_W)).trans <|
  (W4_of_ne m ρ c main_arg2 (by decide)).trans <|
  (StableHlo.after_of_writes_sub hostOps1 _ hostOps1_writes (by decide : main_arg2 ∉ hostOps1_W)).trans <|
  (W2_of_ne m ρ c main_arg2 (by decide)).trans <|
  (StableHlo.after_of_writes_sub hostOps0 _ hostOps0_writes (by decide : main_arg2 ∉ hostOps0_W)).trans rfl
theorem W14_main_arg3 (c : Dev nD) : W14 m ρ c (Proc.devRef .tc main_arg3) = m ((c : Thread nD τ).loc main_arg3) :=
  (W14_of_ne m ρ c main_arg3 (by decide)).trans <|
  (StableHlo.after_of_writes_sub hostOps6 _ hostOps6_writes (by decide : main_arg3 ∉ hostOps6_W)).trans <|
  (W12_of_ne m ρ c main_arg3 (by decide)).trans <|
  (StableHlo.after_of_writes_sub hostOps5 _ hostOps5_writes (by decide : main_arg3 ∉ hostOps5_W)).trans <|
  (W10_of_ne m ρ c main_arg3 (by decide)).trans <|
  (StableHlo.after_of_writes_sub hostOps4 _ hostOps4_writes (by decide : main_arg3 ∉ hostOps4_W)).trans <|
  (W8_of_ne m ρ c main_arg3 (by decide)).trans <|
  (StableHlo.after_of_writes_sub hostOps3 _ hostOps3_writes (by decide : main_arg3 ∉ hostOps3_W)).trans <|
  (W6_of_ne m ρ c main_arg3 (by decide)).trans <|
  (StableHlo.after_of_writes_sub hostOps2 _ hostOps2_writes (by decide : main_arg3 ∉ hostOps2_W)).trans <|
  (W4_of_ne m ρ c main_arg3 (by decide)).trans <|
  (StableHlo.after_of_writes_sub hostOps1 _ hostOps1_writes (by decide : main_arg3 ∉ hostOps1_W)).trans <|
  (W2_in m ρ c 2 rfl).trans <|
  (StableHlo.after_of_writes_sub hostOps0 _ hostOps0_writes (by decide : main_arg3 ∉ hostOps0_W)).trans rfl
theorem W14_main_arg4 (c : Dev nD) : W14 m ρ c (Proc.devRef .tc main_arg4) = m ((c : Thread nD τ).loc main_arg4) :=
  (W14_of_ne m ρ c main_arg4 (by decide)).trans <|
  (StableHlo.after_of_writes_sub hostOps6 _ hostOps6_writes (by decide : main_arg4 ∉ hostOps6_W)).trans <|
  (W12_of_ne m ρ c main_arg4 (by decide)).trans <|
  (StableHlo.after_of_writes_sub hostOps5 _ hostOps5_writes (by decide : main_arg4 ∉ hostOps5_W)).trans <|
  (W10_of_ne m ρ c main_arg4 (by decide)).trans <|
  (StableHlo.after_of_writes_sub hostOps4 _ hostOps4_writes (by decide : main_arg4 ∉ hostOps4_W)).trans <|
  (W8_of_ne m ρ c main_arg4 (by decide)).trans <|
  (StableHlo.after_of_writes_sub hostOps3 _ hostOps3_writes (by decide : main_arg4 ∉ hostOps3_W)).trans <|
  (W6_of_ne m ρ c main_arg4 (by decide)).trans <|
  (StableHlo.after_of_writes_sub hostOps2 _ hostOps2_writes (by decide : main_arg4 ∉ hostOps2_W)).trans <|
  (W4_of_ne m ρ c main_arg4 (by decide)).trans <|
  (StableHlo.after_of_writes_sub hostOps1 _ hostOps1_writes (by decide : main_arg4 ∉ hostOps1_W)).trans <|
  (W2_of_ne m ρ c main_arg4 (by decide)).trans <|
  (StableHlo.after_of_writes_sub hostOps0 _ hostOps0_writes (by decide : main_arg4 ∉ hostOps0_W)).trans rfl
theorem W14_main_arg5 (c : Dev nD) : W14 m ρ c (Proc.devRef .tc main_arg5) = m ((c : Thread nD τ).loc main_arg5) :=
  (W14_of_ne m ρ c main_arg5 (by decide)).trans <|
  (StableHlo.after_of_writes_sub hostOps6 _ hostOps6_writes (by decide : main_arg5 ∉ hostOps6_W)).trans <|
  (W12_of_ne m ρ c main_arg5 (by decide)).trans <|
  (StableHlo.after_of_writes_sub hostOps5 _ hostOps5_writes (by decide : main_arg5 ∉ hostOps5_W)).trans <|
  (W10_of_ne m ρ c main_arg5 (by decide)).trans <|
  (StableHlo.after_of_writes_sub hostOps4 _ hostOps4_writes (by decide : main_arg5 ∉ hostOps4_W)).trans <|
  (W8_of_ne m ρ c main_arg5 (by decide)).trans <|
  (StableHlo.after_of_writes_sub hostOps3 _ hostOps3_writes (by decide : main_arg5 ∉ hostOps3_W)).trans <|
  (W6_of_ne m ρ c main_arg5 (by decide)).trans <|
  (StableHlo.after_of_writes_sub hostOps2 _ hostOps2_writes (by decide : main_arg5 ∉ hostOps2_W)).trans <|
  (W4_of_ne m ρ c main_arg5 (by decide)).trans <|
  (StableHlo.after_of_writes_sub hostOps1 _ hostOps1_writes (by decide : main_arg5 ∉ hostOps1_W)).trans <|
  (W2_in m ρ c 4 rfl).trans <|
  (StableHlo.after_of_writes_sub hostOps0 _ hostOps0_writes (by decide : main_arg5 ∉ hostOps0_W)).trans rfl
theorem W14_main_arg6 (c : Dev nD) : W14 m ρ c (Proc.devRef .tc main_arg6) = m ((c : Thread nD τ).loc main_arg6) :=
  (W14_of_ne m ρ c main_arg6 (by decide)).trans <|
  (StableHlo.after_of_writes_sub hostOps6 _ hostOps6_writes (by decide : main_arg6 ∉ hostOps6_W)).trans <|
  (W12_of_ne m ρ c main_arg6 (by decide)).trans <|
  (StableHlo.after_of_writes_sub hostOps5 _ hostOps5_writes (by decide : main_arg6 ∉ hostOps5_W)).trans <|
  (W10_of_ne m ρ c main_arg6 (by decide)).trans <|
  (StableHlo.after_of_writes_sub hostOps4 _ hostOps4_writes (by decide : main_arg6 ∉ hostOps4_W)).trans <|
  (W8_of_ne m ρ c main_arg6 (by decide)).trans <|
  (StableHlo.after_of_writes_sub hostOps3 _ hostOps3_writes (by decide : main_arg6 ∉ hostOps3_W)).trans <|
  (W6_of_ne m ρ c main_arg6 (by decide)).trans <|
  (StableHlo.after_of_writes_sub hostOps2 _ hostOps2_writes (by decide : main_arg6 ∉ hostOps2_W)).trans <|
  (W4_of_ne m ρ c main_arg6 (by decide)).trans <|
  (StableHlo.after_of_writes_sub hostOps1 _ hostOps1_writes (by decide : main_arg6 ∉ hostOps1_W)).trans <|
  (W2_of_ne m ρ c main_arg6 (by decide)).trans <|
  (StableHlo.after_of_writes_sub hostOps0 _ hostOps0_writes (by decide : main_arg6 ∉ hostOps0_W)).trans rfl
theorem W14_main_arg7 (c : Dev nD) : W14 m ρ c (Proc.devRef .tc main_arg7) = m ((c : Thread nD τ).loc main_arg7) :=
  (W14_of_ne m ρ c main_arg7 (by decide)).trans <|
  (StableHlo.after_of_writes_sub hostOps6 _ hostOps6_writes (by decide : main_arg7 ∉ hostOps6_W)).trans <|
  (W12_of_ne m ρ c main_arg7 (by decide)).trans <|
  (StableHlo.after_of_writes_sub hostOps5 _ hostOps5_writes (by decide : main_arg7 ∉ hostOps5_W)).trans <|
  (W10_of_ne m ρ c main_arg7 (by decide)).trans <|
  (StableHlo.after_of_writes_sub hostOps4 _ hostOps4_writes (by decide : main_arg7 ∉ hostOps4_W)).trans <|
  (W8_of_ne m ρ c main_arg7 (by decide)).trans <|
  (StableHlo.after_of_writes_sub hostOps3 _ hostOps3_writes (by decide : main_arg7 ∉ hostOps3_W)).trans <|
  (W6_of_ne m ρ c main_arg7 (by decide)).trans <|
  (StableHlo.after_of_writes_sub hostOps2 _ hostOps2_writes (by decide : main_arg7 ∉ hostOps2_W)).trans <|
  (W4_of_ne m ρ c main_arg7 (by decide)).trans <|
  (StableHlo.after_of_writes_sub hostOps1 _ hostOps1_writes (by decide : main_arg7 ∉ hostOps1_W)).trans <|
  (W2_of_ne m ρ c main_arg7 (by decide)).trans <|
  (StableHlo.after_of_writes_sub hostOps0 _ hostOps0_writes (by decide : main_arg7 ∉ hostOps0_W)).trans rfl
theorem W14_main_arg8 (c : Dev nD) : W14 m ρ c (Proc.devRef .tc main_arg8) = m ((c : Thread nD τ).loc main_arg8) :=
  (W14_of_ne m ρ c main_arg8 (by decide)).trans <|
  (StableHlo.after_of_writes_sub hostOps6 _ hostOps6_writes (by decide : main_arg8 ∉ hostOps6_W)).trans <|
  (W12_of_ne m ρ c main_arg8 (by decide)).trans <|
  (StableHlo.after_of_writes_sub hostOps5 _ hostOps5_writes (by decide : main_arg8 ∉ hostOps5_W)).trans <|
  (W10_of_ne m ρ c main_arg8 (by decide)).trans <|
  (StableHlo.after_of_writes_sub hostOps4 _ hostOps4_writes (by decide : main_arg8 ∉ hostOps4_W)).trans <|
  (W8_of_ne m ρ c main_arg8 (by decide)).trans <|
  (StableHlo.after_of_writes_sub hostOps3 _ hostOps3_writes (by decide : main_arg8 ∉ hostOps3_W)).trans <|
  (W6_of_ne m ρ c main_arg8 (by decide)).trans <|
  (StableHlo.after_of_writes_sub hostOps2 _ hostOps2_writes (by decide : main_arg8 ∉ hostOps2_W)).trans <|
  (W4_of_ne m ρ c main_arg8 (by decide)).trans <|
  (StableHlo.after_of_writes_sub hostOps1 _ hostOps1_writes (by decide : main_arg8 ∉ hostOps1_W)).trans <|
  (W2_of_ne m ρ c main_arg8 (by decide)).trans <|
  (StableHlo.after_of_writes_sub hostOps0 _ hostOps0_writes (by decide : main_arg8 ∉ hostOps0_W)).trans rfl
theorem W14_main_arg9 (c : Dev nD) : W14 m ρ c (Proc.devRef .tc main_arg9) = m ((c : Thread nD τ).loc main_arg9) :=
  (W14_of_ne m ρ c main_arg9 (by decide)).trans <|
  (StableHlo.after_of_writes_sub hostOps6 _ hostOps6_writes (by decide : main_arg9 ∉ hostOps6_W)).trans <|
  (W12_of_ne m ρ c main_arg9 (by decide)).trans <|
  (StableHlo.after_of_writes_sub hostOps5 _ hostOps5_writes (by decide : main_arg9 ∉ hostOps5_W)).trans <|
  (W10_of_ne m ρ c main_arg9 (by decide)).trans <|
  (StableHlo.after_of_writes_sub hostOps4 _ hostOps4_writes (by decide : main_arg9 ∉ hostOps4_W)).trans <|
  (W8_of_ne m ρ c main_arg9 (by decide)).trans <|
  (StableHlo.after_of_writes_sub hostOps3 _ hostOps3_writes (by decide : main_arg9 ∉ hostOps3_W)).trans <|
  (W6_in m ρ c 2 rfl).trans <|
  (StableHlo.after_of_writes_sub hostOps2 _ hostOps2_writes (by decide : main_arg9 ∉ hostOps2_W)).trans <|
  (W4_of_ne m ρ c main_arg9 (by decide)).trans <|
  (StableHlo.after_of_writes_sub hostOps1 _ hostOps1_writes (by decide : main_arg9 ∉ hostOps1_W)).trans <|
  (W2_of_ne m ρ c main_arg9 (by decide)).trans <|
  (StableHlo.after_of_writes_sub hostOps0 _ hostOps0_writes (by decide : main_arg9 ∉ hostOps0_W)).trans rfl
theorem W14_main_arg10 (c : Dev nD) : W14 m ρ c (Proc.devRef .tc main_arg10) = m ((c : Thread nD τ).loc main_arg10) :=
  (W14_of_ne m ρ c main_arg10 (by decide)).trans <|
  (StableHlo.after_of_writes_sub hostOps6 _ hostOps6_writes (by decide : main_arg10 ∉ hostOps6_W)).trans <|
  (W12_of_ne m ρ c main_arg10 (by decide)).trans <|
  (StableHlo.after_of_writes_sub hostOps5 _ hostOps5_writes (by decide : main_arg10 ∉ hostOps5_W)).trans <|
  (W10_of_ne m ρ c main_arg10 (by decide)).trans <|
  (StableHlo.after_of_writes_sub hostOps4 _ hostOps4_writes (by decide : main_arg10 ∉ hostOps4_W)).trans <|
  (W8_of_ne m ρ c main_arg10 (by decide)).trans <|
  (StableHlo.after_of_writes_sub hostOps3 _ hostOps3_writes (by decide : main_arg10 ∉ hostOps3_W)).trans <|
  (W6_of_ne m ρ c main_arg10 (by decide)).trans <|
  (StableHlo.after_of_writes_sub hostOps2 _ hostOps2_writes (by decide : main_arg10 ∉ hostOps2_W)).trans <|
  (W4_of_ne m ρ c main_arg10 (by decide)).trans <|
  (StableHlo.after_of_writes_sub hostOps1 _ hostOps1_writes (by decide : main_arg10 ∉ hostOps1_W)).trans <|
  (W2_of_ne m ρ c main_arg10 (by decide)).trans <|
  (StableHlo.after_of_writes_sub hostOps0 _ hostOps0_writes (by decide : main_arg10 ∉ hostOps0_W)).trans rfl
theorem W14_main_arg11 (c : Dev nD) : W14 m ρ c (Proc.devRef .tc main_arg11) = m ((c : Thread nD τ).loc main_arg11) :=
  (W14_of_ne m ρ c main_arg11 (by decide)).trans <|
  (StableHlo.after_of_writes_sub hostOps6 _ hostOps6_writes (by decide : main_arg11 ∉ hostOps6_W)).trans <|
  (W12_of_ne m ρ c main_arg11 (by decide)).trans <|
  (StableHlo.after_of_writes_sub hostOps5 _ hostOps5_writes (by decide : main_arg11 ∉ hostOps5_W)).trans <|
  (W10_of_ne m ρ c main_arg11 (by decide)).trans <|
  (StableHlo.after_of_writes_sub hostOps4 _ hostOps4_writes (by decide : main_arg11 ∉ hostOps4_W)).trans <|
  (W8_of_ne m ρ c main_arg11 (by decide)).trans <|
  (StableHlo.after_of_writes_sub hostOps3 _ hostOps3_writes (by decide : main_arg11 ∉ hostOps3_W)).trans <|
  (W6_in m ρ c 4 rfl).trans <|
  (StableHlo.after_of_writes_sub hostOps2 _ hostOps2_writes (by decide : main_arg11 ∉ hostOps2_W)).trans <|
  (W4_of_ne m ρ c main_arg11 (by decide)).trans <|
  (StableHlo.after_of_writes_sub hostOps1 _ hostOps1_writes (by decide : main_arg11 ∉ hostOps1_W)).trans <|
  (W2_of_ne m ρ c main_arg11 (by decide)).trans <|
  (StableHlo.after_of_writes_sub hostOps0 _ hostOps0_writes (by decide : main_arg11 ∉ hostOps0_W)).trans rfl
theorem W14_main_arg12 (c : Dev nD) : W14 m ρ c (Proc.devRef .tc main_arg12) = m ((c : Thread nD τ).loc main_arg12) :=
  (W14_of_ne m ρ c main_arg12 (by decide)).trans <|
  (StableHlo.after_of_writes_sub hostOps6 _ hostOps6_writes (by decide : main_arg12 ∉ hostOps6_W)).trans <|
  (W12_of_ne m ρ c main_arg12 (by decide)).trans <|
  (StableHlo.after_of_writes_sub hostOps5 _ hostOps5_writes (by decide : main_arg12 ∉ hostOps5_W)).trans <|
  (W10_of_ne m ρ c main_arg12 (by decide)).trans <|
  (StableHlo.after_of_writes_sub hostOps4 _ hostOps4_writes (by decide : main_arg12 ∉ hostOps4_W)).trans <|
  (W8_of_ne m ρ c main_arg12 (by decide)).trans <|
  (StableHlo.after_of_writes_sub hostOps3 _ hostOps3_writes (by decide : main_arg12 ∉ hostOps3_W)).trans <|
  (W6_of_ne m ρ c main_arg12 (by decide)).trans <|
  (StableHlo.after_of_writes_sub hostOps2 _ hostOps2_writes (by decide : main_arg12 ∉ hostOps2_W)).trans <|
  (W4_of_ne m ρ c main_arg12 (by decide)).trans <|
  (StableHlo.after_of_writes_sub hostOps1 _ hostOps1_writes (by decide : main_arg12 ∉ hostOps1_W)).trans <|
  (W2_of_ne m ρ c main_arg12 (by decide)).trans <|
  (StableHlo.after_of_writes_sub hostOps0 _ hostOps0_writes (by decide : main_arg12 ∉ hostOps0_W)).trans rfl
theorem W14_main_arg13 (c : Dev nD) : W14 m ρ c (Proc.devRef .tc main_arg13) = m ((c : Thread nD τ).loc main_arg13) :=
  (W14_of_ne m ρ c main_arg13 (by decide)).trans <|
  (StableHlo.after_of_writes_sub hostOps6 _ hostOps6_writes (by decide : main_arg13 ∉ hostOps6_W)).trans <|
  (W12_of_ne m ρ c main_arg13 (by decide)).trans <|
  (StableHlo.after_of_writes_sub hostOps5 _ hostOps5_writes (by decide : main_arg13 ∉ hostOps5_W)).trans <|
  (W10_of_ne m ρ c main_arg13 (by decide)).trans <|
  (StableHlo.after_of_writes_sub hostOps4 _ hostOps4_writes (by decide : main_arg13 ∉ hostOps4_W)).trans <|
  (W8_of_ne m ρ c main_arg13 (by decide)).trans <|
  (StableHlo.after_of_writes_sub hostOps3 _ hostOps3_writes (by decide : main_arg13 ∉ hostOps3_W)).trans <|
  (W6_of_ne m ρ c main_arg13 (by decide)).trans <|
  (StableHlo.after_of_writes_sub hostOps2 _ hostOps2_writes (by decide : main_arg13 ∉ hostOps2_W)).trans <|
  (W4_of_ne m ρ c main_arg13 (by decide)).trans <|
  (StableHlo.after_of_writes_sub hostOps1 _ hostOps1_writes (by decide : main_arg13 ∉ hostOps1_W)).trans <|
  (W2_of_ne m ρ c main_arg13 (by decide)).trans <|
  (StableHlo.after_of_writes_sub hostOps0 _ hostOps0_writes (by decide : main_arg13 ∉ hostOps0_W)).trans rfl
theorem W14_main_arg14 (c : Dev nD) : W14 m ρ c (Proc.devRef .tc main_arg14) = m ((c : Thread nD τ).loc main_arg14) :=
  (W14_of_ne m ρ c main_arg14 (by decide)).trans <|
  (StableHlo.after_of_writes_sub hostOps6 _ hostOps6_writes (by decide : main_arg14 ∉ hostOps6_W)).trans <|
  (W12_of_ne m ρ c main_arg14 (by decide)).trans <|
  (StableHlo.after_of_writes_sub hostOps5 _ hostOps5_writes (by decide : main_arg14 ∉ hostOps5_W)).trans <|
  (W10_of_ne m ρ c main_arg14 (by decide)).trans <|
  (StableHlo.after_of_writes_sub hostOps4 _ hostOps4_writes (by decide : main_arg14 ∉ hostOps4_W)).trans <|
  (W8_of_ne m ρ c main_arg14 (by decide)).trans <|
  (StableHlo.after_of_writes_sub hostOps3 _ hostOps3_writes (by decide : main_arg14 ∉ hostOps3_W)).trans <|
  (W6_of_ne m ρ c main_arg14 (by decide)).trans <|
  (StableHlo.after_of_writes_sub hostOps2 _ hostOps2_writes (by decide : main_arg14 ∉ hostOps2_W)).trans <|
  (W4_of_ne m ρ c main_arg14 (by decide)).trans <|
  (StableHlo.after_of_writes_sub hostOps1 _ hostOps1_writes (by decide : main_arg14 ∉ hostOps1_W)).trans <|
  (W2_of_ne m ρ c main_arg14 (by decide)).trans <|
  (StableHlo.after_of_writes_sub hostOps0 _ hostOps0_writes (by decide : main_arg14 ∉ hostOps0_W)).trans rfl
theorem W14_main_arg15 (c : Dev nD) : W14 m ρ c (Proc.devRef .tc main_arg15) = m ((c : Thread nD τ).loc main_arg15) :=
  (W14_of_ne m ρ c main_arg15 (by decide)).trans <|
  (StableHlo.after_of_writes_sub hostOps6 _ hostOps6_writes (by decide : main_arg15 ∉ hostOps6_W)).trans <|
  (W12_of_ne m ρ c main_arg15 (by decide)).trans <|
  (StableHlo.after_of_writes_sub hostOps5 _ hostOps5_writes (by decide : main_arg15 ∉ hostOps5_W)).trans <|
  (W10_in m ρ c 2 rfl).trans <|
  (StableHlo.after_of_writes_sub hostOps4 _ hostOps4_writes (by decide : main_arg15 ∉ hostOps4_W)).trans <|
  (W8_of_ne m ρ c main_arg15 (by decide)).trans <|
  (StableHlo.after_of_writes_sub hostOps3 _ hostOps3_writes (by decide : main_arg15 ∉ hostOps3_W)).trans <|
  (W6_of_ne m ρ c main_arg15 (by decide)).trans <|
  (StableHlo.after_of_writes_sub hostOps2 _ hostOps2_writes (by decide : main_arg15 ∉ hostOps2_W)).trans <|
  (W4_of_ne m ρ c main_arg15 (by decide)).trans <|
  (StableHlo.after_of_writes_sub hostOps1 _ hostOps1_writes (by decide : main_arg15 ∉ hostOps1_W)).trans <|
  (W2_of_ne m ρ c main_arg15 (by decide)).trans <|
  (StableHlo.after_of_writes_sub hostOps0 _ hostOps0_writes (by decide : main_arg15 ∉ hostOps0_W)).trans rfl
theorem W14_main_arg16 (c : Dev nD) : W14 m ρ c (Proc.devRef .tc main_arg16) = m ((c : Thread nD τ).loc main_arg16) :=
  (W14_of_ne m ρ c main_arg16 (by decide)).trans <|
  (StableHlo.after_of_writes_sub hostOps6 _ hostOps6_writes (by decide : main_arg16 ∉ hostOps6_W)).trans <|
  (W12_of_ne m ρ c main_arg16 (by decide)).trans <|
  (StableHlo.after_of_writes_sub hostOps5 _ hostOps5_writes (by decide : main_arg16 ∉ hostOps5_W)).trans <|
  (W10_of_ne m ρ c main_arg16 (by decide)).trans <|
  (StableHlo.after_of_writes_sub hostOps4 _ hostOps4_writes (by decide : main_arg16 ∉ hostOps4_W)).trans <|
  (W8_of_ne m ρ c main_arg16 (by decide)).trans <|
  (StableHlo.after_of_writes_sub hostOps3 _ hostOps3_writes (by decide : main_arg16 ∉ hostOps3_W)).trans <|
  (W6_of_ne m ρ c main_arg16 (by decide)).trans <|
  (StableHlo.after_of_writes_sub hostOps2 _ hostOps2_writes (by decide : main_arg16 ∉ hostOps2_W)).trans <|
  (W4_of_ne m ρ c main_arg16 (by decide)).trans <|
  (StableHlo.after_of_writes_sub hostOps1 _ hostOps1_writes (by decide : main_arg16 ∉ hostOps1_W)).trans <|
  (W2_of_ne m ρ c main_arg16 (by decide)).trans <|
  (StableHlo.after_of_writes_sub hostOps0 _ hostOps0_writes (by decide : main_arg16 ∉ hostOps0_W)).trans rfl
theorem W14_main_arg17 (c : Dev nD) : W14 m ρ c (Proc.devRef .tc main_arg17) = m ((c : Thread nD τ).loc main_arg17) :=
  (W14_of_ne m ρ c main_arg17 (by decide)).trans <|
  (StableHlo.after_of_writes_sub hostOps6 _ hostOps6_writes (by decide : main_arg17 ∉ hostOps6_W)).trans <|
  (W12_of_ne m ρ c main_arg17 (by decide)).trans <|
  (StableHlo.after_of_writes_sub hostOps5 _ hostOps5_writes (by decide : main_arg17 ∉ hostOps5_W)).trans <|
  (W10_in m ρ c 4 rfl).trans <|
  (StableHlo.after_of_writes_sub hostOps4 _ hostOps4_writes (by decide : main_arg17 ∉ hostOps4_W)).trans <|
  (W8_of_ne m ρ c main_arg17 (by decide)).trans <|
  (StableHlo.after_of_writes_sub hostOps3 _ hostOps3_writes (by decide : main_arg17 ∉ hostOps3_W)).trans <|
  (W6_of_ne m ρ c main_arg17 (by decide)).trans <|
  (StableHlo.after_of_writes_sub hostOps2 _ hostOps2_writes (by decide : main_arg17 ∉ hostOps2_W)).trans <|
  (W4_of_ne m ρ c main_arg17 (by decide)).trans <|
  (StableHlo.after_of_writes_sub hostOps1 _ hostOps1_writes (by decide : main_arg17 ∉ hostOps1_W)).trans <|
  (W2_of_ne m ρ c main_arg17 (by decide)).trans <|
  (StableHlo.after_of_writes_sub hostOps0 _ hostOps0_writes (by decide : main_arg17 ∉ hostOps0_W)).trans rfl
theorem W14_main_arg18 (c : Dev nD) : W14 m ρ c (Proc.devRef .tc main_arg18) = m ((c : Thread nD τ).loc main_arg18) :=
  (W14_of_ne m ρ c main_arg18 (by decide)).trans <|
  (StableHlo.after_of_writes_sub hostOps6 _ hostOps6_writes (by decide : main_arg18 ∉ hostOps6_W)).trans <|
  (W12_of_ne m ρ c main_arg18 (by decide)).trans <|
  (StableHlo.after_of_writes_sub hostOps5 _ hostOps5_writes (by decide : main_arg18 ∉ hostOps5_W)).trans <|
  (W10_of_ne m ρ c main_arg18 (by decide)).trans <|
  (StableHlo.after_of_writes_sub hostOps4 _ hostOps4_writes (by decide : main_arg18 ∉ hostOps4_W)).trans <|
  (W8_of_ne m ρ c main_arg18 (by decide)).trans <|
  (StableHlo.after_of_writes_sub hostOps3 _ hostOps3_writes (by decide : main_arg18 ∉ hostOps3_W)).trans <|
  (W6_of_ne m ρ c main_arg18 (by decide)).trans <|
  (StableHlo.after_of_writes_sub hostOps2 _ hostOps2_writes (by decide : main_arg18 ∉ hostOps2_W)).trans <|
  (W4_of_ne m ρ c main_arg18 (by decide)).trans <|
  (StableHlo.after_of_writes_sub hostOps1 _ hostOps1_writes (by decide : main_arg18 ∉ hostOps1_W)).trans <|
  (W2_of_ne m ρ c main_arg18 (by decide)).trans <|
  (StableHlo.after_of_writes_sub hostOps0 _ hostOps0_writes (by decide : main_arg18 ∉ hostOps0_W)).trans rfl
theorem W14_main_arg19 (c : Dev nD) : W14 m ρ c (Proc.devRef .tc main_arg19) = m ((c : Thread nD τ).loc main_arg19) :=
  (W14_of_ne m ρ c main_arg19 (by decide)).trans <|
  (StableHlo.after_of_writes_sub hostOps6 _ hostOps6_writes (by decide : main_arg19 ∉ hostOps6_W)).trans <|
  (W12_of_ne m ρ c main_arg19 (by decide)).trans <|
  (StableHlo.after_of_writes_sub hostOps5 _ hostOps5_writes (by decide : main_arg19 ∉ hostOps5_W)).trans <|
  (W10_of_ne m ρ c main_arg19 (by decide)).trans <|
  (StableHlo.after_of_writes_sub hostOps4 _ hostOps4_writes (by decide : main_arg19 ∉ hostOps4_W)).trans <|
  (W8_of_ne m ρ c main_arg19 (by decide)).trans <|
  (StableHlo.after_of_writes_sub hostOps3 _ hostOps3_writes (by decide : main_arg19 ∉ hostOps3_W)).trans <|
  (W6_of_ne m ρ c main_arg19 (by decide)).trans <|
  (StableHlo.after_of_writes_sub hostOps2 _ hostOps2_writes (by decide : main_arg19 ∉ hostOps2_W)).trans <|
  (W4_of_ne m ρ c main_arg19 (by decide)).trans <|
  (StableHlo.after_of_writes_sub hostOps1 _ hostOps1_writes (by decide : main_arg19 ∉ hostOps1_W)).trans <|
  (W2_of_ne m ρ c main_arg19 (by decide)).trans <|
  (StableHlo.after_of_writes_sub hostOps0 _ hostOps0_writes (by decide : main_arg19 ∉ hostOps0_W)).trans rfl
theorem W14_main_arg20 (c : Dev nD) : W14 m ρ c (Proc.devRef .tc main_arg20) = m ((c : Thread nD τ).loc main_arg20) :=
  (W14_of_ne m ρ c main_arg20 (by decide)).trans <|
  (StableHlo.after_of_writes_sub hostOps6 _ hostOps6_writes (by decide : main_arg20 ∉ hostOps6_W)).trans <|
  (W12_of_ne m ρ c main_arg20 (by decide)).trans <|
  (StableHlo.after_of_writes_sub hostOps5 _ hostOps5_writes (by decide : main_arg20 ∉ hostOps5_W)).trans <|
  (W10_of_ne m ρ c main_arg20 (by decide)).trans <|
  (StableHlo.after_of_writes_sub hostOps4 _ hostOps4_writes (by decide : main_arg20 ∉ hostOps4_W)).trans <|
  (W8_of_ne m ρ c main_arg20 (by decide)).trans <|
  (StableHlo.after_of_writes_sub hostOps3 _ hostOps3_writes (by decide : main_arg20 ∉ hostOps3_W)).trans <|
  (W6_of_ne m ρ c main_arg20 (by decide)).trans <|
  (StableHlo.after_of_writes_sub hostOps2 _ hostOps2_writes (by decide : main_arg20 ∉ hostOps2_W)).trans <|
  (W4_of_ne m ρ c main_arg20 (by decide)).trans <|
  (StableHlo.after_of_writes_sub hostOps1 _ hostOps1_writes (by decide : main_arg20 ∉ hostOps1_W)).trans <|
  (W2_of_ne m ρ c main_arg20 (by decide)).trans <|
  (StableHlo.after_of_writes_sub hostOps0 _ hostOps0_writes (by decide : main_arg20 ∉ hostOps0_W)).trans rfl
theorem W14_main_arg21 (c : Dev nD) : W14 m ρ c (Proc.devRef .tc main_arg21) = m ((c : Thread nD τ).loc main_arg21) :=
  (W14_in m ρ c 1 rfl).trans <|
  (StableHlo.after_of_writes_sub hostOps6 _ hostOps6_writes (by decide : main_arg21 ∉ hostOps6_W)).trans <|
  (W12_of_ne m ρ c main_arg21 (by decide)).trans <|
  (StableHlo.after_of_writes_sub hostOps5 _ hostOps5_writes (by decide : main_arg21 ∉ hostOps5_W)).trans <|
  (W10_of_ne m ρ c main_arg21 (by decide)).trans <|
  (StableHlo.after_of_writes_sub hostOps4 _ hostOps4_writes (by decide : main_arg21 ∉ hostOps4_W)).trans <|
  (W8_of_ne m ρ c main_arg21 (by decide)).trans <|
  (StableHlo.after_of_writes_sub hostOps3 _ hostOps3_writes (by decide : main_arg21 ∉ hostOps3_W)).trans <|
  (W6_of_ne m ρ c main_arg21 (by decide)).trans <|
  (StableHlo.after_of_writes_sub hostOps2 _ hostOps2_writes (by decide : main_arg21 ∉ hostOps2_W)).trans <|
  (W4_of_ne m ρ c main_arg21 (by decide)).trans <|
  (StableHlo.after_of_writes_sub hostOps1 _ hostOps1_writes (by decide : main_arg21 ∉ hostOps1_W)).trans <|
  (W2_of_ne m ρ c main_arg21 (by decide)).trans <|
  (StableHlo.after_of_writes_sub hostOps0 _ hostOps0_writes (by decide : main_arg21 ∉ hostOps0_W)).trans rfl
theorem W14_main_arg22 (c : Dev nD) : W14 m ρ c (Proc.devRef .tc main_arg22) = m ((c : Thread nD τ).loc main_arg22) :=
  (W14_of_ne m ρ c main_arg22 (by decide)).trans <|
  (StableHlo.after_of_writes_sub hostOps6 _ hostOps6_writes (by decide : main_arg22 ∉ hostOps6_W)).trans <|
  (W12_of_ne m ρ c main_arg22 (by decide)).trans <|
  (StableHlo.after_of_writes_sub hostOps5 _ hostOps5_writes (by decide : main_arg22 ∉ hostOps5_W)).trans <|
  (W10_of_ne m ρ c main_arg22 (by decide)).trans <|
  (StableHlo.after_of_writes_sub hostOps4 _ hostOps4_writes (by decide : main_arg22 ∉ hostOps4_W)).trans <|
  (W8_of_ne m ρ c main_arg22 (by decide)).trans <|
  (StableHlo.after_of_writes_sub hostOps3 _ hostOps3_writes (by decide : main_arg22 ∉ hostOps3_W)).trans <|
  (W6_of_ne m ρ c main_arg22 (by decide)).trans <|
  (StableHlo.after_of_writes_sub hostOps2 _ hostOps2_writes (by decide : main_arg22 ∉ hostOps2_W)).trans <|
  (W4_of_ne m ρ c main_arg22 (by decide)).trans <|
  (StableHlo.after_of_writes_sub hostOps1 _ hostOps1_writes (by decide : main_arg22 ∉ hostOps1_W)).trans <|
  (W2_of_ne m ρ c main_arg22 (by decide)).trans <|
  (StableHlo.after_of_writes_sub hostOps0 _ hostOps0_writes (by decide : main_arg22 ∉ hostOps0_W)).trans rfl
theorem W14_main_arg23 (c : Dev nD) : W14 m ρ c (Proc.devRef .tc main_arg23) = m ((c : Thread nD τ).loc main_arg23) :=
  (W14_in m ρ c 3 rfl).trans <|
  (StableHlo.after_of_writes_sub hostOps6 _ hostOps6_writes (by decide : main_arg23 ∉ hostOps6_W)).trans <|
  (W12_of_ne m ρ c main_arg23 (by decide)).trans <|
  (StableHlo.after_of_writes_sub hostOps5 _ hostOps5_writes (by decide : main_arg23 ∉ hostOps5_W)).trans <|
  (W10_of_ne m ρ c main_arg23 (by decide)).trans <|
  (StableHlo.after_of_writes_sub hostOps4 _ hostOps4_writes (by decide : main_arg23 ∉ hostOps4_W)).trans <|
  (W8_of_ne m ρ c main_arg23 (by decide)).trans <|
  (StableHlo.after_of_writes_sub hostOps3 _ hostOps3_writes (by decide : main_arg23 ∉ hostOps3_W)).trans <|
  (W6_of_ne m ρ c main_arg23 (by decide)).trans <|
  (StableHlo.after_of_writes_sub hostOps2 _ hostOps2_writes (by decide : main_arg23 ∉ hostOps2_W)).trans <|
  (W4_of_ne m ρ c main_arg23 (by decide)).trans <|
  (StableHlo.after_of_writes_sub hostOps1 _ hostOps1_writes (by decide : main_arg23 ∉ hostOps1_W)).trans <|
  (W2_of_ne m ρ c main_arg23 (by decide)).trans <|
  (StableHlo.after_of_writes_sub hostOps0 _ hostOps0_writes (by decide : main_arg23 ∉ hostOps0_W)).trans rfl
theorem W14_main_arg24 (c : Dev nD) : W14 m ρ c (Proc.devRef .tc main_arg24) = m ((c : Thread nD τ).loc main_arg24) :=
  (W14_of_ne m ρ c main_arg24 (by decide)).trans <|
  (StableHlo.after_of_writes_sub hostOps6 _ hostOps6_writes (by decide : main_arg24 ∉ hostOps6_W)).trans <|
  (W12_of_ne m ρ c main_arg24 (by decide)).trans <|
  (StableHlo.after_of_writes_sub hostOps5 _ hostOps5_writes (by decide : main_arg24 ∉ hostOps5_W)).trans <|
  (W10_of_ne m ρ c main_arg24 (by decide)).trans <|
  (StableHlo.after_of_writes_sub hostOps4 _ hostOps4_writes (by decide : main_arg24 ∉ hostOps4_W)).trans <|
  (W8_of_ne m ρ c main_arg24 (by decide)).trans <|
  (StableHlo.after_of_writes_sub hostOps3 _ hostOps3_writes (by decide : main_arg24 ∉ hostOps3_W)).trans <|
  (W6_of_ne m ρ c main_arg24 (by decide)).trans <|
  (StableHlo.after_of_writes_sub hostOps2 _ hostOps2_writes (by decide : main_arg24 ∉ hostOps2_W)).trans <|
  (W4_of_ne m ρ c main_arg24 (by decide)).trans <|
  (StableHlo.after_of_writes_sub hostOps1 _ hostOps1_writes (by decide : main_arg24 ∉ hostOps1_W)).trans <|
  (W2_of_ne m ρ c main_arg24 (by decide)).trans <|
  (StableHlo.after_of_writes_sub hostOps0 _ hostOps0_writes (by decide : main_arg24 ∉ hostOps0_W)).trans rfl
theorem W14_main_arg25 (c : Dev nD) : W14 m ρ c (Proc.devRef .tc main_arg25) = m ((c : Thread nD τ).loc main_arg25) :=
  (W14_in m ρ c 5 rfl).trans <|
  (StableHlo.after_of_writes_sub hostOps6 _ hostOps6_writes (by decide : main_arg25 ∉ hostOps6_W)).trans <|
  (W12_of_ne m ρ c main_arg25 (by decide)).trans <|
  (StableHlo.after_of_writes_sub hostOps5 _ hostOps5_writes (by decide : main_arg25 ∉ hostOps5_W)).trans <|
  (W10_of_ne m ρ c main_arg25 (by decide)).trans <|
  (StableHlo.after_of_writes_sub hostOps4 _ hostOps4_writes (by decide : main_arg25 ∉ hostOps4_W)).trans <|
  (W8_of_ne m ρ c main_arg25 (by decide)).trans <|
  (StableHlo.after_of_writes_sub hostOps3 _ hostOps3_writes (by decide : main_arg25 ∉ hostOps3_W)).trans <|
  (W6_of_ne m ρ c main_arg25 (by decide)).trans <|
  (StableHlo.after_of_writes_sub hostOps2 _ hostOps2_writes (by decide : main_arg25 ∉ hostOps2_W)).trans <|
  (W4_of_ne m ρ c main_arg25 (by decide)).trans <|
  (StableHlo.after_of_writes_sub hostOps1 _ hostOps1_writes (by decide : main_arg25 ∉ hostOps1_W)).trans <|
  (W2_of_ne m ρ c main_arg25 (by decide)).trans <|
  (StableHlo.after_of_writes_sub hostOps0 _ hostOps0_writes (by decide : main_arg25 ∉ hostOps0_W)).trans rfl
theorem W14_main_arg26 (c : Dev nD) : W14 m ρ c (Proc.devRef .tc main_arg26) = m ((c : Thread nD τ).loc main_arg26) :=
  (W14_of_ne m ρ c main_arg26 (by decide)).trans <|
  (StableHlo.after_of_writes_sub hostOps6 _ hostOps6_writes (by decide : main_arg26 ∉ hostOps6_W)).trans <|
  (W12_of_ne m ρ c main_arg26 (by decide)).trans <|
  (StableHlo.after_of_writes_sub hostOps5 _ hostOps5_writes (by decide : main_arg26 ∉ hostOps5_W)).trans <|
  (W10_of_ne m ρ c main_arg26 (by decide)).trans <|
  (StableHlo.after_of_writes_sub hostOps4 _ hostOps4_writes (by decide : main_arg26 ∉ hostOps4_W)).trans <|
  (W8_of_ne m ρ c main_arg26 (by decide)).trans <|
  (StableHlo.after_of_writes_sub hostOps3 _ hostOps3_writes (by decide : main_arg26 ∉ hostOps3_W)).trans <|
  (W6_of_ne m ρ c main_arg26 (by decide)).trans <|
  (StableHlo.after_of_writes_sub hostOps2 _ hostOps2_writes (by decide : main_arg26 ∉ hostOps2_W)).trans <|
  (W4_of_ne m ρ c main_arg26 (by decide)).trans <|
  (StableHlo.after_of_writes_sub hostOps1 _ hostOps1_writes (by decide : main_arg26 ∉ hostOps1_W)).trans <|
  (W2_of_ne m ρ c main_arg26 (by decide)).trans <|
  (StableHlo.after_of_writes_sub hostOps0 _ hostOps0_writes (by decide : main_arg26 ∉ hostOps0_W)).trans rfl

/-- The result array ends at what the last region's pipeline leaves in its output window. -/
theorem W14_main_v76 (c : Dev nD) : W14 m ρ c (Proc.devRef .tc main_v76) = (dat6 (V13 m ρ) c).arrAt 7 cfg6.N :=
  W14_arr m ρ c 7

/-! ## The proof data family and the thread state -/

/-- No pallas_call has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0: entered with every unscoped buffer at `W1`, left with them at `W2`. Its windows' arrays are split
    out of the unscoped buffers and put back at the exit contents; the generator register goes into the pipeline's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W3`, left with them at `W4`. Its windows' arrays are split
    out of the unscoped buffers and put back at the exit contents; the generator register goes into the pipeline's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `W5`, left with them at `W6`. Its windows' arrays are split
    out of the unscoped buffers and put back at the exit contents; the generator register goes into the pipeline's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `W7`, left with them at `W8`. Its windows' arrays are split
    out of the unscoped buffers and put back at the exit contents; the generator register goes into the pipeline's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `W9`, left with them at `W10`. Its windows' arrays are split
    out of the unscoped buffers and put back at the exit contents; the generator register goes into the pipeline's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at `W11`, left with them at `W12`. Its windows' arrays are split
    out of the unscoped buffers and put back at the exit contents; the generator register goes into the pipeline's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at `W13`, left with them at `W14`. Its windows' arrays are split
    out of the unscoped buffers and put back at the exit contents; the generator register goes into the pipeline's
    invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and in every
    final state each buffer that is not scoped to a kernel holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W14 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The frame: every argument array ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c),
     (h c _ (mem_uc main_arg14 (by decide))).trans (W14_main_arg14 m ρ c),
     (h c _ (mem_uc main_arg15 (by decide))).trans (W14_main_arg15 m ρ c),
     (h c _ (mem_uc main_arg16 (by decide))).trans (W14_main_arg16 m ρ c),
     (h c _ (mem_uc main_arg17 (by decide))).trans (W14_main_arg17 m ρ c),
     (h c _ (mem_uc main_arg18 (by decide))).trans (W14_main_arg18 m ρ c),
     (h c _ (mem_uc main_arg19 (by decide))).trans (W14_main_arg19 m ρ c),
     (h c _ (mem_uc main_arg20 (by decide))).trans (W14_main_arg20 m ρ c),
     (h c _ (mem_uc main_arg21 (by decide))).trans (W14_main_arg21 m ρ c),
     (h c _ (mem_uc main_arg22 (by decide))).trans (W14_main_arg22 m ρ c),
     (h c _ (mem_uc main_arg23 (by decide))).trans (W14_main_arg23 m ρ c),
     (h c _ (mem_uc main_arg24 (by decide))).trans (W14_main_arg24 m ρ c),
     (h c _ (mem_uc main_arg25 (by decide))).trans (W14_main_arg25 m ρ c),
     (h c _ (mem_uc main_arg26 (by decide))).trans (W14_main_arg26 m ρ c)⟩)
    (run_all m ρ)

/-- The run with the result named: the result array ends at what the last region's pipeline leaves. -/
theorem run_result : θ_run defs (onTc (τ := τ) (main (F := F))) ⟨m, fun _ => 0, ρ⟩ (fun r => ∀ c : Dev nD,
      r.2.mem ((c.tc : Thread nD τ).loc main_v76) = (dat6 (V13 m ρ) c).arrAt 7 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c _ (mem_uc main_v76 (by decide))).trans (W14_main_v76 m ρ c),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c),
     (h c _ (mem_uc main_arg14 (by decide))).trans (W14_main_arg14 m ρ c),
     (h c _ (mem_uc main_arg15 (by decide))).trans (W14_main_arg15 m ρ c),
     (h c _ (mem_uc main_arg16 (by decide))).trans (W14_main_arg16 m ρ c),
     (h c _ (mem_uc main_arg17 (by decide))).trans (W14_main_arg17 m ρ c),
     (h c _ (mem_uc main_arg18 (by decide))).trans (W14_main_arg18 m ρ c),
     (h c _ (mem_uc main_arg19 (by decide))).trans (W14_main_arg19 m ρ c),
     (h c _ (mem_uc main_arg20 (by decide))).trans (W14_main_arg20 m ρ c),
     (h c _ (mem_uc main_arg21 (by decide))).trans (W14_main_arg21 m ρ c),
     (h c _ (mem_uc main_arg22 (by decide))).trans (W14_main_arg22 m ρ c),
     (h c _ (mem_uc main_arg23 (by decide))).trans (W14_main_arg23 m ρ c),
     (h c _ (mem_uc main_arg24 (by decide))).trans (W14_main_arg24 m ρ c),
     (h c _ (mem_uc main_arg25 (by decide))).trans (W14_main_arg25 m ρ c),
     (h c _ (mem_uc main_arg26 (by decide))).trans (W14_main_arg26 m ρ c)⟩)
    (run_all m ρ)

end Cert.Kernel.Hand

end
-- ==== Proof.KI.R0Body.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import proofs.«142609_j54228257079879_1_alg».proof.Proof.WholeStore
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of `cc0__gin_mm_kernel` on whole staging memrefs, in its two control cases over the grid coordinate: the
    first point (the sums stored) and a later point (the sums added to what windows 7 and 8's buffers hold). -/

/-- What the body stores into window 6's buffer: the MLP of the six input blocks (the skeleton's payload). -/
def out0_6 (x0 x1 : Vec F S2000x12 .f32) (x2 : Vec F S12x128 .f32) (x3 : Vec F S1x128 .f32) (x4 : Vec F S128x128 .f32) (x5 : Vec F S1x128 .f32) : Vec F S2000x128 .f32 := k0_pay3 x0 x1 x2 x3 x4 x5
/-- The column sums of that block, -/
def sum0_7 (x0 x1 : Vec F S2000x12 .f32) (x2 : Vec F S12x128 .f32) (x3 : Vec F S1x128 .f32) (x4 : Vec F S128x128 .f32) (x5 : Vec F S1x128 .f32) : Vec F S1x128 .f32 := k0_pay4 x0 x1 x2 x3 x4 x5
/-- and of its elementwise square. -/
def sum0_8 (x0 x1 : Vec F S2000x12 .f32) (x2 : Vec F S12x128 .f32) (x3 : Vec F S1x128 .f32) (x4 : Vec F S128x128 .f32) (x5 : Vec F S1x128 .f32) : Vec F S1x128 .f32 := k0_pay5 x0 x1 x2 x3 x4 x5

set_option maxHeartbeats 4000000 in
/-- The body at the FIRST point (`i = 0`: the first conditional taken, the second not): on whole staging memrefs, the
    inputs' at read contents and the outputs' at anything, it leaves the block in window 6's buffer and the block's
    column sums in windows 7 and 8's. -/
theorem sound_kernel0_A (c : Dev nD) (E : Set ℕ) (i : grid0.Coords)
    (arg1 : Memref sig .tc .vmem S2000x12 .f32) (harg1 : arg1.IsWhole) (arg2 : Memref sig .tc .vmem S2000x12 .f32) (harg2 : arg2.IsWhole)
    (arg3 : Memref sig .tc .vmem S12x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : k0_cond1 i = 1#1) (hc2 : ¬ k0_cond2 i = 1#1)
    (x0 x1 : Vec F S2000x12 .f32) (x2 : Vec F S12x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)
            ∗ owns (c : Thread nD τ) arg8 fullShare (sum0_7 x0 x1 x2 x3 x4 x5)
            ∗ owns (c : Thread nD τ) arg9 fullShare (sum0_8 x0 x1 x2 x3 x4 x5)) -∗ K ⟨⟩))
      ⊢ wp frame (wpE (defs₀ (F := F)) Variants.none c none) E (cc0__gin_mm_kernel i arg1 harg1 arg2 harg2 arg3 harg3 arg4 harg4 arg5 harg5 arg6 harg6 arg7 harg7 arg8 harg8 arg9 harg9) K := by
  simp only [cc0__gin_mm_kernel_eq_skeleton]; unfold cc0__gin_mm_kernel_skel
  unfold owns out0_6 sum0_7 sum0_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x12) hz2, View.ld_unit_zero (S := S12x128) hz2, View.ld_unit_zero (S := S1x128) hz2, View.ld_unit_zero (S := S128x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x12) hz2, View.ld_unit_zero (S := S12x128) hz2, View.ld_unit_zero (S := S1x128) hz2, View.ld_unit_zero (S := S128x128) hz2]
  iexists _; isplitr
  swap; · iexact H8
  ipureintro
  refine (read_writes_unit_zero _ _ hz2 _ _).trans ?_
  sl_unfold_run_names
  simp only [View.readAt_eq_ld, View.ld_unit_zero (S := S2000x12) hz2, View.ld_unit_zero (S := S12x128) hz2, View.ld_unit_zero (S := S1x128) hz2, View.ld_unit_zero (S := S128x128) hz2]

set_option maxHeartbeats 4000000 in
/-- The body at a LATER point (`i ≠ 0`: the second conditional taken, the first not): windows 7 and 8's buffers hold
    the running sums `a7`, `a8`; it leaves the block in window 6's buffer and adds the block's column sums to them. -/
theorem sound_kernel0_B (c : Dev nD) (E : Set ℕ) (i : grid0.Coords)
    (arg1 : Memref sig .tc .vmem S2000x12 .f32) (harg1 : arg1.IsWhole) (arg2 : Memref sig .tc .vmem S2000x12 .f32) (harg2 : arg2.IsWhole)
    (arg3 : Memref sig .tc .vmem S12x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : ¬ k0_cond1 i = 1#1) (hc2 : k0_cond2 i = 1#1)
    (x0 x1 : Vec F S2000x12 .f32) (x2 : Vec F S12x128 .f32) (x3 : Vec F S1x128 .f32) (x4 : Vec F S128x128 .f32) (x5 : Vec F S1x128 .f32) (a7 a8 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare a7 ∗ owns (c : Thread nD τ) arg9 fullShare a8
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)
            ∗ owns (c : Thread nD τ) arg8 fullShare (k0_pay1 (sum0_7 x0 x1 x2 x3 x4 x5) a7)
            ∗ owns (c : Thread nD τ) arg9 fullShare (k0_pay2 (sum0_8 x0 x1 x2 x3 x4 x5) a8)) -∗ K ⟨⟩))
      ⊢ wp frame (wpE (defs₀ (F := F)) Variants.none c none) E (cc0__gin_mm_kernel i arg1 harg1 arg2 harg2 arg3 harg3 arg4 harg4 arg5 harg5 arg6 harg6 arg7 harg7 arg8 harg8 arg9 harg9) K := by
  simp only [cc0__gin_mm_kernel_eq_skeleton]; unfold cc0__gin_mm_kernel_skel
  unfold owns out0_6 sum0_7 sum0_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x12) hz2, View.ld_unit_zero (S := S12x128) hz2, View.ld_unit_zero (S := S1x128) hz2, View.ld_unit_zero (S := S128x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x12) hz2, View.ld_unit_zero (S := S12x128) hz2, View.ld_unit_zero (S := S1x128) hz2, View.ld_unit_zero (S := S128x128) hz2]
  iexists _; isplitr
  swap; · iexact H8
  ipureintro
  refine (read_writes_unit_zero _ _ hz2 _ _).trans ?_
  sl_unfold_run_names
  simp only [View.readAt_eq_ld, View.ld_unit_zero (S := S2000x12) hz2, View.ld_unit_zero (S := S12x128) hz2, View.ld_unit_zero (S := S1x128) hz2, View.ld_unit_zero (S := S128x128) hz2]

end Cert.KernelIdeal.Hand
end
-- ==== Proof.KI.R0.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import proofs.«142609_j54228257079879_1_alg».proof.Proof.WholeStore
import proofs.«142609_j54228257079879_1_alg».proof.Proof.KI.R0Body
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION of `cc0__gin_mm_kernel` (pipeline 0), at the contents `V` the region finds: the windows' blocks, the running
    column sums of windows 7 and 8 by recursion on the grid point, the proof data and the body obligation. -/

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place (the window is uncut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place (the window is uncut and never idle). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place (the window is uncut and never idle). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place (the window is uncut and never idle). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place (the window is uncut and never idle). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is `V`'s and whose body leaves the block in place (the window is uncut and never idle). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The conditions over the grid, and where the accumulators' windows are live -/

/-- The first conditional (`program_id == 0`) is taken at the first point only, -/
theorem hcond0_1 : ∀ t : Fin cfg0.N, k0_cond1 (grid0.coords t) = 1#1 ↔ t.val % 50 = 0 :=
  (by decide +kernel : ∀ t : Fin grid0.N, k0_cond1 (grid0.coords t) = 1#1 ↔ t.val % 50 = 0)
/-- the second (`program_id != 0`) at every other point. -/
theorem hcond0_2 : ∀ t : Fin cfg0.N, k0_cond2 (grid0.coords t) = 1#1 ↔ ¬ t.val % 50 = 0 :=
  (by decide +kernel : ∀ t : Fin grid0.N, k0_cond2 (grid0.coords t) = 1#1 ↔ ¬ t.val % 50 = 0)

/-- One of the two conditionals stores into windows 7 and 8 at every setting of the coordinates: they are never idle. -/
theorem live0_7 : ∀ i : grid0.Coords, cfg0.idle 7 i = false := by decide +kernel
theorem live0_8 : ∀ i : grid0.Coords, cfg0.idle 8 i = false := by decide +kernel

/-! ## The accumulators, point by point -/

/-- The running column sum window 7's buffer holds after the body at position `n`: the first point stores the
    block's sum; each later point adds its block's sum to what the point before left. -/
def acc0_7' (c : Dev nD) : (n : ℕ) → n < cfg0.N → Vec F S1x128 .f32
  | 0, hn => sum0_7 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn => k0_pay1 (sum0_7 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) (acc0_7' c n (Nat.lt_of_succ_lt hn))

/-- The same, at a point of the grid. -/
def acc0_7 (c : Dev nD) (t : Fin cfg0.N) : Vec F S1x128 .f32 := acc0_7' V c t.val t.isLt

/-- At the first point the accumulator is the first block's sum. -/
theorem acc0_7_zero (c : Dev nD) (t : Fin cfg0.N) (h0 : t.val = 0) :
    acc0_7 V c t = sum0_7 (iblk0 V c 0 t) (iblk0 V c 1 t) (iblk0 V c 2 t) (iblk0 V c 3 t) (iblk0 V c 4 t) (iblk0 V c 5 t) := by
  obtain ⟨n, hn⟩ := t
  cases n with
  | zero => rfl
  | succ n => exact absurd h0 (Nat.succ_ne_zero n)

/-- At a later point it is the point's block sum added to the accumulator of the point before. -/
theorem acc0_7_succ (c : Dev nD) (t : Fin cfg0.N) (h0 : t.val ≠ 0) :
    acc0_7 V c t = k0_pay1 (sum0_7 (iblk0 V c 0 t) (iblk0 V c 1 t) (iblk0 V c 2 t) (iblk0 V c 3 t) (iblk0 V c 4 t) (iblk0 V c 5 t))
      (acc0_7 V c ⟨t.val - 1, Nat.lt_of_le_of_lt (Nat.sub_le _ _) t.isLt⟩) := by
  obtain ⟨n, hn⟩ := t
  cases n with
  | zero => exact absurd rfl h0
  | succ n => rfl

/-- The running column sum window 8's buffer holds after the body at position `n`: the first point stores the
    block's sum; each later point adds its block's sum to what the point before left. -/
def acc0_8' (c : Dev nD) : (n : ℕ) → n < cfg0.N → Vec F S1x128 .f32
  | 0, hn => sum0_8 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn => k0_pay2 (sum0_8 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) (acc0_8' c n (Nat.lt_of_succ_lt hn))

/-- The same, at a point of the grid. -/
def acc0_8 (c : Dev nD) (t : Fin cfg0.N) : Vec F S1x128 .f32 := acc0_8' V c t.val t.isLt

/-- At the first point the accumulator is the first block's sum. -/
theorem acc0_8_zero (c : Dev nD) (t : Fin cfg0.N) (h0 : t.val = 0) :
    acc0_8 V c t = sum0_8 (iblk0 V c 0 t) (iblk0 V c 1 t) (iblk0 V c 2 t) (iblk0 V c 3 t) (iblk0 V c 4 t) (iblk0 V c 5 t) := by
  obtain ⟨n, hn⟩ := t
  cases n with
  | zero => rfl
  | succ n => exact absurd h0 (Nat.succ_ne_zero n)

/-- At a later point it is the point's block sum added to the accumulator of the point before. -/
theorem acc0_8_succ (c : Dev nD) (t : Fin cfg0.N) (h0 : t.val ≠ 0) :
    acc0_8 V c t = k0_pay2 (sum0_8 (iblk0 V c 0 t) (iblk0 V c 1 t) (iblk0 V c 2 t) (iblk0 V c 3 t) (iblk0 V c 4 t) (iblk0 V c 5 t))
      (acc0_8 V c ⟨t.val - 1, Nat.lt_of_le_of_lt (Nat.sub_le _ _) t.isLt⟩) := by
  obtain ⟨n, hn⟩ := t
  cases n with
  | zero => exact absurd rfl h0
  | succ n => rfl

/-! ## The pipeline's proof data -/

/-- The proof data of pipeline 0 on core `c`: the arrays as the region finds them (`V`); after the body at point `t`
    each input's buffer at its block, window 6's at the block the body computes, windows 7 and 8's at the running sums;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => acc0_7 V c t
    | ⟨8, _⟩ => acc0_8 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = acc0_7 V c t := by dsimp only [dat0]
theorem after0_8 (c : Dev nD) (t : Fin cfg0.N) : (dat0 V c).after 8 t = acc0_8 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a point after the first, window 7's buffer holds what the body left at the point before: the block is not
    written back in between (only the last point writes it back), the window is live and uncut. -/
theorem before0_7_B (c : Dev nD) (t : Fin cfg0.N) (h0 : t.val ≠ 0) (d) :
    (dat0 V c).before 7 t d = acc0_7 V c ⟨t.val - 1, Nat.lt_of_le_of_lt (Nat.sub_le _ _) t.isLt⟩ := by
  have hN : t.val < 50 := lt_of_lt_of_eq t.isLt (show cfg0.N = 50 from N_0)
  rw [Dat.before_out_kept _ 7 rfl t h0 (Bool.eq_false_iff.mpr fun h => by have := (flush0_7 _).mp h; dsimp only at this; omega)
    live0_7 (fun _ _ => rfl)]
  dsimp only [dat0]

/-- At a point after the first, window 8's buffer holds what the body left at the point before: the block is not
    written back in between (only the last point writes it back), the window is live and uncut. -/
theorem before0_8_B (c : Dev nD) (t : Fin cfg0.N) (h0 : t.val ≠ 0) (d) :
    (dat0 V c).before 8 t d = acc0_8 V c ⟨t.val - 1, Nat.lt_of_le_of_lt (Nat.sub_le _ _) t.isLt⟩ := by
  have hN : t.val < 50 := lt_of_lt_of_eq t.isLt (show cfg0.N = 50 from N_0)
  rw [Dat.before_out_kept _ 8 rfl t h0 (Bool.eq_false_iff.mpr fun h => by have := (flush0_8 _).mp h; dsimp only at this; omega)
    live0_8 (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ (dat0 V c).leavesExact 7 t
    ∗ (dat0 V c).leavesExact 8 t)

set_option maxHeartbeats 4000000 in
/-- The body at any point: the inputs' memrefs hold their blocks; at the first point the first conditional stores the
    block's sums; at a later point windows 7 and 8's buffers hold the running sums of the point before, and the second
    conditional adds the block's sums to them. The invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).leavesExact 7 t = owns (c : Thread nD τ) (st0_7 t) fullShare ((dat0 V c).after 7 t) from by
      unfold Dat.leavesExact; rw [live0_7 (cfg0.grid.coords t)],
    show (dat0 V c).leavesExact 8 t = owns (c : Thread nD τ) (st0_8 t) fullShare ((dat0 V c).after 8 t) from by
      unfold Dat.leavesExact; rw [live0_8 (cfg0.grid.coords t)]]
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  have hN : t.val < 50 := lt_of_lt_of_eq t.isLt (show cfg0.N = 50 from N_0)
  by_cases h0 : t.val = 0
  · rw [acc0_7_zero V c t h0, acc0_8_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_A c Set.univ (grid0.coords t) _ _ _ _ _ _ _ _ _ _ _ _ _ _ _ _ _ _
      ((hcond0_1 t).mpr (by omega)) (fun h => (hcond0_2 t).mp h (by omega)) (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc0_7_succ V c t h0, acc0_8_succ V c t h0]
    simp only [before0_7_B V c t h0, before0_8_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_B c Set.univ (grid0.coords t) _ _ _ _ _ _ _ _ _ _ _ _ _ _ _ _ _ _
      (fun h => absurd ((hcond0_1 t).mp h) (by omega)) ((hcond0_2 t).mpr (by omega)) (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand
end
-- ==== Proof.KI.R1.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the batch-normalisation kernel `cc1__bn_relu_kernel`

Six windows: inputs 0..4 (the 2000x128 block of rows and four 1x128 rows: mean, variance, scale, shift), output 5
(the 2000x128 block). The body loads each input whole, computes the normalised, scaled, shifted and clamped block
and stores it over the whole output buffer. Windows 1..4 have a constant block index: they are fetched at the
first point only and keep their block at every later point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: where it is not
    fetched its block index has not moved, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: where it is not
    fetched its block index has not moved, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: where it is not
    fetched its block index has not moved, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not: where it is not
    fetched its block index has not moved, and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000x128 buffer. -/
abbrev r1_0 : Rect S2000x128 := Rect.unit (s := S2000x128) ![0, 0] S2000x128.size inb_S2000x128_S2000x128_0_0
/-- The whole 1x128 buffer. -/
abbrev r1_1 : Rect S1x128 := Rect.unit (s := S1x128) ![0, 0] S1x128.size inb_S1x128_S1x128_0_0

/-! ## What the body leaves in the output window's buffer -/

/-- Window 5's staging buffer after the body, from the input windows' blocks: its one store, over the whole buffer. -/
def out1_5 (x0 : Vec F S2000x128 .f32) (x1 x2 x3 x4 : Vec F S1x128 .f32) : Vec F S2000x128 .f32 :=
  View.canon [⟨r1_0, k1_pay1 (View.ld x0 r1_0) (View.ld x2 r1_1) (View.ld x1 r1_1) (View.ld x3 r1_1) (View.ld x4 r1_1)⟩]

/-- The store covers the buffer. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pipeline on core `c`: the arrays as the region finds them; after the body at point `t`
    each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Body.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import proofs.«142609_j54228257079879_1_alg».proof.Proof.WholeStore
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of `cc2__gin_mm_kernel` on whole staging memrefs, in its two control cases over the grid coordinate: the
    first point (the sums stored) and a later point (the sums added to what windows 7 and 8's buffers hold). -/

/-- What the body stores into window 6's buffer: the MLP of the six input blocks (the skeleton's payload). -/
def out2_6 (x0 x1 : Vec F S2000x128 .f32) (x2 : Vec F S128x128 .f32) (x3 : Vec F S1x128 .f32) (x4 : Vec F S128x128 .f32) (x5 : Vec F S1x128 .f32) : Vec F S2000x128 .f32 := k2_pay3 x0 x1 x2 x3 x4 x5
/-- The column sums of that block, -/
def sum2_7 (x0 x1 : Vec F S2000x128 .f32) (x2 : Vec F S128x128 .f32) (x3 : Vec F S1x128 .f32) (x4 : Vec F S128x128 .f32) (x5 : Vec F S1x128 .f32) : Vec F S1x128 .f32 := k2_pay4 x0 x1 x2 x3 x4 x5
/-- and of its elementwise square. -/
def sum2_8 (x0 x1 : Vec F S2000x128 .f32) (x2 : Vec F S128x128 .f32) (x3 : Vec F S1x128 .f32) (x4 : Vec F S128x128 .f32) (x5 : Vec F S1x128 .f32) : Vec F S1x128 .f32 := k2_pay5 x0 x1 x2 x3 x4 x5

set_option maxHeartbeats 4000000 in
/-- The body at the FIRST point (`i = 0`: the first conditional taken, the second not): on whole staging memrefs, the
    inputs' at read contents and the outputs' at anything, it leaves the block in window 6's buffer and the block's
    column sums in windows 7 and 8's. -/
theorem sound_kernel2_A (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : k2_cond1 i = 1#1) (hc2 : ¬ k2_cond2 i = 1#1)
    (x0 x1 : Vec F S2000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (sum2_7 x0 x1 x2 x3 x4 x5)
            ∗ owns (c : Thread nD τ) arg9 fullShare (sum2_8 x0 x1 x2 x3 x4 x5)) -∗ K ⟨⟩))
      ⊢ wp frame (wpE (defs₀ (F := F)) Variants.none c none) E (cc2__gin_mm_kernel i arg1 harg1 arg2 harg2 arg3 harg3 arg4 harg4 arg5 harg5 arg6 harg6 arg7 harg7 arg8 harg8 arg9 harg9) K := by
  simp only [cc2__gin_mm_kernel_eq_skeleton]; unfold cc2__gin_mm_kernel_skel
  unfold owns out2_6 sum2_7 sum2_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  iexists _; isplitr
  swap; · iexact H8
  ipureintro
  refine (read_writes_unit_zero _ _ hz2 _ _).trans ?_
  sl_unfold_run_names
  simp only [View.readAt_eq_ld, View.ld_unit_zero (S := S2000x128) hz2, View.ld_unit_zero (S := S128x128) hz2, View.ld_unit_zero (S := S1x128) hz2]

set_option maxHeartbeats 4000000 in
/-- The body at a LATER point (`i ≠ 0`: the second conditional taken, the first not): windows 7 and 8's buffers hold
    the running sums `a7`, `a8`; it leaves the block in window 6's buffer and adds the block's column sums to them. -/
theorem sound_kernel2_B (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : ¬ k2_cond1 i = 1#1) (hc2 : k2_cond2 i = 1#1)
    (x0 x1 : Vec F S2000x128 .f32) (x2 : Vec F S128x128 .f32) (x3 : Vec F S1x128 .f32) (x4 : Vec F S128x128 .f32) (x5 : Vec F S1x128 .f32) (a7 a8 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare a7 ∗ owns (c : Thread nD τ) arg9 fullShare a8
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (k2_pay1 (sum2_7 x0 x1 x2 x3 x4 x5) a7)
            ∗ owns (c : Thread nD τ) arg9 fullShare (k2_pay2 (sum2_8 x0 x1 x2 x3 x4 x5) a8)) -∗ K ⟨⟩))
      ⊢ wp frame (wpE (defs₀ (F := F)) Variants.none c none) E (cc2__gin_mm_kernel i arg1 harg1 arg2 harg2 arg3 harg3 arg4 harg4 arg5 harg5 arg6 harg6 arg7 harg7 arg8 harg8 arg9 harg9) K := by
  simp only [cc2__gin_mm_kernel_eq_skeleton]; unfold cc2__gin_mm_kernel_skel
  unfold owns out2_6 sum2_7 sum2_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  iexists _; isplitr
  swap; · iexact H8
  ipureintro
  refine (read_writes_unit_zero _ _ hz2 _ _).trans ?_
  sl_unfold_run_names
  simp only [View.readAt_eq_ld, View.ld_unit_zero (S := S2000x128) hz2, View.ld_unit_zero (S := S128x128) hz2, View.ld_unit_zero (S := S1x128) hz2]

end Cert.KernelIdeal.Hand
end
-- ==== Proof.KI.R2.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import proofs.«142609_j54228257079879_1_alg».proof.Proof.WholeStore
import proofs.«142609_j54228257079879_1_alg».proof.Proof.KI.R2Body
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION of `cc2__gin_mm_kernel` (pipeline 2), at the contents `V` the region finds: the windows' blocks, the running
    column sums of windows 7 and 8 by recursion on the grid point, the proof data and the body obligation. -/

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place (the window is uncut and never idle). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place (the window is uncut and never idle). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place (the window is uncut and never idle). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place (the window is uncut and never idle). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place (the window is uncut and never idle). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is `V`'s and whose body leaves the block in place (the window is uncut and never idle). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The conditions over the grid, and where the accumulators' windows are live -/

/-- The first conditional (`program_id == 0`) is taken at the first point only, -/
theorem hcond2_1 : ∀ t : Fin cfg2.N, k2_cond1 (grid2.coords t) = 1#1 ↔ t.val % 50 = 0 :=
  (by decide +kernel : ∀ t : Fin grid2.N, k2_cond1 (grid2.coords t) = 1#1 ↔ t.val % 50 = 0)
/-- the second (`program_id != 0`) at every other point. -/
theorem hcond2_2 : ∀ t : Fin cfg2.N, k2_cond2 (grid2.coords t) = 1#1 ↔ ¬ t.val % 50 = 0 :=
  (by decide +kernel : ∀ t : Fin grid2.N, k2_cond2 (grid2.coords t) = 1#1 ↔ ¬ t.val % 50 = 0)

/-- One of the two conditionals stores into windows 7 and 8 at every setting of the coordinates: they are never idle. -/
theorem live2_7 : ∀ i : grid2.Coords, cfg2.idle 7 i = false := by decide +kernel
theorem live2_8 : ∀ i : grid2.Coords, cfg2.idle 8 i = false := by decide +kernel

/-! ## The accumulators, point by point -/

/-- The running column sum window 7's buffer holds after the body at position `n`: the first point stores the
    block's sum; each later point adds its block's sum to what the point before left. -/
def acc2_7' (c : Dev nD) : (n : ℕ) → n < cfg2.N → Vec F S1x128 .f32
  | 0, hn => sum2_7 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn => k2_pay1 (sum2_7 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) (acc2_7' c n (Nat.lt_of_succ_lt hn))

/-- The same, at a point of the grid. -/
def acc2_7 (c : Dev nD) (t : Fin cfg2.N) : Vec F S1x128 .f32 := acc2_7' V c t.val t.isLt

/-- At the first point the accumulator is the first block's sum. -/
theorem acc2_7_zero (c : Dev nD) (t : Fin cfg2.N) (h0 : t.val = 0) :
    acc2_7 V c t = sum2_7 (iblk2 V c 0 t) (iblk2 V c 1 t) (iblk2 V c 2 t) (iblk2 V c 3 t) (iblk2 V c 4 t) (iblk2 V c 5 t) := by
  obtain ⟨n, hn⟩ := t
  cases n with
  | zero => rfl
  | succ n => exact absurd h0 (Nat.succ_ne_zero n)

/-- At a later point it is the point's block sum added to the accumulator of the point before. -/
theorem acc2_7_succ (c : Dev nD) (t : Fin cfg2.N) (h0 : t.val ≠ 0) :
    acc2_7 V c t = k2_pay1 (sum2_7 (iblk2 V c 0 t) (iblk2 V c 1 t) (iblk2 V c 2 t) (iblk2 V c 3 t) (iblk2 V c 4 t) (iblk2 V c 5 t))
      (acc2_7 V c ⟨t.val - 1, Nat.lt_of_le_of_lt (Nat.sub_le _ _) t.isLt⟩) := by
  obtain ⟨n, hn⟩ := t
  cases n with
  | zero => exact absurd rfl h0
  | succ n => rfl

/-- The running column sum window 8's buffer holds after the body at position `n`: the first point stores the
    block's sum; each later point adds its block's sum to what the point before left. -/
def acc2_8' (c : Dev nD) : (n : ℕ) → n < cfg2.N → Vec F S1x128 .f32
  | 0, hn => sum2_8 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn => k2_pay2 (sum2_8 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) (acc2_8' c n (Nat.lt_of_succ_lt hn))

/-- The same, at a point of the grid. -/
def acc2_8 (c : Dev nD) (t : Fin cfg2.N) : Vec F S1x128 .f32 := acc2_8' V c t.val t.isLt

/-- At the first point the accumulator is the first block's sum. -/
theorem acc2_8_zero (c : Dev nD) (t : Fin cfg2.N) (h0 : t.val = 0) :
    acc2_8 V c t = sum2_8 (iblk2 V c 0 t) (iblk2 V c 1 t) (iblk2 V c 2 t) (iblk2 V c 3 t) (iblk2 V c 4 t) (iblk2 V c 5 t) := by
  obtain ⟨n, hn⟩ := t
  cases n with
  | zero => rfl
  | succ n => exact absurd h0 (Nat.succ_ne_zero n)

/-- At a later point it is the point's block sum added to the accumulator of the point before. -/
theorem acc2_8_succ (c : Dev nD) (t : Fin cfg2.N) (h0 : t.val ≠ 0) :
    acc2_8 V c t = k2_pay2 (sum2_8 (iblk2 V c 0 t) (iblk2 V c 1 t) (iblk2 V c 2 t) (iblk2 V c 3 t) (iblk2 V c 4 t) (iblk2 V c 5 t))
      (acc2_8 V c ⟨t.val - 1, Nat.lt_of_le_of_lt (Nat.sub_le _ _) t.isLt⟩) := by
  obtain ⟨n, hn⟩ := t
  cases n with
  | zero => exact absurd rfl h0
  | succ n => rfl

/-! ## The pipeline's proof data -/

/-- The proof data of pipeline 2 on core `c`: the arrays as the region finds them (`V`); after the body at point `t`
    each input's buffer at its block, window 6's at the block the body computes, windows 7 and 8's at the running sums;
    the invariant the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => acc2_7 V c t
    | ⟨8, _⟩ => acc2_8 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = acc2_7 V c t := by dsimp only [dat2]
theorem after2_8 (c : Dev nD) (t : Fin cfg2.N) : (dat2 V c).after 8 t = acc2_8 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- At a point after the first, window 7's buffer holds what the body left at the point before: the block is not
    written back in between (only the last point writes it back), the window is live and uncut. -/
theorem before2_7_B (c : Dev nD) (t : Fin cfg2.N) (h0 : t.val ≠ 0) (d) :
    (dat2 V c).before 7 t d = acc2_7 V c ⟨t.val - 1, Nat.lt_of_le_of_lt (Nat.sub_le _ _) t.isLt⟩ := by
  have hN : t.val < 50 := lt_of_lt_of_eq t.isLt (show cfg2.N = 50 from N_2)
  rw [Dat.before_out_kept _ 7 rfl t h0 (Bool.eq_false_iff.mpr fun h => by have := (flush2_7 _).mp h; dsimp only at this; omega)
    live2_7 (fun _ _ => rfl)]
  dsimp only [dat2]

/-- At a point after the first, window 8's buffer holds what the body left at the point before: the block is not
    written back in between (only the last point writes it back), the window is live and uncut. -/
theorem before2_8_B (c : Dev nD) (t : Fin cfg2.N) (h0 : t.val ≠ 0) (d) :
    (dat2 V c).before 8 t d = acc2_8 V c ⟨t.val - 1, Nat.lt_of_le_of_lt (Nat.sub_le _ _) t.isLt⟩ := by
  have hN : t.val < 50 := lt_of_lt_of_eq t.isLt (show cfg2.N = 50 from N_2)
  rw [Dat.before_out_kept _ 8 rfl t h0 (Bool.eq_false_iff.mpr fun h => by have := (flush2_8 _).mp h; dsimp only at this; omega)
    live2_8 (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ (dat2 V c).leavesExact 7 t
    ∗ (dat2 V c).leavesExact 8 t)

set_option maxHeartbeats 4000000 in
/-- The body at any point: the inputs' memrefs hold their blocks; at the first point the first conditional stores the
    block's sums; at a later point windows 7 and 8's buffers hold the running sums of the point before, and the second
    conditional adds the block's sums to them. The invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).leavesExact 7 t = owns (c : Thread nD τ) (st2_7 t) fullShare ((dat2 V c).after 7 t) from by
      unfold Dat.leavesExact; rw [live2_7 (cfg2.grid.coords t)],
    show (dat2 V c).leavesExact 8 t = owns (c : Thread nD τ) (st2_8 t) fullShare ((dat2 V c).after 8 t) from by
      unfold Dat.leavesExact; rw [live2_8 (cfg2.grid.coords t)]]
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  have hN : t.val < 50 := lt_of_lt_of_eq t.isLt (show cfg2.N = 50 from N_2)
  by_cases h0 : t.val = 0
  · rw [acc2_7_zero V c t h0, acc2_8_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_A c Set.univ (grid2.coords t) _ _ _ _ _ _ _ _ _ _ _ _ _ _ _ _ _ _
      ((hcond2_1 t).mpr (by omega)) (fun h => (hcond2_2 t).mp h (by omega)) (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc2_7_succ V c t h0, acc2_8_succ V c t h0]
    simp only [before2_7_B V c t h0, before2_8_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_B c Set.univ (grid2.coords t) _ _ _ _ _ _ _ _ _ _ _ _ _ _ _ _ _ _
      (fun h => absurd ((hcond2_1 t).mp h) (by omega)) ((hcond2_2 t).mpr (by omega)) (iblk2 V c 0 t) (iblk2 V c 1 t) (iblk2 V c 2 t) (iblk2 V c 3 t) (iblk2 V c 4 t) (iblk2 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand
end
-- ==== Proof.KI.R3.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the batch-normalisation kernel `cc3__bn_relu_kernel`

Six windows: inputs 0..4 (the 2000x128 block of rows and four 1x128 rows: mean, variance, scale, shift), output 5
(the 2000x128 block). The body loads each input whole, computes the normalised, scaled, shifted and clamped block
and stores it over the whole output buffer. Windows 1..4 have a constant block index: they are fetched at the
first point only and keep their block at every later point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where it is not
    fetched its block index has not moved, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not: where it is not
    fetched its block index has not moved, and the body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not: where it is not
    fetched its block index has not moved, and the body leaves the buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not: where it is not
    fetched its block index has not moved, and the body leaves the buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not: where it is not
    fetched its block index has not moved, and the body leaves the buffer as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 2000x128 buffer. -/
abbrev r3_0 : Rect S2000x128 := Rect.unit (s := S2000x128) ![0, 0] S2000x128.size inb_S2000x128_S2000x128_0_0
/-- The whole 1x128 buffer. -/
abbrev r3_1 : Rect S1x128 := Rect.unit (s := S1x128) ![0, 0] S1x128.size inb_S1x128_S1x128_0_0

/-! ## What the body leaves in the output window's buffer -/

/-- Window 5's staging buffer after the body, from the input windows' blocks: its one store, over the whole buffer. -/
def out3_5 (x0 : Vec F S2000x128 .f32) (x1 x2 x3 x4 : Vec F S1x128 .f32) : Vec F S2000x128 .f32 :=
  View.canon [⟨r3_0, k3_pay1 (View.ld x0 r3_0) (View.ld x2 r3_1) (View.ld x1 r3_1) (View.ld x3 r3_1) (View.ld x4 r3_1)⟩]

/-- The store covers the buffer. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the pipeline on core `c`: the arrays as the region finds them; after the body at point `t`
    each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4Body.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import proofs.«142609_j54228257079879_1_alg».proof.Proof.WholeStore
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of `cc4__gin_mm_kernel` on whole staging memrefs, in its two control cases over the grid coordinate: the
    first point (the sums stored) and a later point (the sums added to what windows 7 and 8's buffers hold). -/

/-- What the body stores into window 6's buffer: the MLP of the six input blocks (the skeleton's payload). -/
def out4_6 (x0 x1 : Vec F S2000x128 .f32) (x2 : Vec F S128x128 .f32) (x3 : Vec F S1x128 .f32) (x4 : Vec F S128x128 .f32) (x5 : Vec F S1x128 .f32) : Vec F S2000x128 .f32 := k4_pay3 x0 x1 x2 x3 x4 x5
/-- The column sums of that block, -/
def sum4_7 (x0 x1 : Vec F S2000x128 .f32) (x2 : Vec F S128x128 .f32) (x3 : Vec F S1x128 .f32) (x4 : Vec F S128x128 .f32) (x5 : Vec F S1x128 .f32) : Vec F S1x128 .f32 := k4_pay4 x0 x1 x2 x3 x4 x5
/-- and of its elementwise square. -/
def sum4_8 (x0 x1 : Vec F S2000x128 .f32) (x2 : Vec F S128x128 .f32) (x3 : Vec F S1x128 .f32) (x4 : Vec F S128x128 .f32) (x5 : Vec F S1x128 .f32) : Vec F S1x128 .f32 := k4_pay5 x0 x1 x2 x3 x4 x5

set_option maxHeartbeats 4000000 in
/-- The body at the FIRST point (`i = 0`: the first conditional taken, the second not): on whole staging memrefs, the
    inputs' at read contents and the outputs' at anything, it leaves the block in window 6's buffer and the block's
    column sums in windows 7 and 8's. -/
theorem sound_kernel4_A (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : k4_cond1 i = 1#1) (hc2 : ¬ k4_cond2 i = 1#1)
    (x0 x1 : Vec F S2000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)
            ∗ owns (c : Thread nD τ) arg8 fullShare (sum4_7 x0 x1 x2 x3 x4 x5)
            ∗ owns (c : Thread nD τ) arg9 fullShare (sum4_8 x0 x1 x2 x3 x4 x5)) -∗ K ⟨⟩))
      ⊢ wp frame (wpE (defs₀ (F := F)) Variants.none c none) E (cc4__gin_mm_kernel i arg1 harg1 arg2 harg2 arg3 harg3 arg4 harg4 arg5 harg5 arg6 harg6 arg7 harg7 arg8 harg8 arg9 harg9) K := by
  simp only [cc4__gin_mm_kernel_eq_skeleton]; unfold cc4__gin_mm_kernel_skel
  unfold owns out4_6 sum4_7 sum4_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  iexists _; isplitr
  swap; · iexact H8
  ipureintro
  refine (read_writes_unit_zero _ _ hz2 _ _).trans ?_
  sl_unfold_run_names
  simp only [View.readAt_eq_ld, View.ld_unit_zero (S := S2000x128) hz2, View.ld_unit_zero (S := S128x128) hz2, View.ld_unit_zero (S := S1x128) hz2]

set_option maxHeartbeats 4000000 in
/-- The body at a LATER point (`i ≠ 0`: the second conditional taken, the first not): windows 7 and 8's buffers hold
    the running sums `a7`, `a8`; it leaves the block in window 6's buffer and adds the block's column sums to them. -/
theorem sound_kernel4_B (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole)
    (hc1 : ¬ k4_cond1 i = 1#1) (hc2 : k4_cond2 i = 1#1)
    (x0 x1 : Vec F S2000x128 .f32) (x2 : Vec F S128x128 .f32) (x3 : Vec F S1x128 .f32) (x4 : Vec F S128x128 .f32) (x5 : Vec F S1x128 .f32) (a7 a8 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare a7 ∗ owns (c : Thread nD τ) arg9 fullShare a8
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)
            ∗ owns (c : Thread nD τ) arg8 fullShare (k4_pay1 (sum4_7 x0 x1 x2 x3 x4 x5) a7)
            ∗ owns (c : Thread nD τ) arg9 fullShare (k4_pay2 (sum4_8 x0 x1 x2 x3 x4 x5) a8)) -∗ K ⟨⟩))
      ⊢ wp frame (wpE (defs₀ (F := F)) Variants.none c none) E (cc4__gin_mm_kernel i arg1 harg1 arg2 harg2 arg3 harg3 arg4 harg4 arg5 harg5 arg6 harg6 arg7 harg7 arg8 harg8 arg9 harg9) K := by
  simp only [cc4__gin_mm_kernel_eq_skeleton]; unfold cc4__gin_mm_kernel_skel
  unfold owns out4_6 sum4_7 sum4_8
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  isplitl [H7]
  · iexists _; isplitr
    swap; · iexact H7
    ipureintro
    refine (read_writes_unit_zero _ _ hz2 _ _).trans ?_
    sl_unfold_run_names
    simp only [View.readAt_eq_ld, View.ld_unit_zero (S := S2000x128) hz2, View.ld_unit_zero (S := S128x128) hz2, View.ld_unit_zero (S := S1x128) hz2]
  iexists _; isplitr
  swap; · iexact H8
  ipureintro
  refine (read_writes_unit_zero _ _ hz2 _ _).trans ?_
  sl_unfold_run_names
  simp only [View.readAt_eq_ld, View.ld_unit_zero (S := S2000x128) hz2, View.ld_unit_zero (S := S128x128) hz2, View.ld_unit_zero (S := S1x128) hz2]

end Cert.KernelIdeal.Hand
end
-- ==== Proof.KI.R4.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import proofs.«142609_j54228257079879_1_alg».proof.Proof.WholeStore
import proofs.«142609_j54228257079879_1_alg».proof.Proof.KI.R4Body
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION of `cc4__gin_mm_kernel` (pipeline 4), at the contents `V` the region finds: the windows' blocks, the running
    column sums of windows 7 and 8 by recursion on the grid point, the proof data and the body obligation. -/

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place (the window is uncut and never idle). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is `V`'s and whose body leaves the block in place (the window is uncut and never idle). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is `V`'s and whose body leaves the block in place (the window is uncut and never idle). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is `V`'s and whose body leaves the block in place (the window is uncut and never idle). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data
    whose array is `V`'s and whose body leaves the block in place (the window is uncut and never idle). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof data
    whose array is `V`'s and whose body leaves the block in place (the window is uncut and never idle). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The conditions over the grid, and where the accumulators' windows are live -/

/-- The first conditional (`program_id == 0`) is taken at the first point only, -/
theorem hcond4_1 : ∀ t : Fin cfg4.N, k4_cond1 (grid4.coords t) = 1#1 ↔ t.val % 50 = 0 :=
  (by decide +kernel : ∀ t : Fin grid4.N, k4_cond1 (grid4.coords t) = 1#1 ↔ t.val % 50 = 0)
/-- the second (`program_id != 0`) at every other point. -/
theorem hcond4_2 : ∀ t : Fin cfg4.N, k4_cond2 (grid4.coords t) = 1#1 ↔ ¬ t.val % 50 = 0 :=
  (by decide +kernel : ∀ t : Fin grid4.N, k4_cond2 (grid4.coords t) = 1#1 ↔ ¬ t.val % 50 = 0)

/-- One of the two conditionals stores into windows 7 and 8 at every setting of the coordinates: they are never idle. -/
theorem live4_7 : ∀ i : grid4.Coords, cfg4.idle 7 i = false := by decide +kernel
theorem live4_8 : ∀ i : grid4.Coords, cfg4.idle 8 i = false := by decide +kernel

/-! ## The accumulators, point by point -/

/-- The running column sum window 7's buffer holds after the body at position `n`: the first point stores the
    block's sum; each later point adds its block's sum to what the point before left. -/
def acc4_7' (c : Dev nD) : (n : ℕ) → n < cfg4.N → Vec F S1x128 .f32
  | 0, hn => sum4_7 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)
  | n + 1, hn => k4_pay1 (sum4_7 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)) (acc4_7' c n (Nat.lt_of_succ_lt hn))

/-- The same, at a point of the grid. -/
def acc4_7 (c : Dev nD) (t : Fin cfg4.N) : Vec F S1x128 .f32 := acc4_7' V c t.val t.isLt

/-- At the first point the accumulator is the first block's sum. -/
theorem acc4_7_zero (c : Dev nD) (t : Fin cfg4.N) (h0 : t.val = 0) :
    acc4_7 V c t = sum4_7 (iblk4 V c 0 t) (iblk4 V c 1 t) (iblk4 V c 2 t) (iblk4 V c 3 t) (iblk4 V c 4 t) (iblk4 V c 5 t) := by
  obtain ⟨n, hn⟩ := t
  cases n with
  | zero => rfl
  | succ n => exact absurd h0 (Nat.succ_ne_zero n)

/-- At a later point it is the point's block sum added to the accumulator of the point before. -/
theorem acc4_7_succ (c : Dev nD) (t : Fin cfg4.N) (h0 : t.val ≠ 0) :
    acc4_7 V c t = k4_pay1 (sum4_7 (iblk4 V c 0 t) (iblk4 V c 1 t) (iblk4 V c 2 t) (iblk4 V c 3 t) (iblk4 V c 4 t) (iblk4 V c 5 t))
      (acc4_7 V c ⟨t.val - 1, Nat.lt_of_le_of_lt (Nat.sub_le _ _) t.isLt⟩) := by
  obtain ⟨n, hn⟩ := t
  cases n with
  | zero => exact absurd rfl h0
  | succ n => rfl

/-- The running column sum window 8's buffer holds after the body at position `n`: the first point stores the
    block's sum; each later point adds its block's sum to what the point before left. -/
def acc4_8' (c : Dev nD) : (n : ℕ) → n < cfg4.N → Vec F S1x128 .f32
  | 0, hn => sum4_8 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)
  | n + 1, hn => k4_pay2 (sum4_8 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)) (acc4_8' c n (Nat.lt_of_succ_lt hn))

/-- The same, at a point of the grid. -/
def acc4_8 (c : Dev nD) (t : Fin cfg4.N) : Vec F S1x128 .f32 := acc4_8' V c t.val t.isLt

/-- At the first point the accumulator is the first block's sum. -/
theorem acc4_8_zero (c : Dev nD) (t : Fin cfg4.N) (h0 : t.val = 0) :
    acc4_8 V c t = sum4_8 (iblk4 V c 0 t) (iblk4 V c 1 t) (iblk4 V c 2 t) (iblk4 V c 3 t) (iblk4 V c 4 t) (iblk4 V c 5 t) := by
  obtain ⟨n, hn⟩ := t
  cases n with
  | zero => rfl
  | succ n => exact absurd h0 (Nat.succ_ne_zero n)

/-- At a later point it is the point's block sum added to the accumulator of the point before. -/
theorem acc4_8_succ (c : Dev nD) (t : Fin cfg4.N) (h0 : t.val ≠ 0) :
    acc4_8 V c t = k4_pay2 (sum4_8 (iblk4 V c 0 t) (iblk4 V c 1 t) (iblk4 V c 2 t) (iblk4 V c 3 t) (iblk4 V c 4 t) (iblk4 V c 5 t))
      (acc4_8 V c ⟨t.val - 1, Nat.lt_of_le_of_lt (Nat.sub_le _ _) t.isLt⟩) := by
  obtain ⟨n, hn⟩ := t
  cases n with
  | zero => exact absurd rfl h0
  | succ n => rfl

/-! ## The pipeline's proof data -/

/-- The proof data of pipeline 4 on core `c`: the arrays as the region finds them (`V`); after the body at point `t`
    each input's buffer at its block, window 6's at the block the body computes, windows 7 and 8's at the running sums;
    the invariant the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
    | ⟨7, _⟩ => acc4_7 V c t
    | ⟨8, _⟩ => acc4_8 V c t
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]
theorem after4_7 (c : Dev nD) (t : Fin cfg4.N) : (dat4 V c).after 7 t = acc4_7 V c t := by dsimp only [dat4]
theorem after4_8 (c : Dev nD) (t : Fin cfg4.N) : (dat4 V c).after 8 t = acc4_8 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- At a point after the first, window 7's buffer holds what the body left at the point before: the block is not
    written back in between (only the last point writes it back), the window is live and uncut. -/
theorem before4_7_B (c : Dev nD) (t : Fin cfg4.N) (h0 : t.val ≠ 0) (d) :
    (dat4 V c).before 7 t d = acc4_7 V c ⟨t.val - 1, Nat.lt_of_le_of_lt (Nat.sub_le _ _) t.isLt⟩ := by
  have hN : t.val < 50 := lt_of_lt_of_eq t.isLt (show cfg4.N = 50 from N_4)
  rw [Dat.before_out_kept _ 7 rfl t h0 (Bool.eq_false_iff.mpr fun h => by have := (flush4_7 _).mp h; dsimp only at this; omega)
    live4_7 (fun _ _ => rfl)]
  dsimp only [dat4]

/-- At a point after the first, window 8's buffer holds what the body left at the point before: the block is not
    written back in between (only the last point writes it back), the window is live and uncut. -/
theorem before4_8_B (c : Dev nD) (t : Fin cfg4.N) (h0 : t.val ≠ 0) (d) :
    (dat4 V c).before 8 t d = acc4_8 V c ⟨t.val - 1, Nat.lt_of_le_of_lt (Nat.sub_le _ _) t.isLt⟩ := by
  have hN : t.val < 50 := lt_of_lt_of_eq t.isLt (show cfg4.N = 50 from N_4)
  rw [Dat.before_out_kept _ 8 rfl t h0 (Bool.eq_false_iff.mpr fun h => by have := (flush4_8 _).mp h; dsimp only at this; omega)
    live4_8 (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ (dat4 V c).leavesExact 7 t
    ∗ (dat4 V c).leavesExact 8 t)

set_option maxHeartbeats 4000000 in
/-- The body at any point: the inputs' memrefs hold their blocks; at the first point the first conditional stores the
    block's sums; at a later point windows 7 and 8's buffers hold the running sums of the point before, and the second
    conditional adds the block's sums to them. The invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).leavesExact 7 t = owns (c : Thread nD τ) (st4_7 t) fullShare ((dat4 V c).after 7 t) from by
      unfold Dat.leavesExact; rw [live4_7 (cfg4.grid.coords t)],
    show (dat4 V c).leavesExact 8 t = owns (c : Thread nD τ) (st4_8 t) fullShare ((dat4 V c).after 8 t) from by
      unfold Dat.leavesExact; rw [live4_8 (cfg4.grid.coords t)]]
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  have hN : t.val < 50 := lt_of_lt_of_eq t.isLt (show cfg4.N = 50 from N_4)
  by_cases h0 : t.val = 0
  · rw [acc4_7_zero V c t h0, acc4_8_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel4_A c Set.univ (grid4.coords t) _ _ _ _ _ _ _ _ _ _ _ _ _ _ _ _ _ _
      ((hcond4_1 t).mpr (by omega)) (fun h => (hcond4_2 t).mp h (by omega)) (iblk4 V c 0 t) (iblk4 V c 1 t) (iblk4 V c 2 t) (iblk4 V c 3 t) (iblk4 V c 4 t) (iblk4 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc4_7_succ V c t h0, acc4_8_succ V c t h0]
    simp only [before4_7_B V c t h0, before4_8_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel4_B c Set.univ (grid4.coords t) _ _ _ _ _ _ _ _ _ _ _ _ _ _ _ _ _ _
      (fun h => absurd ((hcond4_1 t).mp h) (by omega)) ((hcond4_2 t).mpr (by omega)) (iblk4 V c 0 t) (iblk4 V c 1 t) (iblk4 V c 2 t) (iblk4 V c 3 t) (iblk4 V c 4 t) (iblk4 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.KernelIdeal.Hand
end
-- ==== Proof.KI.R5.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the batch-normalisation kernel `cc5__bn_relu_kernel`

Six windows: inputs 0..4 (the 2000x128 block of rows and four 1x128 rows: mean, variance, scale, shift), output 5
(the 2000x128 block). The body loads each input whole, computes the normalised, scaled, shifted and clamped block
and stores it over the whole output buffer. Windows 1..4 have a constant block index: they are fetched at the
first point only and keep their block at every later point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: where it is not
    fetched its block index has not moved, and the body leaves the buffer as it found it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not: where it is not
    fetched its block index has not moved, and the body leaves the buffer as it found it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not: where it is not
    fetched its block index has not moved, and the body leaves the buffer as it found it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not: where it is not
    fetched its block index has not moved, and the body leaves the buffer as it found it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not: where it is not
    fetched its block index has not moved, and the body leaves the buffer as it found it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000x128 buffer. -/
abbrev r5_0 : Rect S2000x128 := Rect.unit (s := S2000x128) ![0, 0] S2000x128.size inb_S2000x128_S2000x128_0_0
/-- The whole 1x128 buffer. -/
abbrev r5_1 : Rect S1x128 := Rect.unit (s := S1x128) ![0, 0] S1x128.size inb_S1x128_S1x128_0_0

/-! ## What the body leaves in the output window's buffer -/

/-- Window 5's staging buffer after the body, from the input windows' blocks: its one store, over the whole buffer. -/
def out5_5 (x0 : Vec F S2000x128 .f32) (x1 x2 x3 x4 : Vec F S1x128 .f32) : Vec F S2000x128 .f32 :=
  View.canon [⟨r5_0, k5_pay1 (View.ld x0 r5_0) (View.ld x2 r5_1) (View.ld x1 r5_1) (View.ld x3 r5_1) (View.ld x4 r5_1)⟩]

/-- The store covers the buffer. -/
theorem cover5_5 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the pipeline on core `c`: the arrays as the region finds them; after the body at point `t`
    each input's buffer at its block and the output's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    the core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the readout kernel `cc6__readout_kernel`

Eight windows on a grid of one point: inputs 0..6 (the 1024x128 pooled rows, and the weights and bias rows of three
dense layers), output 7 (the 1024x12 result). The body loads each input whole, computes the three layers and stores
the result over the whole output buffer. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, fetched there or not. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S1024x128 := Rect.unit (s := S1024x128) ![0, 0] S1024x128.size inb_S1024x128_S1024x128_0_0
abbrev r6_1 : Rect S128x512 := Rect.unit (s := S128x512) ![0, 0] S128x512.size inb_S128x512_S128x512_0_0
abbrev r6_2 : Rect S1x512 := Rect.unit (s := S1x512) ![0, 0] S1x512.size inb_S1x512_S1x512_0_0
abbrev r6_3 : Rect S512x256 := Rect.unit (s := S512x256) ![0, 0] S512x256.size inb_S512x256_S512x256_0_0
abbrev r6_4 : Rect S1x256 := Rect.unit (s := S1x256) ![0, 0] S1x256.size inb_S1x256_S1x256_0_0
abbrev r6_5 : Rect S256x12 := Rect.unit (s := S256x12) ![0, 0] S256x12.size inb_S256x12_S256x12_0_0
abbrev r6_6 : Rect S1x12 := Rect.unit (s := S1x12) ![0, 0] S1x12.size inb_S1x12_S1x12_0_0
abbrev r6_7 : Rect S1024x12 := Rect.unit (s := S1024x12) ![0, 0] S1024x12.size inb_S1024x12_S1024x12_0_0

/-! ## What the body leaves in the output window's buffer -/

/-- Window 7's staging buffer after the body, from the input windows' blocks: its one store, over the whole buffer. -/
def out6_7 (x0 : Vec F S1024x128 .f32) (x1 : Vec F S128x512 .f32) (x2 : Vec F S1x512 .f32) (x3 : Vec F S512x256 .f32) (x4 : Vec F S1x256 .f32) (x5 : Vec F S256x12 .f32) (x6 : Vec F S1x12 .f32) : Vec F S1024x12 .f32 :=
  View.canon [⟨r6_7, k6_pay1 (View.ld x0 r6_0) (View.ld x1 r6_1) (View.ld x2 r6_2) (View.ld x3 r6_3) (View.ld x4 r6_4) (View.ld x5 r6_5) (View.ld x6 r6_6)⟩]

/-- The store covers the buffer. -/
theorem cover6_7 (p0 : Vec F S1024x12 .f32) (y : S1024x12.Idx) :
    ∃ pc ∈ ([⟨r6_7, p0⟩] : List (View.Piece (Elt F) S1024x12 .f32)), y ∈ pc.1.set :=
  View.cover_of_tiled [⟨r6_7, p0⟩] S1024x12.size (by rfl) y

/-! ## The body's triple -/

set_option maxHeartbeats 1000000 in
/-- The kernel body on whole staging memrefs, the inputs' at read contents `xW` and the output's at anything, runs to
    the continuation holding the inputs' as they were and the output's at `out6_7` of the inputs'. -/
theorem sound_kernel6 (c : Dev nD) (E : Set ℕ) (i : grid6.Coords)
    (arg1 : Memref sig .tc .vmem S1024x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S512x256 .f32) (harg4 : arg4.IsWhole)
    (arg5 : Memref sig .tc .vmem S1x256 .f32) (harg5 : arg5.IsWhole)
    (arg6 : Memref sig .tc .vmem S256x12 .f32) (harg6 : arg6.IsWhole)
    (arg7 : Memref sig .tc .vmem S1x12 .f32) (harg7 : arg7.IsWhole)
    (arg8 : Memref sig .tc .vmem S1024x12 .f32) (harg8 : arg8.IsWhole)
    (x0 : Vec F S1024x128 .f32) (x1 : Vec F S128x512 .f32) (x2 : Vec F S1x512 .f32) (x3 : Vec F S512x256 .f32) (x4 : Vec F S1x256 .f32) (x5 : Vec F S256x12 .f32) (x6 : Vec F S1x12 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out6_7 x0 x1 x2 x3 x4 x5 x6)) -∗ K ⟨⟩))
      ⊢ wp frame (wpE (defs₀ (F := F)) Variants.none c none) E (cc6__readout_kernel i arg1 harg1 arg2 harg2 arg3 harg3 arg4 harg4 arg5 harg5 arg6 harg6 arg7 harg7 arg8 harg8) K := by
  simp only [cc6__readout_kernel_eq_skeleton]; unfold cc6__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of the pipeline on core `c`: the arrays as the region finds them; after the body at point `t`
    each input's buffer at its block and the output's at `out6_7` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so `sound_kernel6` applies; the invariant and
    the core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Run.lean ====
/-
  The idealized kernel program run from launch to return: seven kernel regions with a stretch of host operations
  before each. Between two items every buffer that is not scoped to a kernel is held at a known content: the launch
  memory, then each host stretch applied, then at each region's exit its windows' arrays at what the pipeline leaves
  (an input's array as entered, an output's array with every block written back) and every other buffer as entered.
  The run ends with every such buffer at the last of these contents; in particular the result array holds what the
  last region wrote and every argument array holds its launch contents.
-/
import proofs.«142609_j54228257079879_1_alg».proof.Proof.KI.R0
import proofs.«142609_j54228257079879_1_alg».proof.Proof.KI.R1
import proofs.«142609_j54228257079879_1_alg».proof.Proof.KI.R2
import proofs.«142609_j54228257079879_1_alg».proof.Proof.KI.R3
import proofs.«142609_j54228257079879_1_alg».proof.Proof.KI.R4
import proofs.«142609_j54228257079879_1_alg».proof.Proof.KI.R5
import proofs.«142609_j54228257079879_1_alg».proof.Proof.KI.R6
import proofs.«142609_j54228257079879_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch before region 0. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the host stretch before region 1. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After the host stretch before region 2. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After the host stretch before region 3. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array leaves region 3 as it entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-- After the host stretch before region 4. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- An input window's array leaves region 4 as it entered. -/
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))

/-- After the host stretch before region 5. -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b
/-- At region 5's exit: its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- An input window's array leaves region 5 as it entered. -/
theorem W12_in (c : Dev nD) (w : Fin cfg5.W) (hw : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hw _).trans (A_eq5 (V11 m ρ) c w))

/-- After the host stretch before region 6. -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b
/-- At region 6's exit: its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- An input window's array leaves region 6 as it entered. -/
theorem W14_in (c : Dev nD) (w : Fin cfg6.W) (hw : (cfg6.win w).isOut = false) :
    W14 m ρ c (Proc.devRef .tc (Pipeline.arrRef spec6 w)) = W13 m ρ c (Proc.devRef .tc (Pipeline.arrRef spec6 w)) :=
  (W14_arr m ρ c w).trans (((dat6 (V13 m ρ) c).arrAt_in w hw _).trans (A_eq6 (V13 m ρ) c w))

/-! ## The arguments end as launched: no host operation writes one, and a region reads one only through an input window -/
theorem W14_main_arg0 (c : Dev nD) : W14 m ρ c (Proc.devRef .tc main_arg0) = m ((c : Thread nD τ).loc main_arg0) :=
  (W14_of_ne m ρ c main_arg0 (by decide)).trans <|
  (StableHlo.after_of_writes_sub hostOps6 _ hostOps6_writes (by decide : main_arg0 ∉ hostOps6_W)).trans <|
  (W12_of_ne m ρ c main_arg0 (by decide)).trans <|
  (StableHlo.after_of_writes_sub hostOps5 _ hostOps5_writes (by decide : main_arg0 ∉ hostOps5_W)).trans <|
  (W10_of_ne m ρ c main_arg0 (by decide)).trans <|
  (StableHlo.after_of_writes_sub hostOps4 _ hostOps4_writes (by decide : main_arg0 ∉ hostOps4_W)).trans <|
  (W8_of_ne m ρ c main_arg0 (by decide)).trans <|
  (StableHlo.after_of_writes_sub hostOps3 _ hostOps3_writes (by decide : main_arg0 ∉ hostOps3_W)).trans <|
  (W6_of_ne m ρ c main_arg0 (by decide)).trans <|
  (StableHlo.after_of_writes_sub hostOps2 _ hostOps2_writes (by decide : main_arg0 ∉ hostOps2_W)).trans <|
  (W4_of_ne m ρ c main_arg0 (by decide)).trans <|
  (StableHlo.after_of_writes_sub hostOps1 _ hostOps1_writes (by decide : main_arg0 ∉ hostOps1_W)).trans <|
  (W2_in m ρ c 0 rfl).trans <|
  (StableHlo.after_of_writes_sub hostOps0 _ hostOps0_writes (by decide : main_arg0 ∉ hostOps0_W)).trans rfl
theorem W14_main_arg1 (c : Dev nD) : W14 m ρ c (Proc.devRef .tc main_arg1) = m ((c : Thread nD τ).loc main_arg1) :=
  (W14_of_ne m ρ c main_arg1 (by decide)).trans <|
  (StableHlo.after_of_writes_sub hostOps6 _ hostOps6_writes (by decide : main_arg1 ∉ hostOps6_W)).trans <|
  (W12_of_ne m ρ c main_arg1 (by decide)).trans <|
  (StableHlo.after_of_writes_sub hostOps5 _ hostOps5_writes (by decide : main_arg1 ∉ hostOps5_W)).trans <|
  (W10_of_ne m ρ c main_arg1 (by decide)).trans <|
  (StableHlo.after_of_writes_sub hostOps4 _ hostOps4_writes (by decide : main_arg1 ∉ hostOps4_W)).trans <|
  (W8_of_ne m ρ c main_arg1 (by decide)).trans <|
  (StableHlo.after_of_writes_sub hostOps3 _ hostOps3_writes (by decide : main_arg1 ∉ hostOps3_W)).trans <|
  (W6_of_ne m ρ c main_arg1 (by decide)).trans <|
  (StableHlo.after_of_writes_sub hostOps2 _ hostOps2_writes (by decide : main_arg1 ∉ hostOps2_W)).trans <|
  (W4_of_ne m ρ c main_arg1 (by decide)).trans <|
  (StableHlo.after_of_writes_sub hostOps1 _ hostOps1_writes (by decide : main_arg1 ∉ hostOps1_W)).trans <|
  (W2_of_ne m ρ c main_arg1 (by decide)).trans <|
  (StableHlo.after_of_writes_sub hostOps0 _ hostOps0_writes (by decide : main_arg1 ∉ hostOps0_W)).trans rfl
theorem W14_main_arg2 (c : Dev nD) : W14 m ρ c (Proc.devRef .tc main_arg2) = m ((c : Thread nD τ).loc main_arg2) :=
  (W14_of_ne m ρ c main_arg2 (by decide)).trans <|
  (StableHlo.after_of_writes_sub hostOps6 _ hostOps6_writes (by decide : main_arg2 ∉ hostOps6_W)).trans <|
  (W12_of_ne m ρ c main_arg2 (by decide)).trans <|
  (StableHlo.after_of_writes_sub hostOps5 _ hostOps5_writes (by decide : main_arg2 ∉ hostOps5_W)).trans <|
  (W10_of_ne m ρ c main_arg2 (by decide)).trans <|
  (StableHlo.after_of_writes_sub hostOps4 _ hostOps4_writes (by decide : main_arg2 ∉ hostOps4_W)).trans <|
  (W8_of_ne m ρ c main_arg2 (by decide)).trans <|
  (StableHlo.after_of_writes_sub hostOps3 _ hostOps3_writes (by decide : main_arg2 ∉ hostOps3_W)).trans <|
  (W6_of_ne m ρ c main_arg2 (by decide)).trans <|
  (StableHlo.after_of_writes_sub hostOps2 _ hostOps2_writes (by decide : main_arg2 ∉ hostOps2_W)).trans <|
  (W4_of_ne m ρ c main_arg2 (by decide)).trans <|
  (StableHlo.after_of_writes_sub hostOps1 _ hostOps1_writes (by decide : main_arg2 ∉ hostOps1_W)).trans <|
  (W2_of_ne m ρ c main_arg2 (by decide)).trans <|
  (StableHlo.after_of_writes_sub hostOps0 _ hostOps0_writes (by decide : main_arg2 ∉ hostOps0_W)).trans rfl
theorem W14_main_arg3 (c : Dev nD) : W14 m ρ c (Proc.devRef .tc main_arg3) = m ((c : Thread nD τ).loc main_arg3) :=
  (W14_of_ne m ρ c main_arg3 (by decide)).trans <|
  (StableHlo.after_of_writes_sub hostOps6 _ hostOps6_writes (by decide : main_arg3 ∉ hostOps6_W)).trans <|
  (W12_of_ne m ρ c main_arg3 (by decide)).trans <|
  (StableHlo.after_of_writes_sub hostOps5 _ hostOps5_writes (by decide : main_arg3 ∉ hostOps5_W)).trans <|
  (W10_of_ne m ρ c main_arg3 (by decide)).trans <|
  (StableHlo.after_of_writes_sub hostOps4 _ hostOps4_writes (by decide : main_arg3 ∉ hostOps4_W)).trans <|
  (W8_of_ne m ρ c main_arg3 (by decide)).trans <|
  (StableHlo.after_of_writes_sub hostOps3 _ hostOps3_writes (by decide : main_arg3 ∉ hostOps3_W)).trans <|
  (W6_of_ne m ρ c main_arg3 (by decide)).trans <|
  (StableHlo.after_of_writes_sub hostOps2 _ hostOps2_writes (by decide : main_arg3 ∉ hostOps2_W)).trans <|
  (W4_of_ne m ρ c main_arg3 (by decide)).trans <|
  (StableHlo.after_of_writes_sub hostOps1 _ hostOps1_writes (by decide : main_arg3 ∉ hostOps1_W)).trans <|
  (W2_in m ρ c 2 rfl).trans <|
  (StableHlo.after_of_writes_sub hostOps0 _ hostOps0_writes (by decide : main_arg3 ∉ hostOps0_W)).trans rfl
theorem W14_main_arg4 (c : Dev nD) : W14 m ρ c (Proc.devRef .tc main_arg4) = m ((c : Thread nD τ).loc main_arg4) :=
  (W14_of_ne m ρ c main_arg4 (by decide)).trans <|
  (StableHlo.after_of_writes_sub hostOps6 _ hostOps6_writes (by decide : main_arg4 ∉ hostOps6_W)).trans <|
  (W12_of_ne m ρ c main_arg4 (by decide)).trans <|
  (StableHlo.after_of_writes_sub hostOps5 _ hostOps5_writes (by decide : main_arg4 ∉ hostOps5_W)).trans <|
  (W10_of_ne m ρ c main_arg4 (by decide)).trans <|
  (StableHlo.after_of_writes_sub hostOps4 _ hostOps4_writes (by decide : main_arg4 ∉ hostOps4_W)).trans <|
  (W8_of_ne m ρ c main_arg4 (by decide)).trans <|
  (StableHlo.after_of_writes_sub hostOps3 _ hostOps3_writes (by decide : main_arg4 ∉ hostOps3_W)).trans <|
  (W6_of_ne m ρ c main_arg4 (by decide)).trans <|
  (StableHlo.after_of_writes_sub hostOps2 _ hostOps2_writes (by decide : main_arg4 ∉ hostOps2_W)).trans <|
  (W4_of_ne m ρ c main_arg4 (by decide)).trans <|
  (StableHlo.after_of_writes_sub hostOps1 _ hostOps1_writes (by decide : main_arg4 ∉ hostOps1_W)).trans <|
  (W2_of_ne m ρ c main_arg4 (by decide)).trans <|
  (StableHlo.after_of_writes_sub hostOps0 _ hostOps0_writes (by decide : main_arg4 ∉ hostOps0_W)).trans rfl
theorem W14_main_arg5 (c : Dev nD) : W14 m ρ c (Proc.devRef .tc main_arg5) = m ((c : Thread nD τ).loc main_arg5) :=
  (W14_of_ne m ρ c main_arg5 (by decide)).trans <|
  (StableHlo.after_of_writes_sub hostOps6 _ hostOps6_writes (by decide : main_arg5 ∉ hostOps6_W)).trans <|
  (W12_of_ne m ρ c main_arg5 (by decide)).trans <|
  (StableHlo.after_of_writes_sub hostOps5 _ hostOps5_writes (by decide : main_arg5 ∉ hostOps5_W)).trans <|
  (W10_of_ne m ρ c main_arg5 (by decide)).trans <|
  (StableHlo.after_of_writes_sub hostOps4 _ hostOps4_writes (by decide : main_arg5 ∉ hostOps4_W)).trans <|
  (W8_of_ne m ρ c main_arg5 (by decide)).trans <|
  (StableHlo.after_of_writes_sub hostOps3 _ hostOps3_writes (by decide : main_arg5 ∉ hostOps3_W)).trans <|
  (W6_of_ne m ρ c main_arg5 (by decide)).trans <|
  (StableHlo.after_of_writes_sub hostOps2 _ hostOps2_writes (by decide : main_arg5 ∉ hostOps2_W)).trans <|
  (W4_of_ne m ρ c main_arg5 (by decide)).trans <|
  (StableHlo.after_of_writes_sub hostOps1 _ hostOps1_writes (by decide : main_arg5 ∉ hostOps1_W)).trans <|
  (W2_in m ρ c 4 rfl).trans <|
  (StableHlo.after_of_writes_sub hostOps0 _ hostOps0_writes (by decide : main_arg5 ∉ hostOps0_W)).trans rfl
theorem W14_main_arg6 (c : Dev nD) : W14 m ρ c (Proc.devRef .tc main_arg6) = m ((c : Thread nD τ).loc main_arg6) :=
  (W14_of_ne m ρ c main_arg6 (by decide)).trans <|
  (StableHlo.after_of_writes_sub hostOps6 _ hostOps6_writes (by decide : main_arg6 ∉ hostOps6_W)).trans <|
  (W12_of_ne m ρ c main_arg6 (by decide)).trans <|
  (StableHlo.after_of_writes_sub hostOps5 _ hostOps5_writes (by decide : main_arg6 ∉ hostOps5_W)).trans <|
  (W10_of_ne m ρ c main_arg6 (by decide)).trans <|
  (StableHlo.after_of_writes_sub hostOps4 _ hostOps4_writes (by decide : main_arg6 ∉ hostOps4_W)).trans <|
  (W8_of_ne m ρ c main_arg6 (by decide)).trans <|
  (StableHlo.after_of_writes_sub hostOps3 _ hostOps3_writes (by decide : main_arg6 ∉ hostOps3_W)).trans <|
  (W6_of_ne m ρ c main_arg6 (by decide)).trans <|
  (StableHlo.after_of_writes_sub hostOps2 _ hostOps2_writes (by decide : main_arg6 ∉ hostOps2_W)).trans <|
  (W4_of_ne m ρ c main_arg6 (by decide)).trans <|
  (StableHlo.after_of_writes_sub hostOps1 _ hostOps1_writes (by decide : main_arg6 ∉ hostOps1_W)).trans <|
  (W2_of_ne m ρ c main_arg6 (by decide)).trans <|
  (StableHlo.after_of_writes_sub hostOps0 _ hostOps0_writes (by decide : main_arg6 ∉ hostOps0_W)).trans rfl
theorem W14_main_arg7 (c : Dev nD) : W14 m ρ c (Proc.devRef .tc main_arg7) = m ((c : Thread nD τ).loc main_arg7) :=
  (W14_of_ne m ρ c main_arg7 (by decide)).trans <|
  (StableHlo.after_of_writes_sub hostOps6 _ hostOps6_writes (by decide : main_arg7 ∉ hostOps6_W)).trans <|
  (W12_of_ne m ρ c main_arg7 (by decide)).trans <|
  (StableHlo.after_of_writes_sub hostOps5 _ hostOps5_writes (by decide : main_arg7 ∉ hostOps5_W)).trans <|
  (W10_of_ne m ρ c main_arg7 (by decide)).trans <|
  (StableHlo.after_of_writes_sub hostOps4 _ hostOps4_writes (by decide : main_arg7 ∉ hostOps4_W)).trans <|
  (W8_of_ne m ρ c main_arg7 (by decide)).trans <|
  (StableHlo.after_of_writes_sub hostOps3 _ hostOps3_writes (by decide : main_arg7 ∉ hostOps3_W)).trans <|
  (W6_of_ne m ρ c main_arg7 (by decide)).trans <|
  (StableHlo.after_of_writes_sub hostOps2 _ hostOps2_writes (by decide : main_arg7 ∉ hostOps2_W)).trans <|
  (W4_of_ne m ρ c main_arg7 (by decide)).trans <|
  (StableHlo.after_of_writes_sub hostOps1 _ hostOps1_writes (by decide : main_arg7 ∉ hostOps1_W)).trans <|
  (W2_of_ne m ρ c main_arg7 (by decide)).trans <|
  (StableHlo.after_of_writes_sub hostOps0 _ hostOps0_writes (by decide : main_arg7 ∉ hostOps0_W)).trans rfl
theorem W14_main_arg8 (c : Dev nD) : W14 m ρ c (Proc.devRef .tc main_arg8) = m ((c : Thread nD τ).loc main_arg8) :=
  (W14_of_ne m ρ c main_arg8 (by decide)).trans <|
  (StableHlo.after_of_writes_sub hostOps6 _ hostOps6_writes (by decide : main_arg8 ∉ hostOps6_W)).trans <|
  (W12_of_ne m ρ c main_arg8 (by decide)).trans <|
  (StableHlo.after_of_writes_sub hostOps5 _ hostOps5_writes (by decide : main_arg8 ∉ hostOps5_W)).trans <|
  (W10_of_ne m ρ c main_arg8 (by decide)).trans <|
  (StableHlo.after_of_writes_sub hostOps4 _ hostOps4_writes (by decide : main_arg8 ∉ hostOps4_W)).trans <|
  (W8_of_ne m ρ c main_arg8 (by decide)).trans <|
  (StableHlo.after_of_writes_sub hostOps3 _ hostOps3_writes (by decide : main_arg8 ∉ hostOps3_W)).trans <|
  (W6_of_ne m ρ c main_arg8 (by decide)).trans <|
  (StableHlo.after_of_writes_sub hostOps2 _ hostOps2_writes (by decide : main_arg8 ∉ hostOps2_W)).trans <|
  (W4_of_ne m ρ c main_arg8 (by decide)).trans <|
  (StableHlo.after_of_writes_sub hostOps1 _ hostOps1_writes (by decide : main_arg8 ∉ hostOps1_W)).trans <|
  (W2_of_ne m ρ c main_arg8 (by decide)).trans <|
  (StableHlo.after_of_writes_sub hostOps0 _ hostOps0_writes (by decide : main_arg8 ∉ hostOps0_W)).trans rfl
theorem W14_main_arg9 (c : Dev nD) : W14 m ρ c (Proc.devRef .tc main_arg9) = m ((c : Thread nD τ).loc main_arg9) :=
  (W14_of_ne m ρ c main_arg9 (by decide)).trans <|
  (StableHlo.after_of_writes_sub hostOps6 _ hostOps6_writes (by decide : main_arg9 ∉ hostOps6_W)).trans <|
  (W12_of_ne m ρ c main_arg9 (by decide)).trans <|
  (StableHlo.after_of_writes_sub hostOps5 _ hostOps5_writes (by decide : main_arg9 ∉ hostOps5_W)).trans <|
  (W10_of_ne m ρ c main_arg9 (by decide)).trans <|
  (StableHlo.after_of_writes_sub hostOps4 _ hostOps4_writes (by decide : main_arg9 ∉ hostOps4_W)).trans <|
  (W8_of_ne m ρ c main_arg9 (by decide)).trans <|
  (StableHlo.after_of_writes_sub hostOps3 _ hostOps3_writes (by decide : main_arg9 ∉ hostOps3_W)).trans <|
  (W6_in m ρ c 2 rfl).trans <|
  (StableHlo.after_of_writes_sub hostOps2 _ hostOps2_writes (by decide : main_arg9 ∉ hostOps2_W)).trans <|
  (W4_of_ne m ρ c main_arg9 (by decide)).trans <|
  (StableHlo.after_of_writes_sub hostOps1 _ hostOps1_writes (by decide : main_arg9 ∉ hostOps1_W)).trans <|
  (W2_of_ne m ρ c main_arg9 (by decide)).trans <|
  (StableHlo.after_of_writes_sub hostOps0 _ hostOps0_writes (by decide : main_arg9 ∉ hostOps0_W)).trans rfl
theorem W14_main_arg10 (c : Dev nD) : W14 m ρ c (Proc.devRef .tc main_arg10) = m ((c : Thread nD τ).loc main_arg10) :=
  (W14_of_ne m ρ c main_arg10 (by decide)).trans <|
  (StableHlo.after_of_writes_sub hostOps6 _ hostOps6_writes (by decide : main_arg10 ∉ hostOps6_W)).trans <|
  (W12_of_ne m ρ c main_arg10 (by decide)).trans <|
  (StableHlo.after_of_writes_sub hostOps5 _ hostOps5_writes (by decide : main_arg10 ∉ hostOps5_W)).trans <|
  (W10_of_ne m ρ c main_arg10 (by decide)).trans <|
  (StableHlo.after_of_writes_sub hostOps4 _ hostOps4_writes (by decide : main_arg10 ∉ hostOps4_W)).trans <|
  (W8_of_ne m ρ c main_arg10 (by decide)).trans <|
  (StableHlo.after_of_writes_sub hostOps3 _ hostOps3_writes (by decide : main_arg10 ∉ hostOps3_W)).trans <|
  (W6_of_ne m ρ c main_arg10 (by decide)).trans <|
  (StableHlo.after_of_writes_sub hostOps2 _ hostOps2_writes (by decide : main_arg10 ∉ hostOps2_W)).trans <|
  (W4_of_ne m ρ c main_arg10 (by decide)).trans <|
  (StableHlo.after_of_writes_sub hostOps1 _ hostOps1_writes (by decide : main_arg10 ∉ hostOps1_W)).trans <|
  (W2_of_ne m ρ c main_arg10 (by decide)).trans <|
  (StableHlo.after_of_writes_sub hostOps0 _ hostOps0_writes (by decide : main_arg10 ∉ hostOps0_W)).trans rfl
theorem W14_main_arg11 (c : Dev nD) : W14 m ρ c (Proc.devRef .tc main_arg11) = m ((c : Thread nD τ).loc main_arg11) :=
  (W14_of_ne m ρ c main_arg11 (by decide)).trans <|
  (StableHlo.after_of_writes_sub hostOps6 _ hostOps6_writes (by decide : main_arg11 ∉ hostOps6_W)).trans <|
  (W12_of_ne m ρ c main_arg11 (by decide)).trans <|
  (StableHlo.after_of_writes_sub hostOps5 _ hostOps5_writes (by decide : main_arg11 ∉ hostOps5_W)).trans <|
  (W10_of_ne m ρ c main_arg11 (by decide)).trans <|
  (StableHlo.after_of_writes_sub hostOps4 _ hostOps4_writes (by decide : main_arg11 ∉ hostOps4_W)).trans <|
  (W8_of_ne m ρ c main_arg11 (by decide)).trans <|
  (StableHlo.after_of_writes_sub hostOps3 _ hostOps3_writes (by decide : main_arg11 ∉ hostOps3_W)).trans <|
  (W6_in m ρ c 4 rfl).trans <|
  (StableHlo.after_of_writes_sub hostOps2 _ hostOps2_writes (by decide : main_arg11 ∉ hostOps2_W)).trans <|
  (W4_of_ne m ρ c main_arg11 (by decide)).trans <|
  (StableHlo.after_of_writes_sub hostOps1 _ hostOps1_writes (by decide : main_arg11 ∉ hostOps1_W)).trans <|
  (W2_of_ne m ρ c main_arg11 (by decide)).trans <|
  (StableHlo.after_of_writes_sub hostOps0 _ hostOps0_writes (by decide : main_arg11 ∉ hostOps0_W)).trans rfl
theorem W14_main_arg12 (c : Dev nD) : W14 m ρ c (Proc.devRef .tc main_arg12) = m ((c : Thread nD τ).loc main_arg12) :=
  (W14_of_ne m ρ c main_arg12 (by decide)).trans <|
  (StableHlo.after_of_writes_sub hostOps6 _ hostOps6_writes (by decide : main_arg12 ∉ hostOps6_W)).trans <|
  (W12_of_ne m ρ c main_arg12 (by decide)).trans <|
  (StableHlo.after_of_writes_sub hostOps5 _ hostOps5_writes (by decide : main_arg12 ∉ hostOps5_W)).trans <|
  (W10_of_ne m ρ c main_arg12 (by decide)).trans <|
  (StableHlo.after_of_writes_sub hostOps4 _ hostOps4_writes (by decide : main_arg12 ∉ hostOps4_W)).trans <|
  (W8_of_ne m ρ c main_arg12 (by decide)).trans <|
  (StableHlo.after_of_writes_sub hostOps3 _ hostOps3_writes (by decide : main_arg12 ∉ hostOps3_W)).trans <|
  (W6_of_ne m ρ c main_arg12 (by decide)).trans <|
  (StableHlo.after_of_writes_sub hostOps2 _ hostOps2_writes (by decide : main_arg12 ∉ hostOps2_W)).trans <|
  (W4_of_ne m ρ c main_arg12 (by decide)).trans <|
  (StableHlo.after_of_writes_sub hostOps1 _ hostOps1_writes (by decide : main_arg12 ∉ hostOps1_W)).trans <|
  (W2_of_ne m ρ c main_arg12 (by decide)).trans <|
  (StableHlo.after_of_writes_sub hostOps0 _ hostOps0_writes (by decide : main_arg12 ∉ hostOps0_W)).trans rfl
theorem W14_main_arg13 (c : Dev nD) : W14 m ρ c (Proc.devRef .tc main_arg13) = m ((c : Thread nD τ).loc main_arg13) :=
  (W14_of_ne m ρ c main_arg13 (by decide)).trans <|
  (StableHlo.after_of_writes_sub hostOps6 _ hostOps6_writes (by decide : main_arg13 ∉ hostOps6_W)).trans <|
  (W12_of_ne m ρ c main_arg13 (by decide)).trans <|
  (StableHlo.after_of_writes_sub hostOps5 _ hostOps5_writes (by decide : main_arg13 ∉ hostOps5_W)).trans <|
  (W10_of_ne m ρ c main_arg13 (by decide)).trans <|
  (StableHlo.after_of_writes_sub hostOps4 _ hostOps4_writes (by decide : main_arg13 ∉ hostOps4_W)).trans <|
  (W8_of_ne m ρ c main_arg13 (by decide)).trans <|
  (StableHlo.after_of_writes_sub hostOps3 _ hostOps3_writes (by decide : main_arg13 ∉ hostOps3_W)).trans <|
  (W6_of_ne m ρ c main_arg13 (by decide)).trans <|
  (StableHlo.after_of_writes_sub hostOps2 _ hostOps2_writes (by decide : main_arg13 ∉ hostOps2_W)).trans <|
  (W4_of_ne m ρ c main_arg13 (by decide)).trans <|
  (StableHlo.after_of_writes_sub hostOps1 _ hostOps1_writes (by decide : main_arg13 ∉ hostOps1_W)).trans <|
  (W2_of_ne m ρ c main_arg13 (by decide)).trans <|
  (StableHlo.after_of_writes_sub hostOps0 _ hostOps0_writes (by decide : main_arg13 ∉ hostOps0_W)).trans rfl
theorem W14_main_arg14 (c : Dev nD) : W14 m ρ c (Proc.devRef .tc main_arg14) = m ((c : Thread nD τ).loc main_arg14) :=
  (W14_of_ne m ρ c main_arg14 (by decide)).trans <|
  (StableHlo.after_of_writes_sub hostOps6 _ hostOps6_writes (by decide : main_arg14 ∉ hostOps6_W)).trans <|
  (W12_of_ne m ρ c main_arg14 (by decide)).trans <|
  (StableHlo.after_of_writes_sub hostOps5 _ hostOps5_writes (by decide : main_arg14 ∉ hostOps5_W)).trans <|
  (W10_of_ne m ρ c main_arg14 (by decide)).trans <|
  (StableHlo.after_of_writes_sub hostOps4 _ hostOps4_writes (by decide : main_arg14 ∉ hostOps4_W)).trans <|
  (W8_of_ne m ρ c main_arg14 (by decide)).trans <|
  (StableHlo.after_of_writes_sub hostOps3 _ hostOps3_writes (by decide : main_arg14 ∉ hostOps3_W)).trans <|
  (W6_of_ne m ρ c main_arg14 (by decide)).trans <|
  (StableHlo.after_of_writes_sub hostOps2 _ hostOps2_writes (by decide : main_arg14 ∉ hostOps2_W)).trans <|
  (W4_of_ne m ρ c main_arg14 (by decide)).trans <|
  (StableHlo.after_of_writes_sub hostOps1 _ hostOps1_writes (by decide : main_arg14 ∉ hostOps1_W)).trans <|
  (W2_of_ne m ρ c main_arg14 (by decide)).trans <|
  (StableHlo.after_of_writes_sub hostOps0 _ hostOps0_writes (by decide : main_arg14 ∉ hostOps0_W)).trans rfl
theorem W14_main_arg15 (c : Dev nD) : W14 m ρ c (Proc.devRef .tc main_arg15) = m ((c : Thread nD τ).loc main_arg15) :=
  (W14_of_ne m ρ c main_arg15 (by decide)).trans <|
  (StableHlo.after_of_writes_sub hostOps6 _ hostOps6_writes (by decide : main_arg15 ∉ hostOps6_W)).trans <|
  (W12_of_ne m ρ c main_arg15 (by decide)).trans <|
  (StableHlo.after_of_writes_sub hostOps5 _ hostOps5_writes (by decide : main_arg15 ∉ hostOps5_W)).trans <|
  (W10_in m ρ c 2 rfl).trans <|
  (StableHlo.after_of_writes_sub hostOps4 _ hostOps4_writes (by decide : main_arg15 ∉ hostOps4_W)).trans <|
  (W8_of_ne m ρ c main_arg15 (by decide)).trans <|
  (StableHlo.after_of_writes_sub hostOps3 _ hostOps3_writes (by decide : main_arg15 ∉ hostOps3_W)).trans <|
  (W6_of_ne m ρ c main_arg15 (by decide)).trans <|
  (StableHlo.after_of_writes_sub hostOps2 _ hostOps2_writes (by decide : main_arg15 ∉ hostOps2_W)).trans <|
  (W4_of_ne m ρ c main_arg15 (by decide)).trans <|
  (StableHlo.after_of_writes_sub hostOps1 _ hostOps1_writes (by decide : main_arg15 ∉ hostOps1_W)).trans <|
  (W2_of_ne m ρ c main_arg15 (by decide)).trans <|
  (StableHlo.after_of_writes_sub hostOps0 _ hostOps0_writes (by decide : main_arg15 ∉ hostOps0_W)).trans rfl
theorem W14_main_arg16 (c : Dev nD) : W14 m ρ c (Proc.devRef .tc main_arg16) = m ((c : Thread nD τ).loc main_arg16) :=
  (W14_of_ne m ρ c main_arg16 (by decide)).trans <|
  (StableHlo.after_of_writes_sub hostOps6 _ hostOps6_writes (by decide : main_arg16 ∉ hostOps6_W)).trans <|
  (W12_of_ne m ρ c main_arg16 (by decide)).trans <|
  (StableHlo.after_of_writes_sub hostOps5 _ hostOps5_writes (by decide : main_arg16 ∉ hostOps5_W)).trans <|
  (W10_of_ne m ρ c main_arg16 (by decide)).trans <|
  (StableHlo.after_of_writes_sub hostOps4 _ hostOps4_writes (by decide : main_arg16 ∉ hostOps4_W)).trans <|
  (W8_of_ne m ρ c main_arg16 (by decide)).trans <|
  (StableHlo.after_of_writes_sub hostOps3 _ hostOps3_writes (by decide : main_arg16 ∉ hostOps3_W)).trans <|
  (W6_of_ne m ρ c main_arg16 (by decide)).trans <|
  (StableHlo.after_of_writes_sub hostOps2 _ hostOps2_writes (by decide : main_arg16 ∉ hostOps2_W)).trans <|
  (W4_of_ne m ρ c main_arg16 (by decide)).trans <|
  (StableHlo.after_of_writes_sub hostOps1 _ hostOps1_writes (by decide : main_arg16 ∉ hostOps1_W)).trans <|
  (W2_of_ne m ρ c main_arg16 (by decide)).trans <|
  (StableHlo.after_of_writes_sub hostOps0 _ hostOps0_writes (by decide : main_arg16 ∉ hostOps0_W)).trans rfl
theorem W14_main_arg17 (c : Dev nD) : W14 m ρ c (Proc.devRef .tc main_arg17) = m ((c : Thread nD τ).loc main_arg17) :=
  (W14_of_ne m ρ c main_arg17 (by decide)).trans <|
  (StableHlo.after_of_writes_sub hostOps6 _ hostOps6_writes (by decide : main_arg17 ∉ hostOps6_W)).trans <|
  (W12_of_ne m ρ c main_arg17 (by decide)).trans <|
  (StableHlo.after_of_writes_sub hostOps5 _ hostOps5_writes (by decide : main_arg17 ∉ hostOps5_W)).trans <|
  (W10_in m ρ c 4 rfl).trans <|
  (StableHlo.after_of_writes_sub hostOps4 _ hostOps4_writes (by decide : main_arg17 ∉ hostOps4_W)).trans <|
  (W8_of_ne m ρ c main_arg17 (by decide)).trans <|
  (StableHlo.after_of_writes_sub hostOps3 _ hostOps3_writes (by decide : main_arg17 ∉ hostOps3_W)).trans <|
  (W6_of_ne m ρ c main_arg17 (by decide)).trans <|
  (StableHlo.after_of_writes_sub hostOps2 _ hostOps2_writes (by decide : main_arg17 ∉ hostOps2_W)).trans <|
  (W4_of_ne m ρ c main_arg17 (by decide)).trans <|
  (StableHlo.after_of_writes_sub hostOps1 _ hostOps1_writes (by decide : main_arg17 ∉ hostOps1_W)).trans <|
  (W2_of_ne m ρ c main_arg17 (by decide)).trans <|
  (StableHlo.after_of_writes_sub hostOps0 _ hostOps0_writes (by decide : main_arg17 ∉ hostOps0_W)).trans rfl
theorem W14_main_arg18 (c : Dev nD) : W14 m ρ c (Proc.devRef .tc main_arg18) = m ((c : Thread nD τ).loc main_arg18) :=
  (W14_of_ne m ρ c main_arg18 (by decide)).trans <|
  (StableHlo.after_of_writes_sub hostOps6 _ hostOps6_writes (by decide : main_arg18 ∉ hostOps6_W)).trans <|
  (W12_of_ne m ρ c main_arg18 (by decide)).trans <|
  (StableHlo.after_of_writes_sub hostOps5 _ hostOps5_writes (by decide : main_arg18 ∉ hostOps5_W)).trans <|
  (W10_of_ne m ρ c main_arg18 (by decide)).trans <|
  (StableHlo.after_of_writes_sub hostOps4 _ hostOps4_writes (by decide : main_arg18 ∉ hostOps4_W)).trans <|
  (W8_of_ne m ρ c main_arg18 (by decide)).trans <|
  (StableHlo.after_of_writes_sub hostOps3 _ hostOps3_writes (by decide : main_arg18 ∉ hostOps3_W)).trans <|
  (W6_of_ne m ρ c main_arg18 (by decide)).trans <|
  (StableHlo.after_of_writes_sub hostOps2 _ hostOps2_writes (by decide : main_arg18 ∉ hostOps2_W)).trans <|
  (W4_of_ne m ρ c main_arg18 (by decide)).trans <|
  (StableHlo.after_of_writes_sub hostOps1 _ hostOps1_writes (by decide : main_arg18 ∉ hostOps1_W)).trans <|
  (W2_of_ne m ρ c main_arg18 (by decide)).trans <|
  (StableHlo.after_of_writes_sub hostOps0 _ hostOps0_writes (by decide : main_arg18 ∉ hostOps0_W)).trans rfl
theorem W14_main_arg19 (c : Dev nD) : W14 m ρ c (Proc.devRef .tc main_arg19) = m ((c : Thread nD τ).loc main_arg19) :=
  (W14_of_ne m ρ c main_arg19 (by decide)).trans <|
  (StableHlo.after_of_writes_sub hostOps6 _ hostOps6_writes (by decide : main_arg19 ∉ hostOps6_W)).trans <|
  (W12_of_ne m ρ c main_arg19 (by decide)).trans <|
  (StableHlo.after_of_writes_sub hostOps5 _ hostOps5_writes (by decide : main_arg19 ∉ hostOps5_W)).trans <|
  (W10_of_ne m ρ c main_arg19 (by decide)).trans <|
  (StableHlo.after_of_writes_sub hostOps4 _ hostOps4_writes (by decide : main_arg19 ∉ hostOps4_W)).trans <|
  (W8_of_ne m ρ c main_arg19 (by decide)).trans <|
  (StableHlo.after_of_writes_sub hostOps3 _ hostOps3_writes (by decide : main_arg19 ∉ hostOps3_W)).trans <|
  (W6_of_ne m ρ c main_arg19 (by decide)).trans <|
  (StableHlo.after_of_writes_sub hostOps2 _ hostOps2_writes (by decide : main_arg19 ∉ hostOps2_W)).trans <|
  (W4_of_ne m ρ c main_arg19 (by decide)).trans <|
  (StableHlo.after_of_writes_sub hostOps1 _ hostOps1_writes (by decide : main_arg19 ∉ hostOps1_W)).trans <|
  (W2_of_ne m ρ c main_arg19 (by decide)).trans <|
  (StableHlo.after_of_writes_sub hostOps0 _ hostOps0_writes (by decide : main_arg19 ∉ hostOps0_W)).trans rfl
theorem W14_main_arg20 (c : Dev nD) : W14 m ρ c (Proc.devRef .tc main_arg20) = m ((c : Thread nD τ).loc main_arg20) :=
  (W14_of_ne m ρ c main_arg20 (by decide)).trans <|
  (StableHlo.after_of_writes_sub hostOps6 _ hostOps6_writes (by decide : main_arg20 ∉ hostOps6_W)).trans <|
  (W12_of_ne m ρ c main_arg20 (by decide)).trans <|
  (StableHlo.after_of_writes_sub hostOps5 _ hostOps5_writes (by decide : main_arg20 ∉ hostOps5_W)).trans <|
  (W10_of_ne m ρ c main_arg20 (by decide)).trans <|
  (StableHlo.after_of_writes_sub hostOps4 _ hostOps4_writes (by decide : main_arg20 ∉ hostOps4_W)).trans <|
  (W8_of_ne m ρ c main_arg20 (by decide)).trans <|
  (StableHlo.after_of_writes_sub hostOps3 _ hostOps3_writes (by decide : main_arg20 ∉ hostOps3_W)).trans <|
  (W6_of_ne m ρ c main_arg20 (by decide)).trans <|
  (StableHlo.after_of_writes_sub hostOps2 _ hostOps2_writes (by decide : main_arg20 ∉ hostOps2_W)).trans <|
  (W4_of_ne m ρ c main_arg20 (by decide)).trans <|
  (StableHlo.after_of_writes_sub hostOps1 _ hostOps1_writes (by decide : main_arg20 ∉ hostOps1_W)).trans <|
  (W2_of_ne m ρ c main_arg20 (by decide)).trans <|
  (StableHlo.after_of_writes_sub hostOps0 _ hostOps0_writes (by decide : main_arg20 ∉ hostOps0_W)).trans rfl
theorem W14_main_arg21 (c : Dev nD) : W14 m ρ c (Proc.devRef .tc main_arg21) = m ((c : Thread nD τ).loc main_arg21) :=
  (W14_in m ρ c 1 rfl).trans <|
  (StableHlo.after_of_writes_sub hostOps6 _ hostOps6_writes (by decide : main_arg21 ∉ hostOps6_W)).trans <|
  (W12_of_ne m ρ c main_arg21 (by decide)).trans <|
  (StableHlo.after_of_writes_sub hostOps5 _ hostOps5_writes (by decide : main_arg21 ∉ hostOps5_W)).trans <|
  (W10_of_ne m ρ c main_arg21 (by decide)).trans <|
  (StableHlo.after_of_writes_sub hostOps4 _ hostOps4_writes (by decide : main_arg21 ∉ hostOps4_W)).trans <|
  (W8_of_ne m ρ c main_arg21 (by decide)).trans <|
  (StableHlo.after_of_writes_sub hostOps3 _ hostOps3_writes (by decide : main_arg21 ∉ hostOps3_W)).trans <|
  (W6_of_ne m ρ c main_arg21 (by decide)).trans <|
  (StableHlo.after_of_writes_sub hostOps2 _ hostOps2_writes (by decide : main_arg21 ∉ hostOps2_W)).trans <|
  (W4_of_ne m ρ c main_arg21 (by decide)).trans <|
  (StableHlo.after_of_writes_sub hostOps1 _ hostOps1_writes (by decide : main_arg21 ∉ hostOps1_W)).trans <|
  (W2_of_ne m ρ c main_arg21 (by decide)).trans <|
  (StableHlo.after_of_writes_sub hostOps0 _ hostOps0_writes (by decide : main_arg21 ∉ hostOps0_W)).trans rfl
theorem W14_main_arg22 (c : Dev nD) : W14 m ρ c (Proc.devRef .tc main_arg22) = m ((c : Thread nD τ).loc main_arg22) :=
  (W14_of_ne m ρ c main_arg22 (by decide)).trans <|
  (StableHlo.after_of_writes_sub hostOps6 _ hostOps6_writes (by decide : main_arg22 ∉ hostOps6_W)).trans <|
  (W12_of_ne m ρ c main_arg22 (by decide)).trans <|
  (StableHlo.after_of_writes_sub hostOps5 _ hostOps5_writes (by decide : main_arg22 ∉ hostOps5_W)).trans <|
  (W10_of_ne m ρ c main_arg22 (by decide)).trans <|
  (StableHlo.after_of_writes_sub hostOps4 _ hostOps4_writes (by decide : main_arg22 ∉ hostOps4_W)).trans <|
  (W8_of_ne m ρ c main_arg22 (by decide)).trans <|
  (StableHlo.after_of_writes_sub hostOps3 _ hostOps3_writes (by decide : main_arg22 ∉ hostOps3_W)).trans <|
  (W6_of_ne m ρ c main_arg22 (by decide)).trans <|
  (StableHlo.after_of_writes_sub hostOps2 _ hostOps2_writes (by decide : main_arg22 ∉ hostOps2_W)).trans <|
  (W4_of_ne m ρ c main_arg22 (by decide)).trans <|
  (StableHlo.after_of_writes_sub hostOps1 _ hostOps1_writes (by decide : main_arg22 ∉ hostOps1_W)).trans <|
  (W2_of_ne m ρ c main_arg22 (by decide)).trans <|
  (StableHlo.after_of_writes_sub hostOps0 _ hostOps0_writes (by decide : main_arg22 ∉ hostOps0_W)).trans rfl
theorem W14_main_arg23 (c : Dev nD) : W14 m ρ c (Proc.devRef .tc main_arg23) = m ((c : Thread nD τ).loc main_arg23) :=
  (W14_in m ρ c 3 rfl).trans <|
  (StableHlo.after_of_writes_sub hostOps6 _ hostOps6_writes (by decide : main_arg23 ∉ hostOps6_W)).trans <|
  (W12_of_ne m ρ c main_arg23 (by decide)).trans <|
  (StableHlo.after_of_writes_sub hostOps5 _ hostOps5_writes (by decide : main_arg23 ∉ hostOps5_W)).trans <|
  (W10_of_ne m ρ c main_arg23 (by decide)).trans <|
  (StableHlo.after_of_writes_sub hostOps4 _ hostOps4_writes (by decide : main_arg23 ∉ hostOps4_W)).trans <|
  (W8_of_ne m ρ c main_arg23 (by decide)).trans <|
  (StableHlo.after_of_writes_sub hostOps3 _ hostOps3_writes (by decide : main_arg23 ∉ hostOps3_W)).trans <|
  (W6_of_ne m ρ c main_arg23 (by decide)).trans <|
  (StableHlo.after_of_writes_sub hostOps2 _ hostOps2_writes (by decide : main_arg23 ∉ hostOps2_W)).trans <|
  (W4_of_ne m ρ c main_arg23 (by decide)).trans <|
  (StableHlo.after_of_writes_sub hostOps1 _ hostOps1_writes (by decide : main_arg23 ∉ hostOps1_W)).trans <|
  (W2_of_ne m ρ c main_arg23 (by decide)).trans <|
  (StableHlo.after_of_writes_sub hostOps0 _ hostOps0_writes (by decide : main_arg23 ∉ hostOps0_W)).trans rfl
theorem W14_main_arg24 (c : Dev nD) : W14 m ρ c (Proc.devRef .tc main_arg24) = m ((c : Thread nD τ).loc main_arg24) :=
  (W14_of_ne m ρ c main_arg24 (by decide)).trans <|
  (StableHlo.after_of_writes_sub hostOps6 _ hostOps6_writes (by decide : main_arg24 ∉ hostOps6_W)).trans <|
  (W12_of_ne m ρ c main_arg24 (by decide)).trans <|
  (StableHlo.after_of_writes_sub hostOps5 _ hostOps5_writes (by decide : main_arg24 ∉ hostOps5_W)).trans <|
  (W10_of_ne m ρ c main_arg24 (by decide)).trans <|
  (StableHlo.after_of_writes_sub hostOps4 _ hostOps4_writes (by decide : main_arg24 ∉ hostOps4_W)).trans <|
  (W8_of_ne m ρ c main_arg24 (by decide)).trans <|
  (StableHlo.after_of_writes_sub hostOps3 _ hostOps3_writes (by decide : main_arg24 ∉ hostOps3_W)).trans <|
  (W6_of_ne m ρ c main_arg24 (by decide)).trans <|
  (StableHlo.after_of_writes_sub hostOps2 _ hostOps2_writes (by decide : main_arg24 ∉ hostOps2_W)).trans <|
  (W4_of_ne m ρ c main_arg24 (by decide)).trans <|
  (StableHlo.after_of_writes_sub hostOps1 _ hostOps1_writes (by decide : main_arg24 ∉ hostOps1_W)).trans <|
  (W2_of_ne m ρ c main_arg24 (by decide)).trans <|
  (StableHlo.after_of_writes_sub hostOps0 _ hostOps0_writes (by decide : main_arg24 ∉ hostOps0_W)).trans rfl
theorem W14_main_arg25 (c : Dev nD) : W14 m ρ c (Proc.devRef .tc main_arg25) = m ((c : Thread nD τ).loc main_arg25) :=
  (W14_in m ρ c 5 rfl).trans <|
  (StableHlo.after_of_writes_sub hostOps6 _ hostOps6_writes (by decide : main_arg25 ∉ hostOps6_W)).trans <|
  (W12_of_ne m ρ c main_arg25 (by decide)).trans <|
  (StableHlo.after_of_writes_sub hostOps5 _ hostOps5_writes (by decide : main_arg25 ∉ hostOps5_W)).trans <|
  (W10_of_ne m ρ c main_arg25 (by decide)).trans <|
  (StableHlo.after_of_writes_sub hostOps4 _ hostOps4_writes (by decide : main_arg25 ∉ hostOps4_W)).trans <|
  (W8_of_ne m ρ c main_arg25 (by decide)).trans <|
  (StableHlo.after_of_writes_sub hostOps3 _ hostOps3_writes (by decide : main_arg25 ∉ hostOps3_W)).trans <|
  (W6_of_ne m ρ c main_arg25 (by decide)).trans <|
  (StableHlo.after_of_writes_sub hostOps2 _ hostOps2_writes (by decide : main_arg25 ∉ hostOps2_W)).trans <|
  (W4_of_ne m ρ c main_arg25 (by decide)).trans <|
  (StableHlo.after_of_writes_sub hostOps1 _ hostOps1_writes (by decide : main_arg25 ∉ hostOps1_W)).trans <|
  (W2_of_ne m ρ c main_arg25 (by decide)).trans <|
  (StableHlo.after_of_writes_sub hostOps0 _ hostOps0_writes (by decide : main_arg25 ∉ hostOps0_W)).trans rfl
theorem W14_main_arg26 (c : Dev nD) : W14 m ρ c (Proc.devRef .tc main_arg26) = m ((c : Thread nD τ).loc main_arg26) :=
  (W14_of_ne m ρ c main_arg26 (by decide)).trans <|
  (StableHlo.after_of_writes_sub hostOps6 _ hostOps6_writes (by decide : main_arg26 ∉ hostOps6_W)).trans <|
  (W12_of_ne m ρ c main_arg26 (by decide)).trans <|
  (StableHlo.after_of_writes_sub hostOps5 _ hostOps5_writes (by decide : main_arg26 ∉ hostOps5_W)).trans <|
  (W10_of_ne m ρ c main_arg26 (by decide)).trans <|
  (StableHlo.after_of_writes_sub hostOps4 _ hostOps4_writes (by decide : main_arg26 ∉ hostOps4_W)).trans <|
  (W8_of_ne m ρ c main_arg26 (by decide)).trans <|
  (StableHlo.after_of_writes_sub hostOps3 _ hostOps3_writes (by decide : main_arg26 ∉ hostOps3_W)).trans <|
  (W6_of_ne m ρ c main_arg26 (by decide)).trans <|
  (StableHlo.after_of_writes_sub hostOps2 _ hostOps2_writes (by decide : main_arg26 ∉ hostOps2_W)).trans <|
  (W4_of_ne m ρ c main_arg26 (by decide)).trans <|
  (StableHlo.after_of_writes_sub hostOps1 _ hostOps1_writes (by decide : main_arg26 ∉ hostOps1_W)).trans <|
  (W2_of_ne m ρ c main_arg26 (by decide)).trans <|
  (StableHlo.after_of_writes_sub hostOps0 _ hostOps0_writes (by decide : main_arg26 ∉ hostOps0_W)).trans rfl

/-- The result array ends at what the last region's pipeline leaves in its output window. -/
theorem W14_main_v76 (c : Dev nD) : W14 m ρ c (Proc.devRef .tc main_v76) = (dat6 (V13 m ρ) c).arrAt 7 cfg6.N :=
  W14_arr m ρ c 7

/-! ## The proof data family and the thread state -/

/-- No pallas_call has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0: entered with every unscoped buffer at `W1`, left with them at `W2`. Its windows' arrays are split
    out of the unscoped buffers and put back at the exit contents; the generator register goes into the pipeline's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W3`, left with them at `W4`. Its windows' arrays are split
    out of the unscoped buffers and put back at the exit contents; the generator register goes into the pipeline's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `W5`, left with them at `W6`. Its windows' arrays are split
    out of the unscoped buffers and put back at the exit contents; the generator register goes into the pipeline's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `W7`, left with them at `W8`. Its windows' arrays are split
    out of the unscoped buffers and put back at the exit contents; the generator register goes into the pipeline's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `W9`, left with them at `W10`. Its windows' arrays are split
    out of the unscoped buffers and put back at the exit contents; the generator register goes into the pipeline's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at `W11`, left with them at `W12`. Its windows' arrays are split
    out of the unscoped buffers and put back at the exit contents; the generator register goes into the pipeline's
    invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at `W13`, left with them at `W14`. Its windows' arrays are split
    out of the unscoped buffers and put back at the exit contents; the generator register goes into the pipeline's
    invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and in every
    final state each buffer that is not scoped to a kernel holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W14 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The frame: every argument array ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c),
     (h c _ (mem_uc main_arg14 (by decide))).trans (W14_main_arg14 m ρ c),
     (h c _ (mem_uc main_arg15 (by decide))).trans (W14_main_arg15 m ρ c),
     (h c _ (mem_uc main_arg16 (by decide))).trans (W14_main_arg16 m ρ c),
     (h c _ (mem_uc main_arg17 (by decide))).trans (W14_main_arg17 m ρ c),
     (h c _ (mem_uc main_arg18 (by decide))).trans (W14_main_arg18 m ρ c),
     (h c _ (mem_uc main_arg19 (by decide))).trans (W14_main_arg19 m ρ c),
     (h c _ (mem_uc main_arg20 (by decide))).trans (W14_main_arg20 m ρ c),
     (h c _ (mem_uc main_arg21 (by decide))).trans (W14_main_arg21 m ρ c),
     (h c _ (mem_uc main_arg22 (by decide))).trans (W14_main_arg22 m ρ c),
     (h c _ (mem_uc main_arg23 (by decide))).trans (W14_main_arg23 m ρ c),
     (h c _ (mem_uc main_arg24 (by decide))).trans (W14_main_arg24 m ρ c),
     (h c _ (mem_uc main_arg25 (by decide))).trans (W14_main_arg25 m ρ c),
     (h c _ (mem_uc main_arg26 (by decide))).trans (W14_main_arg26 m ρ c)⟩)
    (run_all m ρ)

/-- The run with the result named: the result array ends at what the last region's pipeline leaves. -/
theorem run_result : θ_run defs (onTc (τ := τ) (main (F := F))) ⟨m, fun _ => 0, ρ⟩ (fun r => ∀ c : Dev nD,
      r.2.mem ((c.tc : Thread nD τ).loc main_v76) = (dat6 (V13 m ρ) c).arrAt 7 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c _ (mem_uc main_v76 (by decide))).trans (W14_main_v76 m ρ c),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c),
     (h c _ (mem_uc main_arg14 (by decide))).trans (W14_main_arg14 m ρ c),
     (h c _ (mem_uc main_arg15 (by decide))).trans (W14_main_arg15 m ρ c),
     (h c _ (mem_uc main_arg16 (by decide))).trans (W14_main_arg16 m ρ c),
     (h c _ (mem_uc main_arg17 (by decide))).trans (W14_main_arg17 m ρ c),
     (h c _ (mem_uc main_arg18 (by decide))).trans (W14_main_arg18 m ρ c),
     (h c _ (mem_uc main_arg19 (by decide))).trans (W14_main_arg19 m ρ c),
     (h c _ (mem_uc main_arg20 (by decide))).trans (W14_main_arg20 m ρ c),
     (h c _ (mem_uc main_arg21 (by decide))).trans (W14_main_arg21 m ρ c),
     (h c _ (mem_uc main_arg22 (by decide))).trans (W14_main_arg22 m ρ c),
     (h c _ (mem_uc main_arg23 (by decide))).trans (W14_main_arg23 m ρ c),
     (h c _ (mem_uc main_arg24 (by decide))).trans (W14_main_arg24 m ρ c),
     (h c _ (mem_uc main_arg25 (by decide))).trans (W14_main_arg25 m ρ c),
     (h c _ (mem_uc main_arg26 (by decide))).trans (W14_main_arg26 m ρ c)⟩)
    (run_all m ρ)

end Cert.KernelIdeal.Hand

end
-- ==== Proof.KI.HostFns.lean ====
/-
  The idealized kernel program's host operations between its regions, as functions of array contents.
  Per layer the host gathers the rows named by the first row of the edge list (a negative number wrapped around by the
  number of rows), adds them into the rows named by the second row of a zero array, and recasts the bias, scale and shift
  vectors as one-row arrays; after the perceptron's region it divides the column sums by the number of rows and forms
  mean of squares minus squared mean; before the readout it adds the node rows into their graphs' rows.
-/
import proofs.«142609_j54228257079879_1_alg».proof.KernelIdeal
import proofs.«142609_j54228257079879_1_alg».proof.Proof.Gen.KernelIdeal

noncomputable section

namespace Cert.KernelIdeal.Hand

open Cert.KernelIdeal
open Cert.KernelIdeal.Facts₀ Cert.KernelIdeal.Facts
open Idealize.ShloMosaic

variable {F : FTy → Type} [FloatOps F]

/-! ## The host operations as functions -/

/-- The first row of the edge list as a vector. -/
def row0 (e : IVec S2x1600000 32) : IVec S1600000 32 := fun i =>
  shapeCast S1600000 (extractStridedSlice S1x1600000 ![0, 0] e slices_S2x1600000_S1x1600000_0_0) shapeCasts_S1x1600000_S1600000 i
/-- The second row of the edge list as a vector. -/
def row1 (e : IVec S2x1600000 32) : IVec S1600000 32 := fun i =>
  shapeCast S1600000 (extractStridedSlice S1x1600000 ![1, 0] e slices_S2x1600000_S1x1600000_1_0) shapeCasts_S1x1600000_S1600000 i
/-- Source row numbers as a column, a negative number wrapped around by the number of rows. -/
def srcCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- Destination row numbers as a column. -/
def dstCol (v : IVec S1600000 32) : IVec S1600000x1 32 := broadcastInDim S1600000x1 ![0] bcast_S1600000_S1600000x1_0 v

/-- Neighbour sums of 12-wide rows: gather the source rows, add them into the destination rows of a zero array. -/
def aggK12 (h : FVec F S100000x12 .f32) (v1 v3 : IVec S1600000 32) : FVec F S100000x12 .f32 :=
  Host.scatterAdd scatter_S100000x12_S1600000x1_S1600000x12_1_0_0_1
    (broadcastInDim S100000x12 ![] bcast_S_S100000x12 (constant S_ .f32 0x00000000#32)) (dstCol v3)
    (Host.gather gather_S100000x12_S1600000x1_S1600000x12_1_0_n_n_0_1_112 h (srcCol v1))
/-- Neighbour sums of 128-wide rows. -/
def aggK128 (h : FVec F S100000x128 .f32) (v1 v3 : IVec S1600000 32) : FVec F S100000x128 .f32 :=
  Host.scatterAdd scatter_S100000x128_S1600000x1_S1600000x128_1_0_0_1
    (broadcastInDim S100000x128 ![] bcast_S_S100000x128 (constant S_ .f32 0x00000000#32)) (dstCol v3)
    (Host.gather gather_S100000x128_S1600000x1_S1600000x128_1_0_n_n_0_1_1128 h (srcCol v1))
/-- A 128-vector recast as a one-row array. -/
def rowK (b : FVec F S128 .f32) : FVec F S1x128 .f32 := fun i => shapeCast S1x128 b shapeCasts_S128_S1x128 i
def rowK512 (b : FVec F S512 .f32) : FVec F S1x512 .f32 := fun i => shapeCast S1x512 b shapeCasts_S512_S1x512 i
def rowK256 (b : FVec F S256 .f32) : FVec F S1x256 .f32 := fun i => shapeCast S1x256 b shapeCasts_S256_S1x256 i
def rowK12 (b : FVec F S12 .f32) : FVec F S1x12 .f32 := fun i => shapeCast S1x12 b shapeCasts_S12_S1x12 i
/-- A row of column sums divided by the number of rows. -/
def meanH (s : FVec F S1x128 .f32) : FVec F S1x128 .f32 :=
  Host.divf s (broadcastInDim S1x128 ![] bcast_S_S1x128 (constant S_ .f32 0x47C35000#32))
/-- Mean of squares minus squared mean. -/
def varH (s sq : FVec F S1x128 .f32) : FVec F S1x128 .f32 := subf (meanH sq) (mulf (meanH s) (meanH s))
/-- Node rows added into their graphs' rows of a zero array. -/
def poolK (h : FVec F S100000x128 .f32) (b : IVec S100000 32) : FVec F S1024x128 .f32 :=
  Host.scatterAdd scatter_S1024x128_S100000x1_S100000x128_1_0_0_1
    (broadcastInDim S1024x128 ![] bcast_S_S1024x128 (constant S_ .f32 0x00000000#32))
    (broadcastInDim S100000x1 ![0] bcast_S100000_S100000x1_0 b) h

end Cert.KernelIdeal.Hand

end
-- ==== Proof.KI.Host.lean ====
/-
  The idealized kernel program's host operations between its regions, as functions, and what each region finds in its
  windows' arrays when it is entered: an argument array, or a host operation's result over earlier contents, or what an
  earlier region left.
  Per layer the host gathers the rows named by the first row of the edge list (negative numbers wrapped around), adds
  them into the rows named by the second row, and recasts the bias, scale and shift vectors as one-row arrays; after the
  perceptron's region it divides the column sums by the number of rows and forms mean of squares minus squared mean.
-/
import proofs.«142609_j54228257079879_1_alg».proof.Proof.KI.Run
import proofs.«142609_j54228257079879_1_alg».proof.Proof.KI.HostFns

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg) (c : Dev nD)

/-- An argument array as launched. -/
abbrev Arg (r : Ref sig .tc) : Buf (Elt F) ((c : Thread nD τ).loc r) := m ((c : Thread nD τ).loc r)

/-! ## What the first stretch leaves -/

theorem W1_v1_gen (Wb : Valuation τ sig (Elt F)) : StableHlo.after hostOps0 Wb (Proc.devRef .tc main_v1) = row0 (Wb (Proc.devRef .tc main_arg1)) := by
  after_results; rfl
theorem W1_v1 : W1 m ρ c (Proc.devRef .tc main_v1) = row0 (Arg m c main_arg1) := W1_v1_gen (W0 m ρ c)
theorem W1_v3_gen (Wb : Valuation τ sig (Elt F)) : StableHlo.after hostOps0 Wb (Proc.devRef .tc main_v3) = row1 (Wb (Proc.devRef .tc main_arg1)) := by
  after_results; rfl
theorem W1_v3 : W1 m ρ c (Proc.devRef .tc main_v3) = row1 (Arg m c main_arg1) := W1_v3_gen (W0 m ρ c)
set_option maxHeartbeats 4000000 in
theorem W1_v13_gen (Wb : Valuation τ sig (Elt F)) : StableHlo.after hostOps0 Wb (Proc.devRef .tc main_v13) = aggK12 (Wb (Proc.devRef .tc main_arg0)) (row0 (Wb (Proc.devRef .tc main_arg1))) (row1 (Wb (Proc.devRef .tc main_arg1))) := by
  after_results_simp; rfl
theorem W1_v13 : W1 m ρ c (Proc.devRef .tc main_v13) = aggK12 (Arg m c main_arg0) (row0 (Arg m c main_arg1)) (row1 (Arg m c main_arg1)) := W1_v13_gen (W0 m ρ c)
theorem W1_v14_gen (Wb : Valuation τ sig (Elt F)) : StableHlo.after hostOps0 Wb (Proc.devRef .tc main_v14) = rowK (Wb (Proc.devRef .tc main_arg4)) := by
  after_results; rfl
theorem W1_v14 : W1 m ρ c (Proc.devRef .tc main_v14) = rowK (Arg m c main_arg4) := W1_v14_gen (W0 m ρ c)
theorem W1_v15_gen (Wb : Valuation τ sig (Elt F)) : StableHlo.after hostOps0 Wb (Proc.devRef .tc main_v15) = rowK (Wb (Proc.devRef .tc main_arg6)) := by
  after_results; rfl
theorem W1_v15 : W1 m ρ c (Proc.devRef .tc main_v15) = rowK (Arg m c main_arg6) := W1_v15_gen (W0 m ρ c)
theorem W1_v16_gen (Wb : Valuation τ sig (Elt F)) : StableHlo.after hostOps0 Wb (Proc.devRef .tc main_v16) = rowK (Wb (Proc.devRef .tc main_arg7)) := by
  after_results; rfl
theorem W1_v16 : W1 m ρ c (Proc.devRef .tc main_v16) = rowK (Arg m c main_arg7) := W1_v16_gen (W0 m ρ c)
theorem W1_v17_gen (Wb : Valuation τ sig (Elt F)) : StableHlo.after hostOps0 Wb (Proc.devRef .tc main_v17) = rowK (Wb (Proc.devRef .tc main_arg8)) := by
  after_results; rfl
theorem W1_v17 : W1 m ρ c (Proc.devRef .tc main_v17) = rowK (Arg m c main_arg8) := W1_v17_gen (W0 m ρ c)

/-! ## What the stretch before region 1 leaves -/
theorem W3_mean_gen (Wb : Valuation τ sig (Elt F)) : StableHlo.after hostOps1 Wb (Proc.devRef .tc main_v20) = meanH (Wb (Proc.devRef .tc main_v18_1)) := by
  after_results; rfl
theorem W3_mean : W3 m ρ c (Proc.devRef .tc main_v20) = meanH (W2 m ρ c (Proc.devRef .tc main_v18_1)) := W3_mean_gen (W2 m ρ c)
theorem W3_var_gen (Wb : Valuation τ sig (Elt F)) : StableHlo.after hostOps1 Wb (Proc.devRef .tc main_v24) = varH (Wb (Proc.devRef .tc main_v18_1)) (Wb (Proc.devRef .tc main_v18_2)) := by
  after_results; rfl
theorem W3_var : W3 m ρ c (Proc.devRef .tc main_v24) = varH (W2 m ρ c (Proc.devRef .tc main_v18_1)) (W2 m ρ c (Proc.devRef .tc main_v18_2)) := W3_var_gen (W2 m ρ c)

/-! ## What the stretch before region 2 leaves -/
set_option maxHeartbeats 4000000 in
theorem W5_agg_gen (Wb : Valuation τ sig (Elt F)) : StableHlo.after hostOps2 Wb (Proc.devRef .tc main_v35) = aggK128 (Wb (Proc.devRef .tc main_v25)) (Wb (Proc.devRef .tc main_v1)) (Wb (Proc.devRef .tc main_v3)) := by
  after_results_simp; rfl
theorem W5_agg : W5 m ρ c (Proc.devRef .tc main_v35) = aggK128 (W4 m ρ c (Proc.devRef .tc main_v25)) (W4 m ρ c (Proc.devRef .tc main_v1)) (W4 m ρ c (Proc.devRef .tc main_v3)) := W5_agg_gen (W4 m ρ c)
theorem W5_v36_gen (Wb : Valuation τ sig (Elt F)) : StableHlo.after hostOps2 Wb (Proc.devRef .tc main_v36) = rowK (Wb (Proc.devRef .tc main_arg10)) := by
  after_results; rfl
theorem W5_v36 : W5 m ρ c (Proc.devRef .tc main_v36) = rowK (W4 m ρ c (Proc.devRef .tc main_arg10)) := W5_v36_gen (W4 m ρ c)
theorem W5_v37_gen (Wb : Valuation τ sig (Elt F)) : StableHlo.after hostOps2 Wb (Proc.devRef .tc main_v37) = rowK (Wb (Proc.devRef .tc main_arg12)) := by
  after_results; rfl
theorem W5_v37 : W5 m ρ c (Proc.devRef .tc main_v37) = rowK (W4 m ρ c (Proc.devRef .tc main_arg12)) := W5_v37_gen (W4 m ρ c)
theorem W5_v38_gen (Wb : Valuation τ sig (Elt F)) : StableHlo.after hostOps2 Wb (Proc.devRef .tc main_v38) = rowK (Wb (Proc.devRef .tc main_arg13)) := by
  after_results; rfl
theorem W5_v38 : W5 m ρ c (Proc.devRef .tc main_v38) = rowK (W4 m ρ c (Proc.devRef .tc main_arg13)) := W5_v38_gen (W4 m ρ c)
theorem W5_v39_gen (Wb : Valuation τ sig (Elt F)) : StableHlo.after hostOps2 Wb (Proc.devRef .tc main_v39) = rowK (Wb (Proc.devRef .tc main_arg14)) := by
  after_results; rfl
theorem W5_v39 : W5 m ρ c (Proc.devRef .tc main_v39) = rowK (W4 m ρ c (Proc.devRef .tc main_arg14)) := W5_v39_gen (W4 m ρ c)

/-! ## What the stretch before region 3 leaves -/
theorem W7_mean_gen (Wb : Valuation τ sig (Elt F)) : StableHlo.after hostOps3 Wb (Proc.devRef .tc main_v42) = meanH (Wb (Proc.devRef .tc main_v40_1)) := by
  after_results; rfl
theorem W7_mean : W7 m ρ c (Proc.devRef .tc main_v42) = meanH (W6 m ρ c (Proc.devRef .tc main_v40_1)) := W7_mean_gen (W6 m ρ c)
theorem W7_var_gen (Wb : Valuation τ sig (Elt F)) : StableHlo.after hostOps3 Wb (Proc.devRef .tc main_v46) = varH (Wb (Proc.devRef .tc main_v40_1)) (Wb (Proc.devRef .tc main_v40_2)) := by
  after_results; rfl
theorem W7_var : W7 m ρ c (Proc.devRef .tc main_v46) = varH (W6 m ρ c (Proc.devRef .tc main_v40_1)) (W6 m ρ c (Proc.devRef .tc main_v40_2)) := W7_var_gen (W6 m ρ c)

/-! ## What the stretch before region 4 leaves -/
set_option maxHeartbeats 4000000 in
theorem W9_agg_gen (Wb : Valuation τ sig (Elt F)) : StableHlo.after hostOps4 Wb (Proc.devRef .tc main_v57) = aggK128 (Wb (Proc.devRef .tc main_v47)) (Wb (Proc.devRef .tc main_v1)) (Wb (Proc.devRef .tc main_v3)) := by
  after_results_simp; rfl
theorem W9_agg : W9 m ρ c (Proc.devRef .tc main_v57) = aggK128 (W8 m ρ c (Proc.devRef .tc main_v47)) (W8 m ρ c (Proc.devRef .tc main_v1)) (W8 m ρ c (Proc.devRef .tc main_v3)) := W9_agg_gen (W8 m ρ c)
theorem W9_v58_gen (Wb : Valuation τ sig (Elt F)) : StableHlo.after hostOps4 Wb (Proc.devRef .tc main_v58) = rowK (Wb (Proc.devRef .tc main_arg16)) := by
  after_results; rfl
theorem W9_v58 : W9 m ρ c (Proc.devRef .tc main_v58) = rowK (W8 m ρ c (Proc.devRef .tc main_arg16)) := W9_v58_gen (W8 m ρ c)
theorem W9_v59_gen (Wb : Valuation τ sig (Elt F)) : StableHlo.after hostOps4 Wb (Proc.devRef .tc main_v59) = rowK (Wb (Proc.devRef .tc main_arg18)) := by
  after_results; rfl
theorem W9_v59 : W9 m ρ c (Proc.devRef .tc main_v59) = rowK (W8 m ρ c (Proc.devRef .tc main_arg18)) := W9_v59_gen (W8 m ρ c)
theorem W9_v60_gen (Wb : Valuation τ sig (Elt F)) : StableHlo.after hostOps4 Wb (Proc.devRef .tc main_v60) = rowK (Wb (Proc.devRef .tc main_arg19)) := by
  after_results; rfl
theorem W9_v60 : W9 m ρ c (Proc.devRef .tc main_v60) = rowK (W8 m ρ c (Proc.devRef .tc main_arg19)) := W9_v60_gen (W8 m ρ c)
theorem W9_v61_gen (Wb : Valuation τ sig (Elt F)) : StableHlo.after hostOps4 Wb (Proc.devRef .tc main_v61) = rowK (Wb (Proc.devRef .tc main_arg20)) := by
  after_results; rfl
theorem W9_v61 : W9 m ρ c (Proc.devRef .tc main_v61) = rowK (W8 m ρ c (Proc.devRef .tc main_arg20)) := W9_v61_gen (W8 m ρ c)

/-! ## What the stretch before region 5 leaves -/
theorem W11_mean_gen (Wb : Valuation τ sig (Elt F)) : StableHlo.after hostOps5 Wb (Proc.devRef .tc main_v64) = meanH (Wb (Proc.devRef .tc main_v62_1)) := by
  after_results; rfl
theorem W11_mean : W11 m ρ c (Proc.devRef .tc main_v64) = meanH (W10 m ρ c (Proc.devRef .tc main_v62_1)) := W11_mean_gen (W10 m ρ c)
theorem W11_var_gen (Wb : Valuation τ sig (Elt F)) : StableHlo.after hostOps5 Wb (Proc.devRef .tc main_v68) = varH (Wb (Proc.devRef .tc main_v62_1)) (Wb (Proc.devRef .tc main_v62_2)) := by
  after_results; rfl
theorem W11_var : W11 m ρ c (Proc.devRef .tc main_v68) = varH (W10 m ρ c (Proc.devRef .tc main_v62_1)) (W10 m ρ c (Proc.devRef .tc main_v62_2)) := W11_var_gen (W10 m ρ c)

/-! ## What the last stretch leaves -/
set_option maxHeartbeats 4000000 in
theorem W13_v72_gen (Wb : Valuation τ sig (Elt F)) : StableHlo.after hostOps6 Wb (Proc.devRef .tc main_v72) = poolK (Wb (Proc.devRef .tc main_v69)) (Wb (Proc.devRef .tc main_arg2)) := by
  after_results_simp; rfl
theorem W13_v72 : W13 m ρ c (Proc.devRef .tc main_v72) = poolK (W12 m ρ c (Proc.devRef .tc main_v69)) (W12 m ρ c (Proc.devRef .tc main_arg2)) := W13_v72_gen (W12 m ρ c)
theorem W13_v73_gen (Wb : Valuation τ sig (Elt F)) : StableHlo.after hostOps6 Wb (Proc.devRef .tc main_v73) = rowK512 (Wb (Proc.devRef .tc main_arg22)) := by
  after_results; rfl
theorem W13_v73 : W13 m ρ c (Proc.devRef .tc main_v73) = rowK512 (W12 m ρ c (Proc.devRef .tc main_arg22)) := W13_v73_gen (W12 m ρ c)
theorem W13_v74_gen (Wb : Valuation τ sig (Elt F)) : StableHlo.after hostOps6 Wb (Proc.devRef .tc main_v74) = rowK256 (Wb (Proc.devRef .tc main_arg24)) := by
  after_results; rfl
theorem W13_v74 : W13 m ρ c (Proc.devRef .tc main_v74) = rowK256 (W12 m ρ c (Proc.devRef .tc main_arg24)) := W13_v74_gen (W12 m ρ c)
theorem W13_v75_gen (Wb : Valuation τ sig (Elt F)) : StableHlo.after hostOps6 Wb (Proc.devRef .tc main_v75) = rowK12 (Wb (Proc.devRef .tc main_arg26)) := by
  after_results; rfl
theorem W13_v75 : W13 m ρ c (Proc.devRef .tc main_v75) = rowK12 (W12 m ρ c (Proc.devRef .tc main_arg26)) := W13_v75_gen (W12 m ρ c)

/-! ## Buffers nothing has written since an earlier boundary -/
theorem W1_arg0 : W1 m ρ c (Proc.devRef .tc main_arg0) = Arg m c main_arg0 :=
  (StableHlo.after_of_writes_sub hostOps0 _ hostOps0_writes (by decide : main_arg0 ∉ hostOps0_W)).trans rfl
theorem W1_arg3 : W1 m ρ c (Proc.devRef .tc main_arg3) = Arg m c main_arg3 :=
  (StableHlo.after_of_writes_sub hostOps0 _ hostOps0_writes (by decide : main_arg3 ∉ hostOps0_W)).trans rfl
theorem W1_arg5 : W1 m ρ c (Proc.devRef .tc main_arg5) = Arg m c main_arg5 :=
  (StableHlo.after_of_writes_sub hostOps0 _ hostOps0_writes (by decide : main_arg5 ∉ hostOps0_W)).trans rfl
theorem W5_arg9 : W5 m ρ c (Proc.devRef .tc main_arg9) = Arg m c main_arg9 :=
  (StableHlo.after_of_writes_sub hostOps2 _ hostOps2_writes (by decide : main_arg9 ∉ hostOps2_W)).trans <| (W4_of_ne m ρ c main_arg9 (by decide)).trans <| (StableHlo.after_of_writes_sub hostOps1 _ hostOps1_writes (by decide : main_arg9 ∉ hostOps1_W)).trans <| (W2_of_ne m ρ c main_arg9 (by decide)).trans <| (StableHlo.after_of_writes_sub hostOps0 _ hostOps0_writes (by decide : main_arg9 ∉ hostOps0_W)).trans rfl
theorem W5_arg11 : W5 m ρ c (Proc.devRef .tc main_arg11) = Arg m c main_arg11 :=
  (StableHlo.after_of_writes_sub hostOps2 _ hostOps2_writes (by decide : main_arg11 ∉ hostOps2_W)).trans <| (W4_of_ne m ρ c main_arg11 (by decide)).trans <| (StableHlo.after_of_writes_sub hostOps1 _ hostOps1_writes (by decide : main_arg11 ∉ hostOps1_W)).trans <| (W2_of_ne m ρ c main_arg11 (by decide)).trans <| (StableHlo.after_of_writes_sub hostOps0 _ hostOps0_writes (by decide : main_arg11 ∉ hostOps0_W)).trans rfl
theorem W4_arg10 : W4 m ρ c (Proc.devRef .tc main_arg10) = Arg m c main_arg10 :=
  (W4_of_ne m ρ c main_arg10 (by decide)).trans <| (StableHlo.after_of_writes_sub hostOps1 _ hostOps1_writes (by decide : main_arg10 ∉ hostOps1_W)).trans <| (W2_of_ne m ρ c main_arg10 (by decide)).trans <| (StableHlo.after_of_writes_sub hostOps0 _ hostOps0_writes (by decide : main_arg10 ∉ hostOps0_W)).trans rfl
theorem W4_arg12 : W4 m ρ c (Proc.devRef .tc main_arg12) = Arg m c main_arg12 :=
  (W4_of_ne m ρ c main_arg12 (by decide)).trans <| (StableHlo.after_of_writes_sub hostOps1 _ hostOps1_writes (by decide : main_arg12 ∉ hostOps1_W)).trans <| (W2_of_ne m ρ c main_arg12 (by decide)).trans <| (StableHlo.after_of_writes_sub hostOps0 _ hostOps0_writes (by decide : main_arg12 ∉ hostOps0_W)).trans rfl
theorem W4_arg13 : W4 m ρ c (Proc.devRef .tc main_arg13) = Arg m c main_arg13 :=
  (W4_of_ne m ρ c main_arg13 (by decide)).trans <| (StableHlo.after_of_writes_sub hostOps1 _ hostOps1_writes (by decide : main_arg13 ∉ hostOps1_W)).trans <| (W2_of_ne m ρ c main_arg13 (by decide)).trans <| (StableHlo.after_of_writes_sub hostOps0 _ hostOps0_writes (by decide : main_arg13 ∉ hostOps0_W)).trans rfl
theorem W4_arg14 : W4 m ρ c (Proc.devRef .tc main_arg14) = Arg m c main_arg14 :=
  (W4_of_ne m ρ c main_arg14 (by decide)).trans <| (StableHlo.after_of_writes_sub hostOps1 _ hostOps1_writes (by decide : main_arg14 ∉ hostOps1_W)).trans <| (W2_of_ne m ρ c main_arg14 (by decide)).trans <| (StableHlo.after_of_writes_sub hostOps0 _ hostOps0_writes (by decide : main_arg14 ∉ hostOps0_W)).trans rfl
theorem W9_arg15 : W9 m ρ c (Proc.devRef .tc main_arg15) = Arg m c main_arg15 :=
  (StableHlo.after_of_writes_sub hostOps4 _ hostOps4_writes (by decide : main_arg15 ∉ hostOps4_W)).trans <| (W8_of_ne m ρ c main_arg15 (by decide)).trans <| (StableHlo.after_of_writes_sub hostOps3 _ hostOps3_writes (by decide : main_arg15 ∉ hostOps3_W)).trans <| (W6_of_ne m ρ c main_arg15 (by decide)).trans <| (StableHlo.after_of_writes_sub hostOps2 _ hostOps2_writes (by decide : main_arg15 ∉ hostOps2_W)).trans <| (W4_of_ne m ρ c main_arg15 (by decide)).trans <| (StableHlo.after_of_writes_sub hostOps1 _ hostOps1_writes (by decide : main_arg15 ∉ hostOps1_W)).trans <| (W2_of_ne m ρ c main_arg15 (by decide)).trans <| (StableHlo.after_of_writes_sub hostOps0 _ hostOps0_writes (by decide : main_arg15 ∉ hostOps0_W)).trans rfl
theorem W9_arg17 : W9 m ρ c (Proc.devRef .tc main_arg17) = Arg m c main_arg17 :=
  (StableHlo.after_of_writes_sub hostOps4 _ hostOps4_writes (by decide : main_arg17 ∉ hostOps4_W)).trans <| (W8_of_ne m ρ c main_arg17 (by decide)).trans <| (StableHlo.after_of_writes_sub hostOps3 _ hostOps3_writes (by decide : main_arg17 ∉ hostOps3_W)).trans <| (W6_of_ne m ρ c main_arg17 (by decide)).trans <| (StableHlo.after_of_writes_sub hostOps2 _ hostOps2_writes (by decide : main_arg17 ∉ hostOps2_W)).trans <| (W4_of_ne m ρ c main_arg17 (by decide)).trans <| (StableHlo.after_of_writes_sub hostOps1 _ hostOps1_writes (by decide : main_arg17 ∉ hostOps1_W)).trans <| (W2_of_ne m ρ c main_arg17 (by decide)).trans <| (StableHlo.after_of_writes_sub hostOps0 _ hostOps0_writes (by decide : main_arg17 ∉ hostOps0_W)).trans rfl
theorem W8_arg16 : W8 m ρ c (Proc.devRef .tc main_arg16) = Arg m c main_arg16 :=
  (W8_of_ne m ρ c main_arg16 (by decide)).trans <| (StableHlo.after_of_writes_sub hostOps3 _ hostOps3_writes (by decide : main_arg16 ∉ hostOps3_W)).trans <| (W6_of_ne m ρ c main_arg16 (by decide)).trans <| (StableHlo.after_of_writes_sub hostOps2 _ hostOps2_writes (by decide : main_arg16 ∉ hostOps2_W)).trans <| (W4_of_ne m ρ c main_arg16 (by decide)).trans <| (StableHlo.after_of_writes_sub hostOps1 _ hostOps1_writes (by decide : main_arg16 ∉ hostOps1_W)).trans <| (W2_of_ne m ρ c main_arg16 (by decide)).trans <| (StableHlo.after_of_writes_sub hostOps0 _ hostOps0_writes (by decide : main_arg16 ∉ hostOps0_W)).trans rfl
theorem W8_arg18 : W8 m ρ c (Proc.devRef .tc main_arg18) = Arg m c main_arg18 :=
  (W8_of_ne m ρ c main_arg18 (by decide)).trans <| (StableHlo.after_of_writes_sub hostOps3 _ hostOps3_writes (by decide : main_arg18 ∉ hostOps3_W)).trans <| (W6_of_ne m ρ c main_arg18 (by decide)).trans <| (StableHlo.after_of_writes_sub hostOps2 _ hostOps2_writes (by decide : main_arg18 ∉ hostOps2_W)).trans <| (W4_of_ne m ρ c main_arg18 (by decide)).trans <| (StableHlo.after_of_writes_sub hostOps1 _ hostOps1_writes (by decide : main_arg18 ∉ hostOps1_W)).trans <| (W2_of_ne m ρ c main_arg18 (by decide)).trans <| (StableHlo.after_of_writes_sub hostOps0 _ hostOps0_writes (by decide : main_arg18 ∉ hostOps0_W)).trans rfl
theorem W8_arg19 : W8 m ρ c (Proc.devRef .tc main_arg19) = Arg m c main_arg19 :=
  (W8_of_ne m ρ c main_arg19 (by decide)).trans <| (StableHlo.after_of_writes_sub hostOps3 _ hostOps3_writes (by decide : main_arg19 ∉ hostOps3_W)).trans <| (W6_of_ne m ρ c main_arg19 (by decide)).trans <| (StableHlo.after_of_writes_sub hostOps2 _ hostOps2_writes (by decide : main_arg19 ∉ hostOps2_W)).trans <| (W4_of_ne m ρ c main_arg19 (by decide)).trans <| (StableHlo.after_of_writes_sub hostOps1 _ hostOps1_writes (by decide : main_arg19 ∉ hostOps1_W)).trans <| (W2_of_ne m ρ c main_arg19 (by decide)).trans <| (StableHlo.after_of_writes_sub hostOps0 _ hostOps0_writes (by decide : main_arg19 ∉ hostOps0_W)).trans rfl
theorem W8_arg20 : W8 m ρ c (Proc.devRef .tc main_arg20) = Arg m c main_arg20 :=
  (W8_of_ne m ρ c main_arg20 (by decide)).trans <| (StableHlo.after_of_writes_sub hostOps3 _ hostOps3_writes (by decide : main_arg20 ∉ hostOps3_W)).trans <| (W6_of_ne m ρ c main_arg20 (by decide)).trans <| (StableHlo.after_of_writes_sub hostOps2 _ hostOps2_writes (by decide : main_arg20 ∉ hostOps2_W)).trans <| (W4_of_ne m ρ c main_arg20 (by decide)).trans <| (StableHlo.after_of_writes_sub hostOps1 _ hostOps1_writes (by decide : main_arg20 ∉ hostOps1_W)).trans <| (W2_of_ne m ρ c main_arg20 (by decide)).trans <| (StableHlo.after_of_writes_sub hostOps0 _ hostOps0_writes (by decide : main_arg20 ∉ hostOps0_W)).trans rfl
theorem W12_arg2 : W12 m ρ c (Proc.devRef .tc main_arg2) = Arg m c main_arg2 :=
  (W12_of_ne m ρ c main_arg2 (by decide)).trans <| (StableHlo.after_of_writes_sub hostOps5 _ hostOps5_writes (by decide : main_arg2 ∉ hostOps5_W)).trans <| (W10_of_ne m ρ c main_arg2 (by decide)).trans <| (StableHlo.after_of_writes_sub hostOps4 _ hostOps4_writes (by decide : main_arg2 ∉ hostOps4_W)).trans <| (W8_of_ne m ρ c main_arg2 (by decide)).trans <| (StableHlo.after_of_writes_sub hostOps3 _ hostOps3_writes (by decide : main_arg2 ∉ hostOps3_W)).trans <| (W6_of_ne m ρ c main_arg2 (by decide)).trans <| (StableHlo.after_of_writes_sub hostOps2 _ hostOps2_writes (by decide : main_arg2 ∉ hostOps2_W)).trans <| (W4_of_ne m ρ c main_arg2 (by decide)).trans <| (StableHlo.after_of_writes_sub hostOps1 _ hostOps1_writes (by decide : main_arg2 ∉ hostOps1_W)).trans <| (W2_of_ne m ρ c main_arg2 (by decide)).trans <| (StableHlo.after_of_writes_sub hostOps0 _ hostOps0_writes (by decide : main_arg2 ∉ hostOps0_W)).trans rfl
theorem W12_arg22 : W12 m ρ c (Proc.devRef .tc main_arg22) = Arg m c main_arg22 :=
  (W12_of_ne m ρ c main_arg22 (by decide)).trans <| (StableHlo.after_of_writes_sub hostOps5 _ hostOps5_writes (by decide : main_arg22 ∉ hostOps5_W)).trans <| (W10_of_ne m ρ c main_arg22 (by decide)).trans <| (StableHlo.after_of_writes_sub hostOps4 _ hostOps4_writes (by decide : main_arg22 ∉ hostOps4_W)).trans <| (W8_of_ne m ρ c main_arg22 (by decide)).trans <| (StableHlo.after_of_writes_sub hostOps3 _ hostOps3_writes (by decide : main_arg22 ∉ hostOps3_W)).trans <| (W6_of_ne m ρ c main_arg22 (by decide)).trans <| (StableHlo.after_of_writes_sub hostOps2 _ hostOps2_writes (by decide : main_arg22 ∉ hostOps2_W)).trans <| (W4_of_ne m ρ c main_arg22 (by decide)).trans <| (StableHlo.after_of_writes_sub hostOps1 _ hostOps1_writes (by decide : main_arg22 ∉ hostOps1_W)).trans <| (W2_of_ne m ρ c main_arg22 (by decide)).trans <| (StableHlo.after_of_writes_sub hostOps0 _ hostOps0_writes (by decide : main_arg22 ∉ hostOps0_W)).trans rfl
theorem W12_arg24 : W12 m ρ c (Proc.devRef .tc main_arg24) = Arg m c main_arg24 :=
  (W12_of_ne m ρ c main_arg24 (by decide)).trans <| (StableHlo.after_of_writes_sub hostOps5 _ hostOps5_writes (by decide : main_arg24 ∉ hostOps5_W)).trans <| (W10_of_ne m ρ c main_arg24 (by decide)).trans <| (StableHlo.after_of_writes_sub hostOps4 _ hostOps4_writes (by decide : main_arg24 ∉ hostOps4_W)).trans <| (W8_of_ne m ρ c main_arg24 (by decide)).trans <| (StableHlo.after_of_writes_sub hostOps3 _ hostOps3_writes (by decide : main_arg24 ∉ hostOps3_W)).trans <| (W6_of_ne m ρ c main_arg24 (by decide)).trans <| (StableHlo.after_of_writes_sub hostOps2 _ hostOps2_writes (by decide : main_arg24 ∉ hostOps2_W)).trans <| (W4_of_ne m ρ c main_arg24 (by decide)).trans <| (StableHlo.after_of_writes_sub hostOps1 _ hostOps1_writes (by decide : main_arg24 ∉ hostOps1_W)).trans <| (W2_of_ne m ρ c main_arg24 (by decide)).trans <| (StableHlo.after_of_writes_sub hostOps0 _ hostOps0_writes (by decide : main_arg24 ∉ hostOps0_W)).trans rfl
theorem W12_arg26 : W12 m ρ c (Proc.devRef .tc main_arg26) = Arg m c main_arg26 :=
  (W12_of_ne m ρ c main_arg26 (by decide)).trans <| (StableHlo.after_of_writes_sub hostOps5 _ hostOps5_writes (by decide : main_arg26 ∉ hostOps5_W)).trans <| (W10_of_ne m ρ c main_arg26 (by decide)).trans <| (StableHlo.after_of_writes_sub hostOps4 _ hostOps4_writes (by decide : main_arg26 ∉ hostOps4_W)).trans <| (W8_of_ne m ρ c main_arg26 (by decide)).trans <| (StableHlo.after_of_writes_sub hostOps3 _ hostOps3_writes (by decide : main_arg26 ∉ hostOps3_W)).trans <| (W6_of_ne m ρ c main_arg26 (by decide)).trans <| (StableHlo.after_of_writes_sub hostOps2 _ hostOps2_writes (by decide : main_arg26 ∉ hostOps2_W)).trans <| (W4_of_ne m ρ c main_arg26 (by decide)).trans <| (StableHlo.after_of_writes_sub hostOps1 _ hostOps1_writes (by decide : main_arg26 ∉ hostOps1_W)).trans <| (W2_of_ne m ρ c main_arg26 (by decide)).trans <| (StableHlo.after_of_writes_sub hostOps0 _ hostOps0_writes (by decide : main_arg26 ∉ hostOps0_W)).trans rfl
theorem W13_arg21 : W13 m ρ c (Proc.devRef .tc main_arg21) = Arg m c main_arg21 :=
  (StableHlo.after_of_writes_sub hostOps6 _ hostOps6_writes (by decide : main_arg21 ∉ hostOps6_W)).trans <| (W12_of_ne m ρ c main_arg21 (by decide)).trans <| (StableHlo.after_of_writes_sub hostOps5 _ hostOps5_writes (by decide : main_arg21 ∉ hostOps5_W)).trans <| (W10_of_ne m ρ c main_arg21 (by decide)).trans <| (StableHlo.after_of_writes_sub hostOps4 _ hostOps4_writes (by decide : main_arg21 ∉ hostOps4_W)).trans <| (W8_of_ne m ρ c main_arg21 (by decide)).trans <| (StableHlo.after_of_writes_sub hostOps3 _ hostOps3_writes (by decide : main_arg21 ∉ hostOps3_W)).trans <| (W6_of_ne m ρ c main_arg21 (by decide)).trans <| (StableHlo.after_of_writes_sub hostOps2 _ hostOps2_writes (by decide : main_arg21 ∉ hostOps2_W)).trans <| (W4_of_ne m ρ c main_arg21 (by decide)).trans <| (StableHlo.after_of_writes_sub hostOps1 _ hostOps1_writes (by decide : main_arg21 ∉ hostOps1_W)).trans <| (W2_of_ne m ρ c main_arg21 (by decide)).trans <| (StableHlo.after_of_writes_sub hostOps0 _ hostOps0_writes (by decide : main_arg21 ∉ hostOps0_W)).trans rfl
theorem W13_arg23 : W13 m ρ c (Proc.devRef .tc main_arg23) = Arg m c main_arg23 :=
  (StableHlo.after_of_writes_sub hostOps6 _ hostOps6_writes (by decide : main_arg23 ∉ hostOps6_W)).trans <| (W12_of_ne m ρ c main_arg23 (by decide)).trans <| (StableHlo.after_of_writes_sub hostOps5 _ hostOps5_writes (by decide : main_arg23 ∉ hostOps5_W)).trans <| (W10_of_ne m ρ c main_arg23 (by decide)).trans <| (StableHlo.after_of_writes_sub hostOps4 _ hostOps4_writes (by decide : main_arg23 ∉ hostOps4_W)).trans <| (W8_of_ne m ρ c main_arg23 (by decide)).trans <| (StableHlo.after_of_writes_sub hostOps3 _ hostOps3_writes (by decide : main_arg23 ∉ hostOps3_W)).trans <| (W6_of_ne m ρ c main_arg23 (by decide)).trans <| (StableHlo.after_of_writes_sub hostOps2 _ hostOps2_writes (by decide : main_arg23 ∉ hostOps2_W)).trans <| (W4_of_ne m ρ c main_arg23 (by decide)).trans <| (StableHlo.after_of_writes_sub hostOps1 _ hostOps1_writes (by decide : main_arg23 ∉ hostOps1_W)).trans <| (W2_of_ne m ρ c main_arg23 (by decide)).trans <| (StableHlo.after_of_writes_sub hostOps0 _ hostOps0_writes (by decide : main_arg23 ∉ hostOps0_W)).trans rfl
theorem W13_arg25 : W13 m ρ c (Proc.devRef .tc main_arg25) = Arg m c main_arg25 :=
  (StableHlo.after_of_writes_sub hostOps6 _ hostOps6_writes (by decide : main_arg25 ∉ hostOps6_W)).trans <| (W12_of_ne m ρ c main_arg25 (by decide)).trans <| (StableHlo.after_of_writes_sub hostOps5 _ hostOps5_writes (by decide : main_arg25 ∉ hostOps5_W)).trans <| (W10_of_ne m ρ c main_arg25 (by decide)).trans <| (StableHlo.after_of_writes_sub hostOps4 _ hostOps4_writes (by decide : main_arg25 ∉ hostOps4_W)).trans <| (W8_of_ne m ρ c main_arg25 (by decide)).trans <| (StableHlo.after_of_writes_sub hostOps3 _ hostOps3_writes (by decide : main_arg25 ∉ hostOps3_W)).trans <| (W6_of_ne m ρ c main_arg25 (by decide)).trans <| (StableHlo.after_of_writes_sub hostOps2 _ hostOps2_writes (by decide : main_arg25 ∉ hostOps2_W)).trans <| (W4_of_ne m ρ c main_arg25 (by decide)).trans <| (StableHlo.after_of_writes_sub hostOps1 _ hostOps1_writes (by decide : main_arg25 ∉ hostOps1_W)).trans <| (W2_of_ne m ρ c main_arg25 (by decide)).trans <| (StableHlo.after_of_writes_sub hostOps0 _ hostOps0_writes (by decide : main_arg25 ∉ hostOps0_W)).trans rfl
theorem W4_v1 : W4 m ρ c (Proc.devRef .tc main_v1) = W1 m ρ c (Proc.devRef .tc main_v1) :=
  (W4_of_ne m ρ c main_v1 (by decide)).trans <| (StableHlo.after_of_writes_sub hostOps1 _ hostOps1_writes (by decide : main_v1 ∉ hostOps1_W)).trans <| (W2_of_ne m ρ c main_v1 (by decide))
theorem W4_v3 : W4 m ρ c (Proc.devRef .tc main_v3) = W1 m ρ c (Proc.devRef .tc main_v3) :=
  (W4_of_ne m ρ c main_v3 (by decide)).trans <| (StableHlo.after_of_writes_sub hostOps1 _ hostOps1_writes (by decide : main_v3 ∉ hostOps1_W)).trans <| (W2_of_ne m ρ c main_v3 (by decide))
theorem W8_v1 : W8 m ρ c (Proc.devRef .tc main_v1) = W1 m ρ c (Proc.devRef .tc main_v1) :=
  (W8_of_ne m ρ c main_v1 (by decide)).trans <| (StableHlo.after_of_writes_sub hostOps3 _ hostOps3_writes (by decide : main_v1 ∉ hostOps3_W)).trans <| (W6_of_ne m ρ c main_v1 (by decide)).trans <| (StableHlo.after_of_writes_sub hostOps2 _ hostOps2_writes (by decide : main_v1 ∉ hostOps2_W)).trans <| (W4_of_ne m ρ c main_v1 (by decide)).trans <| (StableHlo.after_of_writes_sub hostOps1 _ hostOps1_writes (by decide : main_v1 ∉ hostOps1_W)).trans <| (W2_of_ne m ρ c main_v1 (by decide))
theorem W8_v3 : W8 m ρ c (Proc.devRef .tc main_v3) = W1 m ρ c (Proc.devRef .tc main_v3) :=
  (W8_of_ne m ρ c main_v3 (by decide)).trans <| (StableHlo.after_of_writes_sub hostOps3 _ hostOps3_writes (by decide : main_v3 ∉ hostOps3_W)).trans <| (W6_of_ne m ρ c main_v3 (by decide)).trans <| (StableHlo.after_of_writes_sub hostOps2 _ hostOps2_writes (by decide : main_v3 ∉ hostOps2_W)).trans <| (W4_of_ne m ρ c main_v3 (by decide)).trans <| (StableHlo.after_of_writes_sub hostOps1 _ hostOps1_writes (by decide : main_v3 ∉ hostOps1_W)).trans <| (W2_of_ne m ρ c main_v3 (by decide))

end Cert.KernelIdeal.Hand

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.LibGraphRows.lean ====
/-
  Row-wise pieces of a degree-normalised graph convolution, on the extended reals, beside the rows-against-columns
  product `rowsMul`:

    scaleRows h w   : entry (e, f) is h(e, f) · w(e, 0)            — every row of `h` scaled by that row's weight;
    addRowOf v b    : entry (r, c) is v(r, c) + b(0, c)            — one row vector added to every row;
    addRowClip v b  : entry (r, c) is max (v(r, c) + b(0, c)) 0    — the same, clipped below at the float zero.

  Each depends on row r of its row operand(s) only, so a block of consecutive rows of the result is the same
  function of the same block of rows (`scaleRows_rows`, `addRowOf_rows`, `addRowClip_rows`).
-/
import proofs.«142609_j54228257079879_1_alg».proof.Proof.LibRowsLayer

noncomputable section

namespace Cert.Sage

open Idealize.ShloMosaic Idealize.ShloMosaic.ValueIdx

variable {n N k c : Nat}

/-- Every row scaled by its own weight: entry (e, f) is h(e, f) · w(e, 0). -/
def scaleRows (h : Arr2 n c) (w : Arr2 n 1) : Arr2 n c :=
  fun i => h i * w (ix2 (rowOf i) (0 : Fin 1))

/-- A row vector, kept as a one-row array, added to every row. -/
def addRowOf (v : Arr2 n c) (b : Arr2 1 c) : Arr2 n c :=
  fun i => v i + b (ix2 (0 : Fin 1) (colOf i))

/-- The same, clipped below at the float zero. -/
def addRowClip (v : Arr2 n c) (b : Arr2 1 c) : Arr2 n c :=
  fun i => max (v i + b (ix2 (0 : Fin 1) (colOf i))) zeroF

/-- A block of rows of `scaleRows` is `scaleRows` of the blocks of rows. -/
theorem scaleRows_rows (H : Arr2 N c) (W : Arr2 N 1) (h : Arr2 n c) (w : Arr2 n 1)
    (I : (⟨2, ![N, c]⟩ : Shape).Idx) (i : (⟨2, ![n, c]⟩ : Shape).Idx)
    (hh : H I = h i) (hw : W (ix2 (rowOf I) (0 : Fin 1)) = w (ix2 (rowOf i) (0 : Fin 1))) :
    scaleRows H W I = scaleRows h w i := by
  unfold scaleRows; rw [hh, hw]

/-- A block of rows of `addRowOf` is `addRowOf` of the block of rows. -/
theorem addRowOf_rows (V : Arr2 N c) (v : Arr2 n c) (b : Arr2 1 c)
    (I : (⟨2, ![N, c]⟩ : Shape).Idx) (i : (⟨2, ![n, c]⟩ : Shape).Idx) (hc : (I 1).val = (i 1).val)
    (hv : V I = v i) : addRowOf V b I = addRowOf v b i := by
  unfold addRowOf
  have : colOf I = colOf i := Fin.ext hc
  rw [hv, this]

/-- A block of rows of `addRowClip` is `addRowClip` of the block of rows. -/
theorem addRowClip_rows (V : Arr2 N c) (v : Arr2 n c) (b : Arr2 1 c)
    (I : (⟨2, ![N, c]⟩ : Shape).Idx) (i : (⟨2, ![n, c]⟩ : Shape).Idx) (hc : (I 1).val = (i 1).val)
    (hv : V I = v i) : addRowClip V b I = addRowClip v b i := by
  unfold addRowClip
  have : colOf I = colOf i := Fin.ext hc
  rw [hv, this]

end Cert.Sage

end
-- ==== Proof.Math.Spec.lean ====
/-
  The layer mathematics both programs compute, on extended reals, index by index.
  A layer takes node rows `x` and their neighbour sums `a`, applies a two-layer perceptron to `x + a`
  (weights `W1`, `W2`, bias rows `b1`, `b2`, the hidden layer clipped below at zero), then normalises every
  column by its mean and variance over all rows, scales by `γ`, shifts by `β` and clips at zero.
  The variance is written in two forms: mean of squares minus squared mean, and mean of squared deviations.
  Bias and statistics rows are kept as one-row arrays.
-/
import proofs.«142609_j54228257079879_1_alg».proof.Proof.LibRowsLayer
import proofs.«142609_j54228257079879_1_alg».proof.Proof.LibGraphRows

noncomputable section

namespace Cert.Gin

open Idealize.ShloMosaic Idealize.ShloMosaic.ValueIdx Cert.Sage
open scoped BigOperators

variable {n k c : Nat}

/-- The number of rows, as the float both programs divide by. -/
def nF : EReal := Ideal.ofBits .f32 0x47C35000#32
/-- The float added to a variance before the reciprocal square root. -/
def epsF : EReal := Ideal.ofBits .f32 0x3727C5AC#32

/-- A vector as a one-row array. -/
def rowVec (b : Arr1 c) : Arr2 1 c := fun i => b (ix1 (colOf i))

/-- The two-layer perceptron on the rows `x + a`: entry (p, q) is
    Σ_j max(Σ_i (x + a)(p, i) · W1(i, j) + b1(0, j), 0) · W2(j, q) + b2(0, q). -/
def mlp (x a : Arr2 n k) (W1 : Arr2 k 128) (b1 : Arr2 1 128) (W2 : Arr2 128 128) (b2 : Arr2 1 128) : Arr2 n 128 :=
  addRowOf (rowsMul (addRowClip (rowsMul (fun i => x i + a i) W1) b1) W2) b2

/-- The sum of every column over all rows. -/
def colSum (t : Arr2 n 128) : Arr2 1 128 := fun j => ∑ p : Fin n, t (ix2 p (colOf j))
/-- The sum of the squares of every column over all rows. -/
def colSumSq (t : Arr2 n 128) : Arr2 1 128 := fun j => ∑ p : Fin n, t (ix2 p (colOf j)) * t (ix2 p (colOf j))

/-- A column sum divided by the number of rows. -/
def meanK (s : Arr2 1 128) : Arr2 1 128 := fun j => Ideal.div (s j) nF
/-- The variance as mean of squares minus squared mean. -/
def varK (s sq : Arr2 1 128) : Arr2 1 128 := fun j => Ideal.div (sq j) nF - meanK s j * meanK s j
/-- The variance as mean of squared deviations from the mean. -/
def varDev (t : Arr2 n 128) : Arr2 1 128 := fun j =>
  Ideal.div (∑ p : Fin n, (t (ix2 p (colOf j)) - meanK (colSum t) j) * (t (ix2 p (colOf j)) - meanK (colSum t) j)) nF

/-- Normalise by the column statistics, scale, shift, clip at zero. -/
def bnRelu (t : Arr2 n 128) (mean var γ β : Arr2 1 128) : Arr2 n 128 := fun i =>
  max ((t i - mean (ix2 (0 : Fin 1) (colOf i))) * Ideal.rsqrt (var (ix2 (0 : Fin 1) (colOf i)) + epsF)
        * γ (ix2 (0 : Fin 1) (colOf i)) + β (ix2 (0 : Fin 1) (colOf i))) zeroF

/-- A layer with the variance as mean of squares minus squared mean. -/
def layerK (x a : Arr2 n k) (W1 : Arr2 k 128) (b1 : Arr2 1 128) (W2 : Arr2 128 128) (b2 γ β : Arr2 1 128) : Arr2 n 128 :=
  bnRelu (mlp x a W1 b1 W2 b2) (meanK (colSum (mlp x a W1 b1 W2 b2)))
    (varK (colSum (mlp x a W1 b1 W2 b2)) (colSumSq (mlp x a W1 b1 W2 b2))) γ β

/-- A layer with the variance as mean of squared deviations. -/
def layerR (x a : Arr2 n k) (W1 : Arr2 k 128) (b1 : Arr2 1 128) (W2 : Arr2 128 128) (b2 γ β : Arr2 1 128) : Arr2 n 128 :=
  bnRelu (mlp x a W1 b1 W2 b2) (meanK (colSum (mlp x a W1 b1 W2 b2))) (varDev (mlp x a W1 b1 W2 b2)) γ β

/-- The readout: three dense layers, the first two clipped at zero. -/
def readout (g : Arr2 n 128) (W1 : Arr2 128 512) (b1 : Arr2 1 512) (W2 : Arr2 512 256) (b2 : Arr2 1 256)
    (W3 : Arr2 256 12) (b3 : Arr2 1 12) : Arr2 n 12 :=
  addRowOf (rowsMul (addRowClip (rowsMul (addRowClip (rowsMul g W1) b1) W2) b2) W3) b3

end Cert.Gin

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«142609_j54228257079879_1_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibFinite.lean ====
/-
  Real-valued extended reals.

  The extended reals `EReal = ℝ ∪ {⊥, ⊤}` are not a ring: distributivity fails at the
  infinities.  An algebraic identity between two extended-real expressions is therefore
  proved by first showing that every leaf is (the coercion of) a real number, and then
  computing in `ℝ`.  This file provides the predicate and its closure properties:

  * `IsReal x`   : `x` is the coercion of a real number (`isReal_iff`: equivalently
                    `x ≠ ⊤ ∧ x ≠ ⊥`); `AllReal v` : every entry of the family `v` is real
                    (`allReal_iff_exists`: `v` is the coercion of a real family).
  * `IsPosReal x`: `x` is the coercion of a positive real.
  * closure of `IsReal` under `0`, `1`, `+`, `-`, unary `-`, `*`, `max`, `min`,
    finite sums (`coe_finset_sum`: the coercion commutes with a finite sum), division by a
    nonzero real (`Ideal.div`), the reciprocal square root of a positive real
    (`Ideal.rsqrt`), and the pointwise versions for families (`AllReal`).
  * a sum of squares of reals is nonnegative; nonnegative + positive is positive.
-/
import Idealize.ShloMosaic.PureOps.Ideal

noncomputable section

namespace Cert.LibFinite

open Idealize.ShloMosaic
open scoped BigOperators

/-- An extended real is REAL when it is the coercion of a real number. -/
def IsReal (x : EReal) : Prop := ∃ r : ℝ, x = (r : EReal)

/-- An extended real is a POSITIVE REAL when it is the coercion of a positive real number. -/
def IsPosReal (x : EReal) : Prop := ∃ r : ℝ, 0 < r ∧ x = (r : EReal)

/-- Every entry of the family `v` is real. -/
def AllReal {ι : Sort*} (v : ι → EReal) : Prop := ∀ i, IsReal (v i)

/-- Every entry of the family `v` is a positive real. -/
def AllPosReal {ι : Sort*} (v : ι → EReal) : Prop := ∀ i, IsPosReal (v i)

/-! ### The predicate -/

/-- Real means: neither infinity. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := ((isReal_iff x).mp h).1
theorem IsReal.ne_bot {x : EReal} (h : IsReal x) : x ≠ ⊥ := ((isReal_iff x).mp h).2

/-- A real extended real is the coercion of its own real part. -/
theorem IsReal.coe_toReal {x : EReal} (h : IsReal x) : ((x.toReal : ℝ) : EReal) = x :=
  EReal.coe_toReal h.ne_top h.ne_bot

theorem isReal_coe (r : ℝ) : IsReal (r : EReal) := ⟨r, rfl⟩
theorem isReal_zero : IsReal 0 := ⟨0, rfl⟩
theorem isReal_one : IsReal 1 := ⟨1, rfl⟩

theorem IsPosReal.isReal {x : EReal} (h : IsPosReal x) : IsReal x := let ⟨r, _, e⟩ := h; ⟨r, e⟩
theorem IsPosReal.pos {x : EReal} (h : IsPosReal x) : 0 < x := by
  obtain ⟨r, hr, rfl⟩ := h; exact EReal.coe_pos.mpr hr
theorem IsPosReal.ne_zero {x : EReal} (h : IsPosReal x) : x ≠ 0 := h.pos.ne'
theorem isPosReal_coe {r : ℝ} (h : 0 < r) : IsPosReal (r : EReal) := ⟨r, h, rfl⟩
/-- A real that is positive as an extended real is a positive real. -/
theorem IsReal.isPosReal {x : EReal} (h : IsReal x) (hp : 0 < x) : IsPosReal x := by
  obtain ⟨r, rfl⟩ := h; exact ⟨r, EReal.coe_pos.mp hp, rfl⟩

theorem AllPosReal.allReal {ι : Sort*} {v : ι → EReal} (h : AllPosReal v) : AllReal v := fun i => (h i).isReal

/-- A family is real exactly when it is the coercion of a family of reals. -/
theorem allReal_iff_exists {ι : Sort*} (v : ι → EReal) : AllReal v ↔ ∃ f : ι → ℝ, v = fun i => (f i : EReal) := by
  constructor
  · intro h; exact ⟨fun i => (v i).toReal, funext fun i => ((h i).coe_toReal).symm⟩
  · rintro ⟨f, rfl⟩ i; exact ⟨f i, rfl⟩

theorem allReal_coe {ι : Sort*} (f : ι → ℝ) : AllReal (fun i => (f i : EReal)) := fun i => ⟨f i, rfl⟩
theorem allReal_const {ι : Sort*} {c : EReal} (h : IsReal c) : AllReal (fun _ : ι => c) := fun _ => h
/-- Every entry of a reindexed family is an entry of the family. -/
theorem AllReal.comp {ι κ : Sort*} {v : ι → EReal} (h : AllReal v) (f : κ → ι) : AllReal (fun k => v (f k)) :=
  fun k => h (f k)

/-! ### Pointwise closure -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with `max` (it is monotone). -/
theorem coe_max (a b : ℝ) : ((max a b : ℝ) : EReal) = max (a : EReal) (b : EReal) :=
  (EReal.coe_strictMono.monotone).map_max
/-- The coercion commutes with `min`. -/
theorem coe_min (a b : ℝ) : ((min a b : ℝ) : EReal) = min (a : EReal) (b : EReal) :=
  (EReal.coe_strictMono.monotone).map_min

theorem IsReal.max {x y : EReal} (hx : IsReal x) (hy : IsReal y) : IsReal (max x y) := by
  obtain ⟨a, rfl⟩ := hx; obtain ⟨b, rfl⟩ := hy; exact ⟨Max.max a b, (coe_max a b).symm⟩
theorem IsReal.min {x y : EReal} (hx : IsReal x) (hy : IsReal y) : IsReal (min x y) := by
  obtain ⟨a, rfl⟩ := hx; obtain ⟨b, rfl⟩ := hy; exact ⟨Min.min a b, (coe_min a b).symm⟩

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩
/-- A nonnegative real plus a positive real is a positive real. -/
theorem IsPosReal.nonneg_add {x y : EReal} (hx : IsReal x) (hx0 : 0 ≤ x) (hy : IsPosReal y) : IsPosReal (x + y) := by
  obtain ⟨a, rfl⟩ := hx; obtain ⟨b, hb, rfl⟩ := hy
  exact ⟨a + b, add_pos_of_nonneg_of_pos (EReal.coe_nonneg.mp hx0) hb, (EReal.coe_add a b).symm⟩
/-- The maximum of a real and a positive real is a positive real. -/
theorem IsPosReal.max_right {x y : EReal} (hx : IsReal x) (hy : IsPosReal y) : IsPosReal (max x y) :=
  (hx.max hy.isReal).isPosReal (lt_of_lt_of_le hy.pos (le_max_right x y))
theorem IsPosReal.max_left {x y : EReal} (hx : IsPosReal x) (hy : IsReal y) : IsPosReal (max x y) :=
  (hx.isReal.max hy).isPosReal (lt_of_lt_of_le hx.pos (le_max_left x y))

/-- The square of a real extended real is nonnegative. -/
theorem IsReal.mul_self_nonneg {x : EReal} (hx : IsReal x) : 0 ≤ x * x := by
  obtain ⟨a, rfl⟩ := hx; rw [← EReal.coe_mul]; exact EReal.coe_nonneg.mpr (_root_.mul_self_nonneg a)

/-! ### Finite sums -/

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real extended reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A finite sum over a real family is real. -/
theorem AllReal.sum {ι : Type*} {f : ι → EReal} (h : AllReal f) (s : Finset ι) : IsReal (∑ i ∈ s, f i) :=
  IsReal.sum s f fun i _ => h i

/-- A finite sum of products of two real families is real (a dot product). -/
theorem AllReal.sum_mul {ι : Type*} {f g : ι → EReal} (hf : AllReal f) (hg : AllReal g) (s : Finset ι) :
    IsReal (∑ i ∈ s, f i * g i) :=
  IsReal.sum s _ fun i _ => (hf i).mul (hg i)

/-- A finite sum of nonnegative extended reals is nonnegative. -/
theorem sum_nonneg {ι : Type*} (s : Finset ι) (f : ι → EReal) (h : ∀ i ∈ s, 0 ≤ f i) : 0 ≤ ∑ i ∈ s, f i :=
  Finset.sum_nonneg h

/-- A finite sum of squares of real extended reals is nonnegative. -/
theorem sum_mul_self_nonneg {ι : Type*} (s : Finset ι) {f : ι → EReal} (h : ∀ i ∈ s, IsReal (f i)) :
    0 ≤ ∑ i ∈ s, f i * f i :=
  Finset.sum_nonneg fun i hi => (h i hi).mul_self_nonneg

/-! ### Division and the reciprocal square root -/

/-- A real divided by a NONZERO real is real: `x / y = x * y⁻¹`. -/
theorem IsReal.div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h]; rfl)
  rw [Ideal.div_coe hb]
  exact (isReal_coe a).mul (isReal_coe _)

/-- The quotient of two reals, the divisor nonzero, is the coercion of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A positive real divided by a positive real is a positive real. -/
theorem IsPosReal.div {x y : EReal} (hx : IsPosReal x) (hy : IsPosReal y) : IsPosReal (Ideal.div x y) := by
  obtain ⟨a, ha, rfl⟩ := hx; obtain ⟨b, hb, rfl⟩ := hy
  rw [div_coe_coe a hb.ne']
  exact ⟨a / b, div_pos ha hb, rfl⟩

/-- The reciprocal square root of a positive real is `(√r)⁻¹`. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a positive real. -/
theorem IsPosReal.rsqrt {x : EReal} (hx : IsPosReal x) : IsPosReal (Ideal.rsqrt x) := by
  obtain ⟨r, hr, rfl⟩ := hx
  rw [rsqrt_coe_of_pos hr]
  exact ⟨_, inv_pos.mpr (Real.sqrt_pos.mpr hr), rfl⟩

/-! ### Families, pointwise -/

section Families
variable {ι : Sort*} {v w : ι → EReal}

theorem AllReal.add (hv : AllReal v) (hw : AllReal w) : AllReal (fun i => v i + w i) := fun i => (hv i).add (hw i)
theorem AllReal.sub (hv : AllReal v) (hw : AllReal w) : AllReal (fun i => v i - w i) := fun i => (hv i).sub (hw i)
theorem AllReal.mul (hv : AllReal v) (hw : AllReal w) : AllReal (fun i => v i * w i) := fun i => (hv i).mul (hw i)
theorem AllReal.neg (hv : AllReal v) : AllReal (fun i => -v i) := fun i => (hv i).neg
theorem AllReal.max (hv : AllReal v) (hw : AllReal w) : AllReal (fun i => Max.max (v i) (w i)) :=
  fun i => (hv i).max (hw i)
theorem AllReal.min (hv : AllReal v) (hw : AllReal w) : AllReal (fun i => Min.min (v i) (w i)) :=
  fun i => (hv i).min (hw i)
theorem AllReal.div (hv : AllReal v) (hw : AllReal w) (hw0 : ∀ i, w i ≠ 0) :
    AllReal (fun i => Ideal.div (v i) (w i)) := fun i => (hv i).div (hw i) (hw0 i)
theorem AllPosReal.rsqrt (hv : AllPosReal v) : AllPosReal (fun i => Ideal.rsqrt (v i)) := fun i => (hv i).rsqrt

end Families

end Cert.LibFinite

end
-- ==== Proof.LibFinitePos.lean ====
/-
  Positivity of real-valued extended reals through sums, quotients and reductions.

  A Student-t style normalisation `q = (1 / (1 + max d 0)) / ∑ (1 / (1 + max d 0))` stays inside the
  positive reals, provided `d` is real: `1 + max d 0` is a positive real, the quotient of positive
  reals is a positive real, and a sum of positive reals over a NONEMPTY index set is a positive real
  (so the normaliser is not zero).

  * `IsPosReal.sum`                         : a nonempty finite sum of positive reals is a positive real;
  * `IsPosReal.add_nonneg`, `isPosReal_one_add_max_zero`;
  * `allPosReal_divf`                       : positive / positive, a kernel's `arith.divf`;
  * `allPosReal_multiReduction_add_single`  : a kernel's sum over one axis of positive size;
  * `allPosReal_hostReduceAdd_single`       : the host's sum over one axis of positive size, from a
                                              nonnegative real initial value;
  * `allReal_hostReduceAdd_single_apply` etc.: the two sums read at an index.
-/
import Idealize.ShloMosaic.PureOps.Ideal.Laws
import proofs.«142609_j54228257079879_1_alg».proof.Proof.LibFinite

noncomputable section

namespace Cert.LibFinite

open Idealize.ShloMosaic
open scoped BigOperators

/-- A positive real plus a nonnegative real is a positive real. -/
theorem IsPosReal.add_nonneg {x y : EReal} (hx : IsPosReal x) (hy : IsReal y) (hy0 : 0 ≤ y) : IsPosReal (x + y) := by
  rw [add_comm]; exact IsPosReal.nonneg_add hy hy0 hx

/-- `1 + max d 0` is a positive real when `d` is real. -/
theorem isPosReal_one_add_max_zero {d : EReal} (hd : IsReal d) : IsPosReal (1 + max d 0) :=
  IsPosReal.add_nonneg ⟨1, one_pos, rfl⟩ (hd.max isReal_zero) (le_max_right d 0)

/-- `c + max d z` is a positive real when `c` is a positive real, `d` is real and `z` is `0`. -/
theorem isPosReal_add_max {c d z : EReal} (hc : IsPosReal c) (hd : IsReal d) (hz : z = 0) : IsPosReal (c + max d z) := by
  subst hz; exact IsPosReal.add_nonneg hc (hd.max isReal_zero) (le_max_right d 0)

/-- A finite sum of positive reals over a nonempty set is a positive real. -/
theorem IsPosReal.sum {ι : Type*} (s : Finset ι) (hs : s.Nonempty) (f : ι → EReal) (h : ∀ i ∈ s, IsPosReal (f i)) :
    IsPosReal (∑ i ∈ s, f i) := by
  have e : ∑ i ∈ s, f i = ((∑ i ∈ s, (f i).toReal : ℝ) : EReal) := by
    rw [coe_finset_sum]
    exact Finset.sum_congr rfl fun i hi => ((h i hi).isReal.coe_toReal).symm
  rw [e]
  refine ⟨_, Finset.sum_pos (fun i hi => ?_) hs, rfl⟩
  obtain ⟨r, hr, hri⟩ := h i hi
  rw [hri, EReal.toReal_coe]; exact hr

/-- A sum of positive reals over `Fin n`, `n > 0`, is a positive real. -/
theorem IsPosReal.sum_fin {n : Nat} (hn : 0 < n) (f : Fin n → EReal) (h : ∀ k, IsPosReal (f k)) :
    IsPosReal (∑ k, f k) :=
  IsPosReal.sum Finset.univ ⟨⟨0, hn⟩, Finset.mem_univ _⟩ f fun k _ => h k

section Ops
variable {s t u : Shape} {φ : FTy}

/-- Positive reals divided by positive reals (a kernel's `arith.divf`). -/
theorem allPosReal_divf {x y : FVec Ideal s φ} (hx : AllPosReal x) (hy : AllPosReal y) : AllPosReal (divf x y) :=
  fun i => (hx i).div (hy i)
theorem allReal_divf_of_pos {x y : FVec Ideal s φ} (hx : AllReal x) (hy : AllPosReal y) : AllReal (divf x y) :=
  fun i => (hx i).div (hy i).isReal (hy i).ne_zero

/-- A kernel's sum over one axis, read at an index. -/
theorem multiReduction_add_single_apply {a : Fin s.rank} (src : FVec Ideal s φ) (acc : BitVec φ.bits)
    (h : s.Reduces [a] t) (hφ : FKind.Formats φ) (hacc : acc = FKind.add.neutral φ hφ) (j : t.Idx) :
    multiReduction .add [a] t src acc h hφ hacc j = ∑ k : Fin (s.size a), src (h.lift j k) :=
  Ideal.multiReduction_add_single src acc h hφ hacc j

/-- A kernel's sum over one axis of positive size of positive reals: positive reals. -/
theorem allPosReal_multiReduction_add_single {a : Fin s.rank} {src : FVec Ideal s φ} {acc : BitVec φ.bits}
    (h : s.Reduces [a] t) (hφ : FKind.Formats φ) (hacc : acc = FKind.add.neutral φ hφ) (hsz : 0 < s.size a)
    (hx : AllPosReal src) : AllPosReal (multiReduction .add [a] t src acc h hφ hacc) := by
  intro j
  rw [Ideal.multiReduction_add_single]
  exact IsPosReal.sum_fin hsz _ fun k => hx _

/-- The host's sum over one axis, read at an index. -/
theorem hostReduceAdd_single_apply {a : Fin s.rank} (x : FVec Ideal s φ) (init : u.Idx → Ideal φ)
    (h' : s.ReducesTo [a] t) (h : s.Reduces [a] t) (hu : 0 < u.numel) (j : t.Idx) :
    Host.reduceAdd x init h' hu j = init (Shape.Idx.first hu) + ∑ k : Fin (s.size a), x (h.lift j k) :=
  Ideal.hostReduceAdd_single h' h x _ j

/-- The host's sum over one axis of positive size of positive reals, from a nonnegative real initial
    value: positive reals. -/
theorem allPosReal_hostReduceAdd_single {a : Fin s.rank} {x : FVec Ideal s φ} {init : u.Idx → Ideal φ}
    (h' : s.ReducesTo [a] t) (h : s.Reduces [a] t) (hu : 0 < u.numel) (hsz : 0 < s.size a) (hx : AllPosReal x)
    (hi : AllReal init) (hi0 : ∀ i, 0 ≤ init i) : AllPosReal (Host.reduceAdd x init h' hu) := by
  intro j
  rw [hostReduceAdd_single_apply x init h' h hu j]
  exact IsPosReal.nonneg_add (hi _) (hi0 _) (IsPosReal.sum_fin hsz _ fun k => hx _)

end Ops

end Cert.LibFinite

end
-- ==== Proof.KI.MmPay.lean ====
/-
  The matrix-multiply kernels' payloads as index-level mathematics, at the extended reals.

  One grid point handles a block of 2000 node rows.  Its payloads are
    * the two-layer perceptron of the block rows: two matrix products into zero accumulators (a change of float
      format is the identity on extended reals), each followed by a one-row bias broadcast down the rows, the first
      clipped below at zero;
    * the block's column sums and column sums of squares: a sum over the row axis, recast as one row;
    * the accumulated sums: the stored accumulator plus the block's sums.
  Every entry of the perceptron depends on its own row only, so the block's perceptron is the block of rows of the
  whole array's perceptron (`mlp_block`); the 100000 rows are 50 blocks of 2000, so a column sum over all rows is
  the sum over the blocks of the blocks' column sums (`colSum_tiles`, `colSumSq_tiles`); and an accumulator that
  stores the first block's sums and adds each later block's holds, after the last block, the sum over all blocks
  (`fin_running_sum`).  Together: after the last block the accumulators are the column sums of the whole array
  (`acc_colSum`, `acc_colSumSq`).
-/
import proofs.«142609_j54228257079879_1_alg».proof.Proof.Gen.KernelIdeal.Skeleton
import proofs.«142609_j54228257079879_1_alg».proof.Proof.Math.Spec
import proofs.«142609_j54228257079879_1_alg».proof.Proof.LibRowsDot
import proofs.«142609_j54228257079879_1_alg».proof.Proof.LibGraphRows
import proofs.«142609_j54228257079879_1_alg».proof.Proof.LibKeepdims
import proofs.«142609_j54228257079879_1_alg».proof.Proof.LibFinitePos
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx
open Cert.Sage Cert.Gin
open scoped BigOperators

/-! ### Matrix products and bias rows -/

/-- A matrix product of two arrays narrowed to a shorter float format, into zeros, is the rows-against-columns sum
    of the arrays themselves: the narrowing is the identity on extended reals. -/
theorem mm_trunc_rows {n k c : Nat} (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (A : FVec Ideal ⟨2, ![n, k]⟩ .f32) (W : FVec Ideal ⟨2, ![k, c]⟩ .f32) (hb : FTy.bf16.bits < FTy.f32.bits) :
    matmul D none (truncf .bf16 A hb) (truncf .bf16 W hb) (constant ⟨2, ![n, c]⟩ .f32 0x00000000#32)
      = rowsMul (n := n) (k := k) (c := c) A W := by
  funext i
  obtain ⟨p, q, rfl⟩ : ∃ (p : Fin n) (q : Fin c), i = ix2 p q := ⟨i 0, i 1, eq_ix2 i⟩
  exact matmul_zero_rows D hr hs l0 l1 r0 r1 none (truncf .bf16 A hb) (truncf .bf16 W hb) p q

theorem mm12 (A : FVec Ideal S2000x12 .f32) (W : FVec Ideal S12x128 .f32) (hb : FTy.bf16.bits < FTy.f32.bits) :
    matmul dot_S2000x12_S12x128_S2000x128_1_0_0_1_n_n none (truncf .bf16 A hb) (truncf .bf16 W hb)
        (constant S2000x128 .f32 0x00000000#32)
      = rowsMul (n := 2000) (k := 12) (c := 128) A W :=
  mm_trunc_rows _ rfl rfl (fun _ _ => rfl) (fun i q => DotDims.lhsIdx_val_of_single _ rfl i q)
    (fun i q => DotDims.rhsIdx_val_of_single _ rfl i q) (fun _ _ => rfl) A W hb

theorem mm128 (A : FVec Ideal S2000x128 .f32) (W : FVec Ideal S128x128 .f32) (hb : FTy.bf16.bits < FTy.f32.bits) :
    matmul dot_S2000x128_S128x128_S2000x128_1_0_0_1_n_n none (truncf .bf16 A hb) (truncf .bf16 W hb)
        (constant S2000x128 .f32 0x00000000#32)
      = rowsMul (n := 2000) (k := 128) (c := 128) A W :=
  mm_trunc_rows _ rfl rfl (fun _ _ => rfl) (fun i q => DotDims.lhsIdx_val_of_single _ rfl i q)
    (fun i q => DotDims.rhsIdx_val_of_single _ rfl i q) (fun _ _ => rfl) A W hb

/-- An array plus a one-row array broadcast down its rows. -/
theorem addRow_bcast {n c : Nat} (A : FVec Ideal ⟨2, ![n, c]⟩ .f32) (b : FVec Ideal ⟨2, ![1, c]⟩ .f32)
    (hb : (⟨2, ![1, c]⟩ : Shape).Broadcasts ⟨2, ![n, c]⟩) :
    addf A (broadcastTo ⟨2, ![n, c]⟩ b hb) = addRowOf (n := n) (c := c) A b := by
  funext i
  obtain ⟨p, q, rfl⟩ : ∃ (p : Fin n) (q : Fin c), i = ix2 p q := ⟨i 0, i 1, eq_ix2 i⟩
  rw [addf_apply, broadcastTo_1b_ab_apply]
  rfl

/-- The same clipped below against a broadcast float zero. -/
theorem clipRow_bcast {n c : Nat} (A : FVec Ideal ⟨2, ![n, c]⟩ .f32) (b : FVec Ideal ⟨2, ![1, c]⟩ .f32)
    (hb : (⟨2, ![1, c]⟩ : Shape).Broadcasts ⟨2, ![n, c]⟩) :
    maximumf (addf A (broadcastTo ⟨2, ![n, c]⟩ b hb))
        (broadcast ⟨2, ![n, c]⟩ (Scalar.ofBits (F := Ideal) .f32 0x00000000#32))
      = addRowClip (n := n) (c := c) A b := by
  funext i
  obtain ⟨p, q, rfl⟩ : ∃ (p : Fin n) (q : Fin c), i = ix2 p q := ⟨i 0, i 1, eq_ix2 i⟩
  rw [maximumf_apply, addf_apply, broadcastTo_1b_ab_apply, broadcast_apply]
  rfl

/-- An array on one row is determined by its reads at (0, q). -/
theorem ext_row {c : Nat} {x y : Arr2 1 c} (h : ∀ q : Fin c, x (ix2 (0 : Fin 1) q) = y (ix2 (0 : Fin 1) q)) : x = y := by
  funext j
  obtain ⟨u, q, rfl⟩ : ∃ (u : Fin 1) (q : Fin c), j = ix2 u q := ⟨j 0, j 1, eq_ix2 j⟩
  have hu : u = 0 := Subsingleton.elim _ _
  subst hu
  exact h q

/-! ### A sum over the row axis of a block -/

/-- The source index over column q with row coordinate p is (p, q). -/
theorem redK_lift (h : S2000x128.Reduces [0] S128) (q : Fin 128) (p : Fin 2000) : h.lift (ix1 q) p = ix2 p q := by
  funext c
  apply Fin.ext
  match c with
  | ⟨0, _⟩ => rfl
  | ⟨1, _⟩ => rfl

/-- A sum over the row axis recast as one row reads, at (0, q), the sum of column q. -/
theorem colReduce_cast_apply (T : FVec Ideal S2000x128 .f32) (h : S2000x128.Reduces [0] S128) (hφ : FKind.Formats .f32)
    (hacc : (0x00000000#32 : BitVec 32) = FKind.add.neutral .f32 hφ) (hc : S128.ShapeCasts S1x128) (q : Fin 128) :
    shapeCast S1x128 (multiReduction .add [0] S128 T 0x00000000#32 h hφ hacc) hc (ix2 (0 : Fin 1) q)
      = ∑ p : Fin 2000, T (ix2 p q) := by
  rw [shapeCast_a_1a_apply]
  refine (Ideal.multiReduction_add_single T 0x00000000#32 h hφ hacc (ix1 q)).trans ?_
  exact Finset.sum_congr rfl fun (p : Fin 2000) _ => congrArg T (redK_lift h q p)

/-! ### The payloads -/

/-- The block's perceptron output is the index-level perceptron of the block rows. -/
theorem pay0_3_eq (x a : FVec Ideal S2000x12 .f32) (W1 : FVec Ideal S12x128 .f32) (b1 : FVec Ideal S1x128 .f32)
    (W2 : FVec Ideal S128x128 .f32) (b2 : FVec Ideal S1x128 .f32) :
    k0_pay3 (F := Ideal) x a W1 b1 W2 b2 = Cert.Gin.mlp (n := 2000) (k := 12) x a W1 b1 W2 b2 := by
  unfold k0_pay3 Cert.Gin.mlp
  simp only [shapeCast_self]
  rw [mm12, clipRow_bcast, mm128, addRow_bcast]
  rfl

/-- The block's column sums. -/
theorem pay0_4_eq (x a : FVec Ideal S2000x12 .f32) (W1 : FVec Ideal S12x128 .f32) (b1 : FVec Ideal S1x128 .f32)
    (W2 : FVec Ideal S128x128 .f32) (b2 : FVec Ideal S1x128 .f32) :
    k0_pay4 (F := Ideal) x a W1 b1 W2 b2
      = colSum (n := 2000) (Cert.Gin.mlp (n := 2000) (k := 12) x a W1 b1 W2 b2) := by
  refine ext_row fun q => ?_
  unfold k0_pay4
  refine (colReduce_cast_apply _ _ _ _ _ q).trans ?_
  rw [pay0_3_eq]
  rfl

/-- The block's column sums of squares. -/
theorem pay0_5_eq (x a : FVec Ideal S2000x12 .f32) (W1 : FVec Ideal S12x128 .f32) (b1 : FVec Ideal S1x128 .f32)
    (W2 : FVec Ideal S128x128 .f32) (b2 : FVec Ideal S1x128 .f32) :
    k0_pay5 (F := Ideal) x a W1 b1 W2 b2
      = colSumSq (n := 2000) (Cert.Gin.mlp (n := 2000) (k := 12) x a W1 b1 W2 b2) := by
  refine ext_row fun q => ?_
  unfold k0_pay5
  refine (colReduce_cast_apply _ _ _ _ _ q).trans ?_
  rw [pay0_3_eq]
  rfl

/-- The accumulated column sums: the stored accumulator plus the block's sums. -/
theorem pay0_1_eq (s acc : FVec Ideal S1x128 .f32) : k0_pay1 (F := Ideal) s acc = fun j => acc j + s j := by
  unfold k0_pay1
  simp only [shapeCast_self]
  rfl

/-- The accumulated column sums of squares likewise. -/
theorem pay0_2_eq (s acc : FVec Ideal S1x128 .f32) : k0_pay2 (F := Ideal) s acc = fun j => acc j + s j := by
  unfold k0_pay2
  simp only [shapeCast_self]
  rfl

/-- The block's perceptron output is the index-level perceptron of the block rows. -/
theorem pay2_3_eq (x a : FVec Ideal S2000x128 .f32) (W1 : FVec Ideal S128x128 .f32) (b1 : FVec Ideal S1x128 .f32)
    (W2 : FVec Ideal S128x128 .f32) (b2 : FVec Ideal S1x128 .f32) :
    k2_pay3 (F := Ideal) x a W1 b1 W2 b2 = Cert.Gin.mlp (n := 2000) (k := 128) x a W1 b1 W2 b2 := by
  unfold k2_pay3 Cert.Gin.mlp
  simp only [shapeCast_self]
  rw [mm128 (addf x a) W1, clipRow_bcast, mm128, addRow_bcast]
  rfl

/-- The block's column sums. -/
theorem pay2_4_eq (x a : FVec Ideal S2000x128 .f32) (W1 : FVec Ideal S128x128 .f32) (b1 : FVec Ideal S1x128 .f32)
    (W2 : FVec Ideal S128x128 .f32) (b2 : FVec Ideal S1x128 .f32) :
    k2_pay4 (F := Ideal) x a W1 b1 W2 b2
      = colSum (n := 2000) (Cert.Gin.mlp (n := 2000) (k := 128) x a W1 b1 W2 b2) := by
  refine ext_row fun q => ?_
  unfold k2_pay4
  refine (colReduce_cast_apply _ _ _ _ _ q).trans ?_
  rw [pay2_3_eq]
  rfl

/-- The block's column sums of squares. -/
theorem pay2_5_eq (x a : FVec Ideal S2000x128 .f32) (W1 : FVec Ideal S128x128 .f32) (b1 : FVec Ideal S1x128 .f32)
    (W2 : FVec Ideal S128x128 .f32) (b2 : FVec Ideal S1x128 .f32) :
    k2_pay5 (F := Ideal) x a W1 b1 W2 b2
      = colSumSq (n := 2000) (Cert.Gin.mlp (n := 2000) (k := 128) x a W1 b1 W2 b2) := by
  refine ext_row fun q => ?_
  unfold k2_pay5
  refine (colReduce_cast_apply _ _ _ _ _ q).trans ?_
  rw [pay2_3_eq]
  rfl

/-- The accumulated column sums: the stored accumulator plus the block's sums. -/
theorem pay2_1_eq (s acc : FVec Ideal S1x128 .f32) : k2_pay1 (F := Ideal) s acc = fun j => acc j + s j := by
  unfold k2_pay1
  simp only [shapeCast_self]
  rfl

/-- The accumulated column sums of squares likewise. -/
theorem pay2_2_eq (s acc : FVec Ideal S1x128 .f32) : k2_pay2 (F := Ideal) s acc = fun j => acc j + s j := by
  unfold k2_pay2
  simp only [shapeCast_self]
  rfl

/-- The block's perceptron output is the index-level perceptron of the block rows. -/
theorem pay4_3_eq (x a : FVec Ideal S2000x128 .f32) (W1 : FVec Ideal S128x128 .f32) (b1 : FVec Ideal S1x128 .f32)
    (W2 : FVec Ideal S128x128 .f32) (b2 : FVec Ideal S1x128 .f32) :
    k4_pay3 (F := Ideal) x a W1 b1 W2 b2 = Cert.Gin.mlp (n := 2000) (k := 128) x a W1 b1 W2 b2 := by
  unfold k4_pay3 Cert.Gin.mlp
  simp only [shapeCast_self]
  rw [mm128 (addf x a) W1, clipRow_bcast, mm128, addRow_bcast]
  rfl

/-- The block's column sums. -/
theorem pay4_4_eq (x a : FVec Ideal S2000x128 .f32) (W1 : FVec Ideal S128x128 .f32) (b1 : FVec Ideal S1x128 .f32)
    (W2 : FVec Ideal S128x128 .f32) (b2 : FVec Ideal S1x128 .f32) :
    k4_pay4 (F := Ideal) x a W1 b1 W2 b2
      = colSum (n := 2000) (Cert.Gin.mlp (n := 2000) (k := 128) x a W1 b1 W2 b2) := by
  refine ext_row fun q => ?_
  unfold k4_pay4
  refine (colReduce_cast_apply _ _ _ _ _ q).trans ?_
  rw [pay4_3_eq]
  rfl

/-- The block's column sums of squares. -/
theorem pay4_5_eq (x a : FVec Ideal S2000x128 .f32) (W1 : FVec Ideal S128x128 .f32) (b1 : FVec Ideal S1x128 .f32)
    (W2 : FVec Ideal S128x128 .f32) (b2 : FVec Ideal S1x128 .f32) :
    k4_pay5 (F := Ideal) x a W1 b1 W2 b2
      = colSumSq (n := 2000) (Cert.Gin.mlp (n := 2000) (k := 128) x a W1 b1 W2 b2) := by
  refine ext_row fun q => ?_
  unfold k4_pay5
  refine (colReduce_cast_apply _ _ _ _ _ q).trans ?_
  rw [pay4_3_eq]
  rfl

/-- The accumulated column sums: the stored accumulator plus the block's sums. -/
theorem pay4_1_eq (s acc : FVec Ideal S1x128 .f32) : k4_pay1 (F := Ideal) s acc = fun j => acc j + s j := by
  unfold k4_pay1
  simp only [shapeCast_self]
  rfl

/-- The accumulated column sums of squares likewise. -/
theorem pay4_2_eq (s acc : FVec Ideal S1x128 .f32) : k4_pay2 (F := Ideal) s acc = fun j => acc j + s j := by
  unfold k4_pay2
  simp only [shapeCast_self]
  rfl

/-! ### A block of rows of the perceptron -/

/-- The perceptron at a row reads that row of its row operands only. -/
theorem mlp_rows {N n k : Nat} (X A : Arr2 N k) (x a : Arr2 n k) (W1 : Arr2 k 128) (b1 : Arr2 1 128)
    (W2 : Arr2 128 128) (b2 : Arr2 1 128) (I : (⟨2, ![N, 128]⟩ : Shape).Idx) (i : (⟨2, ![n, 128]⟩ : Shape).Idx)
    (hc : (I 1).val = (i 1).val) (hx : ∀ q : Fin k, X (ix2 (rowOf I) q) = x (ix2 (rowOf i) q))
    (ha : ∀ q : Fin k, A (ix2 (rowOf I) q) = a (ix2 (rowOf i) q)) :
    Cert.Gin.mlp X A W1 b1 W2 b2 I = Cert.Gin.mlp x a W1 b1 W2 b2 i := by
  unfold Cert.Gin.mlp
  refine addRowOf_rows _ _ b2 I i hc ?_
  refine rowsMul_rows _ _ W2 I i hc fun q => ?_
  refine addRowClip_rows _ _ b1 _ _ rfl ?_
  refine rowsMul_rows _ _ W1 _ _ rfl fun q' => ?_
  show X (ix2 (rowOf I) q') + A (ix2 (rowOf I) q') = x (ix2 (rowOf i) q') + a (ix2 (rowOf i) q')
  rw [hx, ha]

/-- Block t of 2000 rows of the perceptron of 100000 rows is the perceptron of block t of the rows. -/
theorem mlp_block {k : Nat} (X A : Arr2 100000 k) (xb ab : Arr2 2000 k) (t : Fin 50) (W1 : Arr2 k 128)
    (b1 : Arr2 1 128) (W2 : Arr2 128 128) (b2 : Arr2 1 128)
    (hx : ∀ (p : Fin 2000) (i : Fin k) (h : 2000 * t.val + p.val < 100000),
      xb (ix2 p i) = X (ix2 ⟨2000 * t.val + p.val, h⟩ i))
    (ha : ∀ (p : Fin 2000) (i : Fin k) (h : 2000 * t.val + p.val < 100000),
      ab (ix2 p i) = A (ix2 ⟨2000 * t.val + p.val, h⟩ i))
    (p : Fin 2000) (q : Fin 128) (h : 2000 * t.val + p.val < 100000) :
    Cert.Gin.mlp xb ab W1 b1 W2 b2 (ix2 p q) = Cert.Gin.mlp X A W1 b1 W2 b2 (ix2 ⟨2000 * t.val + p.val, h⟩ q) :=
  (mlp_rows X A xb ab W1 b1 W2 b2 (ix2 ⟨2000 * t.val + p.val, h⟩ q) (ix2 p q) rfl (fun i => (hx p i h).symm)
    (fun i => (ha p i h).symm)).symm

/-! ### 100000 rows as 50 blocks of 2000 -/

/-- A sum over m·n positions, block by block. -/
theorem sum_fin_tiles {M : Type*} [AddCommMonoid M] (m n : Nat) (f : Fin (m * n) → M) :
    ∑ r : Fin (m * n), f r = ∑ t : Fin m, ∑ p : Fin n, f (finProdFinEquiv (t, p)) := by
  rw [← Equiv.sum_comp finProdFinEquiv f, Fintype.sum_prod_type]

/-- A sum over 100000 rows is the sum over 50 blocks of the sums over each block's 2000 rows. -/
theorem sum_rows_tiles {M : Type*} [AddCommMonoid M] (f : Fin 100000 → M) :
    ∑ r : Fin 100000, f r
      = ∑ t : Fin 50, ∑ p : Fin 2000, f ⟨2000 * t.val + p.val, by have := t.isLt; have := p.isLt; omega⟩ := by
  refine (sum_fin_tiles 50 2000 f).trans ?_
  refine Finset.sum_congr rfl fun t _ => Finset.sum_congr rfl fun p _ => congrArg f (Fin.ext ?_)
  simp only [finProdFinEquiv_apply_val]
  omega

/-- The column sums of 100000 rows are the sums over the blocks of the blocks' column sums. -/
theorem colSum_tiles (T : Arr2 100000 128) (Tb : Fin 50 → Arr2 2000 128)
    (hT : ∀ (t : Fin 50) (p : Fin 2000) (q : Fin 128) (h : 2000 * t.val + p.val < 100000),
      Tb t (ix2 p q) = T (ix2 ⟨2000 * t.val + p.val, h⟩ q))
    (j : (⟨2, ![1, 128]⟩ : Shape).Idx) : ∑ t : Fin 50, colSum (Tb t) j = colSum T j := by
  unfold colSum
  rw [sum_rows_tiles (fun r => T (ix2 r (colOf j)))]
  exact Finset.sum_congr rfl fun t _ => Finset.sum_congr rfl fun p _ => hT t p (colOf j) _

/-- The column sums of squares likewise. -/
theorem colSumSq_tiles (T : Arr2 100000 128) (Tb : Fin 50 → Arr2 2000 128)
    (hT : ∀ (t : Fin 50) (p : Fin 2000) (q : Fin 128) (h : 2000 * t.val + p.val < 100000),
      Tb t (ix2 p q) = T (ix2 ⟨2000 * t.val + p.val, h⟩ q))
    (j : (⟨2, ![1, 128]⟩ : Shape).Idx) : ∑ t : Fin 50, colSumSq (Tb t) j = colSumSq T j := by
  unfold colSumSq
  rw [sum_rows_tiles (fun r => T (ix2 r (colOf j)) * T (ix2 r (colOf j)))]
  exact Finset.sum_congr rfl fun t _ => Finset.sum_congr rfl fun p _ => by rw [hT t p (colOf j) _]

/-! ### The accumulators -/

/-- An accumulator that holds the first term at step 0 and adds term t at every later step t holds, at step n,
    the sum of the terms 0 … n. -/
theorem fin_running_sum {M : Type*} [AddCommMonoid M] {N : Nat} (acc tile : Fin N → M)
    (h0 : ∀ t : Fin N, t.val = 0 → acc t = tile t)
    (hs : ∀ t : Fin N, t.val ≠ 0 → ∀ hlt : t.val - 1 < N, acc t = acc ⟨t.val - 1, hlt⟩ + tile t) :
    ∀ (n : Nat) (hn : n < N), acc ⟨n, hn⟩ = ∑ s : Fin (n + 1), tile ⟨s.val, by have := s.isLt; omega⟩ := by
  intro n
  induction n with
  | zero =>
    intro hn
    rw [h0 ⟨0, hn⟩ rfl, Fin.sum_univ_one]
    rfl
  | succ n ih =>
    intro hn
    have e : acc ⟨n + 1, hn⟩ = acc ⟨n, by omega⟩ + tile ⟨n + 1, hn⟩ :=
      hs ⟨n + 1, hn⟩ (Nat.succ_ne_zero n) (by show n + 1 - 1 < N; omega)
    rw [e, ih (by omega)]
    exact (Fin.sum_univ_castSucc (fun s : Fin (n + 1 + 1) => tile ⟨s.val, by have := s.isLt; omega⟩)).symm

/-- At the last step it holds the sum of all terms. -/
theorem fin_running_sum_last {M : Type*} [AddCommMonoid M] {N : Nat} (acc tile : Fin N → M)
    (h0 : ∀ t : Fin N, t.val = 0 → acc t = tile t)
    (hs : ∀ t : Fin N, t.val ≠ 0 → ∀ hlt : t.val - 1 < N, acc t = acc ⟨t.val - 1, hlt⟩ + tile t)
    (n : Nat) (hN : n + 1 = N) : acc ⟨n, by omega⟩ = ∑ s : Fin N, tile s := by
  subst hN
  rw [fin_running_sum acc tile h0 hs n (by omega)]

/-- After the last block the sum accumulator is the column sums of the whole array's perceptron. -/
theorem acc_colSum {k : Nat} (X A : Arr2 100000 k) (W1 : Arr2 k 128) (b1 : Arr2 1 128) (W2 : Arr2 128 128)
    (b2 : Arr2 1 128) (xb ab : Fin 50 → Arr2 2000 k)
    (hx : ∀ (t : Fin 50) (p : Fin 2000) (i : Fin k) (h : 2000 * t.val + p.val < 100000),
      xb t (ix2 p i) = X (ix2 ⟨2000 * t.val + p.val, h⟩ i))
    (ha : ∀ (t : Fin 50) (p : Fin 2000) (i : Fin k) (h : 2000 * t.val + p.val < 100000),
      ab t (ix2 p i) = A (ix2 ⟨2000 * t.val + p.val, h⟩ i))
    (acc : Fin 50 → Arr2 1 128)
    (h0 : ∀ t : Fin 50, t.val = 0 → acc t = colSum (Cert.Gin.mlp (xb t) (ab t) W1 b1 W2 b2))
    (hs : ∀ t : Fin 50, t.val ≠ 0 → ∀ hlt : t.val - 1 < 50,
      acc t = fun j => acc ⟨t.val - 1, hlt⟩ j + colSum (Cert.Gin.mlp (xb t) (ab t) W1 b1 W2 b2) j) :
    acc ⟨49, by omega⟩ = colSum (Cert.Gin.mlp X A W1 b1 W2 b2) := by
  rw [fin_running_sum_last acc (fun t => colSum (Cert.Gin.mlp (xb t) (ab t) W1 b1 W2 b2)) h0 hs 49 rfl]
  funext j
  rw [Finset.sum_apply]
  exact colSum_tiles (Cert.Gin.mlp X A W1 b1 W2 b2) (fun t => Cert.Gin.mlp (xb t) (ab t) W1 b1 W2 b2)
    (fun t p q h => mlp_block X A (xb t) (ab t) t W1 b1 W2 b2 (hx t) (ha t) p q h) j

/-- After the last block the sum-of-squares accumulator is the column sums of squares of the whole array's
    perceptron. -/
theorem acc_colSumSq {k : Nat} (X A : Arr2 100000 k) (W1 : Arr2 k 128) (b1 : Arr2 1 128) (W2 : Arr2 128 128)
    (b2 : Arr2 1 128) (xb ab : Fin 50 → Arr2 2000 k)
    (hx : ∀ (t : Fin 50) (p : Fin 2000) (i : Fin k) (h : 2000 * t.val + p.val < 100000),
      xb t (ix2 p i) = X (ix2 ⟨2000 * t.val + p.val, h⟩ i))
    (ha : ∀ (t : Fin 50) (p : Fin 2000) (i : Fin k) (h : 2000 * t.val + p.val < 100000),
      ab t (ix2 p i) = A (ix2 ⟨2000 * t.val + p.val, h⟩ i))
    (acc : Fin 50 → Arr2 1 128)
    (h0 : ∀ t : Fin 50, t.val = 0 → acc t = colSumSq (Cert.Gin.mlp (xb t) (ab t) W1 b1 W2 b2))
    (hs : ∀ t : Fin 50, t.val ≠ 0 → ∀ hlt : t.val - 1 < 50,
      acc t = fun j => acc ⟨t.val - 1, hlt⟩ j + colSumSq (Cert.Gin.mlp (xb t) (ab t) W1 b1 W2 b2) j) :
    acc ⟨49, by omega⟩ = colSumSq (Cert.Gin.mlp X A W1 b1 W2 b2) := by
  rw [fin_running_sum_last acc (fun t => colSumSq (Cert.Gin.mlp (xb t) (ab t) W1 b1 W2 b2)) h0 hs 49 rfl]
  funext j
  rw [Finset.sum_apply]
  exact colSumSq_tiles (Cert.Gin.mlp X A W1 b1 W2 b2) (fun t => Cert.Gin.mlp (xb t) (ab t) W1 b1 W2 b2)
    (fun t p q h => mlp_block X A (xb t) (ab t) t W1 b1 W2 b2 (hx t) (ha t) p q h) j

end Cert.KernelIdeal.Hand

end
-- ==== Proof.KI.V0.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import proofs.«142609_j54228257079879_1_alg».proof.Proof.WholeStore
import proofs.«142609_j54228257079879_1_alg».proof.Proof.KI.R0
import proofs.«142609_j54228257079879_1_alg».proof.Proof.KI.MmPay
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The value leg of region 0 at the extended reals: what the region's three result arrays hold after its run, as
    functions of the six arrays it reads — the perceptron of the rows and their neighbour sums, and the column sums of
    that and of its square. -/

open Cert.Sage Cert.Gin Idealize.ShloMosaic.ValueIdx

section Blocks
variable (V : (c : Dev nD) → (b : Ref sig .tc) → Buf (Elt Ideal) ((c : Thread nD τ).loc b))

/-! ## Where the windows' blocks sit in their arrays -/

/-- Window 0's block index at point `t` is `(t, 0)`: rows `2000·t … 2000·t + 1999`, every column. -/
theorem idx0_0 : ∀ t : Fin cfg0.N, win0_0.index t 0 = t.val ∧ win0_0.index t 1 = 0 :=
  (by decide +kernel : ∀ t : Fin grid0.N, win0_0.index t 0 = t.val ∧ win0_0.index t 1 = 0)

/-- Window 1's block index at point `t` is `(t, 0)`: rows `2000·t … 2000·t + 1999`, every column. -/
theorem idx0_1 : ∀ t : Fin cfg0.N, win0_1.index t 0 = t.val ∧ win0_1.index t 1 = 0 :=
  (by decide +kernel : ∀ t : Fin grid0.N, win0_1.index t 0 = t.val ∧ win0_1.index t 1 = 0)

/-- Window 6's block index at point `t` is `(t, 0)`: rows `2000·t … 2000·t + 1999`, every column. -/
theorem idx0_6 : ∀ t : Fin cfg0.N, win0_6.index t 0 = t.val ∧ win0_6.index t 1 = 0 :=
  (by decide +kernel : ∀ t : Fin grid0.N, win0_6.index t 0 = t.val ∧ win0_6.index t 1 = 0)

/-- Window 2's block index is `(0, 0)` at every point: its block is its whole array. -/
theorem idx0_2 : ∀ t : Fin cfg0.N, win0_2.index t 0 = 0 ∧ win0_2.index t 1 = 0 :=
  (by decide +kernel : ∀ t : Fin grid0.N, win0_2.index t 0 = 0 ∧ win0_2.index t 1 = 0)

/-- Window 3's block index is `(0, 0)` at every point: its block is its whole array. -/
theorem idx0_3 : ∀ t : Fin cfg0.N, win0_3.index t 0 = 0 ∧ win0_3.index t 1 = 0 :=
  (by decide +kernel : ∀ t : Fin grid0.N, win0_3.index t 0 = 0 ∧ win0_3.index t 1 = 0)

/-- Window 4's block index is `(0, 0)` at every point: its block is its whole array. -/
theorem idx0_4 : ∀ t : Fin cfg0.N, win0_4.index t 0 = 0 ∧ win0_4.index t 1 = 0 :=
  (by decide +kernel : ∀ t : Fin grid0.N, win0_4.index t 0 = 0 ∧ win0_4.index t 1 = 0)

/-- Window 5's block index is `(0, 0)` at every point: its block is its whole array. -/
theorem idx0_5 : ∀ t : Fin cfg0.N, win0_5.index t 0 = 0 ∧ win0_5.index t 1 = 0 :=
  (by decide +kernel : ∀ t : Fin grid0.N, win0_5.index t 0 = 0 ∧ win0_5.index t 1 = 0)

/-- Window 7's block index is `(0, 0)` at every point: its block is its whole array. -/
theorem idx0_7 : ∀ t : Fin cfg0.N, win0_7.index t 0 = 0 ∧ win0_7.index t 1 = 0 :=
  (by decide +kernel : ∀ t : Fin grid0.N, win0_7.index t 0 = 0 ∧ win0_7.index t 1 = 0)

/-- Window 8's block index is `(0, 0)` at every point: its block is its whole array. -/
theorem idx0_8 : ∀ t : Fin cfg0.N, win0_8.index t 0 = 0 ∧ win0_8.index t 1 = 0 :=
  (by decide +kernel : ∀ t : Fin grid0.N, win0_8.index t 0 = 0 ∧ win0_8.index t 1 = 0)

/-- Input window 0's block at point `t`, entry `(p, q)`: the array's entry `(2000·t + p, q)`. -/
theorem iblk0_0_apply (c : Dev nD) (t : Fin cfg0.N) (p : Fin 2000) (q : Fin 12) (hp : 2000 * t.val + p.val < 100000) :
    (iblk0 V c 0 t : Arr2 2000 12) (ix2 p q) = (V c (Pipeline.arrRef spec0 0) : Arr2 100000 12) (ix2 ⟨2000 * t.val + p.val, hp⟩ q) := by
  unfold iblk0
  rw [View.read_apply]
  show V c (Pipeline.arrRef spec0 0) _ = V c (Pipeline.arrRef spec0 0) _
  congr 1
  funext a
  apply Fin.ext
  match a with
  | ⟨0, _⟩ => show win0_0.index t 0 * 2000 + 1 * p.val = 2000 * t.val + p.val; rw [(idx0_0 t).1]; omega
  | ⟨1, _⟩ => show win0_0.index t 1 * 12 + 1 * q.val = q.val; rw [(idx0_0 t).2]; omega

/-- Input window 1's block at point `t`, entry `(p, q)`: the array's entry `(2000·t + p, q)`. -/
theorem iblk0_1_apply (c : Dev nD) (t : Fin cfg0.N) (p : Fin 2000) (q : Fin 12) (hp : 2000 * t.val + p.val < 100000) :
    (iblk0 V c 1 t : Arr2 2000 12) (ix2 p q) = (V c (Pipeline.arrRef spec0 1) : Arr2 100000 12) (ix2 ⟨2000 * t.val + p.val, hp⟩ q) := by
  unfold iblk0
  rw [View.read_apply]
  show V c (Pipeline.arrRef spec0 1) _ = V c (Pipeline.arrRef spec0 1) _
  congr 1
  funext a
  apply Fin.ext
  match a with
  | ⟨0, _⟩ => show win0_1.index t 0 * 2000 + 1 * p.val = 2000 * t.val + p.val; rw [(idx0_1 t).1]; omega
  | ⟨1, _⟩ => show win0_1.index t 1 * 12 + 1 * q.val = q.val; rw [(idx0_1 t).2]; omega

/-- Input window 2's block at every point is its whole array. -/
theorem iblk0_2_eq (c : Dev nD) (t : Fin cfg0.N) :
    (iblk0 V c 2 t : Arr2 12 128) = V c (Pipeline.arrRef spec0 2) := by
  unfold iblk0
  have hz' : (fun a => win0_2.index t a * main_arg3.ty.shape.size a) = fun _ => 0 := funext fun a => by
    match a with
    | ⟨0, _⟩ => show win0_2.index t 0 * _ = 0; rw [(idx0_2 t).1, Nat.zero_mul]
    | ⟨1, _⟩ => show win0_2.index t 1 * _ = 0; rw [(idx0_2 t).2, Nat.zero_mul]
  exact Memref.read_access_unit_zero (Elt Ideal) main_arg3 hz' (fun a => by rw [congrFun hz' a]; simp) _

/-- Input window 3's block at every point is its whole array. -/
theorem iblk0_3_eq (c : Dev nD) (t : Fin cfg0.N) :
    (iblk0 V c 3 t : Arr2 1 128) = V c (Pipeline.arrRef spec0 3) := by
  unfold iblk0
  have hz' : (fun a => win0_3.index t a * main_v14.ty.shape.size a) = fun _ => 0 := funext fun a => by
    match a with
    | ⟨0, _⟩ => show win0_3.index t 0 * _ = 0; rw [(idx0_3 t).1, Nat.zero_mul]
    | ⟨1, _⟩ => show win0_3.index t 1 * _ = 0; rw [(idx0_3 t).2, Nat.zero_mul]
  exact Memref.read_access_unit_zero (Elt Ideal) main_v14 hz' (fun a => by rw [congrFun hz' a]; simp) _

/-- Input window 4's block at every point is its whole array. -/
theorem iblk0_4_eq (c : Dev nD) (t : Fin cfg0.N) :
    (iblk0 V c 4 t : Arr2 128 128) = V c (Pipeline.arrRef spec0 4) := by
  unfold iblk0
  have hz' : (fun a => win0_4.index t a * main_arg5.ty.shape.size a) = fun _ => 0 := funext fun a => by
    match a with
    | ⟨0, _⟩ => show win0_4.index t 0 * _ = 0; rw [(idx0_4 t).1, Nat.zero_mul]
    | ⟨1, _⟩ => show win0_4.index t 1 * _ = 0; rw [(idx0_4 t).2, Nat.zero_mul]
  exact Memref.read_access_unit_zero (Elt Ideal) main_arg5 hz' (fun a => by rw [congrFun hz' a]; simp) _

/-- Input window 5's block at every point is its whole array. -/
theorem iblk0_5_eq (c : Dev nD) (t : Fin cfg0.N) :
    (iblk0 V c 5 t : Arr2 1 128) = V c (Pipeline.arrRef spec0 5) := by
  unfold iblk0
  have hz' : (fun a => win0_5.index t a * main_v15.ty.shape.size a) = fun _ => 0 := funext fun a => by
    match a with
    | ⟨0, _⟩ => show win0_5.index t 0 * _ = 0; rw [(idx0_5 t).1, Nat.zero_mul]
    | ⟨1, _⟩ => show win0_5.index t 1 * _ = 0; rw [(idx0_5 t).2, Nat.zero_mul]
  exact Memref.read_access_unit_zero (Elt Ideal) main_v15 hz' (fun a => by rw [congrFun hz' a]; simp) _

/-- Output window 6's block at point `t` of an array `G`, entry `(p, q)`: `G`'s entry `(2000·t + p, q)`. -/
theorem blk0_6_apply (G : Arr2 100000 128) (t : Fin cfg0.N) (p : Fin 2000) (q : Fin 128) (hp : 2000 * t.val + p.val < 100000) :
    (((cfg0.win 6).blk t).view.read (Elt Ideal) G : Arr2 2000 128) (ix2 p q) = G (ix2 ⟨2000 * t.val + p.val, hp⟩ q) := by
  rw [View.read_apply]
  show G _ = G _
  congr 1
  funext a
  apply Fin.ext
  match a with
  | ⟨0, _⟩ => show win0_6.index t 0 * 2000 + 1 * p.val = 2000 * t.val + p.val; rw [(idx0_6 t).1]; omega
  | ⟨1, _⟩ => show win0_6.index t 1 * 128 + 1 * q.val = q.val; rw [(idx0_6 t).2]; omega

/-- Output windows 7 and 8's block of an array `G` is `G`. -/
theorem blk0_7_eq (G : Arr2 1 128) (t : Fin cfg0.N) : (((cfg0.win 7).blk t).view.read (Elt Ideal) G : Arr2 1 128) = G := by
  have hz' : (fun a => win0_7.index t a * main_v18_1.ty.shape.size a) = fun _ => 0 := funext fun a => by
    match a with
    | ⟨0, _⟩ => show win0_7.index t 0 * _ = 0; rw [(idx0_7 t).1, Nat.zero_mul]
    | ⟨1, _⟩ => show win0_7.index t 1 * _ = 0; rw [(idx0_7 t).2, Nat.zero_mul]
  exact Memref.read_access_unit_zero (Elt Ideal) main_v18_1 hz' (fun a => by rw [congrFun hz' a]; simp) _
theorem blk0_8_eq (G : Arr2 1 128) (t : Fin cfg0.N) : (((cfg0.win 8).blk t).view.read (Elt Ideal) G : Arr2 1 128) = G := by
  have hz' : (fun a => win0_8.index t a * main_v18_2.ty.shape.size a) = fun _ => 0 := funext fun a => by
    match a with
    | ⟨0, _⟩ => show win0_8.index t 0 * _ = 0; rw [(idx0_8 t).1, Nat.zero_mul]
    | ⟨1, _⟩ => show win0_8.index t 1 * _ = 0; rw [(idx0_8 t).2, Nat.zero_mul]
  exact Memref.read_access_unit_zero (Elt Ideal) main_v18_2 hz' (fun a => by rw [congrFun hz' a]; simp) _

end Blocks

section Finals
variable (V : (c : Dev nD) → (b : Ref sig .tc) → Buf (Elt Ideal) ((c : Thread nD τ).loc b))

/-- Two arrays of one shape agree when they agree entry by entry. -/
theorem ext_arr2_0 {n c : Nat} {x y : Arr2 n c} (h : ∀ (p : Fin n) (q : Fin c), x (ix2 p q) = y (ix2 p q)) : x = y :=
  funext fun j => by rw [eq_ix2 j]; exact h _ _

/-! ## Window 6: the perceptron output, block by block -/

/-- The perceptron of the six arrays as the region finds them. -/
def G0_6 (c : Dev nD) : Arr2 100000 128 :=
  Cert.Gin.mlp (n := 100000) (k := 12) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))

/-- The extents of window 6's block at a point, and of windows 7 and 8's. -/
theorem ext0_6 : ∀ t : Fin cfg0.N, win0_6.index t 0 * win0_6.size 0 = t.val * 2000 ∧ win0_6.xsize (grid0.coords t) 0 = 2000
      ∧ win0_6.index t 1 * win0_6.size 1 = 0 ∧ win0_6.xsize (grid0.coords t) 1 = 128 :=
  (by decide +kernel : ∀ t : Fin grid0.N, win0_6.index t 0 * win0_6.size 0 = t.val * 2000 ∧ win0_6.xsize (grid0.coords t) 0 = 2000
      ∧ win0_6.index t 1 * win0_6.size 1 = 0 ∧ win0_6.xsize (grid0.coords t) 1 = 128)
theorem ext0_7 : ∀ t : Fin cfg0.N, win0_7.index t 0 * win0_7.size 0 = 0 ∧ win0_7.xsize (grid0.coords t) 0 = 1
      ∧ win0_7.index t 1 * win0_7.size 1 = 0 ∧ win0_7.xsize (grid0.coords t) 1 = 128 :=
  (by decide +kernel : ∀ t : Fin grid0.N, win0_7.index t 0 * win0_7.size 0 = 0 ∧ win0_7.xsize (grid0.coords t) 0 = 1
      ∧ win0_7.index t 1 * win0_7.size 1 = 0 ∧ win0_7.xsize (grid0.coords t) 1 = 128)
theorem ext0_8 : ∀ t : Fin cfg0.N, win0_8.index t 0 * win0_8.size 0 = 0 ∧ win0_8.xsize (grid0.coords t) 0 = 1
      ∧ win0_8.index t 1 * win0_8.size 1 = 0 ∧ win0_8.xsize (grid0.coords t) 1 = 128 :=
  (by decide +kernel : ∀ t : Fin grid0.N, win0_8.index t 0 * win0_8.size 0 = 0 ∧ win0_8.xsize (grid0.coords t) 0 = 1
      ∧ win0_8.index t 1 * win0_8.size 1 = 0 ∧ win0_8.xsize (grid0.coords t) 1 = 128)

/-- What point `t` writes back to window 6's array is block `t` of the perceptron of the whole arrays: the body's block
    is the perceptron of the input blocks, which reads rows `2000·t …` of the row arrays and all of the others. -/
theorem flushed0_6 (c : Dev nD) (t : Fin cfg0.N) :
    (dat0 (F := Ideal) V c).flushed 6 t = ((cfg0.win 6).blk t).view.read (Elt Ideal) (G0_6 V c) := by
  have hN : cfg0.N = 50 := N_0
  show (cfg0.win 6).cut (grid0.coords t) ((dat0 V c).after 6 t) = _
  rw [after0_6]; unfold out0_6
  rw [pay0_3_eq, iblk0_2_eq, iblk0_3_eq, iblk0_4_eq, iblk0_5_eq]
  refine ext_arr2_0 (n := 2000) (c := 128) fun p q => ?_
  have hp : 2000 * t.val + p.val < 100000 := by have := t.isLt; have := p.isLt; omega
  rw [blk0_6_apply (G0_6 V c) t p q hp]
  unfold G0_6
  exact mlp_block (k := 12) (V c (Pipeline.arrRef spec0 0)) (V c (Pipeline.arrRef spec0 1)) (iblk0 V c 0 t) (iblk0 V c 1 t) ⟨t.val, by omega⟩ _ _ _ _
    (fun p i h => iblk0_0_apply V c t p i h) (fun p i h => iblk0_1_apply V c t p i h) p q hp

/-- An index of window 6's array is in point `t`'s block when its row is among rows `2000·t … 2000·t + 1999`. -/
theorem mem_blk0_6 (t : Fin cfg0.N) (i : S100000x128.Idx) :
    i ∈ ((cfg0.win 6).blk t).view.set ↔ t.val * 2000 ≤ (i 0 : Nat) ∧ (i 0 : Nat) < t.val * 2000 + 2000 := by
  show i ∈ ((View.whole main_v18_0).slice (win0_6.rect t)).set ↔ _
  rw [View.set_slice_whole, Rect.mem_set_unit]
  have h1 : (i 1 : Nat) < 128 := (i 1).isLt
  obtain ⟨e0, e1, e2, e3⟩ := ext0_6 t
  refine ⟨fun h => ?_, fun h a => ?_⟩
  · have := h 0; rw [e0, e1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e0, e1]; exact h
    | ⟨1, _⟩ => show win0_6.index t 1 * win0_6.size 1 ≤ (i 1 : Nat) ∧ (i 1 : Nat) < win0_6.index t 1 * win0_6.size 1 + win0_6.xsize (grid0.coords t) 1
                rw [e2, e3]; omega

/-- The 50 blocks of 2000 rows tile the 100000 rows. -/
theorem cover0_6 (i : S100000x128.Idx) :
    ∃ t : Fin cfg0.N, (cfg0.win 6).flush t = true ∧ i ∈ ((cfg0.win 6).blk t).view.set := by
  have h0 : (i 0 : Nat) < 100000 := (i 0).isLt
  have hN : cfg0.N = 50 := N_0
  refine ⟨⟨(i 0 : Nat) / 2000, by omega⟩, flush0_6 _, ?_⟩
  rw [mem_blk0_6]
  dsimp only
  omega

/-- So window 6's array ends holding the perceptron of the whole arrays. -/
theorem final0_6 (c : Dev nD) : (dat0 (F := Ideal) V c).arrAt 6 cfg0.N
    = Cert.Gin.mlp (n := 100000) (k := 12) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 6 (G0_6 V c) (fun t _ => flushed0_6 V c t) (cover0_6)

/-! ## Windows 7 and 8: the column sums, accumulated over the points -/

/-- The accumulator of window 7 after the last point is the column sums of the whole perceptron output:
    point by point it is the blocks' sums added up, and the 50 blocks of 2000 rows are the 100000 rows. -/
theorem acc0_7_last (c : Dev nD) (t : Fin cfg0.N) (h49 : t.val = 49) :
    (acc0_7 V c t : Arr2 1 128) = colSum (G0_6 V c) := by
  obtain rfl : t = (⟨(⟨49, by decide⟩ : Fin 50).val, lt_of_lt_of_eq (⟨49, by decide⟩ : Fin 50).isLt N_0.symm⟩ : Fin cfg0.N) := Fin.ext h49
  unfold G0_6
  refine acc_colSum (k := 12) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
    (fun s => iblk0 V c 0 (⟨s.val, lt_of_lt_of_eq s.isLt N_0.symm⟩ : Fin cfg0.N)) (fun s => iblk0 V c 1 (⟨s.val, lt_of_lt_of_eq s.isLt N_0.symm⟩ : Fin cfg0.N))
    (fun s p i h => iblk0_0_apply V c _ p i h) (fun s p i h => iblk0_1_apply V c _ p i h)
    (fun s => acc0_7 V c (⟨s.val, lt_of_lt_of_eq s.isLt N_0.symm⟩ : Fin cfg0.N)) (fun s h0 => ?_) (fun s h0 hlt => ?_)
  · show acc0_7 V c (⟨s.val, lt_of_lt_of_eq s.isLt N_0.symm⟩ : Fin cfg0.N) = _
    rw [acc0_7_zero V c (⟨s.val, lt_of_lt_of_eq s.isLt N_0.symm⟩ : Fin cfg0.N) h0]; unfold sum0_7
    rw [pay0_4_eq, iblk0_2_eq, iblk0_3_eq, iblk0_4_eq, iblk0_5_eq]
  · show acc0_7 V c (⟨s.val, lt_of_lt_of_eq s.isLt N_0.symm⟩ : Fin cfg0.N) = _
    rw [acc0_7_succ V c (⟨s.val, lt_of_lt_of_eq s.isLt N_0.symm⟩ : Fin cfg0.N) h0, pay0_1_eq]; unfold sum0_7
    rw [pay0_4_eq, iblk0_2_eq, iblk0_3_eq, iblk0_4_eq, iblk0_5_eq]

/-- The accumulator of window 8 after the last point is the column sums of squares of the whole perceptron output:
    point by point it is the blocks' sums added up, and the 50 blocks of 2000 rows are the 100000 rows. -/
theorem acc0_8_last (c : Dev nD) (t : Fin cfg0.N) (h49 : t.val = 49) :
    (acc0_8 V c t : Arr2 1 128) = colSumSq (G0_6 V c) := by
  obtain rfl : t = (⟨(⟨49, by decide⟩ : Fin 50).val, lt_of_lt_of_eq (⟨49, by decide⟩ : Fin 50).isLt N_0.symm⟩ : Fin cfg0.N) := Fin.ext h49
  unfold G0_6
  refine acc_colSumSq (k := 12) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
    (fun s => iblk0 V c 0 (⟨s.val, lt_of_lt_of_eq s.isLt N_0.symm⟩ : Fin cfg0.N)) (fun s => iblk0 V c 1 (⟨s.val, lt_of_lt_of_eq s.isLt N_0.symm⟩ : Fin cfg0.N))
    (fun s p i h => iblk0_0_apply V c _ p i h) (fun s p i h => iblk0_1_apply V c _ p i h)
    (fun s => acc0_8 V c (⟨s.val, lt_of_lt_of_eq s.isLt N_0.symm⟩ : Fin cfg0.N)) (fun s h0 => ?_) (fun s h0 hlt => ?_)
  · show acc0_8 V c (⟨s.val, lt_of_lt_of_eq s.isLt N_0.symm⟩ : Fin cfg0.N) = _
    rw [acc0_8_zero V c (⟨s.val, lt_of_lt_of_eq s.isLt N_0.symm⟩ : Fin cfg0.N) h0]; unfold sum0_8
    rw [pay0_5_eq, iblk0_2_eq, iblk0_3_eq, iblk0_4_eq, iblk0_5_eq]
  · show acc0_8 V c (⟨s.val, lt_of_lt_of_eq s.isLt N_0.symm⟩ : Fin cfg0.N) = _
    rw [acc0_8_succ V c (⟨s.val, lt_of_lt_of_eq s.isLt N_0.symm⟩ : Fin cfg0.N) h0, pay0_2_eq]; unfold sum0_8
    rw [pay0_5_eq, iblk0_2_eq, iblk0_3_eq, iblk0_4_eq, iblk0_5_eq]

/-- The one write-back of window 7, at the last point, writes the accumulator: the array is its one block. -/
theorem flushed0_7 (c : Dev nD) (t : Fin cfg0.N) (hf : (cfg0.win 7).flush t = true) :
    (dat0 (F := Ideal) V c).flushed 7 t = ((cfg0.win 7).blk t).view.read (Elt Ideal) (colSum (G0_6 V c)) := by
  have hN : cfg0.N = 50 := N_0
  have h49 : t.val = 49 := by have := (flush0_7 t).mp hf; have := t.isLt; omega
  show (cfg0.win 7).cut (grid0.coords t) ((dat0 V c).after 7 t) = _
  rw [after0_7]
  exact (acc0_7_last V c t h49).trans (blk0_7_eq _ t).symm

/-- The last point's block of window 7 is its whole one-row array. -/
theorem cover0_7 (i : S1x128.Idx) :
    ∃ t : Fin cfg0.N, (cfg0.win 7).flush t = true ∧ i ∈ ((cfg0.win 7).blk t).view.set := by
  have hN : grid0.N = 50 := N_0
  have h49 : (49 : Nat) < grid0.N := by omega
  refine ⟨⟨49, h49⟩, (flush0_7 _).mpr rfl, ?_⟩
  show i ∈ ((View.whole main_v18_1).slice (win0_7.rect ⟨49, h49⟩)).set
  rw [View.set_slice_whole, Rect.mem_set_unit]
  intro a
  have h0 : (i 0 : Nat) < 1 := (i 0).isLt
  have h1 : (i 1 : Nat) < 128 := (i 1).isLt
  obtain ⟨e0, e1, e2, e3⟩ := ext0_7 ⟨49, h49⟩
  match a with
  | ⟨0, _⟩ => show win0_7.index ⟨49, _⟩ 0 * win0_7.size 0 ≤ (i 0 : Nat) ∧ (i 0 : Nat) < win0_7.index ⟨49, _⟩ 0 * win0_7.size 0 + win0_7.xsize (grid0.coords ⟨49, _⟩) 0
              rw [e0, e1]; omega
  | ⟨1, _⟩ => show win0_7.index ⟨49, _⟩ 1 * win0_7.size 1 ≤ (i 1 : Nat) ∧ (i 1 : Nat) < win0_7.index ⟨49, _⟩ 1 * win0_7.size 1 + win0_7.xsize (grid0.coords ⟨49, _⟩) 1
              rw [e2, e3]; omega

/-- So the array of window 7 ends holding the column sums of the perceptron output. -/
theorem final0_7 (c : Dev nD) : (dat0 (F := Ideal) V c).arrAt 7 cfg0.N
    = colSum (Cert.Gin.mlp (n := 100000) (k := 12) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) :=
  (dat0 V c).arrAt_eq_of_cover 7 (colSum (G0_6 V c)) (flushed0_7 V c) (cover0_7)

/-- The one write-back of window 8, at the last point, writes the accumulator: the array is its one block. -/
theorem flushed0_8 (c : Dev nD) (t : Fin cfg0.N) (hf : (cfg0.win 8).flush t = true) :
    (dat0 (F := Ideal) V c).flushed 8 t = ((cfg0.win 8).blk t).view.read (Elt Ideal) (colSumSq (G0_6 V c)) := by
  have hN : cfg0.N = 50 := N_0
  have h49 : t.val = 49 := by have := (flush0_8 t).mp hf; have := t.isLt; omega
  show (cfg0.win 8).cut (grid0.coords t) ((dat0 V c).after 8 t) = _
  rw [after0_8]
  exact (acc0_8_last V c t h49).trans (blk0_8_eq _ t).symm

/-- The last point's block of window 8 is its whole one-row array. -/
theorem cover0_8 (i : S1x128.Idx) :
    ∃ t : Fin cfg0.N, (cfg0.win 8).flush t = true ∧ i ∈ ((cfg0.win 8).blk t).view.set := by
  have hN : grid0.N = 50 := N_0
  have h49 : (49 : Nat) < grid0.N := by omega
  refine ⟨⟨49, h49⟩, (flush0_8 _).mpr rfl, ?_⟩
  show i ∈ ((View.whole main_v18_2).slice (win0_8.rect ⟨49, h49⟩)).set
  rw [View.set_slice_whole, Rect.mem_set_unit]
  intro a
  have h0 : (i 0 : Nat) < 1 := (i 0).isLt
  have h1 : (i 1 : Nat) < 128 := (i 1).isLt
  obtain ⟨e0, e1, e2, e3⟩ := ext0_8 ⟨49, h49⟩
  match a with
  | ⟨0, _⟩ => show win0_8.index ⟨49, _⟩ 0 * win0_8.size 0 ≤ (i 0 : Nat) ∧ (i 0 : Nat) < win0_8.index ⟨49, _⟩ 0 * win0_8.size 0 + win0_8.xsize (grid0.coords ⟨49, _⟩) 0
              rw [e0, e1]; omega
  | ⟨1, _⟩ => show win0_8.index ⟨49, _⟩ 1 * win0_8.size 1 ≤ (i 1 : Nat) ∧ (i 1 : Nat) < win0_8.index ⟨49, _⟩ 1 * win0_8.size 1 + win0_8.xsize (grid0.coords ⟨49, _⟩) 1
              rw [e2, e3]; omega

/-- So the array of window 8 ends holding the column sums of squares of the perceptron output. -/
theorem final0_8 (c : Dev nD) : (dat0 (F := Ideal) V c).arrAt 8 cfg0.N
    = colSumSq (Cert.Gin.mlp (n := 100000) (k := 12) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) :=
  (dat0 V c).arrAt_eq_of_cover 8 (colSumSq (G0_6 V c)) (flushed0_8 V c) (cover0_8)

end Finals

end Cert.KernelIdeal.Hand
end
-- ==== Proof.KI.VCommon.lean ====
import proofs.«142609_j54228257079879_1_alg».proof.Proof.Math.Spec
import Idealize.ShloMosaic.Lib.Pipeline.Value
import Idealize.ShloMosaic.Lib.ValueLayout

/-! # The normalisation at one entry

`Cert.Gin.bnRelu` at an entry is one function of five extended reals: the row value, and the entry's column's mean,
variance, scale and shift. -/

noncomputable section

namespace Cert.KernelIdeal.Hand

open Idealize.ShloMosaic Idealize.ShloMosaic.ValueIdx
open Cert.Sage Cert.Gin

/-- The rank-2 zero offsets, as the printed program spells them. -/
theorem hzero2 : (![0, 0] : Fin 2 → Nat) = fun _ => 0 := funext fun a => by fin_cases a <;> rfl

/-- Normalise one value by a mean and a variance, scale, shift, clip at zero. -/
def bnAt (t m v g b : EReal) : EReal := max ((t - m) * Ideal.rsqrt (v + epsF) * g + b) zeroF

/-- `bnRelu` at an entry is `bnAt` of the row value and the entry's column statistics. -/
theorem bnRelu_apply {n : Nat} (t : Arr2 n 128) (mean var γ β : Arr2 1 128) (i : (⟨2, ![n, 128]⟩ : Shape).Idx) :
    bnRelu t mean var γ β i = bnAt (t i) (mean (ix2 (0 : Fin 1) (colOf i))) (var (ix2 (0 : Fin 1) (colOf i)))
      (γ (ix2 (0 : Fin 1) (colOf i))) (β (ix2 (0 : Fin 1) (colOf i))) := rfl

end Cert.KernelIdeal.Hand

end
-- ==== Proof.KI.V1.lean ====
import proofs.«142609_j54228257079879_1_alg».proof.Proof.KI.R1
import proofs.«142609_j54228257079879_1_alg».proof.Proof.KI.VCommon
import proofs.«142609_j54228257079879_1_alg».proof.Proof.Math.Spec
import Idealize.ShloMosaic.Lib.Pipeline.Value
import Idealize.ShloMosaic.Lib.ValueLayout

/-! # Region 1, the value: the normalised array in closed form

At every point the kernel writes back the block of 2000 rows of `Cert.Gin.bnRelu` of the arrays the region finds:
the payload at an entry is the entry's own row value, normalised by the entry's column statistics. The fifty blocks
tile the 100000 rows, so the array ends holding `bnRelu` of the arrays. -/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Sage Cert.Gin

variable (V : (c : Dev nD) → (b : Ref sig .tc) → Buf (Elt Ideal) ((c : Thread nD τ).loc b))

/-- The body's payload at entry (p, q): the row value at (p, q) normalised by the statistics of column q. -/
theorem pay1_apply (x0 : Vec Ideal S2000x128 .f32) (x1 x2 x3 x4 : Vec Ideal S1x128 .f32) (p : Fin 2000) (q : Fin 128) :
    k1_pay1 x0 x2 x1 x3 x4 (ix2 p q)
      = bnAt (x0 (ix2 p q)) (x1 (ix2 (0 : Fin 1) q)) (x2 (ix2 (0 : Fin 1) q)) (x3 (ix2 (0 : Fin 1) q)) (x4 (ix2 (0 : Fin 1) q)) := by
  unfold k1_pay1 bnAt
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rfl

/-- The printed index maps, decided over the grid: window 0 moves with the output, block by block of rows; the four
    statistics windows stay on their one block. -/
theorem idx_facts1 : ∀ t : Fin cfg1.N, win1_0.index t (0 : Fin 2) = win1_5.index t (0 : Fin 2)
    ∧ win1_0.index t (1 : Fin 2) = 0 ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 49 :=
  (by decide +kernel : ∀ t : Fin grid1.N, _)

/-- Every block of rows is some point's. -/
theorem idx_onto1 : ∀ q0 : Fin 50, ∃ t : Fin cfg1.N, win1_5.index t = ![q0.val, 0] :=
  (by decide +kernel : ∀ q0 : Fin 50, ∃ t : Fin grid1.N, win1_5.index t = ![q0.val, 0])

/-- The closed form: `bnRelu` of the arrays the region finds. -/
abbrev G1 (c : Dev nD) : Arr2 100000 128 :=
  bnRelu (n := 100000) (V c (Pipeline.arrRef spec1 0)) (V c (Pipeline.arrRef spec1 1)) (V c (Pipeline.arrRef spec1 2))
    (V c (Pipeline.arrRef spec1 3)) (V c (Pipeline.arrRef spec1 4))

/-- Window 1's block is its whole one-row array, at every point. -/
theorem iblk1_1_eq (c : Dev nD) (t : Fin cfg1.N) : iblk1 V c 1 t = V c (Pipeline.arrRef spec1 1) := by
  obtain ⟨e0, e1, e2, e3, e4, e5, e6, e7, e8, e9, e10, e11⟩ := idx_facts1 t
  funext j
  show V c (Pipeline.arrRef spec1 1) (((cfg1.win 1).blk t).view.emb j) = V c (Pipeline.arrRef spec1 1) j
  refine congrArg _ (funext fun a => Fin.ext ?_)
  match a with
  | ⟨0, _⟩ => show win1_1.index t (0 : Fin 2) * 1 + 1 * (j 0).val = (j 0).val; omega
  | ⟨1, _⟩ => show win1_1.index t (1 : Fin 2) * 128 + 1 * (j 1).val = (j 1).val; omega

/-- Window 2's block is its whole one-row array, at every point. -/
theorem iblk1_2_eq (c : Dev nD) (t : Fin cfg1.N) : iblk1 V c 2 t = V c (Pipeline.arrRef spec1 2) := by
  obtain ⟨e0, e1, e2, e3, e4, e5, e6, e7, e8, e9, e10, e11⟩ := idx_facts1 t
  funext j
  show V c (Pipeline.arrRef spec1 2) (((cfg1.win 2).blk t).view.emb j) = V c (Pipeline.arrRef spec1 2) j
  refine congrArg _ (funext fun a => Fin.ext ?_)
  match a with
  | ⟨0, _⟩ => show win1_2.index t (0 : Fin 2) * 1 + 1 * (j 0).val = (j 0).val; omega
  | ⟨1, _⟩ => show win1_2.index t (1 : Fin 2) * 128 + 1 * (j 1).val = (j 1).val; omega

/-- Window 3's block is its whole one-row array, at every point. -/
theorem iblk1_3_eq (c : Dev nD) (t : Fin cfg1.N) : iblk1 V c 3 t = V c (Pipeline.arrRef spec1 3) := by
  obtain ⟨e0, e1, e2, e3, e4, e5, e6, e7, e8, e9, e10, e11⟩ := idx_facts1 t
  funext j
  show V c (Pipeline.arrRef spec1 3) (((cfg1.win 3).blk t).view.emb j) = V c (Pipeline.arrRef spec1 3) j
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 128 + 1 * (j 1).val = (j 1).val; omega

/-- Window 4's block is its whole one-row array, at every point. -/
theorem iblk1_4_eq (c : Dev nD) (t : Fin cfg1.N) : iblk1 V c 4 t = V c (Pipeline.arrRef spec1 4) := by
  obtain ⟨e0, e1, e2, e3, e4, e5, e6, e7, e8, e9, e10, e11⟩ := idx_facts1 t
  funext j
  show V c (Pipeline.arrRef spec1 4) (((cfg1.win 4).blk t).view.emb j) = V c (Pipeline.arrRef spec1 4) j
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 128 + 1 * (j 1).val = (j 1).val; omega

/-- The payload at an entry, the four statistics blocks named. -/
theorem pay1_at (x0 : Vec Ideal S2000x128 .f32) {x1 a1 x2 a2 x3 a3 x4 a4 : Vec Ideal S1x128 .f32}
    (h1 : x1 = a1) (h2 : x2 = a2) (h3 : x3 = a3) (h4 : x4 = a4) (p : Fin 2000) (q : Fin 128) :
    k1_pay1 x0 x2 x1 x3 x4 (ix2 p q)
      = bnAt (x0 (ix2 p q)) (a1 (ix2 (0 : Fin 1) q)) (a2 (ix2 (0 : Fin 1) q)) (a3 (ix2 (0 : Fin 1) q)) (a4 (ix2 (0 : Fin 1) q)) := by
  subst h1 h2 h3 h4
  exact pay1_apply x0 x1 x2 x3 x4 p q

set_option maxHeartbeats 2000000 in
/-- What point `t` writes back is block `t` of the closed form. -/
theorem flushed1_5_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hzero2]
  simp only [View.ld_unit_zero (S := S2000x128) hzero2, View.ld_unit_zero (S := S1x128) hzero2]
  obtain ⟨e0, e1, e2, e3, e4, e5, e6, e7, e8, e9, e10, e11⟩ := idx_facts1 t
  funext j
  obtain ⟨p, q, rfl⟩ : ∃ (p : Fin 2000) (q : Fin 128), j = ix2 p q := ⟨j 0, j 1, eq_ix2 j⟩
  refine (pay1_at _ (iblk1_1_eq V c t) (iblk1_2_eq V c t) (iblk1_3_eq V c t) (iblk1_4_eq V c t) p q).trans ?_
  show _ = G1 V c (((cfg1.win 5).blk t).view.emb (ix2 p q))
  unfold G1
  rw [bnRelu_apply]
  have h0 : ((cfg1.win 0).blk t).view.emb (ix2 p q) = ((cfg1.win 5).blk t).view.emb (ix2 p q) := by
    funext a; apply Fin.ext
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * q.val = win1_5.index t (1 : Fin 2) * 128 + 1 * q.val; omega
  have hc : colOf (((cfg1.win 5).blk t).view.emb (ix2 p q)) = q := by
    apply Fin.ext
    show win1_5.index t (1 : Fin 2) * 128 + 1 * q.val = q.val; omega
  rw [hc]
  have r0 : iblk1 V c 0 t (ix2 p q) = V c (Pipeline.arrRef spec1 0) (((cfg1.win 5).blk t).view.emb (ix2 p q)) :=
    congrArg (V c (Pipeline.arrRef spec1 0)) h0
  rw [r0]

/-- An index of the array is in point `t`'s block iff each coordinate is in the block's range on its axis. -/
theorem mem_blk1_5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v25).slice (win1_5.rect t)).set ↔ _
  rw [View.set_slice_whole, Rect.mem_set_unit]
  exact Iff.rfl

/-- Every index of the array is in some point's block: row `r` is in block `r / 2000`. -/
theorem cover1_5_arr (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The array after the region: `bnRelu` of the arrays the region finds. -/
theorem final1_5 (c : Dev nD) : (dat1 (F := Ideal) V c).arrAt 5 cfg1.N
    = bnRelu (n := 100000) (V c (Pipeline.arrRef spec1 0)) (V c (Pipeline.arrRef spec1 1)) (V c (Pipeline.arrRef spec1 2))
        (V c (Pipeline.arrRef spec1 3)) (V c (Pipeline.arrRef spec1 4)) :=
  (dat1 (F := Ideal) V c).arrAt_eq_of_cover 5 (G1 V c) (fun t _ => flushed1_5_eq V c t) cover1_5_arr

end Cert.KernelIdeal.Hand

end
-- ==== Proof.KI.V2.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import proofs.«142609_j54228257079879_1_alg».proof.Proof.WholeStore
import proofs.«142609_j54228257079879_1_alg».proof.Proof.KI.R2
import proofs.«142609_j54228257079879_1_alg».proof.Proof.KI.MmPay
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The value leg of region 2 at the extended reals: what the region's three result arrays hold after its run, as
    functions of the six arrays it reads — the perceptron of the rows and their neighbour sums, and the column sums of
    that and of its square. -/

open Cert.Sage Cert.Gin Idealize.ShloMosaic.ValueIdx

section Blocks
variable (V : (c : Dev nD) → (b : Ref sig .tc) → Buf (Elt Ideal) ((c : Thread nD τ).loc b))

/-! ## Where the windows' blocks sit in their arrays -/

/-- Window 0's block index at point `t` is `(t, 0)`: rows `2000·t … 2000·t + 1999`, every column. -/
theorem idx2_0 : ∀ t : Fin cfg2.N, win2_0.index t 0 = t.val ∧ win2_0.index t 1 = 0 :=
  (by decide +kernel : ∀ t : Fin grid2.N, win2_0.index t 0 = t.val ∧ win2_0.index t 1 = 0)

/-- Window 1's block index at point `t` is `(t, 0)`: rows `2000·t … 2000·t + 1999`, every column. -/
theorem idx2_1 : ∀ t : Fin cfg2.N, win2_1.index t 0 = t.val ∧ win2_1.index t 1 = 0 :=
  (by decide +kernel : ∀ t : Fin grid2.N, win2_1.index t 0 = t.val ∧ win2_1.index t 1 = 0)

/-- Window 6's block index at point `t` is `(t, 0)`: rows `2000·t … 2000·t + 1999`, every column. -/
theorem idx2_6 : ∀ t : Fin cfg2.N, win2_6.index t 0 = t.val ∧ win2_6.index t 1 = 0 :=
  (by decide +kernel : ∀ t : Fin grid2.N, win2_6.index t 0 = t.val ∧ win2_6.index t 1 = 0)

/-- Window 2's block index is `(0, 0)` at every point: its block is its whole array. -/
theorem idx2_2 : ∀ t : Fin cfg2.N, win2_2.index t 0 = 0 ∧ win2_2.index t 1 = 0 :=
  (by decide +kernel : ∀ t : Fin grid2.N, win2_2.index t 0 = 0 ∧ win2_2.index t 1 = 0)

/-- Window 3's block index is `(0, 0)` at every point: its block is its whole array. -/
theorem idx2_3 : ∀ t : Fin cfg2.N, win2_3.index t 0 = 0 ∧ win2_3.index t 1 = 0 :=
  (by decide +kernel : ∀ t : Fin grid2.N, win2_3.index t 0 = 0 ∧ win2_3.index t 1 = 0)

/-- Window 4's block index is `(0, 0)` at every point: its block is its whole array. -/
theorem idx2_4 : ∀ t : Fin cfg2.N, win2_4.index t 0 = 0 ∧ win2_4.index t 1 = 0 :=
  (by decide +kernel : ∀ t : Fin grid2.N, win2_4.index t 0 = 0 ∧ win2_4.index t 1 = 0)

/-- Window 5's block index is `(0, 0)` at every point: its block is its whole array. -/
theorem idx2_5 : ∀ t : Fin cfg2.N, win2_5.index t 0 = 0 ∧ win2_5.index t 1 = 0 :=
  (by decide +kernel : ∀ t : Fin grid2.N, win2_5.index t 0 = 0 ∧ win2_5.index t 1 = 0)

/-- Window 7's block index is `(0, 0)` at every point: its block is its whole array. -/
theorem idx2_7 : ∀ t : Fin cfg2.N, win2_7.index t 0 = 0 ∧ win2_7.index t 1 = 0 :=
  (by decide +kernel : ∀ t : Fin grid2.N, win2_7.index t 0 = 0 ∧ win2_7.index t 1 = 0)

/-- Window 8's block index is `(0, 0)` at every point: its block is its whole array. -/
theorem idx2_8 : ∀ t : Fin cfg2.N, win2_8.index t 0 = 0 ∧ win2_8.index t 1 = 0 :=
  (by decide +kernel : ∀ t : Fin grid2.N, win2_8.index t 0 = 0 ∧ win2_8.index t 1 = 0)

/-- Input window 0's block at point `t`, entry `(p, q)`: the array's entry `(2000·t + p, q)`. -/
theorem iblk2_0_apply (c : Dev nD) (t : Fin cfg2.N) (p : Fin 2000) (q : Fin 128) (hp : 2000 * t.val + p.val < 100000) :
    (iblk2 V c 0 t : Arr2 2000 128) (ix2 p q) = (V c (Pipeline.arrRef spec2 0) : Arr2 100000 128) (ix2 ⟨2000 * t.val + p.val, hp⟩ q) := by
  unfold iblk2
  rw [View.read_apply]
  show V c (Pipeline.arrRef spec2 0) _ = V c (Pipeline.arrRef spec2 0) _
  congr 1
  funext a
  apply Fin.ext
  match a with
  | ⟨0, _⟩ => show win2_0.index t 0 * 2000 + 1 * p.val = 2000 * t.val + p.val; rw [(idx2_0 t).1]; omega
  | ⟨1, _⟩ => show win2_0.index t 1 * 128 + 1 * q.val = q.val; rw [(idx2_0 t).2]; omega

/-- Input window 1's block at point `t`, entry `(p, q)`: the array's entry `(2000·t + p, q)`. -/
theorem iblk2_1_apply (c : Dev nD) (t : Fin cfg2.N) (p : Fin 2000) (q : Fin 128) (hp : 2000 * t.val + p.val < 100000) :
    (iblk2 V c 1 t : Arr2 2000 128) (ix2 p q) = (V c (Pipeline.arrRef spec2 1) : Arr2 100000 128) (ix2 ⟨2000 * t.val + p.val, hp⟩ q) := by
  unfold iblk2
  rw [View.read_apply]
  show V c (Pipeline.arrRef spec2 1) _ = V c (Pipeline.arrRef spec2 1) _
  congr 1
  funext a
  apply Fin.ext
  match a with
  | ⟨0, _⟩ => show win2_1.index t 0 * 2000 + 1 * p.val = 2000 * t.val + p.val; rw [(idx2_1 t).1]; omega
  | ⟨1, _⟩ => show win2_1.index t 1 * 128 + 1 * q.val = q.val; rw [(idx2_1 t).2]; omega

/-- Input window 2's block at every point is its whole array. -/
theorem iblk2_2_eq (c : Dev nD) (t : Fin cfg2.N) :
    (iblk2 V c 2 t : Arr2 128 128) = V c (Pipeline.arrRef spec2 2) := by
  unfold iblk2
  have hz' : (fun a => win2_2.index t a * main_arg9.ty.shape.size a) = fun _ => 0 := funext fun a => by
    match a with
    | ⟨0, _⟩ => show win2_2.index t 0 * _ = 0; rw [(idx2_2 t).1, Nat.zero_mul]
    | ⟨1, _⟩ => show win2_2.index t 1 * _ = 0; rw [(idx2_2 t).2, Nat.zero_mul]
  exact Memref.read_access_unit_zero (Elt Ideal) main_arg9 hz' (fun a => by rw [congrFun hz' a]; simp) _

/-- Input window 3's block at every point is its whole array. -/
theorem iblk2_3_eq (c : Dev nD) (t : Fin cfg2.N) :
    (iblk2 V c 3 t : Arr2 1 128) = V c (Pipeline.arrRef spec2 3) := by
  unfold iblk2
  have hz' : (fun a => win2_3.index t a * main_v36.ty.shape.size a) = fun _ => 0 := funext fun a => by
    match a with
    | ⟨0, _⟩ => show win2_3.index t 0 * _ = 0; rw [(idx2_3 t).1, Nat.zero_mul]
    | ⟨1, _⟩ => show win2_3.index t 1 * _ = 0; rw [(idx2_3 t).2, Nat.zero_mul]
  exact Memref.read_access_unit_zero (Elt Ideal) main_v36 hz' (fun a => by rw [congrFun hz' a]; simp) _

/-- Input window 4's block at every point is its whole array. -/
theorem iblk2_4_eq (c : Dev nD) (t : Fin cfg2.N) :
    (iblk2 V c 4 t : Arr2 128 128) = V c (Pipeline.arrRef spec2 4) := by
  unfold iblk2
  have hz' : (fun a => win2_4.index t a * main_arg11.ty.shape.size a) = fun _ => 0 := funext fun a => by
    match a with
    | ⟨0, _⟩ => show win2_4.index t 0 * _ = 0; rw [(idx2_4 t).1, Nat.zero_mul]
    | ⟨1, _⟩ => show win2_4.index t 1 * _ = 0; rw [(idx2_4 t).2, Nat.zero_mul]
  exact Memref.read_access_unit_zero (Elt Ideal) main_arg11 hz' (fun a => by rw [congrFun hz' a]; simp) _

/-- Input window 5's block at every point is its whole array. -/
theorem iblk2_5_eq (c : Dev nD) (t : Fin cfg2.N) :
    (iblk2 V c 5 t : Arr2 1 128) = V c (Pipeline.arrRef spec2 5) := by
  unfold iblk2
  have hz' : (fun a => win2_5.index t a * main_v37.ty.shape.size a) = fun _ => 0 := funext fun a => by
    match a with
    | ⟨0, _⟩ => show win2_5.index t 0 * _ = 0; rw [(idx2_5 t).1, Nat.zero_mul]
    | ⟨1, _⟩ => show win2_5.index t 1 * _ = 0; rw [(idx2_5 t).2, Nat.zero_mul]
  exact Memref.read_access_unit_zero (Elt Ideal) main_v37 hz' (fun a => by rw [congrFun hz' a]; simp) _

/-- Output window 6's block at point `t` of an array `G`, entry `(p, q)`: `G`'s entry `(2000·t + p, q)`. -/
theorem blk2_6_apply (G : Arr2 100000 128) (t : Fin cfg2.N) (p : Fin 2000) (q : Fin 128) (hp : 2000 * t.val + p.val < 100000) :
    (((cfg2.win 6).blk t).view.read (Elt Ideal) G : Arr2 2000 128) (ix2 p q) = G (ix2 ⟨2000 * t.val + p.val, hp⟩ q) := by
  rw [View.read_apply]
  show G _ = G _
  congr 1
  funext a
  apply Fin.ext
  match a with
  | ⟨0, _⟩ => show win2_6.index t 0 * 2000 + 1 * p.val = 2000 * t.val + p.val; rw [(idx2_6 t).1]; omega
  | ⟨1, _⟩ => show win2_6.index t 1 * 128 + 1 * q.val = q.val; rw [(idx2_6 t).2]; omega

/-- Output windows 7 and 8's block of an array `G` is `G`. -/
theorem blk2_7_eq (G : Arr2 1 128) (t : Fin cfg2.N) : (((cfg2.win 7).blk t).view.read (Elt Ideal) G : Arr2 1 128) = G := by
  have hz' : (fun a => win2_7.index t a * main_v40_1.ty.shape.size a) = fun _ => 0 := funext fun a => by
    match a with
    | ⟨0, _⟩ => show win2_7.index t 0 * _ = 0; rw [(idx2_7 t).1, Nat.zero_mul]
    | ⟨1, _⟩ => show win2_7.index t 1 * _ = 0; rw [(idx2_7 t).2, Nat.zero_mul]
  exact Memref.read_access_unit_zero (Elt Ideal) main_v40_1 hz' (fun a => by rw [congrFun hz' a]; simp) _
theorem blk2_8_eq (G : Arr2 1 128) (t : Fin cfg2.N) : (((cfg2.win 8).blk t).view.read (Elt Ideal) G : Arr2 1 128) = G := by
  have hz' : (fun a => win2_8.index t a * main_v40_2.ty.shape.size a) = fun _ => 0 := funext fun a => by
    match a with
    | ⟨0, _⟩ => show win2_8.index t 0 * _ = 0; rw [(idx2_8 t).1, Nat.zero_mul]
    | ⟨1, _⟩ => show win2_8.index t 1 * _ = 0; rw [(idx2_8 t).2, Nat.zero_mul]
  exact Memref.read_access_unit_zero (Elt Ideal) main_v40_2 hz' (fun a => by rw [congrFun hz' a]; simp) _

end Blocks

section Finals
variable (V : (c : Dev nD) → (b : Ref sig .tc) → Buf (Elt Ideal) ((c : Thread nD τ).loc b))

/-- Two arrays of one shape agree when they agree entry by entry. -/
theorem ext_arr2_2 {n c : Nat} {x y : Arr2 n c} (h : ∀ (p : Fin n) (q : Fin c), x (ix2 p q) = y (ix2 p q)) : x = y :=
  funext fun j => by rw [eq_ix2 j]; exact h _ _

/-! ## Window 6: the perceptron output, block by block -/

/-- The perceptron of the six arrays as the region finds them. -/
def G2_6 (c : Dev nD) : Arr2 100000 128 :=
  Cert.Gin.mlp (n := 100000) (k := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))

/-- The extents of window 6's block at a point, and of windows 7 and 8's. -/
theorem ext2_6 : ∀ t : Fin cfg2.N, win2_6.index t 0 * win2_6.size 0 = t.val * 2000 ∧ win2_6.xsize (grid2.coords t) 0 = 2000
      ∧ win2_6.index t 1 * win2_6.size 1 = 0 ∧ win2_6.xsize (grid2.coords t) 1 = 128 :=
  (by decide +kernel : ∀ t : Fin grid2.N, win2_6.index t 0 * win2_6.size 0 = t.val * 2000 ∧ win2_6.xsize (grid2.coords t) 0 = 2000
      ∧ win2_6.index t 1 * win2_6.size 1 = 0 ∧ win2_6.xsize (grid2.coords t) 1 = 128)
theorem ext2_7 : ∀ t : Fin cfg2.N, win2_7.index t 0 * win2_7.size 0 = 0 ∧ win2_7.xsize (grid2.coords t) 0 = 1
      ∧ win2_7.index t 1 * win2_7.size 1 = 0 ∧ win2_7.xsize (grid2.coords t) 1 = 128 :=
  (by decide +kernel : ∀ t : Fin grid2.N, win2_7.index t 0 * win2_7.size 0 = 0 ∧ win2_7.xsize (grid2.coords t) 0 = 1
      ∧ win2_7.index t 1 * win2_7.size 1 = 0 ∧ win2_7.xsize (grid2.coords t) 1 = 128)
theorem ext2_8 : ∀ t : Fin cfg2.N, win2_8.index t 0 * win2_8.size 0 = 0 ∧ win2_8.xsize (grid2.coords t) 0 = 1
      ∧ win2_8.index t 1 * win2_8.size 1 = 0 ∧ win2_8.xsize (grid2.coords t) 1 = 128 :=
  (by decide +kernel : ∀ t : Fin grid2.N, win2_8.index t 0 * win2_8.size 0 = 0 ∧ win2_8.xsize (grid2.coords t) 0 = 1
      ∧ win2_8.index t 1 * win2_8.size 1 = 0 ∧ win2_8.xsize (grid2.coords t) 1 = 128)

/-- What point `t` writes back to window 6's array is block `t` of the perceptron of the whole arrays: the body's block
    is the perceptron of the input blocks, which reads rows `2000·t …` of the row arrays and all of the others. -/
theorem flushed2_6 (c : Dev nD) (t : Fin cfg2.N) :
    (dat2 (F := Ideal) V c).flushed 6 t = ((cfg2.win 6).blk t).view.read (Elt Ideal) (G2_6 V c) := by
  have hN : cfg2.N = 50 := N_2
  show (cfg2.win 6).cut (grid2.coords t) ((dat2 V c).after 6 t) = _
  rw [after2_6]; unfold out2_6
  rw [pay2_3_eq, iblk2_2_eq, iblk2_3_eq, iblk2_4_eq, iblk2_5_eq]
  refine ext_arr2_2 (n := 2000) (c := 128) fun p q => ?_
  have hp : 2000 * t.val + p.val < 100000 := by have := t.isLt; have := p.isLt; omega
  rw [blk2_6_apply (G2_6 V c) t p q hp]
  unfold G2_6
  exact mlp_block (k := 128) (V c (Pipeline.arrRef spec2 0)) (V c (Pipeline.arrRef spec2 1)) (iblk2 V c 0 t) (iblk2 V c 1 t) ⟨t.val, by omega⟩ _ _ _ _
    (fun p i h => iblk2_0_apply V c t p i h) (fun p i h => iblk2_1_apply V c t p i h) p q hp

/-- An index of window 6's array is in point `t`'s block when its row is among rows `2000·t … 2000·t + 1999`. -/
theorem mem_blk2_6 (t : Fin cfg2.N) (i : S100000x128.Idx) :
    i ∈ ((cfg2.win 6).blk t).view.set ↔ t.val * 2000 ≤ (i 0 : Nat) ∧ (i 0 : Nat) < t.val * 2000 + 2000 := by
  show i ∈ ((View.whole main_v40_0).slice (win2_6.rect t)).set ↔ _
  rw [View.set_slice_whole, Rect.mem_set_unit]
  have h1 : (i 1 : Nat) < 128 := (i 1).isLt
  obtain ⟨e0, e1, e2, e3⟩ := ext2_6 t
  refine ⟨fun h => ?_, fun h a => ?_⟩
  · have := h 0; rw [e0, e1] at this; exact this
  · match a with
    | ⟨0, _⟩ => show win2_6.index t 0 * win2_6.size 0 ≤ (i 0 : Nat) ∧ (i 0 : Nat) < win2_6.index t 0 * win2_6.size 0 + win2_6.xsize (grid2.coords t) 0
                rw [e0, e1]; exact h
    | ⟨1, _⟩ => show win2_6.index t 1 * win2_6.size 1 ≤ (i 1 : Nat) ∧ (i 1 : Nat) < win2_6.index t 1 * win2_6.size 1 + win2_6.xsize (grid2.coords t) 1
                rw [e2, e3]; omega

/-- The 50 blocks of 2000 rows tile the 100000 rows. -/
theorem cover2_6 (i : S100000x128.Idx) :
    ∃ t : Fin cfg2.N, (cfg2.win 6).flush t = true ∧ i ∈ ((cfg2.win 6).blk t).view.set := by
  have h0 : (i 0 : Nat) < 100000 := (i 0).isLt
  have hN : cfg2.N = 50 := N_2
  refine ⟨⟨(i 0 : Nat) / 2000, by omega⟩, flush2_6 _, ?_⟩
  rw [mem_blk2_6]
  dsimp only
  omega

/-- So window 6's array ends holding the perceptron of the whole arrays. -/
theorem final2_6 (c : Dev nD) : (dat2 (F := Ideal) V c).arrAt 6 cfg2.N
    = Cert.Gin.mlp (n := 100000) (k := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 (G2_6 V c) (fun t _ => flushed2_6 V c t) (cover2_6)

/-! ## Windows 7 and 8: the column sums, accumulated over the points -/

/-- The accumulator of window 7 after the last point is the column sums of the whole perceptron output:
    point by point it is the blocks' sums added up, and the 50 blocks of 2000 rows are the 100000 rows. -/
theorem acc2_7_last (c : Dev nD) (t : Fin cfg2.N) (h49 : t.val = 49) :
    (acc2_7 V c t : Arr2 1 128) = colSum (G2_6 V c) := by
  obtain rfl : t = (⟨(⟨49, by decide⟩ : Fin 50).val, lt_of_lt_of_eq (⟨49, by decide⟩ : Fin 50).isLt N_2.symm⟩ : Fin cfg2.N) := Fin.ext h49
  unfold G2_6
  refine acc_colSum (k := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
    (fun s => iblk2 V c 0 (⟨s.val, lt_of_lt_of_eq s.isLt N_2.symm⟩ : Fin cfg2.N)) (fun s => iblk2 V c 1 (⟨s.val, lt_of_lt_of_eq s.isLt N_2.symm⟩ : Fin cfg2.N))
    (fun s p i h => iblk2_0_apply V c _ p i h) (fun s p i h => iblk2_1_apply V c _ p i h)
    (fun s => acc2_7 V c (⟨s.val, lt_of_lt_of_eq s.isLt N_2.symm⟩ : Fin cfg2.N)) (fun s h0 => ?_) (fun s h0 hlt => ?_)
  · show acc2_7 V c (⟨s.val, lt_of_lt_of_eq s.isLt N_2.symm⟩ : Fin cfg2.N) = _
    rw [acc2_7_zero V c (⟨s.val, lt_of_lt_of_eq s.isLt N_2.symm⟩ : Fin cfg2.N) h0]; unfold sum2_7
    rw [pay2_4_eq, iblk2_2_eq, iblk2_3_eq, iblk2_4_eq, iblk2_5_eq]
  · show acc2_7 V c (⟨s.val, lt_of_lt_of_eq s.isLt N_2.symm⟩ : Fin cfg2.N) = _
    rw [acc2_7_succ V c (⟨s.val, lt_of_lt_of_eq s.isLt N_2.symm⟩ : Fin cfg2.N) h0, pay2_1_eq]; unfold sum2_7
    rw [pay2_4_eq, iblk2_2_eq, iblk2_3_eq, iblk2_4_eq, iblk2_5_eq]

/-- The accumulator of window 8 after the last point is the column sums of squares of the whole perceptron output:
    point by point it is the blocks' sums added up, and the 50 blocks of 2000 rows are the 100000 rows. -/
theorem acc2_8_last (c : Dev nD) (t : Fin cfg2.N) (h49 : t.val = 49) :
    (acc2_8 V c t : Arr2 1 128) = colSumSq (G2_6 V c) := by
  obtain rfl : t = (⟨(⟨49, by decide⟩ : Fin 50).val, lt_of_lt_of_eq (⟨49, by decide⟩ : Fin 50).isLt N_2.symm⟩ : Fin cfg2.N) := Fin.ext h49
  unfold G2_6
  refine acc_colSumSq (k := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
    (fun s => iblk2 V c 0 (⟨s.val, lt_of_lt_of_eq s.isLt N_2.symm⟩ : Fin cfg2.N)) (fun s => iblk2 V c 1 (⟨s.val, lt_of_lt_of_eq s.isLt N_2.symm⟩ : Fin cfg2.N))
    (fun s p i h => iblk2_0_apply V c _ p i h) (fun s p i h => iblk2_1_apply V c _ p i h)
    (fun s => acc2_8 V c (⟨s.val, lt_of_lt_of_eq s.isLt N_2.symm⟩ : Fin cfg2.N)) (fun s h0 => ?_) (fun s h0 hlt => ?_)
  · show acc2_8 V c (⟨s.val, lt_of_lt_of_eq s.isLt N_2.symm⟩ : Fin cfg2.N) = _
    rw [acc2_8_zero V c (⟨s.val, lt_of_lt_of_eq s.isLt N_2.symm⟩ : Fin cfg2.N) h0]; unfold sum2_8
    rw [pay2_5_eq, iblk2_2_eq, iblk2_3_eq, iblk2_4_eq, iblk2_5_eq]
  · show acc2_8 V c (⟨s.val, lt_of_lt_of_eq s.isLt N_2.symm⟩ : Fin cfg2.N) = _
    rw [acc2_8_succ V c (⟨s.val, lt_of_lt_of_eq s.isLt N_2.symm⟩ : Fin cfg2.N) h0, pay2_2_eq]; unfold sum2_8
    rw [pay2_5_eq, iblk2_2_eq, iblk2_3_eq, iblk2_4_eq, iblk2_5_eq]

/-- The one write-back of window 7, at the last point, writes the accumulator: the array is its one block. -/
theorem flushed2_7 (c : Dev nD) (t : Fin cfg2.N) (hf : (cfg2.win 7).flush t = true) :
    (dat2 (F := Ideal) V c).flushed 7 t = ((cfg2.win 7).blk t).view.read (Elt Ideal) (colSum (G2_6 V c)) := by
  have hN : cfg2.N = 50 := N_2
  have h49 : t.val = 49 := by have := (flush2_7 t).mp hf; have := t.isLt; omega
  show (cfg2.win 7).cut (grid2.coords t) ((dat2 V c).after 7 t) = _
  rw [after2_7]
  exact (acc2_7_last V c t h49).trans (blk2_7_eq _ t).symm

/-- The last point's block of window 7 is its whole one-row array. -/
theorem cover2_7 (i : S1x128.Idx) :
    ∃ t : Fin cfg2.N, (cfg2.win 7).flush t = true ∧ i ∈ ((cfg2.win 7).blk t).view.set := by
  have hN : grid2.N = 50 := N_2
  have h49 : (49 : Nat) < grid2.N := by omega
  refine ⟨⟨49, h49⟩, (flush2_7 _).mpr rfl, ?_⟩
  show i ∈ ((View.whole main_v40_1).slice (win2_7.rect ⟨49, h49⟩)).set
  rw [View.set_slice_whole, Rect.mem_set_unit]
  intro a
  have h0 : (i 0 : Nat) < 1 := (i 0).isLt
  have h1 : (i 1 : Nat) < 128 := (i 1).isLt
  obtain ⟨e0, e1, e2, e3⟩ := ext2_7 ⟨49, h49⟩
  match a with
  | ⟨0, _⟩ => show win2_7.index ⟨49, _⟩ 0 * win2_7.size 0 ≤ (i 0 : Nat) ∧ (i 0 : Nat) < win2_7.index ⟨49, _⟩ 0 * win2_7.size 0 + win2_7.xsize (grid2.coords ⟨49, _⟩) 0
              rw [e0, e1]; omega
  | ⟨1, _⟩ => show win2_7.index ⟨49, _⟩ 1 * win2_7.size 1 ≤ (i 1 : Nat) ∧ (i 1 : Nat) < win2_7.index ⟨49, _⟩ 1 * win2_7.size 1 + win2_7.xsize (grid2.coords ⟨49, _⟩) 1
              rw [e2, e3]; omega

/-- So the array of window 7 ends holding the column sums of the perceptron output. -/
theorem final2_7 (c : Dev nD) : (dat2 (F := Ideal) V c).arrAt 7 cfg2.N
    = colSum (Cert.Gin.mlp (n := 100000) (k := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) :=
  (dat2 V c).arrAt_eq_of_cover 7 (colSum (G2_6 V c)) (flushed2_7 V c) (cover2_7)

/-- The one write-back of window 8, at the last point, writes the accumulator: the array is its one block. -/
theorem flushed2_8 (c : Dev nD) (t : Fin cfg2.N) (hf : (cfg2.win 8).flush t = true) :
    (dat2 (F := Ideal) V c).flushed 8 t = ((cfg2.win 8).blk t).view.read (Elt Ideal) (colSumSq (G2_6 V c)) := by
  have hN : cfg2.N = 50 := N_2
  have h49 : t.val = 49 := by have := (flush2_8 t).mp hf; have := t.isLt; omega
  show (cfg2.win 8).cut (grid2.coords t) ((dat2 V c).after 8 t) = _
  rw [after2_8]
  exact (acc2_8_last V c t h49).trans (blk2_8_eq _ t).symm

/-- The last point's block of window 8 is its whole one-row array. -/
theorem cover2_8 (i : S1x128.Idx) :
    ∃ t : Fin cfg2.N, (cfg2.win 8).flush t = true ∧ i ∈ ((cfg2.win 8).blk t).view.set := by
  have hN : grid2.N = 50 := N_2
  have h49 : (49 : Nat) < grid2.N := by omega
  refine ⟨⟨49, h49⟩, (flush2_8 _).mpr rfl, ?_⟩
  show i ∈ ((View.whole main_v40_2).slice (win2_8.rect ⟨49, h49⟩)).set
  rw [View.set_slice_whole, Rect.mem_set_unit]
  intro a
  have h0 : (i 0 : Nat) < 1 := (i 0).isLt
  have h1 : (i 1 : Nat) < 128 := (i 1).isLt
  obtain ⟨e0, e1, e2, e3⟩ := ext2_8 ⟨49, h49⟩
  match a with
  | ⟨0, _⟩ => show win2_8.index ⟨49, _⟩ 0 * win2_8.size 0 ≤ (i 0 : Nat) ∧ (i 0 : Nat) < win2_8.index ⟨49, _⟩ 0 * win2_8.size 0 + win2_8.xsize (grid2.coords ⟨49, _⟩) 0
              rw [e0, e1]; omega
  | ⟨1, _⟩ => show win2_8.index ⟨49, _⟩ 1 * win2_8.size 1 ≤ (i 1 : Nat) ∧ (i 1 : Nat) < win2_8.index ⟨49, _⟩ 1 * win2_8.size 1 + win2_8.xsize (grid2.coords ⟨49, _⟩) 1
              rw [e2, e3]; omega

/-- So the array of window 8 ends holding the column sums of squares of the perceptron output. -/
theorem final2_8 (c : Dev nD) : (dat2 (F := Ideal) V c).arrAt 8 cfg2.N
    = colSumSq (Cert.Gin.mlp (n := 100000) (k := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) :=
  (dat2 V c).arrAt_eq_of_cover 8 (colSumSq (G2_6 V c)) (flushed2_8 V c) (cover2_8)

end Finals

end Cert.KernelIdeal.Hand
end
-- ==== Proof.KI.V3.lean ====
import proofs.«142609_j54228257079879_1_alg».proof.Proof.KI.R3
import proofs.«142609_j54228257079879_1_alg».proof.Proof.KI.VCommon
import proofs.«142609_j54228257079879_1_alg».proof.Proof.Math.Spec
import Idealize.ShloMosaic.Lib.Pipeline.Value
import Idealize.ShloMosaic.Lib.ValueLayout

/-! # Region 3, the value: the normalised array in closed form

At every point the kernel writes back the block of 2000 rows of `Cert.Gin.bnRelu` of the arrays the region finds:
the payload at an entry is the entry's own row value, normalised by the entry's column statistics. The fifty blocks
tile the 100000 rows, so the array ends holding `bnRelu` of the arrays. -/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Sage Cert.Gin

variable (V : (c : Dev nD) → (b : Ref sig .tc) → Buf (Elt Ideal) ((c : Thread nD τ).loc b))

/-- The body's payload at entry (p, q): the row value at (p, q) normalised by the statistics of column q. -/
theorem pay3_apply (x0 : Vec Ideal S2000x128 .f32) (x1 x2 x3 x4 : Vec Ideal S1x128 .f32) (p : Fin 2000) (q : Fin 128) :
    k3_pay1 x0 x2 x1 x3 x4 (ix2 p q)
      = bnAt (x0 (ix2 p q)) (x1 (ix2 (0 : Fin 1) q)) (x2 (ix2 (0 : Fin 1) q)) (x3 (ix2 (0 : Fin 1) q)) (x4 (ix2 (0 : Fin 1) q)) := by
  unfold k3_pay1 bnAt
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rfl

/-- The printed index maps, decided over the grid: window 0 moves with the output, block by block of rows; the four
    statistics windows stay on their one block. -/
theorem idx_facts3 : ∀ t : Fin cfg3.N, win3_0.index t (0 : Fin 2) = win3_5.index t (0 : Fin 2)
    ∧ win3_0.index t (1 : Fin 2) = 0 ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 49 :=
  (by decide +kernel : ∀ t : Fin grid3.N, _)

/-- Every block of rows is some point's. -/
theorem idx_onto3 : ∀ q0 : Fin 50, ∃ t : Fin cfg3.N, win3_5.index t = ![q0.val, 0] :=
  (by decide +kernel : ∀ q0 : Fin 50, ∃ t : Fin grid3.N, win3_5.index t = ![q0.val, 0])

/-- The closed form: `bnRelu` of the arrays the region finds. -/
abbrev G3 (c : Dev nD) : Arr2 100000 128 :=
  bnRelu (n := 100000) (V c (Pipeline.arrRef spec3 0)) (V c (Pipeline.arrRef spec3 1)) (V c (Pipeline.arrRef spec3 2))
    (V c (Pipeline.arrRef spec3 3)) (V c (Pipeline.arrRef spec3 4))

/-- Window 1's block is its whole one-row array, at every point. -/
theorem iblk3_1_eq (c : Dev nD) (t : Fin cfg3.N) : iblk3 V c 1 t = V c (Pipeline.arrRef spec3 1) := by
  obtain ⟨e0, e1, e2, e3, e4, e5, e6, e7, e8, e9, e10, e11⟩ := idx_facts3 t
  funext j
  show V c (Pipeline.arrRef spec3 1) (((cfg3.win 1).blk t).view.emb j) = V c (Pipeline.arrRef spec3 1) j
  refine congrArg _ (funext fun a => Fin.ext ?_)
  match a with
  | ⟨0, _⟩ => show win3_1.index t (0 : Fin 2) * 1 + 1 * (j 0).val = (j 0).val; omega
  | ⟨1, _⟩ => show win3_1.index t (1 : Fin 2) * 128 + 1 * (j 1).val = (j 1).val; omega

/-- Window 2's block is its whole one-row array, at every point. -/
theorem iblk3_2_eq (c : Dev nD) (t : Fin cfg3.N) : iblk3 V c 2 t = V c (Pipeline.arrRef spec3 2) := by
  obtain ⟨e0, e1, e2, e3, e4, e5, e6, e7, e8, e9, e10, e11⟩ := idx_facts3 t
  funext j
  show V c (Pipeline.arrRef spec3 2) (((cfg3.win 2).blk t).view.emb j) = V c (Pipeline.arrRef spec3 2) j
  refine congrArg _ (funext fun a => Fin.ext ?_)
  match a with
  | ⟨0, _⟩ => show win3_2.index t (0 : Fin 2) * 1 + 1 * (j 0).val = (j 0).val; omega
  | ⟨1, _⟩ => show win3_2.index t (1 : Fin 2) * 128 + 1 * (j 1).val = (j 1).val; omega

/-- Window 3's block is its whole one-row array, at every point. -/
theorem iblk3_3_eq (c : Dev nD) (t : Fin cfg3.N) : iblk3 V c 3 t = V c (Pipeline.arrRef spec3 3) := by
  obtain ⟨e0, e1, e2, e3, e4, e5, e6, e7, e8, e9, e10, e11⟩ := idx_facts3 t
  funext j
  show V c (Pipeline.arrRef spec3 3) (((cfg3.win 3).blk t).view.emb j) = V c (Pipeline.arrRef spec3 3) j
  refine congrArg _ (funext fun a => Fin.ext ?_)
  match a with
  | ⟨0, _⟩ => show win3_3.index t (0 : Fin 2) * 1 + 1 * (j 0).val = (j 0).val; omega
  | ⟨1, _⟩ => show win3_3.index t (1 : Fin 2) * 128 + 1 * (j 1).val = (j 1).val; omega

/-- Window 4's block is its whole one-row array, at every point. -/
theorem iblk3_4_eq (c : Dev nD) (t : Fin cfg3.N) : iblk3 V c 4 t = V c (Pipeline.arrRef spec3 4) := by
  obtain ⟨e0, e1, e2, e3, e4, e5, e6, e7, e8, e9, e10, e11⟩ := idx_facts3 t
  funext j
  show V c (Pipeline.arrRef spec3 4) (((cfg3.win 4).blk t).view.emb j) = V c (Pipeline.arrRef spec3 4) j
  refine congrArg _ (funext fun a => Fin.ext ?_)
  match a with
  | ⟨0, _⟩ => show win3_4.index t (0 : Fin 2) * 1 + 1 * (j 0).val = (j 0).val; omega
  | ⟨1, _⟩ => show win3_4.index t (1 : Fin 2) * 128 + 1 * (j 1).val = (j 1).val; omega

/-- The payload at an entry, the four statistics blocks named. -/
theorem pay3_at (x0 : Vec Ideal S2000x128 .f32) {x1 a1 x2 a2 x3 a3 x4 a4 : Vec Ideal S1x128 .f32}
    (h1 : x1 = a1) (h2 : x2 = a2) (h3 : x3 = a3) (h4 : x4 = a4) (p : Fin 2000) (q : Fin 128) :
    k3_pay1 x0 x2 x1 x3 x4 (ix2 p q)
      = bnAt (x0 (ix2 p q)) (a1 (ix2 (0 : Fin 1) q)) (a2 (ix2 (0 : Fin 1) q)) (a3 (ix2 (0 : Fin 1) q)) (a4 (ix2 (0 : Fin 1) q)) := by
  subst h1 h2 h3 h4
  exact pay3_apply x0 x1 x2 x3 x4 p q

set_option maxHeartbeats 2000000 in
/-- What point `t` writes back is block `t` of the closed form. -/
theorem flushed3_5_eq (c : Dev nD) (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5]
  unfold out3_5
  rw [View.canon_unit_zero hzero2]
  simp only [View.ld_unit_zero (S := S2000x128) hzero2, View.ld_unit_zero (S := S1x128) hzero2]
  obtain ⟨e0, e1, e2, e3, e4, e5, e6, e7, e8, e9, e10, e11⟩ := idx_facts3 t
  funext j
  obtain ⟨p, q, rfl⟩ : ∃ (p : Fin 2000) (q : Fin 128), j = ix2 p q := ⟨j 0, j 1, eq_ix2 j⟩
  refine (pay3_at _ (iblk3_1_eq V c t) (iblk3_2_eq V c t) (iblk3_3_eq V c t) (iblk3_4_eq V c t) p q).trans ?_
  show _ = G3 V c (((cfg3.win 5).blk t).view.emb (ix2 p q))
  unfold G3
  rw [bnRelu_apply]
  have h0 : ((cfg3.win 0).blk t).view.emb (ix2 p q) = ((cfg3.win 5).blk t).view.emb (ix2 p q) := by
    funext a; apply Fin.ext
    match a with
    | ⟨0, _⟩ => show win3_0.index t (0 : Fin 2) * 2000 + 1 * p.val = win3_5.index t (0 : Fin 2) * 2000 + 1 * p.val; omega
    | ⟨1, _⟩ => show win3_0.index t (1 : Fin 2) * 128 + 1 * q.val = win3_5.index t (1 : Fin 2) * 128 + 1 * q.val; omega
  have hc : colOf (((cfg3.win 5).blk t).view.emb (ix2 p q)) = q := by
    apply Fin.ext
    show win3_5.index t (1 : Fin 2) * 128 + 1 * q.val = q.val; omega
  rw [hc]
  have r0 : iblk3 V c 0 t (ix2 p q) = V c (Pipeline.arrRef spec3 0) (((cfg3.win 5).blk t).view.emb (ix2 p q)) :=
    congrArg (V c (Pipeline.arrRef spec3 0)) h0
  rw [r0]

/-- An index of the array is in point `t`'s block iff each coordinate is in the block's range on its axis. -/
theorem mem_blk3_5 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v47).slice (win3_5.rect t)).set ↔ _
  rw [View.set_slice_whole, Rect.mem_set_unit]
  exact Iff.rfl

/-- Every index of the array is in some point's block: row `r` is in block `r / 2000`. -/
theorem cover3_5_arr (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := idx_onto3 ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk3_5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The array after the region: `bnRelu` of the arrays the region finds. -/
theorem final3_5 (c : Dev nD) : (dat3 (F := Ideal) V c).arrAt 5 cfg3.N
    = bnRelu (n := 100000) (V c (Pipeline.arrRef spec3 0)) (V c (Pipeline.arrRef spec3 1)) (V c (Pipeline.arrRef spec3 2))
        (V c (Pipeline.arrRef spec3 3)) (V c (Pipeline.arrRef spec3 4)) :=
  (dat3 (F := Ideal) V c).arrAt_eq_of_cover 5 (G3 V c) (fun t _ => flushed3_5_eq V c t) cover3_5_arr

end Cert.KernelIdeal.Hand

end
-- ==== Proof.KI.V4.lean ====
import proofs.«142609_j54228257079879_1_alg».proof.Proof.Gen.KernelIdeal.Launch
import proofs.«142609_j54228257079879_1_alg».proof.Proof.Gen.KernelIdeal.Skeleton
import proofs.«142609_j54228257079879_1_alg».proof.Proof.Gen.KernelIdeal.Points
import proofs.«142609_j54228257079879_1_alg».proof.Proof.WholeStore
import proofs.«142609_j54228257079879_1_alg».proof.Proof.KI.R4
import proofs.«142609_j54228257079879_1_alg».proof.Proof.KI.MmPay
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The value leg of region 4 at the extended reals: what the region's three result arrays hold after its run, as
    functions of the six arrays it reads — the perceptron of the rows and their neighbour sums, and the column sums of
    that and of its square. -/

open Cert.Sage Cert.Gin Idealize.ShloMosaic.ValueIdx

section Blocks
variable (V : (c : Dev nD) → (b : Ref sig .tc) → Buf (Elt Ideal) ((c : Thread nD τ).loc b))

/-! ## Where the windows' blocks sit in their arrays -/

/-- Window 0's block index at point `t` is `(t, 0)`: rows `2000·t … 2000·t + 1999`, every column. -/
theorem idx4_0 : ∀ t : Fin cfg4.N, win4_0.index t 0 = t.val ∧ win4_0.index t 1 = 0 :=
  (by decide +kernel : ∀ t : Fin grid4.N, win4_0.index t 0 = t.val ∧ win4_0.index t 1 = 0)

/-- Window 1's block index at point `t` is `(t, 0)`: rows `2000·t … 2000·t + 1999`, every column. -/
theorem idx4_1 : ∀ t : Fin cfg4.N, win4_1.index t 0 = t.val ∧ win4_1.index t 1 = 0 :=
  (by decide +kernel : ∀ t : Fin grid4.N, win4_1.index t 0 = t.val ∧ win4_1.index t 1 = 0)

/-- Window 6's block index at point `t` is `(t, 0)`: rows `2000·t … 2000·t + 1999`, every column. -/
theorem idx4_6 : ∀ t : Fin cfg4.N, win4_6.index t 0 = t.val ∧ win4_6.index t 1 = 0 :=
  (by decide +kernel : ∀ t : Fin grid4.N, win4_6.index t 0 = t.val ∧ win4_6.index t 1 = 0)

/-- Window 2's block index is `(0, 0)` at every point: its block is its whole array. -/
theorem idx4_2 : ∀ t : Fin cfg4.N, win4_2.index t 0 = 0 ∧ win4_2.index t 1 = 0 :=
  (by decide +kernel : ∀ t : Fin grid4.N, win4_2.index t 0 = 0 ∧ win4_2.index t 1 = 0)

/-- Window 3's block index is `(0, 0)` at every point: its block is its whole array. -/
theorem idx4_3 : ∀ t : Fin cfg4.N, win4_3.index t 0 = 0 ∧ win4_3.index t 1 = 0 :=
  (by decide +kernel : ∀ t : Fin grid4.N, win4_3.index t 0 = 0 ∧ win4_3.index t 1 = 0)

/-- Window 4's block index is `(0, 0)` at every point: its block is its whole array. -/
theorem idx4_4 : ∀ t : Fin cfg4.N, win4_4.index t 0 = 0 ∧ win4_4.index t 1 = 0 :=
  (by decide +kernel : ∀ t : Fin grid4.N, win4_4.index t 0 = 0 ∧ win4_4.index t 1 = 0)

/-- Window 5's block index is `(0, 0)` at every point: its block is its whole array. -/
theorem idx4_5 : ∀ t : Fin cfg4.N, win4_5.index t 0 = 0 ∧ win4_5.index t 1 = 0 :=
  (by decide +kernel : ∀ t : Fin grid4.N, win4_5.index t 0 = 0 ∧ win4_5.index t 1 = 0)

/-- Window 7's block index is `(0, 0)` at every point: its block is its whole array. -/
theorem idx4_7 : ∀ t : Fin cfg4.N, win4_7.index t 0 = 0 ∧ win4_7.index t 1 = 0 :=
  (by decide +kernel : ∀ t : Fin grid4.N, win4_7.index t 0 = 0 ∧ win4_7.index t 1 = 0)

/-- Window 8's block index is `(0, 0)` at every point: its block is its whole array. -/
theorem idx4_8 : ∀ t : Fin cfg4.N, win4_8.index t 0 = 0 ∧ win4_8.index t 1 = 0 :=
  (by decide +kernel : ∀ t : Fin grid4.N, win4_8.index t 0 = 0 ∧ win4_8.index t 1 = 0)

/-- Input window 0's block at point `t`, entry `(p, q)`: the array's entry `(2000·t + p, q)`. -/
theorem iblk4_0_apply (c : Dev nD) (t : Fin cfg4.N) (p : Fin 2000) (q : Fin 128) (hp : 2000 * t.val + p.val < 100000) :
    (iblk4 V c 0 t : Arr2 2000 128) (ix2 p q) = (V c (Pipeline.arrRef spec4 0) : Arr2 100000 128) (ix2 ⟨2000 * t.val + p.val, hp⟩ q) := by
  unfold iblk4
  rw [View.read_apply]
  show V c (Pipeline.arrRef spec4 0) _ = V c (Pipeline.arrRef spec4 0) _
  congr 1
  funext a
  apply Fin.ext
  match a with
  | ⟨0, _⟩ => show win4_0.index t 0 * 2000 + 1 * p.val = 2000 * t.val + p.val; rw [(idx4_0 t).1]; omega
  | ⟨1, _⟩ => show win4_0.index t 1 * 128 + 1 * q.val = q.val; rw [(idx4_0 t).2]; omega

/-- Input window 1's block at point `t`, entry `(p, q)`: the array's entry `(2000·t + p, q)`. -/
theorem iblk4_1_apply (c : Dev nD) (t : Fin cfg4.N) (p : Fin 2000) (q : Fin 128) (hp : 2000 * t.val + p.val < 100000) :
    (iblk4 V c 1 t : Arr2 2000 128) (ix2 p q) = (V c (Pipeline.arrRef spec4 1) : Arr2 100000 128) (ix2 ⟨2000 * t.val + p.val, hp⟩ q) := by
  unfold iblk4
  rw [View.read_apply]
  show V c (Pipeline.arrRef spec4 1) _ = V c (Pipeline.arrRef spec4 1) _
  congr 1
  funext a
  apply Fin.ext
  match a with
  | ⟨0, _⟩ => show win4_1.index t 0 * 2000 + 1 * p.val = 2000 * t.val + p.val; rw [(idx4_1 t).1]; omega
  | ⟨1, _⟩ => show win4_1.index t 1 * 128 + 1 * q.val = q.val; rw [(idx4_1 t).2]; omega

/-- Input window 2's block at every point is its whole array. -/
theorem iblk4_2_eq (c : Dev nD) (t : Fin cfg4.N) :
    (iblk4 V c 2 t : Arr2 128 128) = V c (Pipeline.arrRef spec4 2) := by
  unfold iblk4
  have hz' : (fun a => win4_2.index t a * main_arg15.ty.shape.size a) = fun _ => 0 := funext fun a => by
    match a with
    | ⟨0, _⟩ => show win4_2.index t 0 * _ = 0; rw [(idx4_2 t).1, Nat.zero_mul]
    | ⟨1, _⟩ => show win4_2.index t 1 * _ = 0; rw [(idx4_2 t).2, Nat.zero_mul]
  exact Memref.read_access_unit_zero (Elt Ideal) main_arg15 hz' (fun a => by rw [congrFun hz' a]; simp) _

/-- Input window 3's block at every point is its whole array. -/
theorem iblk4_3_eq (c : Dev nD) (t : Fin cfg4.N) :
    (iblk4 V c 3 t : Arr2 1 128) = V c (Pipeline.arrRef spec4 3) := by
  unfold iblk4
  have hz' : (fun a => win4_3.index t a * main_v58.ty.shape.size a) = fun _ => 0 := funext fun a => by
    match a with
    | ⟨0, _⟩ => show win4_3.index t 0 * _ = 0; rw [(idx4_3 t).1, Nat.zero_mul]
    | ⟨1, _⟩ => show win4_3.index t 1 * _ = 0; rw [(idx4_3 t).2, Nat.zero_mul]
  exact Memref.read_access_unit_zero (Elt Ideal) main_v58 hz' (fun a => by rw [congrFun hz' a]; simp) _

/-- Input window 4's block at every point is its whole array. -/
theorem iblk4_4_eq (c : Dev nD) (t : Fin cfg4.N) :
    (iblk4 V c 4 t : Arr2 128 128) = V c (Pipeline.arrRef spec4 4) := by
  unfold iblk4
  have hz' : (fun a => win4_4.index t a * main_arg17.ty.shape.size a) = fun _ => 0 := funext fun a => by
    match a with
    | ⟨0, _⟩ => show win4_4.index t 0 * _ = 0; rw [(idx4_4 t).1, Nat.zero_mul]
    | ⟨1, _⟩ => show win4_4.index t 1 * _ = 0; rw [(idx4_4 t).2, Nat.zero_mul]
  exact Memref.read_access_unit_zero (Elt Ideal) main_arg17 hz' (fun a => by rw [congrFun hz' a]; simp) _

/-- Input window 5's block at every point is its whole array. -/
theorem iblk4_5_eq (c : Dev nD) (t : Fin cfg4.N) :
    (iblk4 V c 5 t : Arr2 1 128) = V c (Pipeline.arrRef spec4 5) := by
  unfold iblk4
  have hz' : (fun a => win4_5.index t a * main_v59.ty.shape.size a) = fun _ => 0 := funext fun a => by
    match a with
    | ⟨0, _⟩ => show win4_5.index t 0 * _ = 0; rw [(idx4_5 t).1, Nat.zero_mul]
    | ⟨1, _⟩ => show win4_5.index t 1 * _ = 0; rw [(idx4_5 t).2, Nat.zero_mul]
  exact Memref.read_access_unit_zero (Elt Ideal) main_v59 hz' (fun a => by rw [congrFun hz' a]; simp) _

/-- Output window 6's block at point `t` of an array `G`, entry `(p, q)`: `G`'s entry `(2000·t + p, q)`. -/
theorem blk4_6_apply (G : Arr2 100000 128) (t : Fin cfg4.N) (p : Fin 2000) (q : Fin 128) (hp : 2000 * t.val + p.val < 100000) :
    (((cfg4.win 6).blk t).view.read (Elt Ideal) G : Arr2 2000 128) (ix2 p q) = G (ix2 ⟨2000 * t.val + p.val, hp⟩ q) := by
  rw [View.read_apply]
  show G _ = G _
  congr 1
  funext a
  apply Fin.ext
  match a with
  | ⟨0, _⟩ => show win4_6.index t 0 * 2000 + 1 * p.val = 2000 * t.val + p.val; rw [(idx4_6 t).1]; omega
  | ⟨1, _⟩ => show win4_6.index t 1 * 128 + 1 * q.val = q.val; rw [(idx4_6 t).2]; omega

/-- Output windows 7 and 8's block of an array `G` is `G`. -/
theorem blk4_7_eq (G : Arr2 1 128) (t : Fin cfg4.N) : (((cfg4.win 7).blk t).view.read (Elt Ideal) G : Arr2 1 128) = G := by
  have hz' : (fun a => win4_7.index t a * main_v62_1.ty.shape.size a) = fun _ => 0 := funext fun a => by
    match a with
    | ⟨0, _⟩ => show win4_7.index t 0 * _ = 0; rw [(idx4_7 t).1, Nat.zero_mul]
    | ⟨1, _⟩ => show win4_7.index t 1 * _ = 0; rw [(idx4_7 t).2, Nat.zero_mul]
  exact Memref.read_access_unit_zero (Elt Ideal) main_v62_1 hz' (fun a => by rw [congrFun hz' a]; simp) _
theorem blk4_8_eq (G : Arr2 1 128) (t : Fin cfg4.N) : (((cfg4.win 8).blk t).view.read (Elt Ideal) G : Arr2 1 128) = G := by
  have hz' : (fun a => win4_8.index t a * main_v62_2.ty.shape.size a) = fun _ => 0 := funext fun a => by
    match a with
    | ⟨0, _⟩ => show win4_8.index t 0 * _ = 0; rw [(idx4_8 t).1, Nat.zero_mul]
    | ⟨1, _⟩ => show win4_8.index t 1 * _ = 0; rw [(idx4_8 t).2, Nat.zero_mul]
  exact Memref.read_access_unit_zero (Elt Ideal) main_v62_2 hz' (fun a => by rw [congrFun hz' a]; simp) _

end Blocks

section Finals
variable (V : (c : Dev nD) → (b : Ref sig .tc) → Buf (Elt Ideal) ((c : Thread nD τ).loc b))

/-- Two arrays of one shape agree when they agree entry by entry. -/
theorem ext_arr2_4 {n c : Nat} {x y : Arr2 n c} (h : ∀ (p : Fin n) (q : Fin c), x (ix2 p q) = y (ix2 p q)) : x = y :=
  funext fun j => by rw [eq_ix2 j]; exact h _ _

/-! ## Window 6: the perceptron output, block by block -/

/-- The perceptron of the six arrays as the region finds them. -/
def G4_6 (c : Dev nD) : Arr2 100000 128 :=
  Cert.Gin.mlp (n := 100000) (k := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))

/-- The extents of window 6's block at a point, and of windows 7 and 8's. -/
theorem ext4_6 : ∀ t : Fin cfg4.N, win4_6.index t 0 * win4_6.size 0 = t.val * 2000 ∧ win4_6.xsize (grid4.coords t) 0 = 2000
      ∧ win4_6.index t 1 * win4_6.size 1 = 0 ∧ win4_6.xsize (grid4.coords t) 1 = 128 :=
  (by decide +kernel : ∀ t : Fin grid4.N, win4_6.index t 0 * win4_6.size 0 = t.val * 2000 ∧ win4_6.xsize (grid4.coords t) 0 = 2000
      ∧ win4_6.index t 1 * win4_6.size 1 = 0 ∧ win4_6.xsize (grid4.coords t) 1 = 128)
theorem ext4_7 : ∀ t : Fin cfg4.N, win4_7.index t 0 * win4_7.size 0 = 0 ∧ win4_7.xsize (grid4.coords t) 0 = 1
      ∧ win4_7.index t 1 * win4_7.size 1 = 0 ∧ win4_7.xsize (grid4.coords t) 1 = 128 :=
  (by decide +kernel : ∀ t : Fin grid4.N, win4_7.index t 0 * win4_7.size 0 = 0 ∧ win4_7.xsize (grid4.coords t) 0 = 1
      ∧ win4_7.index t 1 * win4_7.size 1 = 0 ∧ win4_7.xsize (grid4.coords t) 1 = 128)
theorem ext4_8 : ∀ t : Fin cfg4.N, win4_8.index t 0 * win4_8.size 0 = 0 ∧ win4_8.xsize (grid4.coords t) 0 = 1
      ∧ win4_8.index t 1 * win4_8.size 1 = 0 ∧ win4_8.xsize (grid4.coords t) 1 = 128 :=
  (by decide +kernel : ∀ t : Fin grid4.N, win4_8.index t 0 * win4_8.size 0 = 0 ∧ win4_8.xsize (grid4.coords t) 0 = 1
      ∧ win4_8.index t 1 * win4_8.size 1 = 0 ∧ win4_8.xsize (grid4.coords t) 1 = 128)

/-- What point `t` writes back to window 6's array is block `t` of the perceptron of the whole arrays: the body's block
    is the perceptron of the input blocks, which reads rows `2000·t …` of the row arrays and all of the others. -/
theorem flushed4_6 (c : Dev nD) (t : Fin cfg4.N) :
    (dat4 (F := Ideal) V c).flushed 6 t = ((cfg4.win 6).blk t).view.read (Elt Ideal) (G4_6 V c) := by
  have hN : cfg4.N = 50 := N_4
  show (cfg4.win 6).cut (grid4.coords t) ((dat4 V c).after 6 t) = _
  rw [after4_6]; unfold out4_6
  rw [pay4_3_eq, iblk4_2_eq, iblk4_3_eq, iblk4_4_eq, iblk4_5_eq]
  refine ext_arr2_4 (n := 2000) (c := 128) fun p q => ?_
  have hp : 2000 * t.val + p.val < 100000 := by have := t.isLt; have := p.isLt; omega
  rw [blk4_6_apply (G4_6 V c) t p q hp]
  unfold G4_6
  exact mlp_block (k := 128) (V c (Pipeline.arrRef spec4 0)) (V c (Pipeline.arrRef spec4 1)) (iblk4 V c 0 t) (iblk4 V c 1 t) ⟨t.val, by omega⟩ _ _ _ _
    (fun p i h => iblk4_0_apply V c t p i h) (fun p i h => iblk4_1_apply V c t p i h) p q hp

/-- An index of window 6's array is in point `t`'s block when its row is among rows `2000·t … 2000·t + 1999`. -/
theorem mem_blk4_6 (t : Fin cfg4.N) (i : S100000x128.Idx) :
    i ∈ ((cfg4.win 6).blk t).view.set ↔ t.val * 2000 ≤ (i 0 : Nat) ∧ (i 0 : Nat) < t.val * 2000 + 2000 := by
  show i ∈ ((View.whole main_v62_0).slice (win4_6.rect t)).set ↔ _
  rw [View.set_slice_whole, Rect.mem_set_unit]
  have h1 : (i 1 : Nat) < 128 := (i 1).isLt
  obtain ⟨e0, e1, e2, e3⟩ := ext4_6 t
  refine ⟨fun h => ?_, fun h a => ?_⟩
  · have := h 0; rw [e0, e1] at this; exact this
  · match a with
    | ⟨0, _⟩ => show win4_6.index t 0 * win4_6.size 0 ≤ (i 0 : Nat) ∧ (i 0 : Nat) < win4_6.index t 0 * win4_6.size 0 + win4_6.xsize (grid4.coords t) 0
                rw [e0, e1]; exact h
    | ⟨1, _⟩ => show win4_6.index t 1 * win4_6.size 1 ≤ (i 1 : Nat) ∧ (i 1 : Nat) < win4_6.index t 1 * win4_6.size 1 + win4_6.xsize (grid4.coords t) 1
                rw [e2, e3]; omega

/-- The 50 blocks of 2000 rows tile the 100000 rows. -/
theorem cover4_6 (i : S100000x128.Idx) :
    ∃ t : Fin cfg4.N, (cfg4.win 6).flush t = true ∧ i ∈ ((cfg4.win 6).blk t).view.set := by
  have h0 : (i 0 : Nat) < 100000 := (i 0).isLt
  have hN : cfg4.N = 50 := N_4
  refine ⟨⟨(i 0 : Nat) / 2000, by omega⟩, flush4_6 _, ?_⟩
  rw [mem_blk4_6]
  dsimp only
  omega

/-- So window 6's array ends holding the perceptron of the whole arrays. -/
theorem final4_6 (c : Dev nD) : (dat4 (F := Ideal) V c).arrAt 6 cfg4.N
    = Cert.Gin.mlp (n := 100000) (k := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 (G4_6 V c) (fun t _ => flushed4_6 V c t) (cover4_6)

/-! ## Windows 7 and 8: the column sums, accumulated over the points -/

/-- The accumulator of window 7 after the last point is the column sums of the whole perceptron output:
    point by point it is the blocks' sums added up, and the 50 blocks of 2000 rows are the 100000 rows. -/
theorem acc4_7_last (c : Dev nD) (t : Fin cfg4.N) (h49 : t.val = 49) :
    (acc4_7 V c t : Arr2 1 128) = colSum (G4_6 V c) := by
  obtain rfl : t = (⟨(⟨49, by decide⟩ : Fin 50).val, lt_of_lt_of_eq (⟨49, by decide⟩ : Fin 50).isLt N_4.symm⟩ : Fin cfg4.N) := Fin.ext h49
  unfold G4_6
  refine acc_colSum (k := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))
    (fun s => iblk4 V c 0 (⟨s.val, lt_of_lt_of_eq s.isLt N_4.symm⟩ : Fin cfg4.N)) (fun s => iblk4 V c 1 (⟨s.val, lt_of_lt_of_eq s.isLt N_4.symm⟩ : Fin cfg4.N))
    (fun s p i h => iblk4_0_apply V c _ p i h) (fun s p i h => iblk4_1_apply V c _ p i h)
    (fun s => acc4_7 V c (⟨s.val, lt_of_lt_of_eq s.isLt N_4.symm⟩ : Fin cfg4.N)) (fun s h0 => ?_) (fun s h0 hlt => ?_)
  · show acc4_7 V c (⟨s.val, lt_of_lt_of_eq s.isLt N_4.symm⟩ : Fin cfg4.N) = _
    rw [acc4_7_zero V c (⟨s.val, lt_of_lt_of_eq s.isLt N_4.symm⟩ : Fin cfg4.N) h0]; unfold sum4_7
    rw [pay4_4_eq, iblk4_2_eq, iblk4_3_eq, iblk4_4_eq, iblk4_5_eq]
  · show acc4_7 V c (⟨s.val, lt_of_lt_of_eq s.isLt N_4.symm⟩ : Fin cfg4.N) = _
    rw [acc4_7_succ V c (⟨s.val, lt_of_lt_of_eq s.isLt N_4.symm⟩ : Fin cfg4.N) h0, pay4_1_eq]; unfold sum4_7
    rw [pay4_4_eq, iblk4_2_eq, iblk4_3_eq, iblk4_4_eq, iblk4_5_eq]

/-- The accumulator of window 8 after the last point is the column sums of squares of the whole perceptron output:
    point by point it is the blocks' sums added up, and the 50 blocks of 2000 rows are the 100000 rows. -/
theorem acc4_8_last (c : Dev nD) (t : Fin cfg4.N) (h49 : t.val = 49) :
    (acc4_8 V c t : Arr2 1 128) = colSumSq (G4_6 V c) := by
  obtain rfl : t = (⟨(⟨49, by decide⟩ : Fin 50).val, lt_of_lt_of_eq (⟨49, by decide⟩ : Fin 50).isLt N_4.symm⟩ : Fin cfg4.N) := Fin.ext h49
  unfold G4_6
  refine acc_colSumSq (k := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))
    (fun s => iblk4 V c 0 (⟨s.val, lt_of_lt_of_eq s.isLt N_4.symm⟩ : Fin cfg4.N)) (fun s => iblk4 V c 1 (⟨s.val, lt_of_lt_of_eq s.isLt N_4.symm⟩ : Fin cfg4.N))
    (fun s p i h => iblk4_0_apply V c _ p i h) (fun s p i h => iblk4_1_apply V c _ p i h)
    (fun s => acc4_8 V c (⟨s.val, lt_of_lt_of_eq s.isLt N_4.symm⟩ : Fin cfg4.N)) (fun s h0 => ?_) (fun s h0 hlt => ?_)
  · show acc4_8 V c (⟨s.val, lt_of_lt_of_eq s.isLt N_4.symm⟩ : Fin cfg4.N) = _
    rw [acc4_8_zero V c (⟨s.val, lt_of_lt_of_eq s.isLt N_4.symm⟩ : Fin cfg4.N) h0]; unfold sum4_8
    rw [pay4_5_eq, iblk4_2_eq, iblk4_3_eq, iblk4_4_eq, iblk4_5_eq]
  · show acc4_8 V c (⟨s.val, lt_of_lt_of_eq s.isLt N_4.symm⟩ : Fin cfg4.N) = _
    rw [acc4_8_succ V c (⟨s.val, lt_of_lt_of_eq s.isLt N_4.symm⟩ : Fin cfg4.N) h0, pay4_2_eq]; unfold sum4_8
    rw [pay4_5_eq, iblk4_2_eq, iblk4_3_eq, iblk4_4_eq, iblk4_5_eq]

/-- The one write-back of window 7, at the last point, writes the accumulator: the array is its one block. -/
theorem flushed4_7 (c : Dev nD) (t : Fin cfg4.N) (hf : (cfg4.win 7).flush t = true) :
    (dat4 (F := Ideal) V c).flushed 7 t = ((cfg4.win 7).blk t).view.read (Elt Ideal) (colSum (G4_6 V c)) := by
  have hN : cfg4.N = 50 := N_4
  have h49 : t.val = 49 := by have := (flush4_7 t).mp hf; have := t.isLt; omega
  show (cfg4.win 7).cut (grid4.coords t) ((dat4 V c).after 7 t) = _
  rw [after4_7]
  exact (acc4_7_last V c t h49).trans (blk4_7_eq _ t).symm

/-- The last point's block of window 7 is its whole one-row array. -/
theorem cover4_7 (i : S1x128.Idx) :
    ∃ t : Fin cfg4.N, (cfg4.win 7).flush t = true ∧ i ∈ ((cfg4.win 7).blk t).view.set := by
  have hN : grid4.N = 50 := N_4
  have h49 : (49 : Nat) < grid4.N := by omega
  refine ⟨⟨49, h49⟩, (flush4_7 _).mpr rfl, ?_⟩
  show i ∈ ((View.whole main_v62_1).slice (win4_7.rect ⟨49, h49⟩)).set
  rw [View.set_slice_whole, Rect.mem_set_unit]
  intro a
  have h0 : (i 0 : Nat) < 1 := (i 0).isLt
  have h1 : (i 1 : Nat) < 128 := (i 1).isLt
  obtain ⟨e0, e1, e2, e3⟩ := ext4_7 ⟨49, h49⟩
  match a with
  | ⟨0, _⟩ => show win4_7.index ⟨49, _⟩ 0 * win4_7.size 0 ≤ (i 0 : Nat) ∧ (i 0 : Nat) < win4_7.index ⟨49, _⟩ 0 * win4_7.size 0 + win4_7.xsize (grid4.coords ⟨49, _⟩) 0
              rw [e0, e1]; omega
  | ⟨1, _⟩ => show win4_7.index ⟨49, _⟩ 1 * win4_7.size 1 ≤ (i 1 : Nat) ∧ (i 1 : Nat) < win4_7.index ⟨49, _⟩ 1 * win4_7.size 1 + win4_7.xsize (grid4.coords ⟨49, _⟩) 1
              rw [e2, e3]; omega

/-- So the array of window 7 ends holding the column sums of the perceptron output. -/
theorem final4_7 (c : Dev nD) : (dat4 (F := Ideal) V c).arrAt 7 cfg4.N
    = colSum (Cert.Gin.mlp (n := 100000) (k := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  (dat4 V c).arrAt_eq_of_cover 7 (colSum (G4_6 V c)) (flushed4_7 V c) (cover4_7)

/-- The one write-back of window 8, at the last point, writes the accumulator: the array is its one block. -/
theorem flushed4_8 (c : Dev nD) (t : Fin cfg4.N) (hf : (cfg4.win 8).flush t = true) :
    (dat4 (F := Ideal) V c).flushed 8 t = ((cfg4.win 8).blk t).view.read (Elt Ideal) (colSumSq (G4_6 V c)) := by
  have hN : cfg4.N = 50 := N_4
  have h49 : t.val = 49 := by have := (flush4_8 t).mp hf; have := t.isLt; omega
  show (cfg4.win 8).cut (grid4.coords t) ((dat4 V c).after 8 t) = _
  rw [after4_8]
  exact (acc4_8_last V c t h49).trans (blk4_8_eq _ t).symm

/-- The last point's block of window 8 is its whole one-row array. -/
theorem cover4_8 (i : S1x128.Idx) :
    ∃ t : Fin cfg4.N, (cfg4.win 8).flush t = true ∧ i ∈ ((cfg4.win 8).blk t).view.set := by
  have hN : grid4.N = 50 := N_4
  have h49 : (49 : Nat) < grid4.N := by omega
  refine ⟨⟨49, h49⟩, (flush4_8 _).mpr rfl, ?_⟩
  show i ∈ ((View.whole main_v62_2).slice (win4_8.rect ⟨49, h49⟩)).set
  rw [View.set_slice_whole, Rect.mem_set_unit]
  intro a
  have h0 : (i 0 : Nat) < 1 := (i 0).isLt
  have h1 : (i 1 : Nat) < 128 := (i 1).isLt
  obtain ⟨e0, e1, e2, e3⟩ := ext4_8 ⟨49, h49⟩
  match a with
  | ⟨0, _⟩ => show win4_8.index ⟨49, _⟩ 0 * win4_8.size 0 ≤ (i 0 : Nat) ∧ (i 0 : Nat) < win4_8.index ⟨49, _⟩ 0 * win4_8.size 0 + win4_8.xsize (grid4.coords ⟨49, _⟩) 0
              rw [e0, e1]; omega
  | ⟨1, _⟩ => show win4_8.index ⟨49, _⟩ 1 * win4_8.size 1 ≤ (i 1 : Nat) ∧ (i 1 : Nat) < win4_8.index ⟨49, _⟩ 1 * win4_8.size 1 + win4_8.xsize (grid4.coords ⟨49, _⟩) 1
              rw [e2, e3]; omega

/-- So the array of window 8 ends holding the column sums of squares of the perceptron output. -/
theorem final4_8 (c : Dev nD) : (dat4 (F := Ideal) V c).arrAt 8 cfg4.N
    = colSumSq (Cert.Gin.mlp (n := 100000) (k := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  (dat4 V c).arrAt_eq_of_cover 8 (colSumSq (G4_6 V c)) (flushed4_8 V c) (cover4_8)

end Finals

end Cert.KernelIdeal.Hand
end
-- ==== Proof.KI.V5.lean ====
import proofs.«142609_j54228257079879_1_alg».proof.Proof.KI.R5
import proofs.«142609_j54228257079879_1_alg».proof.Proof.KI.VCommon
import proofs.«142609_j54228257079879_1_alg».proof.Proof.Math.Spec
import Idealize.ShloMosaic.Lib.Pipeline.Value
import Idealize.ShloMosaic.Lib.ValueLayout

/-! # Region 5, the value: the normalised array in closed form

At every point the kernel writes back the block of 2000 rows of `Cert.Gin.bnRelu` of the arrays the region finds:
the payload at an entry is the entry's own row value, normalised by the entry's column statistics. The fifty blocks
tile the 100000 rows, so the array ends holding `bnRelu` of the arrays. -/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Sage Cert.Gin

variable (V : (c : Dev nD) → (b : Ref sig .tc) → Buf (Elt Ideal) ((c : Thread nD τ).loc b))

/-- The body's payload at entry (p, q): the row value at (p, q) normalised by the statistics of column q. -/
theorem pay5_apply (x0 : Vec Ideal S2000x128 .f32) (x1 x2 x3 x4 : Vec Ideal S1x128 .f32) (p : Fin 2000) (q : Fin 128) :
    k5_pay1 x0 x2 x1 x3 x4 (ix2 p q)
      = bnAt (x0 (ix2 p q)) (x1 (ix2 (0 : Fin 1) q)) (x2 (ix2 (0 : Fin 1) q)) (x3 (ix2 (0 : Fin 1) q)) (x4 (ix2 (0 : Fin 1) q)) := by
  unfold k5_pay1 bnAt
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rfl

/-- The printed index maps, decided over the grid: window 0 moves with the output, block by block of rows; the four
    statistics windows stay on their one block. -/
theorem idx_facts5 : ∀ t : Fin cfg5.N, win5_0.index t (0 : Fin 2) = win5_5.index t (0 : Fin 2)
    ∧ win5_0.index t (1 : Fin 2) = 0 ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 49 :=
  (by decide +kernel : ∀ t : Fin grid5.N, _)

/-- Every block of rows is some point's. -/
theorem idx_onto5 : ∀ q0 : Fin 50, ∃ t : Fin cfg5.N, win5_5.index t = ![q0.val, 0] :=
  (by decide +kernel : ∀ q0 : Fin 50, ∃ t : Fin grid5.N, win5_5.index t = ![q0.val, 0])

/-- The closed form: `bnRelu` of the arrays the region finds. -/
abbrev G5 (c : Dev nD) : Arr2 100000 128 :=
  bnRelu (n := 100000) (V c (Pipeline.arrRef spec5 0)) (V c (Pipeline.arrRef spec5 1)) (V c (Pipeline.arrRef spec5 2))
    (V c (Pipeline.arrRef spec5 3)) (V c (Pipeline.arrRef spec5 4))

/-- Window 1's block is its whole one-row array, at every point. -/
theorem iblk5_1_eq (c : Dev nD) (t : Fin cfg5.N) : iblk5 V c 1 t = V c (Pipeline.arrRef spec5 1) := by
  obtain ⟨e0, e1, e2, e3, e4, e5, e6, e7, e8, e9, e10, e11⟩ := idx_facts5 t
  funext j
  show V c (Pipeline.arrRef spec5 1) (((cfg5.win 1).blk t).view.emb j) = V c (Pipeline.arrRef spec5 1) j
  refine congrArg _ (funext fun a => Fin.ext ?_)
  match a with
  | ⟨0, _⟩ => show win5_1.index t (0 : Fin 2) * 1 + 1 * (j 0).val = (j 0).val; omega
  | ⟨1, _⟩ => show win5_1.index t (1 : Fin 2) * 128 + 1 * (j 1).val = (j 1).val; omega

/-- Window 2's block is its whole one-row array, at every point. -/
theorem iblk5_2_eq (c : Dev nD) (t : Fin cfg5.N) : iblk5 V c 2 t = V c (Pipeline.arrRef spec5 2) := by
  obtain ⟨e0, e1, e2, e3, e4, e5, e6, e7, e8, e9, e10, e11⟩ := idx_facts5 t
  funext j
  show V c (Pipeline.arrRef spec5 2) (((cfg5.win 2).blk t).view.emb j) = V c (Pipeline.arrRef spec5 2) j
  refine congrArg _ (funext fun a => Fin.ext ?_)
  match a with
  | ⟨0, _⟩ => show win5_2.index t (0 : Fin 2) * 1 + 1 * (j 0).val = (j 0).val; omega
  | ⟨1, _⟩ => show win5_2.index t (1 : Fin 2) * 128 + 1 * (j 1).val = (j 1).val; omega

/-- Window 3's block is its whole one-row array, at every point. -/
theorem iblk5_3_eq (c : Dev nD) (t : Fin cfg5.N) : iblk5 V c 3 t = V c (Pipeline.arrRef spec5 3) := by
  obtain ⟨e0, e1, e2, e3, e4, e5, e6, e7, e8, e9, e10, e11⟩ := idx_facts5 t
  funext j
  show V c (Pipeline.arrRef spec5 3) (((cfg5.win 3).blk t).view.emb j) = V c (Pipeline.arrRef spec5 3) j
  refine congrArg _ (funext fun a => Fin.ext ?_)
  match a with
  | ⟨0, _⟩ => show win5_3.index t (0 : Fin 2) * 1 + 1 * (j 0).val = (j 0).val; omega
  | ⟨1, _⟩ => show win5_3.index t (1 : Fin 2) * 128 + 1 * (j 1).val = (j 1).val; omega

/-- Window 4's block is its whole one-row array, at every point. -/
theorem iblk5_4_eq (c : Dev nD) (t : Fin cfg5.N) : iblk5 V c 4 t = V c (Pipeline.arrRef spec5 4) := by
  obtain ⟨e0, e1, e2, e3, e4, e5, e6, e7, e8, e9, e10, e11⟩ := idx_facts5 t
  funext j
  show V c (Pipeline.arrRef spec5 4) (((cfg5.win 4).blk t).view.emb j) = V c (Pipeline.arrRef spec5 4) j
  refine congrArg _ (funext fun a => Fin.ext ?_)
  match a with
  | ⟨0, _⟩ => show win5_4.index t (0 : Fin 2) * 1 + 1 * (j 0).val = (j 0).val; omega
  | ⟨1, _⟩ => show win5_4.index t (1 : Fin 2) * 128 + 1 * (j 1).val = (j 1).val; omega

/-- The payload at an entry, the four statistics blocks named. -/
theorem pay5_at (x0 : Vec Ideal S2000x128 .f32) {x1 a1 x2 a2 x3 a3 x4 a4 : Vec Ideal S1x128 .f32}
    (h1 : x1 = a1) (h2 : x2 = a2) (h3 : x3 = a3) (h4 : x4 = a4) (p : Fin 2000) (q : Fin 128) :
    k5_pay1 x0 x2 x1 x3 x4 (ix2 p q)
      = bnAt (x0 (ix2 p q)) (a1 (ix2 (0 : Fin 1) q)) (a2 (ix2 (0 : Fin 1) q)) (a3 (ix2 (0 : Fin 1) q)) (a4 (ix2 (0 : Fin 1) q)) := by
  subst h1 h2 h3 h4
  exact pay5_apply x0 x1 x2 x3 x4 p q

set_option maxHeartbeats 2000000 in
/-- What point `t` writes back is block `t` of the closed form. -/
theorem flushed5_5_eq (c : Dev nD) (t : Fin cfg5.N) :
    (dat5 (F := Ideal) V c).flushed 5 t = ((cfg5.win 5).blk t).view.read (Elt Ideal) (G5 V c) := by
  show (cfg5.win 5).cut (grid5.coords t) ((dat5 V c).after 5 t) = _
  rw [after5_5]
  unfold out5_5
  rw [View.canon_unit_zero hzero2]
  simp only [View.ld_unit_zero (S := S2000x128) hzero2, View.ld_unit_zero (S := S1x128) hzero2]
  obtain ⟨e0, e1, e2, e3, e4, e5, e6, e7, e8, e9, e10, e11⟩ := idx_facts5 t
  funext j
  obtain ⟨p, q, rfl⟩ : ∃ (p : Fin 2000) (q : Fin 128), j = ix2 p q := ⟨j 0, j 1, eq_ix2 j⟩
  refine (pay5_at _ (iblk5_1_eq V c t) (iblk5_2_eq V c t) (iblk5_3_eq V c t) (iblk5_4_eq V c t) p q).trans ?_
  show _ = G5 V c (((cfg5.win 5).blk t).view.emb (ix2 p q))
  unfold G5
  rw [bnRelu_apply]
  have h0 : ((cfg5.win 0).blk t).view.emb (ix2 p q) = ((cfg5.win 5).blk t).view.emb (ix2 p q) := by
    funext a; apply Fin.ext
    match a with
    | ⟨0, _⟩ => show win5_0.index t (0 : Fin 2) * 2000 + 1 * p.val = win5_5.index t (0 : Fin 2) * 2000 + 1 * p.val; omega
    | ⟨1, _⟩ => show win5_0.index t (1 : Fin 2) * 128 + 1 * q.val = win5_5.index t (1 : Fin 2) * 128 + 1 * q.val; omega
  have hc : colOf (((cfg5.win 5).blk t).view.emb (ix2 p q)) = q := by
    apply Fin.ext
    show win5_5.index t (1 : Fin 2) * 128 + 1 * q.val = q.val; omega
  rw [hc]
  have r0 : iblk5 V c 0 t (ix2 p q) = V c (Pipeline.arrRef spec5 0) (((cfg5.win 5).blk t).view.emb (ix2 p q)) :=
    congrArg (V c (Pipeline.arrRef spec5 0)) h0
  rw [r0]

/-- An index of the array is in point `t`'s block iff each coordinate is in the block's range on its axis. -/
theorem mem_blk5_5 (t : Fin cfg5.N) (i : S100000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v69).slice (win5_5.rect t)).set ↔ _
  rw [View.set_slice_whole, Rect.mem_set_unit]
  exact Iff.rfl

/-- Every index of the array is in some point's block: row `r` is in block `r / 2000`. -/
theorem cover5_5_arr (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  obtain ⟨t, ht⟩ := idx_onto5 ⟨(i 0).val / 2000, by omega⟩
  have q0 : win5_5.index t (0 : Fin 2) = (i 0).val / 2000 := congrFun ht 0
  have q1 : win5_5.index t (1 : Fin 2) = 0 := congrFun ht 1
  refine ⟨t, flush5_5 t, ?_⟩
  rw [mem_blk5_5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 128 ≤ (i 1).val ∧ (i 1).val < win5_5.index t (1 : Fin 2) * 128 + 128; omega

/-- The array after the region: `bnRelu` of the arrays the region finds. -/
theorem final5_5 (c : Dev nD) : (dat5 (F := Ideal) V c).arrAt 5 cfg5.N
    = bnRelu (n := 100000) (V c (Pipeline.arrRef spec5 0)) (V c (Pipeline.arrRef spec5 1)) (V c (Pipeline.arrRef spec5 2))
        (V c (Pipeline.arrRef spec5 3)) (V c (Pipeline.arrRef spec5 4)) :=
  (dat5 (F := Ideal) V c).arrAt_eq_of_cover 5 (G5 V c) (fun t _ => flushed5_5_eq V c t) cover5_5_arr

end Cert.KernelIdeal.Hand

end
-- ==== Proof.KI.V6.lean ====
import proofs.«142609_j54228257079879_1_alg».proof.Proof.KI.R6
import proofs.«142609_j54228257079879_1_alg».proof.Proof.KI.VCommon
import proofs.«142609_j54228257079879_1_alg».proof.Proof.Math.Spec
import proofs.«142609_j54228257079879_1_alg».proof.Proof.LibRowsDot
import Idealize.ShloMosaic.Lib.Pipeline.Value
import Idealize.ShloMosaic.Lib.ValueLayout

/-! # Region 6, the value: the readout in closed form

The grid has one point and every window's block is its whole array, so the one write-back leaves the body's payload
of the arrays the region finds. The payload is three dense layers: each product into a zero accumulator is the
rows-against-columns sum, each narrowing of the format is the identity on extended reals, each bias row is added to
every row, and the first two layers are clipped at zero. -/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Sage Cert.Gin

variable (V : (c : Dev nD) → (b : Ref sig .tc) → Buf (Elt Ideal) ((c : Thread nD τ).loc b))

/-! ## The layers' operations as whole arrays -/

/-- A bias row broadcast over the rows and added. -/
theorem addf_row {n c : Nat} (v : FVec Ideal ⟨2, ![n, c]⟩ .f32) (b : FVec Ideal ⟨2, ![1, c]⟩ .f32)
    (h : (⟨2, ![1, c]⟩ : Shape).Broadcasts ⟨2, ![n, c]⟩) :
    addf v (broadcastTo ⟨2, ![n, c]⟩ b h) = addRowOf (n := n) (c := c) v b := by
  funext j
  obtain ⟨p, q, rfl⟩ : ∃ (p : Fin n) (q : Fin c), j = ix2 p q := ⟨j 0, j 1, eq_ix2 j⟩
  rw [addf_apply, broadcastTo_1b_ab_apply]
  rfl

/-- The same, clipped at the float zero. -/
theorem clip_row {n c : Nat} (v : FVec Ideal ⟨2, ![n, c]⟩ .f32) (b : FVec Ideal ⟨2, ![1, c]⟩ .f32)
    (h : (⟨2, ![1, c]⟩ : Shape).Broadcasts ⟨2, ![n, c]⟩) :
    maximumf (addf v (broadcastTo ⟨2, ![n, c]⟩ b h)) (broadcast ⟨2, ![n, c]⟩ (Scalar.ofBits (F := Ideal) .f32 0x00000000#32))
      = addRowClip (n := n) (c := c) v b := by
  funext j
  obtain ⟨p, q, rfl⟩ : ∃ (p : Fin n) (q : Fin c), j = ix2 p q := ⟨j 0, j 1, eq_ix2 j⟩
  rw [maximumf_apply, addf_apply, broadcastTo_1b_ab_apply, broadcast_apply]
  rfl

/-- The first product: 1024x128 against 128x512. -/
theorem mm6_1 {φ₁ φ₂ : FTy} (a : FVec Ideal S1024x128 φ₁) (W : FVec Ideal S128x512 φ₂) :
    matmul dot_S1024x128_S128x512_S1024x512_1_0_0_1_n_n none a W (constant S1024x512 .f32 0x00000000#32)
      = rowsMul (n := 1024) (k := 128) (c := 512) a W := by
  funext j
  obtain ⟨p, q, rfl⟩ : ∃ (p : Fin 1024) (q : Fin 512), j = ix2 p q := ⟨j 0, j 1, eq_ix2 j⟩
  exact matmul_zero_rows _ rfl rfl (fun _ _ => rfl) (fun i q => DotDims.lhsIdx_val_of_single _ rfl i q)
    (fun i q => DotDims.rhsIdx_val_of_single _ rfl i q) (fun _ _ => rfl) none a W p q

/-- The second product: 1024x512 against 512x256. -/
theorem mm6_2 {φ₁ φ₂ : FTy} (a : FVec Ideal S1024x512 φ₁) (W : FVec Ideal S512x256 φ₂) :
    matmul dot_S1024x512_S512x256_S1024x256_1_0_0_1_n_n none a W (constant S1024x256 .f32 0x00000000#32)
      = rowsMul (n := 1024) (k := 512) (c := 256) a W := by
  funext j
  obtain ⟨p, q, rfl⟩ : ∃ (p : Fin 1024) (q : Fin 256), j = ix2 p q := ⟨j 0, j 1, eq_ix2 j⟩
  exact matmul_zero_rows _ rfl rfl (fun _ _ => rfl) (fun i q => DotDims.lhsIdx_val_of_single _ rfl i q)
    (fun i q => DotDims.rhsIdx_val_of_single _ rfl i q) (fun _ _ => rfl) none a W p q

/-- The third product: 1024x256 against 256x12. -/
theorem mm6_3 {φ₁ φ₂ : FTy} (a : FVec Ideal S1024x256 φ₁) (W : FVec Ideal S256x12 φ₂) :
    matmul dot_S1024x256_S256x12_S1024x12_1_0_0_1_n_n none a W (constant S1024x12 .f32 0x00000000#32)
      = rowsMul (n := 1024) (k := 256) (c := 12) a W := by
  funext j
  obtain ⟨p, q, rfl⟩ : ∃ (p : Fin 1024) (q : Fin 12), j = ix2 p q := ⟨j 0, j 1, eq_ix2 j⟩
  exact matmul_zero_rows _ rfl rfl (fun _ _ => rfl) (fun i q => DotDims.lhsIdx_val_of_single _ rfl i q)
    (fun i q => DotDims.rhsIdx_val_of_single _ rfl i q) (fun _ _ => rfl) none a W p q

/-- The body's payload is the readout of its loaded blocks. -/
theorem pay6_eq (x0 : Vec Ideal S1024x128 .f32) (x1 : Vec Ideal S128x512 .f32) (x2 : Vec Ideal S1x512 .f32)
    (x3 : Vec Ideal S512x256 .f32) (x4 : Vec Ideal S1x256 .f32) (x5 : Vec Ideal S256x12 .f32) (x6 : Vec Ideal S1x12 .f32) :
    k6_pay1 x0 x1 x2 x3 x4 x5 x6 = readout (n := 1024) x0 x1 x2 x3 x4 x5 x6 := by
  unfold k6_pay1 readout
  simp only [shapeCast_self]
  rw [mm6_1, clip_row, mm6_2, clip_row, mm6_3, addf_row]
  rfl

/-! ## From the one block to the array -/

/-- The printed index maps at the grid's one point: every window is on block (0, 0). -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-- The closed form: the readout of the arrays the region finds. -/
abbrev G6 (c : Dev nD) : Arr2 1024 12 :=
  readout (n := 1024) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))

/-- Window 0's block is its whole array. -/
theorem iblk6_0_eq (c : Dev nD) (t : Fin cfg6.N) : iblk6 V c 0 t = V c (Pipeline.arrRef spec6 0) := by
  obtain ⟨e0, e1, e2, e3, e4, e5, e6, e7, e8, e9, e10, e11, e12, e13, e14, e15⟩ := idx_facts6 t
  funext j
  show V c (Pipeline.arrRef spec6 0) (((cfg6.win 0).blk t).view.emb j) = V c (Pipeline.arrRef spec6 0) j
  refine congrArg _ (funext fun a => Fin.ext ?_)
  match a with
  | ⟨0, _⟩ => show win6_0.index t (0 : Fin 2) * 1024 + 1 * (j 0).val = (j 0).val; omega
  | ⟨1, _⟩ => show win6_0.index t (1 : Fin 2) * 128 + 1 * (j 1).val = (j 1).val; omega

/-- Window 1's block is its whole array. -/
theorem iblk6_1_eq (c : Dev nD) (t : Fin cfg6.N) : iblk6 V c 1 t = V c (Pipeline.arrRef spec6 1) := by
  obtain ⟨e0, e1, e2, e3, e4, e5, e6, e7, e8, e9, e10, e11, e12, e13, e14, e15⟩ := idx_facts6 t
  funext j
  show V c (Pipeline.arrRef spec6 1) (((cfg6.win 1).blk t).view.emb j) = V c (Pipeline.arrRef spec6 1) j
  refine congrArg _ (funext fun a => Fin.ext ?_)
  match a with
  | ⟨0, _⟩ => show win6_1.index t (0 : Fin 2) * 128 + 1 * (j 0).val = (j 0).val; omega
  | ⟨1, _⟩ => show win6_1.index t (1 : Fin 2) * 512 + 1 * (j 1).val = (j 1).val; omega

/-- Window 2's block is its whole array. -/
theorem iblk6_2_eq (c : Dev nD) (t : Fin cfg6.N) : iblk6 V c 2 t = V c (Pipeline.arrRef spec6 2) := by
  obtain ⟨e0, e1, e2, e3, e4, e5, e6, e7, e8, e9, e10, e11, e12, e13, e14, e15⟩ := idx_facts6 t
  funext j
  show V c (Pipeline.arrRef spec6 2) (((cfg6.win 2).blk t).view.emb j) = V c (Pipeline.arrRef spec6 2) j
  refine congrArg _ (funext fun a => Fin.ext ?_)
  match a with
  | ⟨0, _⟩ => show win6_2.index t (0 : Fin 2) * 1 + 1 * (j 0).val = (j 0).val; omega
  | ⟨1, _⟩ => show win6_2.index t (1 : Fin 2) * 512 + 1 * (j 1).val = (j 1).val; omega

/-- Window 3's block is its whole array. -/
theorem iblk6_3_eq (c : Dev nD) (t : Fin cfg6.N) : iblk6 V c 3 t = V c (Pipeline.arrRef spec6 3) := by
  obtain ⟨e0, e1, e2, e3, e4, e5, e6, e7, e8, e9, e10, e11, e12, e13, e14, e15⟩ := idx_facts6 t
  funext j
  show V c (Pipeline.arrRef spec6 3) (((cfg6.win 3).blk t).view.emb j) = V c (Pipeline.arrRef spec6 3) j
  refine congrArg _ (funext fun a => Fin.ext ?_)
  match a with
  | ⟨0, _⟩ => show win6_3.index t (0 : Fin 2) * 512 + 1 * (j 0).val = (j 0).val; omega
  | ⟨1, _⟩ => show win6_3.index t (1 : Fin 2) * 256 + 1 * (j 1).val = (j 1).val; omega

/-- Window 4's block is its whole array. -/
theorem iblk6_4_eq (c : Dev nD) (t : Fin cfg6.N) : iblk6 V c 4 t = V c (Pipeline.arrRef spec6 4) := by
  obtain ⟨e0, e1, e2, e3, e4, e5, e6, e7, e8, e9, e10, e11, e12, e13, e14, e15⟩ := idx_facts6 t
  funext j
  show V c (Pipeline.arrRef spec6 4) (((cfg6.win 4).blk t).view.emb j) = V c (Pipeline.arrRef spec6 4) j
  refine congrArg _ (funext fun a => Fin.ext ?_)
  match a with
  | ⟨0, _⟩ => show win6_4.index t (0 : Fin 2) * 1 + 1 * (j 0).val = (j 0).val; omega
  | ⟨1, _⟩ => show win6_4.index t (1 : Fin 2) * 256 + 1 * (j 1).val = (j 1).val; omega

/-- Window 5's block is its whole array. -/
theorem iblk6_5_eq (c : Dev nD) (t : Fin cfg6.N) : iblk6 V c 5 t = V c (Pipeline.arrRef spec6 5) := by
  obtain ⟨e0, e1, e2, e3, e4, e5, e6, e7, e8, e9, e10, e11, e12, e13, e14, e15⟩ := idx_facts6 t
  funext j
  show V c (Pipeline.arrRef spec6 5) (((cfg6.win 5).blk t).view.emb j) = V c (Pipeline.arrRef spec6 5) j
  refine congrArg _ (funext fun a => Fin.ext ?_)
  match a with
  | ⟨0, _⟩ => show win6_5.index t (0 : Fin 2) * 256 + 1 * (j 0).val = (j 0).val; omega
  | ⟨1, _⟩ => show win6_5.index t (1 : Fin 2) * 12 + 1 * (j 1).val = (j 1).val; omega

/-- Window 6's block is its whole array. -/
theorem iblk6_6_eq (c : Dev nD) (t : Fin cfg6.N) : iblk6 V c 6 t = V c (Pipeline.arrRef spec6 6) := by
  obtain ⟨e0, e1, e2, e3, e4, e5, e6, e7, e8, e9, e10, e11, e12, e13, e14, e15⟩ := idx_facts6 t
  funext j
  show V c (Pipeline.arrRef spec6 6) (((cfg6.win 6).blk t).view.emb j) = V c (Pipeline.arrRef spec6 6) j
  refine congrArg _ (funext fun a => Fin.ext ?_)
  match a with
  | ⟨0, _⟩ => show win6_6.index t (0 : Fin 2) * 1 + 1 * (j 0).val = (j 0).val; omega
  | ⟨1, _⟩ => show win6_6.index t (1 : Fin 2) * 12 + 1 * (j 1).val = (j 1).val; omega

/-- The payload at equal arguments. -/
theorem pay6_of_eq {x0 a0 : Vec Ideal S1024x128 .f32} {x1 a1 : Vec Ideal S128x512 .f32} {x2 a2 : Vec Ideal S1x512 .f32}
    {x3 a3 : Vec Ideal S512x256 .f32} {x4 a4 : Vec Ideal S1x256 .f32} {x5 a5 : Vec Ideal S256x12 .f32} {x6 a6 : Vec Ideal S1x12 .f32}
    (h0 : x0 = a0) (h1 : x1 = a1) (h2 : x2 = a2) (h3 : x3 = a3) (h4 : x4 = a4) (h5 : x5 = a5) (h6 : x6 = a6) :
    k6_pay1 x0 x1 x2 x3 x4 x5 x6 = readout (n := 1024) a0 a1 a2 a3 a4 a5 a6 := by
  subst h0 h1 h2 h3 h4 h5 h6
  exact pay6_eq _ _ _ _ _ _ _

/-- What the one point writes back is the one block of the closed form. -/
theorem flushed6_7_eq (c : Dev nD) (t : Fin cfg6.N) :
    (dat6 (F := Ideal) V c).flushed 7 t = ((cfg6.win 7).blk t).view.read (Elt Ideal) (G6 V c) := by
  show (cfg6.win 7).cut (grid6.coords t) ((dat6 V c).after 7 t) = _
  rw [after6_7]
  unfold out6_7
  rw [View.canon_unit_zero hzero2]
  simp only [View.ld_unit_zero (S := S1024x128) hzero2, View.ld_unit_zero (S := S128x512) hzero2, View.ld_unit_zero (S := S1x512) hzero2, View.ld_unit_zero (S := S512x256) hzero2, View.ld_unit_zero (S := S1x256) hzero2, View.ld_unit_zero (S := S256x12) hzero2, View.ld_unit_zero (S := S1x12) hzero2]
  refine (pay6_of_eq (iblk6_0_eq V c t) (iblk6_1_eq V c t) (iblk6_2_eq V c t) (iblk6_3_eq V c t) (iblk6_4_eq V c t) (iblk6_5_eq V c t) (iblk6_6_eq V c t)).trans ?_
  obtain ⟨e0, e1, e2, e3, e4, e5, e6, e7, e8, e9, e10, e11, e12, e13, e14, e15⟩ := idx_facts6 t
  funext j
  show G6 V c j = G6 V c (((cfg6.win 7).blk t).view.emb j)
  refine congrArg _ (funext fun a => Fin.ext ?_)
  match a with
  | ⟨0, _⟩ => show (j 0).val = win6_7.index t (0 : Fin 2) * 1024 + 1 * (j 0).val; omega
  | ⟨1, _⟩ => show (j 1).val = win6_7.index t (1 : Fin 2) * 12 + 1 * (j 1).val; omega

/-- An index of the array is in point `t`'s block iff each coordinate is in the block's range on its axis. -/
theorem mem_blk6_7 (t : Fin cfg6.N) (i : S1024x12.Idx) :
    i ∈ ((cfg6.win 7).blk t).view.set ↔ ∀ a : Fin 2, win6_7.index t a * S1024x12.size a ≤ (i a).val ∧ (i a).val < win6_7.index t a * S1024x12.size a + S1024x12.size a := by
  show i ∈ ((View.whole main_v76).slice (win6_7.rect t)).set ↔ _
  rw [View.set_slice_whole, Rect.mem_set_unit]
  exact Iff.rfl

/-- Every index of the array is in the one point's block. -/
theorem cover6_7_arr (i : S1024x12.Idx) :
    ∃ t : Fin cfg6.N, (cfg6.win 7).flush t = true ∧ i ∈ ((cfg6.win 7).blk t).view.set := by
  have hi0 : (i 0).val < 1024 := (i 0).isLt
  have hi1 : (i 1).val < 12 := (i 1).isLt
  obtain ⟨e0, e1, e2, e3, e4, e5, e6, e7, e8, e9, e10, e11, e12, e13, e14, e15⟩ := idx_facts6 t6_0
  refine ⟨t6_0, flush6_7 t6_0, ?_⟩
  rw [mem_blk6_7]
  intro a
  match a with
  | ⟨0, _⟩ => show win6_7.index t6_0 (0 : Fin 2) * 1024 ≤ (i 0).val ∧ (i 0).val < win6_7.index t6_0 (0 : Fin 2) * 1024 + 1024; omega
  | ⟨1, _⟩ => show win6_7.index t6_0 (1 : Fin 2) * 12 ≤ (i 1).val ∧ (i 1).val < win6_7.index t6_0 (1 : Fin 2) * 12 + 12; omega

/-- The array after the region: the readout of the arrays the region finds. -/
theorem final6_7 (c : Dev nD) : (dat6 (F := Ideal) V c).arrAt 7 cfg6.N
    = readout (n := 1024) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 (F := Ideal) V c).arrAt_eq_of_cover 7 (G6 V c) (fun t _ => flushed6_7_eq V c t) cover6_7_arr

end Cert.KernelIdeal.Hand

end
-- ==== Proof.KI.KerOut.lean ====
/-
  The idealized kernel program's result as one function of its 27 arguments, over the layer mathematics: three layers,
  each the perceptron of the input rows and their neighbour sums followed by the normalisation with the variance as mean
  of squares minus squared mean, then the node rows added into their graphs' rows, then the readout.
-/
import proofs.«142609_j54228257079879_1_alg».proof.Proof.KI.HostFns
import proofs.«142609_j54228257079879_1_alg».proof.Proof.Math.Spec

noncomputable section

namespace Cert.KernelIdeal.Hand

open Cert.KernelIdeal
open Idealize.ShloMosaic
open Cert.Sage Cert.Gin

/-- Dividing the column sums by the float number of rows is the mean. -/
theorem meanH_eq (s : FVec Ideal S1x128 .f32) : (meanH s : Arr2 1 128) = meanK s := rfl
/-- The host's mean of squares minus squared mean is the variance in that form. -/
theorem varH_eq (s sq : FVec Ideal S1x128 .f32) : (varH s sq : Arr2 1 128) = varK s sq := rfl

/-- The first layer as the kernel program computes it. -/
def kLayer12 (x : FVec Ideal S100000x12 .f32) (e : IVec S2x1600000 32) (w1 : FVec Ideal S12x128 .f32) (b1 : FVec Ideal S128 .f32)
    (w2 : FVec Ideal S128x128 .f32) (b2 γ β : FVec Ideal S128 .f32) : Arr2 100000 128 :=
  layerK (n := 100000) (k := 12) x (aggK12 x (row0 e) (row1 e)) w1 (rowK b1) w2 (rowK b2) (rowK γ) (rowK β)
/-- A later layer as the kernel program computes it. -/
def kLayer128 (x : FVec Ideal S100000x128 .f32) (e : IVec S2x1600000 32) (w1 : FVec Ideal S128x128 .f32) (b1 : FVec Ideal S128 .f32)
    (w2 : FVec Ideal S128x128 .f32) (b2 γ β : FVec Ideal S128 .f32) : Arr2 100000 128 :=
  layerK (n := 100000) (k := 128) x (aggK128 x (row0 e) (row1 e)) w1 (rowK b1) w2 (rowK b2) (rowK γ) (rowK β)
/-- The kernel program's result of its 27 arguments. -/
def kerOut (a0 : FVec Ideal S100000x12 .f32) (a1 : IVec S2x1600000 32) (a2 : IVec S100000 32)
    (a3 : FVec Ideal S12x128 .f32) (a4 : FVec Ideal S128 .f32) (a5 : FVec Ideal S128x128 .f32) (a6 a7 a8 : FVec Ideal S128 .f32)
    (a9 : FVec Ideal S128x128 .f32) (a10 : FVec Ideal S128 .f32) (a11 : FVec Ideal S128x128 .f32) (a12 a13 a14 : FVec Ideal S128 .f32)
    (a15 : FVec Ideal S128x128 .f32) (a16 : FVec Ideal S128 .f32) (a17 : FVec Ideal S128x128 .f32) (a18 a19 a20 : FVec Ideal S128 .f32)
    (a21 : FVec Ideal S128x512 .f32) (a22 : FVec Ideal S512 .f32) (a23 : FVec Ideal S512x256 .f32) (a24 : FVec Ideal S256 .f32)
    (a25 : FVec Ideal S256x12 .f32) (a26 : FVec Ideal S12 .f32) : Arr2 1024 12 :=
  readout (n := 1024)
    (poolK (F := Ideal) (kLayer128 (kLayer128 (kLayer12 a0 a1 a3 a4 a5 a6 a7 a8) a1 a9 a10 a11 a12 a13 a14) a1 a15 a16 a17 a18 a19 a20) a2)
    a21 (rowK512 a22) a23 (rowK256 a24) a25 (rowK12 a26)

end Cert.KernelIdeal.Hand

end
-- ==== Proof.KI.Chain.lean ====
/-
  The idealized kernel program's result as one function of its arguments. Layer by layer: the perceptron's region leaves
  the perceptron of the layer's input rows and their neighbour sums, with its column sums and column sums of squares;
  the host forms the mean and the variance as mean of squares minus squared mean; the next region normalises, scales,
  shifts and clips. After three layers the host adds the node rows into their graphs' rows and the last region applies
  the readout.
-/
import proofs.«142609_j54228257079879_1_alg».proof.Proof.KI.Host
import proofs.«142609_j54228257079879_1_alg».proof.Proof.KI.V0
import proofs.«142609_j54228257079879_1_alg».proof.Proof.KI.V1
import proofs.«142609_j54228257079879_1_alg».proof.Proof.KI.V2
import proofs.«142609_j54228257079879_1_alg».proof.Proof.KI.V3
import proofs.«142609_j54228257079879_1_alg».proof.Proof.KI.V4
import proofs.«142609_j54228257079879_1_alg».proof.Proof.KI.V5
import proofs.«142609_j54228257079879_1_alg».proof.Proof.KI.V6
import proofs.«142609_j54228257079879_1_alg».proof.Proof.Math.Spec
import proofs.«142609_j54228257079879_1_alg».proof.Proof.KI.KerOut

set_option maxRecDepth 16384

noncomputable section

namespace Cert.KernelIdeal.Hand

open Cert.KernelIdeal Cert.KernelIdeal.Gen
open Idealize.ShloMosaic Idealize.ShloMosaic.TcCoe Idealize.SL.Sem
open Cert.Sage Cert.Gin

variable (m : (ℓ : Loc nD τ sig) → Buf (Elt Ideal) ℓ) (ρ : Dev nD → PrngReg) (c : Dev nD)

/-- The rows entering each layer. -/
def X1 : Arr2 100000 128 := kLayer12 (Arg m c main_arg0) (Arg m c main_arg1) (Arg m c main_arg3) (Arg m c main_arg4) (Arg m c main_arg5) (Arg m c main_arg6) (Arg m c main_arg7) (Arg m c main_arg8)
def X2 : Arr2 100000 128 := kLayer128 (X1 m c) (Arg m c main_arg1) (Arg m c main_arg9) (Arg m c main_arg10) (Arg m c main_arg11) (Arg m c main_arg12) (Arg m c main_arg13) (Arg m c main_arg14)
def X3 : Arr2 100000 128 := kLayer128 (X2 m c) (Arg m c main_arg1) (Arg m c main_arg15) (Arg m c main_arg16) (Arg m c main_arg17) (Arg m c main_arg18) (Arg m c main_arg19) (Arg m c main_arg20)

/-! ## Layer 0 -/

/-- The perceptron's output of layer 0. -/
def T0 : Arr2 100000 128 := mlp (n := 100000) (Arg m c main_arg0) (aggK12 (F := Ideal) (Arg m c main_arg0) (row0 (Arg m c main_arg1)) (row1 (Arg m c main_arg1))) (Arg m c main_arg3) (rowK (F := Ideal) (Arg m c main_arg4)) (Arg m c main_arg5) (rowK (F := Ideal) (Arg m c main_arg6))
theorem X1_def : X1 m c = bnRelu (T0 m c) (meanK (colSum (T0 m c))) (varK (colSum (T0 m c)) (colSumSq (T0 m c))) (rowK (F := Ideal) (Arg m c main_arg7)) (rowK (F := Ideal) (Arg m c main_arg8)) := rfl

theorem in0_x : W1 m ρ c (Proc.devRef .tc main_arg0) = Arg m c main_arg0 :=
  W1_arg0 m ρ c
theorem in0_agg : W1 m ρ c (Proc.devRef .tc main_v13) = aggK12 (F := Ideal) (Arg m c main_arg0) (row0 (Arg m c main_arg1)) (row1 (Arg m c main_arg1)) :=
  W1_v13 m ρ c
theorem in0_b1 : W1 m ρ c (Proc.devRef .tc main_v14) = rowK (F := Ideal) (Arg m c main_arg4) :=
  W1_v14 m ρ c
theorem in0_b2 : W1 m ρ c (Proc.devRef .tc main_v15) = rowK (F := Ideal) (Arg m c main_arg6) :=
  W1_v15 m ρ c
theorem in0_g : W1 m ρ c (Proc.devRef .tc main_v16) = rowK (F := Ideal) (Arg m c main_arg7) :=
  W1_v16 m ρ c
theorem in0_b : W1 m ρ c (Proc.devRef .tc main_v17) = rowK (F := Ideal) (Arg m c main_arg8) :=
  W1_v17 m ρ c

theorem mm0_args : mlp (n := 100000) (W1 m ρ c (Proc.devRef .tc main_arg0)) (W1 m ρ c (Proc.devRef .tc main_v13)) (W1 m ρ c (Proc.devRef .tc main_arg3)) (W1 m ρ c (Proc.devRef .tc main_v14)) (W1 m ρ c (Proc.devRef .tc main_arg5)) (W1 m ρ c (Proc.devRef .tc main_v15)) = T0 m c := by
  rw [in0_x m ρ c, in0_agg m ρ c, W1_arg3 m ρ c, in0_b1 m ρ c, W1_arg5 m ρ c, in0_b2 m ρ c]; rfl
theorem t0 : W2 m ρ c (Proc.devRef .tc main_v18_0) = T0 m c :=
  (W2_arr m ρ c 6).trans ((final0_6 (V1 m ρ) c).trans (mm0_args m ρ c))
theorem s0 : W2 m ρ c (Proc.devRef .tc main_v18_1) = colSum (T0 m c) :=
  (W2_arr m ρ c 7).trans ((final0_7 (V1 m ρ) c).trans (congrArg colSum (mm0_args m ρ c)))
theorem sq0 : W2 m ρ c (Proc.devRef .tc main_v18_2) = colSumSq (T0 m c) :=
  (W2_arr m ρ c 8).trans ((final0_8 (V1 m ρ) c).trans (congrArg colSumSq (mm0_args m ρ c)))

theorem bn0_t : W3 m ρ c (Proc.devRef .tc main_v18_0) = T0 m c := ((StableHlo.after_of_writes_sub hostOps1 _ hostOps1_writes (by decide : main_v18_0 ∉ hostOps1_W))).trans (t0 m ρ c)
theorem bn0_mean : W3 m ρ c (Proc.devRef .tc main_v20) = meanK (colSum (T0 m c)) :=
  (W3_mean m ρ c).trans (by rw [s0 m ρ c]; exact meanH_eq _)
theorem bn0_var : W3 m ρ c (Proc.devRef .tc main_v24) = varK (colSum (T0 m c)) (colSumSq (T0 m c)) :=
  (W3_var m ρ c).trans (by rw [s0 m ρ c, sq0 m ρ c]; exact varH_eq _ _)
theorem bn0_g : W3 m ρ c (Proc.devRef .tc main_v16) = rowK (F := Ideal) (Arg m c main_arg7) := ((StableHlo.after_of_writes_sub hostOps1 _ hostOps1_writes (by decide : main_v16 ∉ hostOps1_W)).trans <| (W2_of_ne m ρ c main_v16 (by decide))).trans (in0_g m ρ c)
theorem bn0_b : W3 m ρ c (Proc.devRef .tc main_v17) = rowK (F := Ideal) (Arg m c main_arg8) := ((StableHlo.after_of_writes_sub hostOps1 _ hostOps1_writes (by decide : main_v17 ∉ hostOps1_W)).trans <| (W2_of_ne m ρ c main_v17 (by decide))).trans (in0_b m ρ c)
/-- What layer 0 leaves. -/
theorem out0 : W4 m ρ c (Proc.devRef .tc main_v25) = X1 m c :=
  (W4_arr m ρ c 5).trans ((final1_5 (V3 m ρ) c).trans (by
    show bnRelu (n := 100000) (W3 m ρ c (Proc.devRef .tc main_v18_0)) (W3 m ρ c (Proc.devRef .tc main_v20)) (W3 m ρ c (Proc.devRef .tc main_v24)) (W3 m ρ c (Proc.devRef .tc main_v16)) (W3 m ρ c (Proc.devRef .tc main_v17)) = _
    rw [bn0_t m ρ c, bn0_mean m ρ c, bn0_var m ρ c, bn0_g m ρ c, bn0_b m ρ c, X1_def m c]))

/-! ## Layer 1 -/

/-- The perceptron's output of layer 1. -/
def T1 : Arr2 100000 128 := mlp (n := 100000) (X1 m c) (aggK128 (F := Ideal) (X1 m c) (row0 (Arg m c main_arg1)) (row1 (Arg m c main_arg1))) (Arg m c main_arg9) (rowK (F := Ideal) (Arg m c main_arg10)) (Arg m c main_arg11) (rowK (F := Ideal) (Arg m c main_arg12))
theorem X2_def : X2 m c = bnRelu (T1 m c) (meanK (colSum (T1 m c))) (varK (colSum (T1 m c)) (colSumSq (T1 m c))) (rowK (F := Ideal) (Arg m c main_arg13)) (rowK (F := Ideal) (Arg m c main_arg14)) := rfl

theorem in1_x : W5 m ρ c (Proc.devRef .tc main_v25) = X1 m c :=
  ((StableHlo.after_of_writes_sub hostOps2 _ hostOps2_writes (by decide : main_v25 ∉ hostOps2_W))).trans (out0 m ρ c)
theorem in1_agg : W5 m ρ c (Proc.devRef .tc main_v35) = aggK128 (F := Ideal) (X1 m c) (row0 (Arg m c main_arg1)) (row1 (Arg m c main_arg1)) :=
  (W5_agg m ρ c).trans (by rw [out0 m ρ c, W4_v1 m ρ c, W1_v1 m ρ c, W4_v3 m ρ c, W1_v3 m ρ c])
theorem in1_b1 : W5 m ρ c (Proc.devRef .tc main_v36) = rowK (F := Ideal) (Arg m c main_arg10) :=
  (W5_v36 m ρ c).trans (by rw [W4_arg10 m ρ c])
theorem in1_b2 : W5 m ρ c (Proc.devRef .tc main_v37) = rowK (F := Ideal) (Arg m c main_arg12) :=
  (W5_v37 m ρ c).trans (by rw [W4_arg12 m ρ c])
theorem in1_g : W5 m ρ c (Proc.devRef .tc main_v38) = rowK (F := Ideal) (Arg m c main_arg13) :=
  (W5_v38 m ρ c).trans (by rw [W4_arg13 m ρ c])
theorem in1_b : W5 m ρ c (Proc.devRef .tc main_v39) = rowK (F := Ideal) (Arg m c main_arg14) :=
  (W5_v39 m ρ c).trans (by rw [W4_arg14 m ρ c])

theorem mm1_args : mlp (n := 100000) (W5 m ρ c (Proc.devRef .tc main_v25)) (W5 m ρ c (Proc.devRef .tc main_v35)) (W5 m ρ c (Proc.devRef .tc main_arg9)) (W5 m ρ c (Proc.devRef .tc main_v36)) (W5 m ρ c (Proc.devRef .tc main_arg11)) (W5 m ρ c (Proc.devRef .tc main_v37)) = T1 m c := by
  rw [in1_x m ρ c, in1_agg m ρ c, W5_arg9 m ρ c, in1_b1 m ρ c, W5_arg11 m ρ c, in1_b2 m ρ c]; rfl
theorem t1 : W6 m ρ c (Proc.devRef .tc main_v40_0) = T1 m c :=
  (W6_arr m ρ c 6).trans ((final2_6 (V5 m ρ) c).trans (mm1_args m ρ c))
theorem s1 : W6 m ρ c (Proc.devRef .tc main_v40_1) = colSum (T1 m c) :=
  (W6_arr m ρ c 7).trans ((final2_7 (V5 m ρ) c).trans (congrArg colSum (mm1_args m ρ c)))
theorem sq1 : W6 m ρ c (Proc.devRef .tc main_v40_2) = colSumSq (T1 m c) :=
  (W6_arr m ρ c 8).trans ((final2_8 (V5 m ρ) c).trans (congrArg colSumSq (mm1_args m ρ c)))

theorem bn1_t : W7 m ρ c (Proc.devRef .tc main_v40_0) = T1 m c := ((StableHlo.after_of_writes_sub hostOps3 _ hostOps3_writes (by decide : main_v40_0 ∉ hostOps3_W))).trans (t1 m ρ c)
theorem bn1_mean : W7 m ρ c (Proc.devRef .tc main_v42) = meanK (colSum (T1 m c)) :=
  (W7_mean m ρ c).trans (by rw [s1 m ρ c]; exact meanH_eq _)
theorem bn1_var : W7 m ρ c (Proc.devRef .tc main_v46) = varK (colSum (T1 m c)) (colSumSq (T1 m c)) :=
  (W7_var m ρ c).trans (by rw [s1 m ρ c, sq1 m ρ c]; exact varH_eq _ _)
theorem bn1_g : W7 m ρ c (Proc.devRef .tc main_v38) = rowK (F := Ideal) (Arg m c main_arg13) := ((StableHlo.after_of_writes_sub hostOps3 _ hostOps3_writes (by decide : main_v38 ∉ hostOps3_W)).trans <| (W6_of_ne m ρ c main_v38 (by decide))).trans (in1_g m ρ c)
theorem bn1_b : W7 m ρ c (Proc.devRef .tc main_v39) = rowK (F := Ideal) (Arg m c main_arg14) := ((StableHlo.after_of_writes_sub hostOps3 _ hostOps3_writes (by decide : main_v39 ∉ hostOps3_W)).trans <| (W6_of_ne m ρ c main_v39 (by decide))).trans (in1_b m ρ c)
/-- What layer 1 leaves. -/
theorem out1 : W8 m ρ c (Proc.devRef .tc main_v47) = X2 m c :=
  (W8_arr m ρ c 5).trans ((final3_5 (V7 m ρ) c).trans (by
    show bnRelu (n := 100000) (W7 m ρ c (Proc.devRef .tc main_v40_0)) (W7 m ρ c (Proc.devRef .tc main_v42)) (W7 m ρ c (Proc.devRef .tc main_v46)) (W7 m ρ c (Proc.devRef .tc main_v38)) (W7 m ρ c (Proc.devRef .tc main_v39)) = _
    rw [bn1_t m ρ c, bn1_mean m ρ c, bn1_var m ρ c, bn1_g m ρ c, bn1_b m ρ c, X2_def m c]))

/-! ## Layer 2 -/

/-- The perceptron's output of layer 2. -/
def T2 : Arr2 100000 128 := mlp (n := 100000) (X2 m c) (aggK128 (F := Ideal) (X2 m c) (row0 (Arg m c main_arg1)) (row1 (Arg m c main_arg1))) (Arg m c main_arg15) (rowK (F := Ideal) (Arg m c main_arg16)) (Arg m c main_arg17) (rowK (F := Ideal) (Arg m c main_arg18))
theorem X3_def : X3 m c = bnRelu (T2 m c) (meanK (colSum (T2 m c))) (varK (colSum (T2 m c)) (colSumSq (T2 m c))) (rowK (F := Ideal) (Arg m c main_arg19)) (rowK (F := Ideal) (Arg m c main_arg20)) := rfl

theorem in2_x : W9 m ρ c (Proc.devRef .tc main_v47) = X2 m c :=
  ((StableHlo.after_of_writes_sub hostOps4 _ hostOps4_writes (by decide : main_v47 ∉ hostOps4_W))).trans (out1 m ρ c)
theorem in2_agg : W9 m ρ c (Proc.devRef .tc main_v57) = aggK128 (F := Ideal) (X2 m c) (row0 (Arg m c main_arg1)) (row1 (Arg m c main_arg1)) :=
  (W9_agg m ρ c).trans (by rw [out1 m ρ c, W8_v1 m ρ c, W1_v1 m ρ c, W8_v3 m ρ c, W1_v3 m ρ c])
theorem in2_b1 : W9 m ρ c (Proc.devRef .tc main_v58) = rowK (F := Ideal) (Arg m c main_arg16) :=
  (W9_v58 m ρ c).trans (by rw [W8_arg16 m ρ c])
theorem in2_b2 : W9 m ρ c (Proc.devRef .tc main_v59) = rowK (F := Ideal) (Arg m c main_arg18) :=
  (W9_v59 m ρ c).trans (by rw [W8_arg18 m ρ c])
theorem in2_g : W9 m ρ c (Proc.devRef .tc main_v60) = rowK (F := Ideal) (Arg m c main_arg19) :=
  (W9_v60 m ρ c).trans (by rw [W8_arg19 m ρ c])
theorem in2_b : W9 m ρ c (Proc.devRef .tc main_v61) = rowK (F := Ideal) (Arg m c main_arg20) :=
  (W9_v61 m ρ c).trans (by rw [W8_arg20 m ρ c])

theorem mm2_args : mlp (n := 100000) (W9 m ρ c (Proc.devRef .tc main_v47)) (W9 m ρ c (Proc.devRef .tc main_v57)) (W9 m ρ c (Proc.devRef .tc main_arg15)) (W9 m ρ c (Proc.devRef .tc main_v58)) (W9 m ρ c (Proc.devRef .tc main_arg17)) (W9 m ρ c (Proc.devRef .tc main_v59)) = T2 m c := by
  rw [in2_x m ρ c, in2_agg m ρ c, W9_arg15 m ρ c, in2_b1 m ρ c, W9_arg17 m ρ c, in2_b2 m ρ c]; rfl
theorem t2 : W10 m ρ c (Proc.devRef .tc main_v62_0) = T2 m c :=
  (W10_arr m ρ c 6).trans ((final4_6 (V9 m ρ) c).trans (mm2_args m ρ c))
theorem s2 : W10 m ρ c (Proc.devRef .tc main_v62_1) = colSum (T2 m c) :=
  (W10_arr m ρ c 7).trans ((final4_7 (V9 m ρ) c).trans (congrArg colSum (mm2_args m ρ c)))
theorem sq2 : W10 m ρ c (Proc.devRef .tc main_v62_2) = colSumSq (T2 m c) :=
  (W10_arr m ρ c 8).trans ((final4_8 (V9 m ρ) c).trans (congrArg colSumSq (mm2_args m ρ c)))

theorem bn2_t : W11 m ρ c (Proc.devRef .tc main_v62_0) = T2 m c := ((StableHlo.after_of_writes_sub hostOps5 _ hostOps5_writes (by decide : main_v62_0 ∉ hostOps5_W))).trans (t2 m ρ c)
theorem bn2_mean : W11 m ρ c (Proc.devRef .tc main_v64) = meanK (colSum (T2 m c)) :=
  (W11_mean m ρ c).trans (by rw [s2 m ρ c]; exact meanH_eq _)
theorem bn2_var : W11 m ρ c (Proc.devRef .tc main_v68) = varK (colSum (T2 m c)) (colSumSq (T2 m c)) :=
  (W11_var m ρ c).trans (by rw [s2 m ρ c, sq2 m ρ c]; exact varH_eq _ _)
theorem bn2_g : W11 m ρ c (Proc.devRef .tc main_v60) = rowK (F := Ideal) (Arg m c main_arg19) := ((StableHlo.after_of_writes_sub hostOps5 _ hostOps5_writes (by decide : main_v60 ∉ hostOps5_W)).trans <| (W10_of_ne m ρ c main_v60 (by decide))).trans (in2_g m ρ c)
theorem bn2_b : W11 m ρ c (Proc.devRef .tc main_v61) = rowK (F := Ideal) (Arg m c main_arg20) := ((StableHlo.after_of_writes_sub hostOps5 _ hostOps5_writes (by decide : main_v61 ∉ hostOps5_W)).trans <| (W10_of_ne m ρ c main_v61 (by decide))).trans (in2_b m ρ c)
/-- What layer 2 leaves. -/
theorem out2 : W12 m ρ c (Proc.devRef .tc main_v69) = X3 m c :=
  (W12_arr m ρ c 5).trans ((final5_5 (V11 m ρ) c).trans (by
    show bnRelu (n := 100000) (W11 m ρ c (Proc.devRef .tc main_v62_0)) (W11 m ρ c (Proc.devRef .tc main_v64)) (W11 m ρ c (Proc.devRef .tc main_v68)) (W11 m ρ c (Proc.devRef .tc main_v60)) (W11 m ρ c (Proc.devRef .tc main_v61)) = _
    rw [bn2_t m ρ c, bn2_mean m ρ c, bn2_var m ρ c, bn2_g m ρ c, bn2_b m ρ c, X3_def m c]))

/-! ## Pooling and readout -/

theorem ge_eq : W13 m ρ c (Proc.devRef .tc main_v72) = poolK (F := Ideal) (X3 m c) (Arg m c main_arg2) :=
  (W13_v72 m ρ c).trans (by rw [out2 m ρ c, W12_arg2 m ρ c])
/-- The result array after the run is the kernel program's function of the arguments. -/
theorem result_eq : ((dat6 (V13 m ρ) c).arrAt 7 cfg6.N : Arr2 1024 12) =
    kerOut (Arg m c main_arg0) (Arg m c main_arg1) (Arg m c main_arg2) (Arg m c main_arg3) (Arg m c main_arg4) (Arg m c main_arg5) (Arg m c main_arg6) (Arg m c main_arg7) (Arg m c main_arg8) (Arg m c main_arg9) (Arg m c main_arg10) (Arg m c main_arg11) (Arg m c main_arg12) (Arg m c main_arg13) (Arg m c main_arg14) (Arg m c main_arg15) (Arg m c main_arg16) (Arg m c main_arg17) (Arg m c main_arg18) (Arg m c main_arg19) (Arg m c main_arg20) (Arg m c main_arg21) (Arg m c main_arg22) (Arg m c main_arg23) (Arg m c main_arg24) (Arg m c main_arg25) (Arg m c main_arg26) :=
  (final6_7 (V13 m ρ) c).trans (by
    show readout (n := 1024) (W13 m ρ c (Proc.devRef .tc main_v72)) (W13 m ρ c (Proc.devRef .tc main_arg21)) (W13 m ρ c (Proc.devRef .tc main_v73)) (W13 m ρ c (Proc.devRef .tc main_arg23)) (W13 m ρ c (Proc.devRef .tc main_v74)) (W13 m ρ c (Proc.devRef .tc main_arg25)) (W13 m ρ c (Proc.devRef .tc main_v75)) = _
    rw [ge_eq m ρ c, W13_arg21 m ρ c, W13_v73 m ρ c, W12_arg22 m ρ c, W13_arg23 m ρ c, W13_v74 m ρ c, W12_arg24 m ρ c, W13_arg25 m ρ c, W13_v75 m ρ c, W12_arg26 m ρ c]
    rfl)

end Cert.KernelIdeal.Hand

end
-- ==== Proof.Ref.Ops.lean ====
/- The reference program's @main as lists of its host operations, in program order, cut into 19 consecutive
   stretches: one per stage of the network (a stretch also ends where the printed program's own windows do). An
   outlined function's operations stand at its call site over that call's buffer record. With each stretch: the
   buffers it writes, and that its operations touch TensorCore buffers only and write only those. -/
import proofs.«142609_j54228257079879_1_alg».proof.ReferenceIdeal
import proofs.«142609_j54228257079879_1_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- Running two stretches from contents `V` is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1 … 12 of 242: the source column: row 0 of the edge list, negative indices wrapped; row 1 flattened. -/
abbrev ops1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)) ]
/-- The buffers those operations write. -/
abbrev ops1_W : List (Ref sig .tc) := [main_v0, main_v1, main_v2, main_v3, main_c, main_v4, main_v5, main_c_0, main_v6, main_v7, main_v8, main_v9]
theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩
theorem ops1_writes : (ops1 : List (HloOp τ sig (Elt F))).Forall fun op => op.writes ⊆ (ops1_W.map (Proc.devRef (τ := τ) .tc)).toFinset :=
  ⟨Finset.singleton_subset_iff.mpr (List.mem_toFinset.mpr (List.mem_map_of_mem (a := main_v0) (by decide))),
   Finset.singleton_subset_iff.mpr (List.mem_toFinset.mpr (List.mem_map_of_mem (a := main_v1) (by decide))),
   Finset.singleton_subset_iff.mpr (List.mem_toFinset.mpr (List.mem_map_of_mem (a := main_v2) (by decide))),
   Finset.singleton_subset_iff.mpr (List.mem_toFinset.mpr (List.mem_map_of_mem (a := main_v3) (by decide))),
   Finset.singleton_subset_iff.mpr (List.mem_toFinset.mpr (List.mem_map_of_mem (a := main_c) (by decide))),
   Finset.singleton_subset_iff.mpr (List.mem_toFinset.mpr (List.mem_map_of_mem (a := main_v4) (by decide))),
   Finset.singleton_subset_iff.mpr (List.mem_toFinset.mpr (List.mem_map_of_mem (a := main_v5) (by decide))),
   Finset.singleton_subset_iff.mpr (List.mem_toFinset.mpr (List.mem_map_of_mem (a := main_c_0) (by decide))),
   Finset.singleton_subset_iff.mpr (List.mem_toFinset.mpr (List.mem_map_of_mem (a := main_v6) (by decide))),
   Finset.singleton_subset_iff.mpr (List.mem_toFinset.mpr (List.mem_map_of_mem (a := main_v7) (by decide))),
   Finset.singleton_subset_iff.mpr (List.mem_toFinset.mpr (List.mem_map_of_mem (a := main_v8) (by decide))),
   Finset.singleton_subset_iff.mpr (List.mem_toFinset.mpr (List.mem_map_of_mem (a := main_v9) (by decide)))⟩

/-- Operations 13 … 17 of 242: layer 1: gather at the sources, scatter-add at the destinations. -/
abbrev ops2 : List (HloOp τ sig (Elt F)) :=
  [ StableHlo.binary main_arg0 main_v9 main_v10 ((fun x i => Host.gather gather_S100000x12_S1600000x1_S1600000x12_1_0_n_n_0_1_112 x i) : (⟨S100000x12, .f32⟩ : BufTy).Contents (Elt F) → (⟨S1600000x1, .i32⟩ : BufTy).Contents (Elt F) → (⟨S1600000x12, .f32⟩ : BufTy).Contents (Elt F)),
    StableHlo.nullary main_cst (constant S_ .f32 0x00000000#32),
    StableHlo.unary main_cst main_v11 (broadcastInDim S100000x12 ![] bcast_S_S100000x12 : (⟨S_, .f32⟩ : BufTy).Contents (Elt F) → (⟨S100000x12, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x12_S1600000x1_S1600000x12_1_0_0_1 x i u) : (⟨S100000x12, .f32⟩ : BufTy).Contents (Elt F) → (⟨S1600000x1, .i32⟩ : BufTy).Contents (Elt F) → (⟨S1600000x12, .f32⟩ : BufTy).Contents (Elt F) → (⟨S100000x12, .f32⟩ : BufTy).Contents (Elt F)) ]
/-- The buffers those operations write. -/
abbrev ops2_W : List (Ref sig .tc) := [main_v10, main_cst, main_v11, main_v12, main_v13]
theorem ops2_sub : (ops2 : List (HloOp τ sig (Elt F))).Forall fun op => op.bufs ⊆ tcRefs τ sig :=
  ⟨binary_bufs_sub .., nullary_bufs_sub .., unary_bufs_sub .., unary_bufs_sub .., ternary_bufs_sub ..⟩
theorem ops2_writes : (ops2 : List (HloOp τ sig (Elt F))).Forall fun op => op.writes ⊆ (ops2_W.map (Proc.devRef (τ := τ) .tc)).toFinset :=
  ⟨Finset.singleton_subset_iff.mpr (List.mem_toFinset.mpr (List.mem_map_of_mem (a := main_v10) (by decide))),
   Finset.singleton_subset_iff.mpr (List.mem_toFinset.mpr (List.mem_map_of_mem (a := main_cst) (by decide))),
   Finset.singleton_subset_iff.mpr (List.mem_toFinset.mpr (List.mem_map_of_mem (a := main_v11) (by decide))),
   Finset.singleton_subset_iff.mpr (List.mem_toFinset.mpr (List.mem_map_of_mem (a := main_v12) (by decide))),
   Finset.singleton_subset_iff.mpr (List.mem_toFinset.mpr (List.mem_map_of_mem (a := main_v13) (by decide)))⟩

/-- Operations 18 … 29 of 242: layer 1: the perceptron. -/
abbrev ops3 : List (HloOp τ sig (Elt F)) :=
  [ StableHlo.binary main_arg0 main_v13 main_v14 (addf : (⟨S100000x12, .f32⟩ : BufTy).Contents (Elt F) → (⟨S100000x12, .f32⟩ : BufTy).Contents (Elt F) → (⟨S100000x12, .f32⟩ : BufTy).Contents (Elt F)),
    StableHlo.binary main_v14 main_arg3 main_v15 ((fun l r => Host.dotGeneral dot_S100000x12_S12x128_S100000x128_1_0_0_1_n_n none l r) : (⟨S100000x12, .f32⟩ : BufTy).Contents (Elt F) → (⟨S12x128, .f32⟩ : BufTy).Contents (Elt F) → (⟨S100000x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.unary main_cst_1 main_v19 (broadcastInDim S100000x128 ![] bcast_S_S100000x128 : (⟨S_, .f32⟩ : BufTy).Contents (Elt F) → (⟨S100000x128, .f32⟩ : BufTy).Contents (Elt F)),
    StableHlo.binary main_v18 main_v19 main_v20 (maximumf : (⟨S100000x128, .f32⟩ : BufTy).Contents (Elt F) → (⟨S100000x128, .f32⟩ : BufTy).Contents (Elt F) → (⟨S100000x128, .f32⟩ : BufTy).Contents (Elt F)),
    StableHlo.binary main_v20 main_arg5 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)) ]
/-- The buffers those operations write. -/
abbrev ops3_W : List (Ref sig .tc) := [main_v14, main_v15, main_v16, main_v17, main_v18, main_cst_1, main_v19, main_v20, main_v21, main_v22, main_v23, main_v24]
theorem ops3_sub : (ops3 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops3_writes : (ops3 : List (HloOp τ sig (Elt F))).Forall fun op => op.writes ⊆ (ops3_W.map (Proc.devRef (τ := τ) .tc)).toFinset :=
  ⟨Finset.singleton_subset_iff.mpr (List.mem_toFinset.mpr (List.mem_map_of_mem (a := main_v14) (by decide))),
   Finset.singleton_subset_iff.mpr (List.mem_toFinset.mpr (List.mem_map_of_mem (a := main_v15) (by decide))),
   Finset.singleton_subset_iff.mpr (List.mem_toFinset.mpr (List.mem_map_of_mem (a := main_v16) (by decide))),
   Finset.singleton_subset_iff.mpr (List.mem_toFinset.mpr (List.mem_map_of_mem (a := main_v17) (by decide))),
   Finset.singleton_subset_iff.mpr (List.mem_toFinset.mpr (List.mem_map_of_mem (a := main_v18) (by decide))),
   Finset.singleton_subset_iff.mpr (List.mem_toFinset.mpr (List.mem_map_of_mem (a := main_cst_1) (by decide))),
   Finset.singleton_subset_iff.mpr (List.mem_toFinset.mpr (List.mem_map_of_mem (a := main_v19) (by decide))),
   Finset.singleton_subset_iff.mpr (List.mem_toFinset.mpr (List.mem_map_of_mem (a := main_v20) (by decide))),
   Finset.singleton_subset_iff.mpr (List.mem_toFinset.mpr (List.mem_map_of_mem (a := main_v21) (by decide))),
   Finset.singleton_subset_iff.mpr (List.mem_toFinset.mpr (List.mem_map_of_mem (a := main_v22) (by decide))),
   Finset.singleton_subset_iff.mpr (List.mem_toFinset.mpr (List.mem_map_of_mem (a := main_v23) (by decide))),
   Finset.singleton_subset_iff.mpr (List.mem_toFinset.mpr (List.mem_map_of_mem (a := main_v24) (by decide)))⟩

/-- Operations 30 … 57 of 242: layer 1: the column mean, then the variance function's operations (the selection's three last). -/
abbrev ops4 : List (HloOp τ sig (Elt F)) :=
  [ StableHlo.nullary main_cst_2 (constant S_ .f32 0x00000000#32),
    StableHlo.binary main_v24 main_cst_2 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (.of main_v24 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v24 : StableHlo.TRef sig ⟨S100000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]
/-- The buffers those operations write. -/
abbrev ops4_W : List (Ref sig .tc) := [main_cst_2, main_v25, main_cst_3, main_v26, main_v27, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v28]
theorem ops4_sub : (ops4 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops4_writes : (ops4 : List (HloOp τ sig (Elt F))).Forall fun op => op.writes ⊆ (ops4_W.map (Proc.devRef (τ := τ) .tc)).toFinset :=
  ⟨Finset.singleton_subset_iff.mpr (List.mem_toFinset.mpr (List.mem_map_of_mem (a := main_cst_2) (by decide))),
   Finset.singleton_subset_iff.mpr (List.mem_toFinset.mpr (List.mem_map_of_mem (a := main_v25) (by decide))),
   Finset.singleton_subset_iff.mpr (List.mem_toFinset.mpr (List.mem_map_of_mem (a := main_cst_3) (by decide))),
   Finset.singleton_subset_iff.mpr (List.mem_toFinset.mpr (List.mem_map_of_mem (a := main_v26) (by decide))),
   Finset.singleton_subset_iff.mpr (List.mem_toFinset.mpr (List.mem_map_of_mem (a := main_v27) (by decide))),
   Finset.singleton_subset_iff.mpr (List.mem_toFinset.mpr (List.mem_map_of_mem (a := main_c_4) (by decide))),
   Finset.singleton_subset_iff.mpr (List.mem_toFinset.mpr (List.mem_map_of_mem (a := main_call0_cst) (by decide))),
   Finset.singleton_subset_iff.mpr (List.mem_toFinset.mpr (List.mem_map_of_mem (a := main_call0_v0) (by decide))),
   Finset.singleton_subset_iff.mpr (List.mem_toFinset.mpr (List.mem_map_of_mem (a := main_call0_v1) (by decide))),
   Finset.singleton_subset_iff.mpr (List.mem_toFinset.mpr (List.mem_map_of_mem (a := main_call0_cst_0) (by decide))),
   Finset.singleton_subset_iff.mpr (List.mem_toFinset.mpr (List.mem_map_of_mem (a := main_call0_v2) (by decide))),
   Finset.singleton_subset_iff.mpr (List.mem_toFinset.mpr (List.mem_map_of_mem (a := main_call0_v3) (by decide))),
   Finset.singleton_subset_iff.mpr (List.mem_toFinset.mpr (List.mem_map_of_mem (a := main_call0_v4) (by decide))),
   Finset.singleton_subset_iff.mpr (List.mem_toFinset.mpr (List.mem_map_of_mem (a := main_call0_v5) (by decide))),
   Finset.singleton_subset_iff.mpr (List.mem_toFinset.mpr (List.mem_map_of_mem (a := main_call0_v6) (by decide))),
   Finset.singleton_subset_iff.mpr (List.mem_toFinset.mpr (List.mem_map_of_mem (a := main_call0_v7) (by decide))),
   Finset.singleton_subset_iff.mpr (List.mem_toFinset.mpr (List.mem_map_of_mem (a := main_call0_cst_1) (by decide))),
   Finset.singleton_subset_iff.mpr (List.mem_toFinset.mpr (List.mem_map_of_mem (a := main_call0_v8) (by decide))),
   Finset.singleton_subset_iff.mpr (List.mem_toFinset.mpr (List.mem_map_of_mem (a := main_call0_cst_2) (by decide))),
   Finset.singleton_subset_iff.mpr (List.mem_toFinset.mpr (List.mem_map_of_mem (a := main_call0_v9) (by decide))),
   Finset.singleton_subset_iff.mpr (List.mem_toFinset.mpr (List.mem_map_of_mem (a := main_call0_v10) (by decide))),
   Finset.singleton_subset_iff.mpr (List.mem_toFinset.mpr (List.mem_map_of_mem (a := main_call0_v11) (by decide))),
   Finset.singleton_subset_iff.mpr (List.mem_toFinset.mpr (List.mem_map_of_mem (a := main_call0_cst_3) (by decide))),
   Finset.singleton_subset_iff.mpr (List.mem_toFinset.mpr (List.mem_map_of_mem (a := main_call0_v12) (by decide))),
   Finset.singleton_subset_iff.mpr (List.mem_toFinset.mpr (List.mem_map_of_mem (a := main_call0_cst_4) (by decide))),
   Finset.singleton_subset_iff.mpr (List.mem_toFinset.mpr (List.mem_map_of_mem (a := main_call0_call0_v0) (by decide))),
   Finset.singleton_subset_iff.mpr (List.mem_toFinset.mpr (List.mem_map_of_mem (a := main_call0_call0_v1) (by decide))),
   Finset.singleton_subset_iff.mpr (List.mem_toFinset.mpr (List.mem_map_of_mem (a := main_v28) (by decide)))⟩

/-- Operations 58 … 76 of 242: layer 1: normalise, scale, shift, rectify. -/
abbrev ops5 : List (HloOp τ sig (Elt F)) :=
  [ StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v30 main_v31 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v36 main_v37 (mulf : (⟨S100000x128, .f32⟩ : BufTy).Contents (Elt F) → (⟨S100000x128, .f32⟩ : BufTy).Contents (Elt F) → (⟨S100000x128, .f32⟩ : BufTy).Contents (Elt F)),
    StableHlo.unary main_arg7 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg8 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x00000000#32),
    StableHlo.unary main_cst_6 main_v44 (broadcastInDim S100000x128 ![] bcast_S_S100000x128 : (⟨S_, .f32⟩ : BufTy).Contents (Elt F) → (⟨S100000x128, .f32⟩ : BufTy).Contents (Elt F)),
    StableHlo.binary main_v43 main_v44 main_v45 (maximumf : (⟨S100000x128, .f32⟩ : BufTy).Contents (Elt F) → (⟨S100000x128, .f32⟩ : BufTy).Contents (Elt F) → (⟨S100000x128, .f32⟩ : BufTy).Contents (Elt F)) ]
/-- The buffers those operations write. -/
abbrev ops5_W : List (Ref sig .tc) := [main_v29, main_v30, main_v31, main_cst_5, main_v32, main_v33, main_v34, main_v35, main_v36, main_v37, main_v38, main_v39, main_v40, main_v41, main_v42, main_v43, main_cst_6, main_v44, main_v45]
theorem ops5_sub : (ops5 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ops5_writes : (ops5 : List (HloOp τ sig (Elt F))).Forall fun op => op.writes ⊆ (ops5_W.map (Proc.devRef (τ := τ) .tc)).toFinset :=
  ⟨Finset.singleton_subset_iff.mpr (List.mem_toFinset.mpr (List.mem_map_of_mem (a := main_v29) (by decide))),
   Finset.singleton_subset_iff.mpr (List.mem_toFinset.mpr (List.mem_map_of_mem (a := main_v30) (by decide))),
   Finset.singleton_subset_iff.mpr (List.mem_toFinset.mpr (List.mem_map_of_mem (a := main_v31) (by decide))),
   Finset.singleton_subset_iff.mpr (List.mem_toFinset.mpr (List.mem_map_of_mem (a := main_cst_5) (by decide))),
   Finset.singleton_subset_iff.mpr (List.mem_toFinset.mpr (List.mem_map_of_mem (a := main_v32) (by decide))),
   Finset.singleton_subset_iff.mpr (List.mem_toFinset.mpr (List.mem_map_of_mem (a := main_v33) (by decide))),
   Finset.singleton_subset_iff.mpr (List.mem_toFinset.mpr (List.mem_map_of_mem (a := main_v34) (by decide))),
   Finset.singleton_subset_iff.mpr (List.mem_toFinset.mpr (List.mem_map_of_mem (a := main_v35) (by decide))),
   Finset.singleton_subset_iff.mpr (List.mem_toFinset.mpr (List.mem_map_of_mem (a := main_v36) (by decide))),
   Finset.singleton_subset_iff.mpr (List.mem_toFinset.mpr (List.mem_map_of_mem (a := main_v37) (by decide))),
   Finset.singleton_subset_iff.mpr (List.mem_toFinset.mpr (List.mem_map_of_mem (a := main_v38) (by decide))),
   Finset.singleton_subset_iff.mpr (List.mem_toFinset.mpr (List.mem_map_of_mem (a := main_v39) (by decide))),
   Finset.singleton_subset_iff.mpr (List.mem_toFinset.mpr (List.mem_map_of_mem (a := main_v40) (by decide))),
   Finset.singleton_subset_iff.mpr (List.mem_toFinset.mpr (List.mem_map_of_mem (a := main_v41) (by decide))),
   Finset.singleton_subset_iff.mpr (List.mem_toFinset.mpr (List.mem_map_of_mem (a := main_v42) (by decide))),
   Finset.singleton_subset_iff.mpr (List.mem_toFinset.mpr (List.mem_map_of_mem (a := main_v43) (by decide))),
   Finset.singleton_subset_iff.mpr (List.mem_toFinset.mpr (List.mem_map_of_mem (a := main_cst_6) (by decide))),
   Finset.singleton_subset_iff.mpr (List.mem_toFinset.mpr (List.mem_map_of_mem (a := main_v44) (by decide))),
   Finset.singleton_subset_iff.mpr (List.mem_toFinset.mpr (List.mem_map_of_mem (a := main_v45) (by decide)))⟩

/-- Operations 77 … 81 of 242: layer 2: the source column again, first part. -/
abbrev ops6 : List (HloOp τ sig (Elt F)) :=
  [ StableHlo.nullary main_c_7 (constantI S_ 32 0#32),
    StableHlo.unary main_c_7 main_v46 (broadcastInDim S1600000 ![] bcast_S_S1600000 : (⟨S_, .i32⟩ : BufTy).Contents (Elt F) → (⟨S1600000, .i32⟩ : BufTy).Contents (Elt F)),
    StableHlo.binary main_v1 main_v46 main_v47 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v48 (broadcastInDim S1600000 ![] bcast_S_S1600000 : (⟨S_, .i32⟩ : BufTy).Contents (Elt F) → (⟨S1600000, .i32⟩ : BufTy).Contents (Elt F)) ]
/-- The buffers those operations write. -/
abbrev ops6_W : List (Ref sig .tc) := [main_c_7, main_v46, main_v47, main_c_8, main_v48]
theorem ops6_sub : (ops6 : List (HloOp τ sig (Elt F))).Forall fun op => op.bufs ⊆ tcRefs τ sig :=
  ⟨nullary_bufs_sub .., unary_bufs_sub .., binary_bufs_sub .., nullary_bufs_sub .., unary_bufs_sub ..⟩
theorem ops6_writes : (ops6 : List (HloOp τ sig (Elt F))).Forall fun op => op.writes ⊆ (ops6_W.map (Proc.devRef (τ := τ) .tc)).toFinset :=
  ⟨Finset.singleton_subset_iff.mpr (List.mem_toFinset.mpr (List.mem_map_of_mem (a := main_c_7) (by decide))),
   Finset.singleton_subset_iff.mpr (List.mem_toFinset.mpr (List.mem_map_of_mem (a := main_v46) (by decide))),
   Finset.singleton_subset_iff.mpr (List.mem_toFinset.mpr (List.mem_map_of_mem (a := main_v47) (by decide))),
   Finset.singleton_subset_iff.mpr (List.mem_toFinset.mpr (List.mem_map_of_mem (a := main_c_8) (by decide))),
   Finset.singleton_subset_iff.mpr (List.mem_toFinset.mpr (List.mem_map_of_mem (a := main_v48) (by decide)))⟩

/-- Operations 82 … 84 of 242: layer 2: the source column again, second part. -/
abbrev ops7 : List (HloOp τ sig (Elt F)) :=
  [ StableHlo.binary main_v1 main_v48 main_v49 (addi : (⟨S1600000, .i32⟩ : BufTy).Contents (Elt F) → (⟨S1600000, .i32⟩ : BufTy).Contents (Elt F) → (⟨S1600000, .i32⟩ : BufTy).Contents (Elt F)),
    StableHlo.ternary main_v47 main_v49 main_v1 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v50 main_v51 (broadcastInDim S1600000x1 ![0] bcast_S1600000_S1600000x1_0 : (⟨S1600000, .i32⟩ : BufTy).Contents (Elt F) → (⟨S1600000x1, .i32⟩ : BufTy).Contents (Elt F)) ]
/-- The buffers those operations write. -/
abbrev ops7_W : List (Ref sig .tc) := [main_v49, main_v50, main_v51]
theorem ops7_sub : (ops7 : List (HloOp τ sig (Elt F))).Forall fun op => op.bufs ⊆ tcRefs τ sig :=
  ⟨binary_bufs_sub .., ternary_bufs_sub .., unary_bufs_sub ..⟩
theorem ops7_writes : (ops7 : List (HloOp τ sig (Elt F))).Forall fun op => op.writes ⊆ (ops7_W.map (Proc.devRef (τ := τ) .tc)).toFinset :=
  ⟨Finset.singleton_subset_iff.mpr (List.mem_toFinset.mpr (List.mem_map_of_mem (a := main_v49) (by decide))),
   Finset.singleton_subset_iff.mpr (List.mem_toFinset.mpr (List.mem_map_of_mem (a := main_v50) (by decide))),
   Finset.singleton_subset_iff.mpr (List.mem_toFinset.mpr (List.mem_map_of_mem (a := main_v51) (by decide)))⟩

/-- Operations 85 … 89 of 242: layer 2: gather, scatter-add. -/
abbrev ops8 : List (HloOp τ sig (Elt F)) :=
  [ StableHlo.binary main_v45 main_v51 main_v52 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_9 (constant S_ .f32 0x00000000#32),
    StableHlo.unary main_cst_9 main_v53 (broadcastInDim S100000x128 ![] bcast_S_S100000x128 : (⟨S_, .f32⟩ : BufTy).Contents (Elt F) → (⟨S100000x128, .f32⟩ : BufTy).Contents (Elt F)),
    StableHlo.unary main_v3 main_v54 (broadcastInDim S1600000x1 ![0] bcast_S1600000_S1600000x1_0 : (⟨S1600000, .i32⟩ : BufTy).Contents (Elt F) → (⟨S1600000x1, .i32⟩ : BufTy).Contents (Elt F)),
    StableHlo.ternary main_v53 main_v54 main_v52 main_v55 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The buffers those operations write. -/
abbrev ops8_W : List (Ref sig .tc) := [main_v52, main_cst_9, main_v53, main_v54, main_v55]
theorem ops8_sub : (ops8 : List (HloOp τ sig (Elt F))).Forall fun op => op.bufs ⊆ tcRefs τ sig :=
  ⟨binary_bufs_sub .., nullary_bufs_sub .., unary_bufs_sub .., unary_bufs_sub .., ternary_bufs_sub ..⟩
theorem ops8_writes : (ops8 : List (HloOp τ sig (Elt F))).Forall fun op => op.writes ⊆ (ops8_W.map (Proc.devRef (τ := τ) .tc)).toFinset :=
  ⟨Finset.singleton_subset_iff.mpr (List.mem_toFinset.mpr (List.mem_map_of_mem (a := main_v52) (by decide))),
   Finset.singleton_subset_iff.mpr (List.mem_toFinset.mpr (List.mem_map_of_mem (a := main_cst_9) (by decide))),
   Finset.singleton_subset_iff.mpr (List.mem_toFinset.mpr (List.mem_map_of_mem (a := main_v53) (by decide))),
   Finset.singleton_subset_iff.mpr (List.mem_toFinset.mpr (List.mem_map_of_mem (a := main_v54) (by decide))),
   Finset.singleton_subset_iff.mpr (List.mem_toFinset.mpr (List.mem_map_of_mem (a := main_v55) (by decide)))⟩

/-- Operations 90 … 101 of 242: layer 2: the perceptron. -/
abbrev ops9 : List (HloOp τ sig (Elt F)) :=
  [ StableHlo.binary main_v45 main_v55 main_v56 (addf : (⟨S100000x128, .f32⟩ : BufTy).Contents (Elt F) → (⟨S100000x128, .f32⟩ : BufTy).Contents (Elt F) → (⟨S100000x128, .f32⟩ : BufTy).Contents (Elt F)),
    StableHlo.binary main_v56 main_arg9 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg10 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.unary main_cst_10 main_v61 (broadcastInDim S100000x128 ![] bcast_S_S100000x128 : (⟨S_, .f32⟩ : BufTy).Contents (Elt F) → (⟨S100000x128, .f32⟩ : BufTy).Contents (Elt F)),
    StableHlo.binary main_v60 main_v61 main_v62 (maximumf : (⟨S100000x128, .f32⟩ : BufTy).Contents (Elt F) → (⟨S100000x128, .f32⟩ : BufTy).Contents (Elt F) → (⟨S100000x128, .f32⟩ : BufTy).Contents (Elt F)),
    StableHlo.binary main_v62 main_arg11 main_v63 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)) ]
/-- The buffers those operations write. -/
abbrev ops9_W : List (Ref sig .tc) := [main_v56, main_v57, main_v58, main_v59, main_v60, main_cst_10, main_v61, main_v62, main_v63, main_v64, main_v65, main_v66]
theorem ops9_sub : (ops9 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops9_writes : (ops9 : List (HloOp τ sig (Elt F))).Forall fun op => op.writes ⊆ (ops9_W.map (Proc.devRef (τ := τ) .tc)).toFinset :=
  ⟨Finset.singleton_subset_iff.mpr (List.mem_toFinset.mpr (List.mem_map_of_mem (a := main_v56) (by decide))),
   Finset.singleton_subset_iff.mpr (List.mem_toFinset.mpr (List.mem_map_of_mem (a := main_v57) (by decide))),
   Finset.singleton_subset_iff.mpr (List.mem_toFinset.mpr (List.mem_map_of_mem (a := main_v58) (by decide))),
   Finset.singleton_subset_iff.mpr (List.mem_toFinset.mpr (List.mem_map_of_mem (a := main_v59) (by decide))),
   Finset.singleton_subset_iff.mpr (List.mem_toFinset.mpr (List.mem_map_of_mem (a := main_v60) (by decide))),
   Finset.singleton_subset_iff.mpr (List.mem_toFinset.mpr (List.mem_map_of_mem (a := main_cst_10) (by decide))),
   Finset.singleton_subset_iff.mpr (List.mem_toFinset.mpr (List.mem_map_of_mem (a := main_v61) (by decide))),
   Finset.singleton_subset_iff.mpr (List.mem_toFinset.mpr (List.mem_map_of_mem (a := main_v62) (by decide))),
   Finset.singleton_subset_iff.mpr (List.mem_toFinset.mpr (List.mem_map_of_mem (a := main_v63) (by decide))),
   Finset.singleton_subset_iff.mpr (List.mem_toFinset.mpr (List.mem_map_of_mem (a := main_v64) (by decide))),
   Finset.singleton_subset_iff.mpr (List.mem_toFinset.mpr (List.mem_map_of_mem (a := main_v65) (by decide))),
   Finset.singleton_subset_iff.mpr (List.mem_toFinset.mpr (List.mem_map_of_mem (a := main_v66) (by decide)))⟩

/-- Operations 102 … 129 of 242: layer 2: the column mean, then the variance function's operations. -/
abbrev ops10 : List (HloOp τ sig (Elt F)) :=
  [ StableHlo.nullary main_cst_11 (constant S_ .f32 0x00000000#32),
    StableHlo.binary main_v66 main_cst_11 main_v67 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v68 (broadcastInDim S128 ![] bcast_S_S128 : (⟨S_, .f32⟩ : BufTy).Contents (Elt F) → (⟨S128, .f32⟩ : BufTy).Contents (Elt F)),
    StableHlo.binary main_v67 main_v68 main_v69 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call1.cst (constant S_ .f32 0x00000000#32),
    StableHlo.TRef.binary (.of main_v66 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v66 : StableHlo.TRef sig ⟨S100000x128, .f32⟩) main_call1.v4 main_call1.v5 subf,
    StableHlo.TRef.binary main_call1.v5 main_call1.v5 main_call1.v6 mulf,
    StableHlo.TRef.unary (.of main_c_13 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]
/-- The buffers those operations write. -/
abbrev ops10_W : List (Ref sig .tc) := [main_cst_11, main_v67, main_cst_12, main_v68, main_v69, main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v70]
theorem ops10_sub : (ops10 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops10_writes : (ops10 : List (HloOp τ sig (Elt F))).Forall fun op => op.writes ⊆ (ops10_W.map (Proc.devRef (τ := τ) .tc)).toFinset :=
  ⟨Finset.singleton_subset_iff.mpr (List.mem_toFinset.mpr (List.mem_map_of_mem (a := main_cst_11) (by decide))),
   Finset.singleton_subset_iff.mpr (List.mem_toFinset.mpr (List.mem_map_of_mem (a := main_v67) (by decide))),
   Finset.singleton_subset_iff.mpr (List.mem_toFinset.mpr (List.mem_map_of_mem (a := main_cst_12) (by decide))),
   Finset.singleton_subset_iff.mpr (List.mem_toFinset.mpr (List.mem_map_of_mem (a := main_v68) (by decide))),
   Finset.singleton_subset_iff.mpr (List.mem_toFinset.mpr (List.mem_map_of_mem (a := main_v69) (by decide))),
   Finset.singleton_subset_iff.mpr (List.mem_toFinset.mpr (List.mem_map_of_mem (a := main_c_13) (by decide))),
   Finset.singleton_subset_iff.mpr (List.mem_toFinset.mpr (List.mem_map_of_mem (a := main_call1_cst) (by decide))),
   Finset.singleton_subset_iff.mpr (List.mem_toFinset.mpr (List.mem_map_of_mem (a := main_call1_v0) (by decide))),
   Finset.singleton_subset_iff.mpr (List.mem_toFinset.mpr (List.mem_map_of_mem (a := main_call1_v1) (by decide))),
   Finset.singleton_subset_iff.mpr (List.mem_toFinset.mpr (List.mem_map_of_mem (a := main_call1_cst_0) (by decide))),
   Finset.singleton_subset_iff.mpr (List.mem_toFinset.mpr (List.mem_map_of_mem (a := main_call1_v2) (by decide))),
   Finset.singleton_subset_iff.mpr (List.mem_toFinset.mpr (List.mem_map_of_mem (a := main_call1_v3) (by decide))),
   Finset.singleton_subset_iff.mpr (List.mem_toFinset.mpr (List.mem_map_of_mem (a := main_call1_v4) (by decide))),
   Finset.singleton_subset_iff.mpr (List.mem_toFinset.mpr (List.mem_map_of_mem (a := main_call1_v5) (by decide))),
   Finset.singleton_subset_iff.mpr (List.mem_toFinset.mpr (List.mem_map_of_mem (a := main_call1_v6) (by decide))),
   Finset.singleton_subset_iff.mpr (List.mem_toFinset.mpr (List.mem_map_of_mem (a := main_call1_v7) (by decide))),
   Finset.singleton_subset_iff.mpr (List.mem_toFinset.mpr (List.mem_map_of_mem (a := main_call1_cst_1) (by decide))),
   Finset.singleton_subset_iff.mpr (List.mem_toFinset.mpr (List.mem_map_of_mem (a := main_call1_v8) (by decide))),
   Finset.singleton_subset_iff.mpr (List.mem_toFinset.mpr (List.mem_map_of_mem (a := main_call1_cst_2) (by decide))),
   Finset.singleton_subset_iff.mpr (List.mem_toFinset.mpr (List.mem_map_of_mem (a := main_call1_v9) (by decide))),
   Finset.singleton_subset_iff.mpr (List.mem_toFinset.mpr (List.mem_map_of_mem (a := main_call1_v10) (by decide))),
   Finset.singleton_subset_iff.mpr (List.mem_toFinset.mpr (List.mem_map_of_mem (a := main_call1_v11) (by decide))),
   Finset.singleton_subset_iff.mpr (List.mem_toFinset.mpr (List.mem_map_of_mem (a := main_call1_cst_3) (by decide))),
   Finset.singleton_subset_iff.mpr (List.mem_toFinset.mpr (List.mem_map_of_mem (a := main_call1_v12) (by decide))),
   Finset.singleton_subset_iff.mpr (List.mem_toFinset.mpr (List.mem_map_of_mem (a := main_call1_cst_4) (by decide))),
   Finset.singleton_subset_iff.mpr (List.mem_toFinset.mpr (List.mem_map_of_mem (a := main_call1_call0_v0) (by decide))),
   Finset.singleton_subset_iff.mpr (List.mem_toFinset.mpr (List.mem_map_of_mem (a := main_call1_call0_v1) (by decide))),
   Finset.singleton_subset_iff.mpr (List.mem_toFinset.mpr (List.mem_map_of_mem (a := main_v70) (by decide)))⟩

/-- Operations 130 … 148 of 242: layer 2: normalise, scale, shift, rectify. -/
abbrev ops11 : List (HloOp τ sig (Elt F)) :=
  [ StableHlo.unary main_v69 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v72 main_v73 (subf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v74 (broadcastInDim S128 ![] bcast_S_S128 : (⟨S_, .f32⟩ : BufTy).Contents (Elt F) → (⟨S128, .f32⟩ : BufTy).Contents (Elt F)),
    StableHlo.binary main_v70 main_v74 main_v75 (addf : (⟨S128, .f32⟩ : BufTy).Contents (Elt F) → (⟨S128, .f32⟩ : BufTy).Contents (Elt F) → (⟨S128, .f32⟩ : BufTy).Contents (Elt F)),
    StableHlo.unary main_v75 main_v76 (Host.rsqrt : (⟨S128, .f32⟩ : BufTy).Contents (Elt F) → (⟨S128, .f32⟩ : BufTy).Contents (Elt F)),
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v78 main_v79 (mulf : (⟨S100000x128, .f32⟩ : BufTy).Contents (Elt F) → (⟨S100000x128, .f32⟩ : BufTy).Contents (Elt F) → (⟨S100000x128, .f32⟩ : BufTy).Contents (Elt F)),
    StableHlo.unary main_arg13 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v81 main_v82 (mulf : (⟨S100000x128, .f32⟩ : BufTy).Contents (Elt F) → (⟨S100000x128, .f32⟩ : BufTy).Contents (Elt F) → (⟨S100000x128, .f32⟩ : BufTy).Contents (Elt F)),
    StableHlo.unary main_arg14 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v84 main_v85 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.unary main_cst_15 main_v86 (broadcastInDim S100000x128 ![] bcast_S_S100000x128 : (⟨S_, .f32⟩ : BufTy).Contents (Elt F) → (⟨S100000x128, .f32⟩ : BufTy).Contents (Elt F)),
    StableHlo.binary main_v85 main_v86 main_v87 (maximumf : (⟨S100000x128, .f32⟩ : BufTy).Contents (Elt F) → (⟨S100000x128, .f32⟩ : BufTy).Contents (Elt F) → (⟨S100000x128, .f32⟩ : BufTy).Contents (Elt F)) ]
/-- The buffers those operations write. -/
abbrev ops11_W : List (Ref sig .tc) := [main_v71, main_v72, main_v73, main_cst_14, main_v74, main_v75, main_v76, main_v77, main_v78, main_v79, main_v80, main_v81, main_v82, main_v83, main_v84, main_v85, main_cst_15, main_v86, main_v87]
theorem ops11_sub : (ops11 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ops11_writes : (ops11 : List (HloOp τ sig (Elt F))).Forall fun op => op.writes ⊆ (ops11_W.map (Proc.devRef (τ := τ) .tc)).toFinset :=
  ⟨Finset.singleton_subset_iff.mpr (List.mem_toFinset.mpr (List.mem_map_of_mem (a := main_v71) (by decide))),
   Finset.singleton_subset_iff.mpr (List.mem_toFinset.mpr (List.mem_map_of_mem (a := main_v72) (by decide))),
   Finset.singleton_subset_iff.mpr (List.mem_toFinset.mpr (List.mem_map_of_mem (a := main_v73) (by decide))),
   Finset.singleton_subset_iff.mpr (List.mem_toFinset.mpr (List.mem_map_of_mem (a := main_cst_14) (by decide))),
   Finset.singleton_subset_iff.mpr (List.mem_toFinset.mpr (List.mem_map_of_mem (a := main_v74) (by decide))),
   Finset.singleton_subset_iff.mpr (List.mem_toFinset.mpr (List.mem_map_of_mem (a := main_v75) (by decide))),
   Finset.singleton_subset_iff.mpr (List.mem_toFinset.mpr (List.mem_map_of_mem (a := main_v76) (by decide))),
   Finset.singleton_subset_iff.mpr (List.mem_toFinset.mpr (List.mem_map_of_mem (a := main_v77) (by decide))),
   Finset.singleton_subset_iff.mpr (List.mem_toFinset.mpr (List.mem_map_of_mem (a := main_v78) (by decide))),
   Finset.singleton_subset_iff.mpr (List.mem_toFinset.mpr (List.mem_map_of_mem (a := main_v79) (by decide))),
   Finset.singleton_subset_iff.mpr (List.mem_toFinset.mpr (List.mem_map_of_mem (a := main_v80) (by decide))),
   Finset.singleton_subset_iff.mpr (List.mem_toFinset.mpr (List.mem_map_of_mem (a := main_v81) (by decide))),
   Finset.singleton_subset_iff.mpr (List.mem_toFinset.mpr (List.mem_map_of_mem (a := main_v82) (by decide))),
   Finset.singleton_subset_iff.mpr (List.mem_toFinset.mpr (List.mem_map_of_mem (a := main_v83) (by decide))),
   Finset.singleton_subset_iff.mpr (List.mem_toFinset.mpr (List.mem_map_of_mem (a := main_v84) (by decide))),
   Finset.singleton_subset_iff.mpr (List.mem_toFinset.mpr (List.mem_map_of_mem (a := main_v85) (by decide))),
   Finset.singleton_subset_iff.mpr (List.mem_toFinset.mpr (List.mem_map_of_mem (a := main_cst_15) (by decide))),
   Finset.singleton_subset_iff.mpr (List.mem_toFinset.mpr (List.mem_map_of_mem (a := main_v86) (by decide))),
   Finset.singleton_subset_iff.mpr (List.mem_toFinset.mpr (List.mem_map_of_mem (a := main_v87) (by decide)))⟩

/-- Operations 149 … 156 of 242: layer 3: the source column again. -/
abbrev ops12 : List (HloOp τ sig (Elt F)) :=
  [ StableHlo.nullary main_c_16 (constantI S_ 32 0#32),
    StableHlo.unary main_c_16 main_v88 (broadcastInDim S1600000 ![] bcast_S_S1600000 : (⟨S_, .i32⟩ : BufTy).Contents (Elt F) → (⟨S1600000, .i32⟩ : BufTy).Contents (Elt F)),
    StableHlo.binary main_v1 main_v88 main_v89 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v90 (broadcastInDim S1600000 ![] bcast_S_S1600000 : (⟨S_, .i32⟩ : BufTy).Contents (Elt F) → (⟨S1600000, .i32⟩ : BufTy).Contents (Elt F)),
    StableHlo.binary main_v1 main_v90 main_v91 (addi : (⟨S1600000, .i32⟩ : BufTy).Contents (Elt F) → (⟨S1600000, .i32⟩ : BufTy).Contents (Elt F) → (⟨S1600000, .i32⟩ : BufTy).Contents (Elt F)),
    StableHlo.ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v92 main_v93 (broadcastInDim S1600000x1 ![0] bcast_S1600000_S1600000x1_0 : (⟨S1600000, .i32⟩ : BufTy).Contents (Elt F) → (⟨S1600000x1, .i32⟩ : BufTy).Contents (Elt F)) ]
/-- The buffers those operations write. -/
abbrev ops12_W : List (Ref sig .tc) := [main_c_16, main_v88, main_v89, main_c_17, main_v90, main_v91, main_v92, main_v93]
theorem ops12_sub : (ops12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem ops12_writes : (ops12 : List (HloOp τ sig (Elt F))).Forall fun op => op.writes ⊆ (ops12_W.map (Proc.devRef (τ := τ) .tc)).toFinset :=
  ⟨Finset.singleton_subset_iff.mpr (List.mem_toFinset.mpr (List.mem_map_of_mem (a := main_c_16) (by decide))),
   Finset.singleton_subset_iff.mpr (List.mem_toFinset.mpr (List.mem_map_of_mem (a := main_v88) (by decide))),
   Finset.singleton_subset_iff.mpr (List.mem_toFinset.mpr (List.mem_map_of_mem (a := main_v89) (by decide))),
   Finset.singleton_subset_iff.mpr (List.mem_toFinset.mpr (List.mem_map_of_mem (a := main_c_17) (by decide))),
   Finset.singleton_subset_iff.mpr (List.mem_toFinset.mpr (List.mem_map_of_mem (a := main_v90) (by decide))),
   Finset.singleton_subset_iff.mpr (List.mem_toFinset.mpr (List.mem_map_of_mem (a := main_v91) (by decide))),
   Finset.singleton_subset_iff.mpr (List.mem_toFinset.mpr (List.mem_map_of_mem (a := main_v92) (by decide))),
   Finset.singleton_subset_iff.mpr (List.mem_toFinset.mpr (List.mem_map_of_mem (a := main_v93) (by decide)))⟩

/-- Operations 157 … 161 of 242: layer 3: gather, scatter-add. -/
abbrev ops13 : List (HloOp τ sig (Elt F)) :=
  [ StableHlo.binary main_v87 main_v93 main_v94 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v95 (broadcastInDim S100000x128 ![] bcast_S_S100000x128 : (⟨S_, .f32⟩ : BufTy).Contents (Elt F) → (⟨S100000x128, .f32⟩ : BufTy).Contents (Elt F)),
    StableHlo.unary main_v3 main_v96 (broadcastInDim S1600000x1 ![0] bcast_S1600000_S1600000x1_0 : (⟨S1600000, .i32⟩ : BufTy).Contents (Elt F) → (⟨S1600000x1, .i32⟩ : BufTy).Contents (Elt F)),
    StableHlo.ternary main_v95 main_v96 main_v94 main_v97 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The buffers those operations write. -/
abbrev ops13_W : List (Ref sig .tc) := [main_v94, main_cst_18, main_v95, main_v96, main_v97]
theorem ops13_sub : (ops13 : List (HloOp τ sig (Elt F))).Forall fun op => op.bufs ⊆ tcRefs τ sig :=
  ⟨binary_bufs_sub .., nullary_bufs_sub .., unary_bufs_sub .., unary_bufs_sub .., ternary_bufs_sub ..⟩
theorem ops13_writes : (ops13 : List (HloOp τ sig (Elt F))).Forall fun op => op.writes ⊆ (ops13_W.map (Proc.devRef (τ := τ) .tc)).toFinset :=
  ⟨Finset.singleton_subset_iff.mpr (List.mem_toFinset.mpr (List.mem_map_of_mem (a := main_v94) (by decide))),
   Finset.singleton_subset_iff.mpr (List.mem_toFinset.mpr (List.mem_map_of_mem (a := main_cst_18) (by decide))),
   Finset.singleton_subset_iff.mpr (List.mem_toFinset.mpr (List.mem_map_of_mem (a := main_v95) (by decide))),
   Finset.singleton_subset_iff.mpr (List.mem_toFinset.mpr (List.mem_map_of_mem (a := main_v96) (by decide))),
   Finset.singleton_subset_iff.mpr (List.mem_toFinset.mpr (List.mem_map_of_mem (a := main_v97) (by decide)))⟩

/-- Operations 162 … 162 of 242: layer 3: the node's own row added to its aggregate. -/
abbrev ops14 : List (HloOp τ sig (Elt F)) :=
  [ StableHlo.binary main_v87 main_v97 main_v98 (addf : (⟨S100000x128, .f32⟩ : BufTy).Contents (Elt F) → (⟨S100000x128, .f32⟩ : BufTy).Contents (Elt F) → (⟨S100000x128, .f32⟩ : BufTy).Contents (Elt F)) ]
/-- The buffers those operations write. -/
abbrev ops14_W : List (Ref sig .tc) := [main_v98]
theorem ops14_sub : (ops14 : List (HloOp τ sig (Elt F))).Forall fun op => op.bufs ⊆ tcRefs τ sig :=
  binary_bufs_sub ..
theorem ops14_writes : (ops14 : List (HloOp τ sig (Elt F))).Forall fun op => op.writes ⊆ (ops14_W.map (Proc.devRef (τ := τ) .tc)).toFinset :=
  Finset.singleton_subset_iff.mpr (List.mem_toFinset.mpr (List.mem_map_of_mem (a := main_v98) (by decide)))

/-- Operations 163 … 173 of 242: layer 3: the perceptron's remaining operations. -/
abbrev ops15 : List (HloOp τ sig (Elt F)) :=
  [ StableHlo.binary main_v98 main_arg15 main_v99 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg16 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v101 main_v102 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.unary main_cst_19 main_v103 (broadcastInDim S100000x128 ![] bcast_S_S100000x128 : (⟨S_, .f32⟩ : BufTy).Contents (Elt F) → (⟨S100000x128, .f32⟩ : BufTy).Contents (Elt F)),
    StableHlo.binary main_v102 main_v103 main_v104 (maximumf : (⟨S100000x128, .f32⟩ : BufTy).Contents (Elt F) → (⟨S100000x128, .f32⟩ : BufTy).Contents (Elt F) → (⟨S100000x128, .f32⟩ : BufTy).Contents (Elt F)),
    StableHlo.binary main_v104 main_arg17 main_v105 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg18 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v107 main_v108 (addf : (⟨S100000x128, .f32⟩ : BufTy).Contents (Elt F) → (⟨S100000x128, .f32⟩ : BufTy).Contents (Elt F) → (⟨S100000x128, .f32⟩ : BufTy).Contents (Elt F)) ]
/-- The buffers those operations write. -/
abbrev ops15_W : List (Ref sig .tc) := [main_v99, main_v100, main_v101, main_v102, main_cst_19, main_v103, main_v104, main_v105, main_v106, main_v107, main_v108]
theorem ops15_sub : (ops15 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops15_writes : (ops15 : List (HloOp τ sig (Elt F))).Forall fun op => op.writes ⊆ (ops15_W.map (Proc.devRef (τ := τ) .tc)).toFinset :=
  ⟨Finset.singleton_subset_iff.mpr (List.mem_toFinset.mpr (List.mem_map_of_mem (a := main_v99) (by decide))),
   Finset.singleton_subset_iff.mpr (List.mem_toFinset.mpr (List.mem_map_of_mem (a := main_v100) (by decide))),
   Finset.singleton_subset_iff.mpr (List.mem_toFinset.mpr (List.mem_map_of_mem (a := main_v101) (by decide))),
   Finset.singleton_subset_iff.mpr (List.mem_toFinset.mpr (List.mem_map_of_mem (a := main_v102) (by decide))),
   Finset.singleton_subset_iff.mpr (List.mem_toFinset.mpr (List.mem_map_of_mem (a := main_cst_19) (by decide))),
   Finset.singleton_subset_iff.mpr (List.mem_toFinset.mpr (List.mem_map_of_mem (a := main_v103) (by decide))),
   Finset.singleton_subset_iff.mpr (List.mem_toFinset.mpr (List.mem_map_of_mem (a := main_v104) (by decide))),
   Finset.singleton_subset_iff.mpr (List.mem_toFinset.mpr (List.mem_map_of_mem (a := main_v105) (by decide))),
   Finset.singleton_subset_iff.mpr (List.mem_toFinset.mpr (List.mem_map_of_mem (a := main_v106) (by decide))),
   Finset.singleton_subset_iff.mpr (List.mem_toFinset.mpr (List.mem_map_of_mem (a := main_v107) (by decide))),
   Finset.singleton_subset_iff.mpr (List.mem_toFinset.mpr (List.mem_map_of_mem (a := main_v108) (by decide)))⟩

/-- Operations 174 … 201 of 242: layer 3: the column mean, then the variance function's operations. -/
abbrev ops16 : List (HloOp τ sig (Elt F)) :=
  [ StableHlo.nullary main_cst_20 (constant S_ .f32 0x00000000#32),
    StableHlo.binary main_v108 main_cst_20 main_v109 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_21 (constant S_ .f32 0x47C35000#32),
    StableHlo.unary main_cst_21 main_v110 (broadcastInDim S128 ![] bcast_S_S128 : (⟨S_, .f32⟩ : BufTy).Contents (Elt F) → (⟨S128, .f32⟩ : BufTy).Contents (Elt F)),
    StableHlo.binary main_v109 main_v110 main_v111 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call2.cst (constant S_ .f32 0x00000000#32),
    StableHlo.TRef.binary (.of main_v108 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v108 : StableHlo.TRef sig ⟨S100000x128, .f32⟩) main_call2.v4 main_call2.v5 subf,
    StableHlo.TRef.binary main_call2.v5 main_call2.v5 main_call2.v6 mulf,
    StableHlo.TRef.unary (.of main_c_22 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]
/-- The buffers those operations write. -/
abbrev ops16_W : List (Ref sig .tc) := [main_cst_20, main_v109, main_cst_21, main_v110, main_v111, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v112]
theorem ops16_sub : (ops16 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops16_writes : (ops16 : List (HloOp τ sig (Elt F))).Forall fun op => op.writes ⊆ (ops16_W.map (Proc.devRef (τ := τ) .tc)).toFinset :=
  ⟨Finset.singleton_subset_iff.mpr (List.mem_toFinset.mpr (List.mem_map_of_mem (a := main_cst_20) (by decide))),
   Finset.singleton_subset_iff.mpr (List.mem_toFinset.mpr (List.mem_map_of_mem (a := main_v109) (by decide))),
   Finset.singleton_subset_iff.mpr (List.mem_toFinset.mpr (List.mem_map_of_mem (a := main_cst_21) (by decide))),
   Finset.singleton_subset_iff.mpr (List.mem_toFinset.mpr (List.mem_map_of_mem (a := main_v110) (by decide))),
   Finset.singleton_subset_iff.mpr (List.mem_toFinset.mpr (List.mem_map_of_mem (a := main_v111) (by decide))),
   Finset.singleton_subset_iff.mpr (List.mem_toFinset.mpr (List.mem_map_of_mem (a := main_c_22) (by decide))),
   Finset.singleton_subset_iff.mpr (List.mem_toFinset.mpr (List.mem_map_of_mem (a := main_call2_cst) (by decide))),
   Finset.singleton_subset_iff.mpr (List.mem_toFinset.mpr (List.mem_map_of_mem (a := main_call2_v0) (by decide))),
   Finset.singleton_subset_iff.mpr (List.mem_toFinset.mpr (List.mem_map_of_mem (a := main_call2_v1) (by decide))),
   Finset.singleton_subset_iff.mpr (List.mem_toFinset.mpr (List.mem_map_of_mem (a := main_call2_cst_0) (by decide))),
   Finset.singleton_subset_iff.mpr (List.mem_toFinset.mpr (List.mem_map_of_mem (a := main_call2_v2) (by decide))),
   Finset.singleton_subset_iff.mpr (List.mem_toFinset.mpr (List.mem_map_of_mem (a := main_call2_v3) (by decide))),
   Finset.singleton_subset_iff.mpr (List.mem_toFinset.mpr (List.mem_map_of_mem (a := main_call2_v4) (by decide))),
   Finset.singleton_subset_iff.mpr (List.mem_toFinset.mpr (List.mem_map_of_mem (a := main_call2_v5) (by decide))),
   Finset.singleton_subset_iff.mpr (List.mem_toFinset.mpr (List.mem_map_of_mem (a := main_call2_v6) (by decide))),
   Finset.singleton_subset_iff.mpr (List.mem_toFinset.mpr (List.mem_map_of_mem (a := main_call2_v7) (by decide))),
   Finset.singleton_subset_iff.mpr (List.mem_toFinset.mpr (List.mem_map_of_mem (a := main_call2_cst_1) (by decide))),
   Finset.singleton_subset_iff.mpr (List.mem_toFinset.mpr (List.mem_map_of_mem (a := main_call2_v8) (by decide))),
   Finset.singleton_subset_iff.mpr (List.mem_toFinset.mpr (List.mem_map_of_mem (a := main_call2_cst_2) (by decide))),
   Finset.singleton_subset_iff.mpr (List.mem_toFinset.mpr (List.mem_map_of_mem (a := main_call2_v9) (by decide))),
   Finset.singleton_subset_iff.mpr (List.mem_toFinset.mpr (List.mem_map_of_mem (a := main_call2_v10) (by decide))),
   Finset.singleton_subset_iff.mpr (List.mem_toFinset.mpr (List.mem_map_of_mem (a := main_call2_v11) (by decide))),
   Finset.singleton_subset_iff.mpr (List.mem_toFinset.mpr (List.mem_map_of_mem (a := main_call2_cst_3) (by decide))),
   Finset.singleton_subset_iff.mpr (List.mem_toFinset.mpr (List.mem_map_of_mem (a := main_call2_v12) (by decide))),
   Finset.singleton_subset_iff.mpr (List.mem_toFinset.mpr (List.mem_map_of_mem (a := main_call2_cst_4) (by decide))),
   Finset.singleton_subset_iff.mpr (List.mem_toFinset.mpr (List.mem_map_of_mem (a := main_call2_call0_v0) (by decide))),
   Finset.singleton_subset_iff.mpr (List.mem_toFinset.mpr (List.mem_map_of_mem (a := main_call2_call0_v1) (by decide))),
   Finset.singleton_subset_iff.mpr (List.mem_toFinset.mpr (List.mem_map_of_mem (a := main_v112) (by decide)))⟩

/-- Operations 202 … 220 of 242: layer 3: normalise, scale, shift, rectify. -/
abbrev ops17 : List (HloOp τ sig (Elt F)) :=
  [ StableHlo.unary main_v111 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v108 main_v114 main_v115 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v116 (broadcastInDim S128 ![] bcast_S_S128 : (⟨S_, .f32⟩ : BufTy).Contents (Elt F) → (⟨S128, .f32⟩ : BufTy).Contents (Elt F)),
    StableHlo.binary main_v112 main_v116 main_v117 (addf : (⟨S128, .f32⟩ : BufTy).Contents (Elt F) → (⟨S128, .f32⟩ : BufTy).Contents (Elt F) → (⟨S128, .f32⟩ : BufTy).Contents (Elt F)),
    StableHlo.unary main_v117 main_v118 (Host.rsqrt : (⟨S128, .f32⟩ : BufTy).Contents (Elt F) → (⟨S128, .f32⟩ : BufTy).Contents (Elt F)),
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v120 main_v121 (mulf : (⟨S100000x128, .f32⟩ : BufTy).Contents (Elt F) → (⟨S100000x128, .f32⟩ : BufTy).Contents (Elt F) → (⟨S100000x128, .f32⟩ : BufTy).Contents (Elt F)),
    StableHlo.unary main_arg19 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v123 main_v124 (mulf : (⟨S100000x128, .f32⟩ : BufTy).Contents (Elt F) → (⟨S100000x128, .f32⟩ : BufTy).Contents (Elt F) → (⟨S100000x128, .f32⟩ : BufTy).Contents (Elt F)),
    StableHlo.unary main_arg20 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v126 main_v127 (addf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x00000000#32),
    StableHlo.unary main_cst_24 main_v128 (broadcastInDim S100000x128 ![] bcast_S_S100000x128 : (⟨S_, .f32⟩ : BufTy).Contents (Elt F) → (⟨S100000x128, .f32⟩ : BufTy).Contents (Elt F)),
    StableHlo.binary main_v127 main_v128 main_v129 (maximumf : (⟨S100000x128, .f32⟩ : BufTy).Contents (Elt F) → (⟨S100000x128, .f32⟩ : BufTy).Contents (Elt F) → (⟨S100000x128, .f32⟩ : BufTy).Contents (Elt F)) ]
/-- The buffers those operations write. -/
abbrev ops17_W : List (Ref sig .tc) := [main_v113, main_v114, main_v115, main_cst_23, main_v116, main_v117, main_v118, main_v119, main_v120, main_v121, main_v122, main_v123, main_v124, main_v125, main_v126, main_v127, main_cst_24, main_v128, main_v129]
theorem ops17_sub : (ops17 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ops17_writes : (ops17 : List (HloOp τ sig (Elt F))).Forall fun op => op.writes ⊆ (ops17_W.map (Proc.devRef (τ := τ) .tc)).toFinset :=
  ⟨Finset.singleton_subset_iff.mpr (List.mem_toFinset.mpr (List.mem_map_of_mem (a := main_v113) (by decide))),
   Finset.singleton_subset_iff.mpr (List.mem_toFinset.mpr (List.mem_map_of_mem (a := main_v114) (by decide))),
   Finset.singleton_subset_iff.mpr (List.mem_toFinset.mpr (List.mem_map_of_mem (a := main_v115) (by decide))),
   Finset.singleton_subset_iff.mpr (List.mem_toFinset.mpr (List.mem_map_of_mem (a := main_cst_23) (by decide))),
   Finset.singleton_subset_iff.mpr (List.mem_toFinset.mpr (List.mem_map_of_mem (a := main_v116) (by decide))),
   Finset.singleton_subset_iff.mpr (List.mem_toFinset.mpr (List.mem_map_of_mem (a := main_v117) (by decide))),
   Finset.singleton_subset_iff.mpr (List.mem_toFinset.mpr (List.mem_map_of_mem (a := main_v118) (by decide))),
   Finset.singleton_subset_iff.mpr (List.mem_toFinset.mpr (List.mem_map_of_mem (a := main_v119) (by decide))),
   Finset.singleton_subset_iff.mpr (List.mem_toFinset.mpr (List.mem_map_of_mem (a := main_v120) (by decide))),
   Finset.singleton_subset_iff.mpr (List.mem_toFinset.mpr (List.mem_map_of_mem (a := main_v121) (by decide))),
   Finset.singleton_subset_iff.mpr (List.mem_toFinset.mpr (List.mem_map_of_mem (a := main_v122) (by decide))),
   Finset.singleton_subset_iff.mpr (List.mem_toFinset.mpr (List.mem_map_of_mem (a := main_v123) (by decide))),
   Finset.singleton_subset_iff.mpr (List.mem_toFinset.mpr (List.mem_map_of_mem (a := main_v124) (by decide))),
   Finset.singleton_subset_iff.mpr (List.mem_toFinset.mpr (List.mem_map_of_mem (a := main_v125) (by decide))),
   Finset.singleton_subset_iff.mpr (List.mem_toFinset.mpr (List.mem_map_of_mem (a := main_v126) (by decide))),
   Finset.singleton_subset_iff.mpr (List.mem_toFinset.mpr (List.mem_map_of_mem (a := main_v127) (by decide))),
   Finset.singleton_subset_iff.mpr (List.mem_toFinset.mpr (List.mem_map_of_mem (a := main_cst_24) (by decide))),
   Finset.singleton_subset_iff.mpr (List.mem_toFinset.mpr (List.mem_map_of_mem (a := main_v128) (by decide))),
   Finset.singleton_subset_iff.mpr (List.mem_toFinset.mpr (List.mem_map_of_mem (a := main_v129) (by decide)))⟩

/-- Operations 221 … 224 of 242: sum pooling per graph. -/
abbrev ops18 : List (HloOp τ sig (Elt F)) :=
  [ StableHlo.nullary main_cst_25 (constant S_ .f32 0x00000000#32),
    StableHlo.unary main_cst_25 main_v130 (broadcastInDim S1024x128 ![] bcast_S_S1024x128 : (⟨S_, .f32⟩ : BufTy).Contents (Elt F) → (⟨S1024x128, .f32⟩ : BufTy).Contents (Elt F)),
    StableHlo.unary main_arg2 main_v131 (broadcastInDim S100000x1 ![0] bcast_S100000_S100000x1_0 : (⟨S100000, .i32⟩ : BufTy).Contents (Elt F) → (⟨S100000x1, .i32⟩ : BufTy).Contents (Elt F)),
    StableHlo.ternary main_v130 main_v131 main_v129 main_v132 ((fun x i u => Host.scatterAdd scatter_S1024x128_S100000x1_S100000x128_1_0_0_1 x i u) : (⟨S1024x128, .f32⟩ : BufTy).Contents (Elt F) → (⟨S100000x1, .i32⟩ : BufTy).Contents (Elt F) → (⟨S100000x128, .f32⟩ : BufTy).Contents (Elt F) → (⟨S1024x128, .f32⟩ : BufTy).Contents (Elt F)) ]
/-- The buffers those operations write. -/
abbrev ops18_W : List (Ref sig .tc) := [main_cst_25, main_v130, main_v131, main_v132]
theorem ops18_sub : (ops18 : List (HloOp τ sig (Elt F))).Forall fun op => op.bufs ⊆ tcRefs τ sig :=
  ⟨nullary_bufs_sub .., unary_bufs_sub .., unary_bufs_sub .., ternary_bufs_sub ..⟩
theorem ops18_writes : (ops18 : List (HloOp τ sig (Elt F))).Forall fun op => op.writes ⊆ (ops18_W.map (Proc.devRef (τ := τ) .tc)).toFinset :=
  ⟨Finset.singleton_subset_iff.mpr (List.mem_toFinset.mpr (List.mem_map_of_mem (a := main_cst_25) (by decide))),
   Finset.singleton_subset_iff.mpr (List.mem_toFinset.mpr (List.mem_map_of_mem (a := main_v130) (by decide))),
   Finset.singleton_subset_iff.mpr (List.mem_toFinset.mpr (List.mem_map_of_mem (a := main_v131) (by decide))),
   Finset.singleton_subset_iff.mpr (List.mem_toFinset.mpr (List.mem_map_of_mem (a := main_v132) (by decide)))⟩

/-- Operations 225 … 242 of 242: the three-matmul head. -/
abbrev ops19 : List (HloOp τ sig (Elt F)) :=
  [ StableHlo.binary main_v132 main_arg21 main_v133 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.unary main_arg22 main_v134 (broadcastInDim S1x512 ![1] bcast_S512_S1x512_1 : (⟨S512, .f32⟩ : BufTy).Contents (Elt F) → (⟨S1x512, .f32⟩ : BufTy).Contents (Elt F)),
    StableHlo.unary main_v134 main_v135 (broadcastInDim S1024x512 ![0, 1] bcast_S1x512_S1024x512_0_1 : (⟨S1x512, .f32⟩ : BufTy).Contents (Elt F) → (⟨S1024x512, .f32⟩ : BufTy).Contents (Elt F)),
    StableHlo.binary main_v133 main_v135 main_v136 (addf : (⟨S1024x512, .f32⟩ : BufTy).Contents (Elt F) → (⟨S1024x512, .f32⟩ : BufTy).Contents (Elt F) → (⟨S1024x512, .f32⟩ : BufTy).Contents (Elt F)),
    StableHlo.nullary main_cst_26 (constant S_ .f32 0x00000000#32),
    StableHlo.unary main_cst_26 main_v137 (broadcastInDim S1024x512 ![] bcast_S_S1024x512 : (⟨S_, .f32⟩ : BufTy).Contents (Elt F) → (⟨S1024x512, .f32⟩ : BufTy).Contents (Elt F)),
    StableHlo.binary main_v136 main_v137 main_v138 (maximumf : (⟨S1024x512, .f32⟩ : BufTy).Contents (Elt F) → (⟨S1024x512, .f32⟩ : BufTy).Contents (Elt F) → (⟨S1024x512, .f32⟩ : BufTy).Contents (Elt F)),
    StableHlo.binary main_v138 main_arg23 main_v139 ((fun l r => Host.dotGeneral dot_S1024x512_S512x256_S1024x256_1_0_0_1_n_n none l r) : (⟨S1024x512, .f32⟩ : BufTy).Contents (Elt F) → (⟨S512x256, .f32⟩ : BufTy).Contents (Elt F) → (⟨S1024x256, .f32⟩ : BufTy).Contents (Elt F)),
    StableHlo.unary main_arg24 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S1024x256 ![0, 1] bcast_S1x256_S1024x256_0_1 : (⟨S1x256, .f32⟩ : BufTy).Contents (Elt F) → (⟨S1024x256, .f32⟩ : BufTy).Contents (Elt F)),
    StableHlo.binary main_v139 main_v141 main_v142 (addf : (⟨S1024x256, .f32⟩ : BufTy).Contents (Elt F) → (⟨S1024x256, .f32⟩ : BufTy).Contents (Elt F) → (⟨S1024x256, .f32⟩ : BufTy).Contents (Elt F)),
    StableHlo.nullary main_cst_27 (constant S_ .f32 0x00000000#32),
    StableHlo.unary main_cst_27 main_v143 (broadcastInDim S1024x256 ![] bcast_S_S1024x256 : (⟨S_, .f32⟩ : BufTy).Contents (Elt F) → (⟨S1024x256, .f32⟩ : BufTy).Contents (Elt F)),
    StableHlo.binary main_v142 main_v143 main_v144 (maximumf : (⟨S1024x256, .f32⟩ : BufTy).Contents (Elt F) → (⟨S1024x256, .f32⟩ : BufTy).Contents (Elt F) → (⟨S1024x256, .f32⟩ : BufTy).Contents (Elt F)),
    StableHlo.binary main_v144 main_arg25 main_v145 ((fun l r => Host.dotGeneral dot_S1024x256_S256x12_S1024x12_1_0_0_1_n_n none l r) : (⟨S1024x256, .f32⟩ : BufTy).Contents (Elt F) → (⟨S256x12, .f32⟩ : BufTy).Contents (Elt F) → (⟨S1024x12, .f32⟩ : BufTy).Contents (Elt F)),
    StableHlo.unary main_arg26 main_v146 (broadcastInDim S1x12 ![1] bcast_S12_S1x12_1 : (⟨S12, .f32⟩ : BufTy).Contents (Elt F) → (⟨S1x12, .f32⟩ : BufTy).Contents (Elt F)),
    StableHlo.unary main_v146 main_v147 (broadcastInDim S1024x12 ![0, 1] bcast_S1x12_S1024x12_0_1 : (⟨S1x12, .f32⟩ : BufTy).Contents (Elt F) → (⟨S1024x12, .f32⟩ : BufTy).Contents (Elt F)),
    StableHlo.binary main_v145 main_v147 main_v148 (addf : (⟨S1024x12, .f32⟩ : BufTy).Contents (Elt F) → (⟨S1024x12, .f32⟩ : BufTy).Contents (Elt F) → (⟨S1024x12, .f32⟩ : BufTy).Contents (Elt F)) ]
/-- The buffers those operations write. -/
abbrev ops19_W : List (Ref sig .tc) := [main_v133, main_v134, main_v135, main_v136, main_cst_26, main_v137, main_v138, main_v139, main_v140, main_v141, main_v142, main_cst_27, main_v143, main_v144, main_v145, main_v146, main_v147, main_v148]
theorem ops19_sub : (ops19 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops19_writes : (ops19 : List (HloOp τ sig (Elt F))).Forall fun op => op.writes ⊆ (ops19_W.map (Proc.devRef (τ := τ) .tc)).toFinset :=
  ⟨Finset.singleton_subset_iff.mpr (List.mem_toFinset.mpr (List.mem_map_of_mem (a := main_v133) (by decide))),
   Finset.singleton_subset_iff.mpr (List.mem_toFinset.mpr (List.mem_map_of_mem (a := main_v134) (by decide))),
   Finset.singleton_subset_iff.mpr (List.mem_toFinset.mpr (List.mem_map_of_mem (a := main_v135) (by decide))),
   Finset.singleton_subset_iff.mpr (List.mem_toFinset.mpr (List.mem_map_of_mem (a := main_v136) (by decide))),
   Finset.singleton_subset_iff.mpr (List.mem_toFinset.mpr (List.mem_map_of_mem (a := main_cst_26) (by decide))),
   Finset.singleton_subset_iff.mpr (List.mem_toFinset.mpr (List.mem_map_of_mem (a := main_v137) (by decide))),
   Finset.singleton_subset_iff.mpr (List.mem_toFinset.mpr (List.mem_map_of_mem (a := main_v138) (by decide))),
   Finset.singleton_subset_iff.mpr (List.mem_toFinset.mpr (List.mem_map_of_mem (a := main_v139) (by decide))),
   Finset.singleton_subset_iff.mpr (List.mem_toFinset.mpr (List.mem_map_of_mem (a := main_v140) (by decide))),
   Finset.singleton_subset_iff.mpr (List.mem_toFinset.mpr (List.mem_map_of_mem (a := main_v141) (by decide))),
   Finset.singleton_subset_iff.mpr (List.mem_toFinset.mpr (List.mem_map_of_mem (a := main_v142) (by decide))),
   Finset.singleton_subset_iff.mpr (List.mem_toFinset.mpr (List.mem_map_of_mem (a := main_cst_27) (by decide))),
   Finset.singleton_subset_iff.mpr (List.mem_toFinset.mpr (List.mem_map_of_mem (a := main_v143) (by decide))),
   Finset.singleton_subset_iff.mpr (List.mem_toFinset.mpr (List.mem_map_of_mem (a := main_v144) (by decide))),
   Finset.singleton_subset_iff.mpr (List.mem_toFinset.mpr (List.mem_map_of_mem (a := main_v145) (by decide))),
   Finset.singleton_subset_iff.mpr (List.mem_toFinset.mpr (List.mem_map_of_mem (a := main_v146) (by decide))),
   Finset.singleton_subset_iff.mpr (List.mem_toFinset.mpr (List.mem_map_of_mem (a := main_v147) (by decide))),
   Finset.singleton_subset_iff.mpr (List.mem_toFinset.mpr (List.mem_map_of_mem (a := main_v148) (by decide)))⟩

/-- The operations of the printed program's window 0. -/
abbrev opsP0 : List (HloOp τ sig (Elt F)) := ops1 ++ ops2 ++ ops3 ++ ops4 ++ ops5 ++ ops6
theorem opsP0_sub : (opsP0 : List (HloOp τ sig (Elt F))).Forall fun op => op.bufs ⊆ tcRefs τ sig :=
  forall_append (forall_append (forall_append (forall_append (forall_append (ops1_sub) ops2_sub) ops3_sub) ops4_sub) ops5_sub) ops6_sub

/-- The operations of the printed program's window 1. -/
abbrev opsP1 : List (HloOp τ sig (Elt F)) := ops7 ++ ops8 ++ ops9 ++ ops10 ++ ops11 ++ ops12 ++ ops13 ++ ops14
theorem opsP1_sub : (opsP1 : List (HloOp τ sig (Elt F))).Forall fun op => op.bufs ⊆ tcRefs τ sig :=
  forall_append (forall_append (forall_append (forall_append (forall_append (forall_append (forall_append (ops7_sub) ops8_sub) ops9_sub) ops10_sub) ops11_sub) ops12_sub) ops13_sub) ops14_sub

/-- The operations of the printed program's window 2. -/
abbrev opsP2 : List (HloOp τ sig (Elt F)) := ops15 ++ ops16 ++ ops17 ++ ops18 ++ ops19
theorem opsP2_sub : (opsP2 : List (HloOp τ sig (Elt F))).Forall fun op => op.bufs ⊆ tcRefs τ sig :=
  forall_append (forall_append (forall_append (forall_append (ops15_sub) ops16_sub) ops17_sub) ops18_sub) ops19_sub

/-- @main's 242 operations. -/
abbrev ops : List (HloOp τ sig (Elt F)) := opsP0 ++ opsP1 ++ opsP2
theorem ops_sub : (ops : List (HloOp τ sig (Elt F))).Forall fun op => op.bufs ⊆ tcRefs τ sig :=
  forall_append (forall_append opsP0_sub opsP1_sub) opsP2_sub

end Cert.ReferenceIdeal.Hand

end
-- ==== Proof.Ref.MainEq.lean ====
/- @main is the straight line of its 242 operations: each printed window is its stretch of the list once the
   outlined functions are unfolded at their calls and sequencing is reassociated, and @main runs the windows in order. -/
import proofs.«142609_j54228257079879_1_alg».proof.Proof.Ref.Ops

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxRecDepth 4096 in
set_option maxHeartbeats 4000000 in
/-- The printed window 0 is its operations in order. -/
theorem main_part0_eq (c : Dev nD) : main_part0 (F := F) c = seq opsP0 := by
  simp only [main_part0, fn_var.body, fn_where.body, seq, seq_append, bind_assoc, pure_bind]
  rfl

set_option maxRecDepth 4096 in
set_option maxHeartbeats 4000000 in
/-- The printed window 1 is its operations in order. -/
theorem main_part1_eq (c : Dev nD) : main_part1 (F := F) c = seq opsP1 := by
  simp only [main_part1, fn_var.body, fn_where.body, seq, seq_append, bind_assoc, pure_bind]
  rfl

set_option maxRecDepth 4096 in
set_option maxHeartbeats 4000000 in
/-- The printed window 2 is its operations in order. -/
theorem main_part2_eq (c : Dev nD) : main_part2 (F := F) c = seq opsP2 := by
  simp only [main_part2, fn_var.body, fn_where.body, seq, seq_append, bind_assoc, pure_bind]

/-- @main is its 242 operations in order. -/
theorem main_eq (c : Dev nD) : main (F := F) c = seq ops := by
  rw [show (ops (F := F)) = (opsP0 ++ opsP1) ++ opsP2 from rfl, seq_append, seq_append,
    ← main_part0_eq c, ← main_part1_eq c, ← main_part2_eq c]
  simp only [main, bind_assoc]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.Ref.Term.lean ====
/- The reference program's result as a composed term of named layer functions: a transcription of the
   printed host operations of @main (and of the outlined @_var / @_where bodies at their call sites),
   each function the operations of one stage of the network in program order. Stated for any float
   values; the run of the program (Ref/Run.lean) ends with the result buffer at `refOut` of the
   arguments' launch contents. -/
import proofs.«142609_j54228257079879_1_alg».proof.ReferenceIdeal
import proofs.«142609_j54228257079879_1_alg».proof.Proof.Gen.ReferenceIdeal

noncomputable section

namespace Cert.ReferenceIdeal.Hand

open Cert.ReferenceIdeal Idealize.ShloMosaic Idealize.SL.Sem
open Cert.ReferenceIdeal.Facts₀ Cert.ReferenceIdeal.Facts

variable {F : FTy → Type} [FloatOps F]

/-! ## The edge list's two rows as index columns -/

/-- Row 0 of the edge list (the source node of every edge) as a column: the row sliced out and flattened,
    a negative index wrapped by adding the node count 100000 (compare with 0, add, select), then given
    a trailing unit axis. -/
def srcIdx (e : IVec S2x1600000 32) : IVec S1600000x1 32 :=
  broadcastInDim S1600000x1 ![0] bcast_S1600000_S1600000x1_0
    (select
      (cmpi .slt
        (shapeCast S1600000 (extractStridedSlice S1x1600000 ![0, 0] e slices_S2x1600000_S1x1600000_0_0) shapeCasts_S1x1600000_S1600000)
        (broadcastInDim S1600000 ![] bcast_S_S1600000 (constantI S_ 32 0#32)))
      (addi
        (shapeCast S1600000 (extractStridedSlice S1x1600000 ![0, 0] e slices_S2x1600000_S1x1600000_0_0) shapeCasts_S1x1600000_S1600000)
        (broadcastInDim S1600000 ![] bcast_S_S1600000 (constantI S_ 32 100000#32)))
      (shapeCast S1600000 (extractStridedSlice S1x1600000 ![0, 0] e slices_S2x1600000_S1x1600000_0_0) shapeCasts_S1x1600000_S1600000))

/-- Row 1 of the edge list (the destination node of every edge) as a column: sliced out, flattened and
    given a trailing unit axis (no wrapping: the scatter drops an index out of range). -/
def dstIdx (e : IVec S2x1600000 32) : IVec S1600000x1 32 :=
  broadcastInDim S1600000x1 ![0] bcast_S1600000_S1600000x1_0
    (shapeCast S1600000 (extractStridedSlice S1x1600000 ![1, 0] e slices_S2x1600000_S1x1600000_1_0) shapeCasts_S1x1600000_S1600000)

/-! ## Neighbour aggregation: gather the source rows, add them up at the destination rows -/

/-- The sum over incoming edges of the source node's feature row, 12 features wide: the rows of `h` gathered
    at the source indices, scatter-added into zeros at the destination indices. -/
def agg12 (h : FVec F S100000x12 .f32) (si di : IVec S1600000x1 32) : FVec F S100000x12 .f32 :=
  Host.scatterAdd scatter_S100000x12_S1600000x1_S1600000x12_1_0_0_1
    (broadcastInDim S100000x12 ![] bcast_S_S100000x12 (constant S_ .f32 0x00000000#32))
    di
    (Host.gather gather_S100000x12_S1600000x1_S1600000x12_1_0_n_n_0_1_112 h si)

/-- The same, 128 features wide. -/
def agg128 (h : FVec F S100000x128 .f32) (si di : IVec S1600000x1 32) : FVec F S100000x128 .f32 :=
  Host.scatterAdd scatter_S100000x128_S1600000x1_S1600000x128_1_0_0_1
    (broadcastInDim S100000x128 ![] bcast_S_S100000x128 (constant S_ .f32 0x00000000#32))
    di
    (Host.gather gather_S100000x128_S1600000x1_S1600000x128_1_0_n_n_0_1_1128 h si)

/-! ## The two-layer perceptron of a layer -/

/-- A bias row spread over the 100000 node rows: first given a leading unit axis, then broadcast down the rows. -/
def biasRows (b : FVec F S128 .f32) : FVec F S100000x128 .f32 :=
  broadcastInDim S100000x128 ![0, 1] bcast_S1x128_S100000x128_0_1 (broadcastInDim S1x128 ![1] bcast_S128_S1x128_1 b)

/-- The all-zero 100000 x 128 array the rectifier compares against. -/
def zeros128 : FVec F S100000x128 .f32 :=
  broadcastInDim S100000x128 ![] bcast_S_S100000x128 (constant S_ .f32 0x00000000#32)

/-- `max((h + a)·w1 + b1, 0)·w2 + b2` for 12 input features. -/
def mlp12 (h a : FVec F S100000x12 .f32) (w1 : FVec F S12x128 .f32) (b1 : FVec F S128 .f32)
    (w2 : FVec F S128x128 .f32) (b2 : FVec F S128 .f32) : FVec F S100000x128 .f32 :=
  addf
    (Host.dotGeneral dot_S100000x128_S128x128_S100000x128_1_0_0_1_n_n none
      (maximumf
        (addf (Host.dotGeneral dot_S100000x12_S12x128_S100000x128_1_0_0_1_n_n none (addf h a) w1) (biasRows b1))
        zeros128)
      w2)
    (biasRows b2)

/-- `max((h + a)·w1 + b1, 0)·w2 + b2` for 128 input features. -/
def mlp128 (h a : FVec F S100000x128 .f32) (w1 : FVec F S128x128 .f32) (b1 : FVec F S128 .f32)
    (w2 : FVec F S128x128 .f32) (b2 : FVec F S128 .f32) : FVec F S100000x128 .f32 :=
  addf
    (Host.dotGeneral dot_S100000x128_S128x128_S100000x128_1_0_0_1_n_n none
      (maximumf
        (addf (Host.dotGeneral dot_S100000x128_S128x128_S100000x128_1_0_0_1_n_n none (addf h a) w1) (biasRows b1))
        zeros128)
      w2)
    (biasRows b2)

/-! ## Batch statistics over the node axis -/

/-- The column mean: the column sums (a reduction over the rows from 0) divided by the row count 100000. -/
def meanR (t : FVec F S100000x128 .f32) : FVec F S128 .f32 :=
  Host.divf
    (Host.reduceAdd t (constant S_ .f32 0x00000000#32) reducesTo_S100000x128_S128_d0 h_S_)
    (broadcastInDim S128 ![] bcast_S_S128 (constant S_ .f32 0x47C35000#32))

/-- The divisor of the variance: the row count 100000 less the degrees-of-freedom correction, here the
    integer 0 converted to a float. -/
def varCount : FVec F S_ .f32 :=
  subf (constant S_ .f32 0x47C35000#32) (sitofp .f32 (constantI S_ 32 0#32))

/-- The deviations from the column mean, the mean kept as a 1 x 128 row: column sums, a leading unit axis,
    divided by 100000 there, broadcast down the rows, subtracted. -/
def centered (t : FVec F S100000x128 .f32) : FVec F S100000x128 .f32 :=
  subf t
    (broadcastInDim S100000x128 ![0, 1] bcast_S1x128_S100000x128_0_1
      (Host.divf
        (broadcastInDim S1x128 ![1] bcast_S128_S1x128_1
          (Host.reduceAdd t (constant S_ .f32 0x00000000#32) reducesTo_S100000x128_S128_d0 h_S_))
        (broadcastInDim S1x128 ![] bcast_S_S1x128 (constant S_ .f32 0x47C35000#32))))

/-- The column variance as the mean of squared deviations: the squared deviations' column sums divided by the
    divisor where the divisor is positive, a not-a-number where it is not (the outlined selection, its three
    operations in place: the fallback converted to its own type, broadcast, selected against). -/
def varR (t : FVec F S100000x128 .f32) : FVec F S128 .f32 :=
  select
    (broadcastInDim S128 ![] bcast_S_S128 (cmpf .ogt (varCount (F := F)) (constant S_ .f32 0x00000000#32)))
    (Host.divf
      (Host.reduceAdd (mulf (centered t) (centered t)) (constant S_ .f32 0x00000000#32) reducesTo_S100000x128_S128_d0 h_S_)
      (broadcastInDim S128 ![] bcast_S_S128 (varCount (F := F))))
    (broadcastInDim S128 ![] bcast_S_S128 (id (constant S_ .f32 0x7FC00000#32 : FVec F S_ .f32)))

/-- Normalise, scale, shift, rectify: `max((t - mean)·rsqrt(var + 1e-5)·γ + β, 0)`, each per-column vector spread
    over the rows as a bias is. -/
def bnR (t : FVec F S100000x128 .f32) (mean var γ β : FVec F S128 .f32) : FVec F S100000x128 .f32 :=
  maximumf
    (addf
      (mulf
        (mulf (subf t (biasRows mean))
          (biasRows (Host.rsqrt (addf var (broadcastInDim S128 ![] bcast_S_S128 (constant S_ .f32 0x3727C5AC#32))))))
        (biasRows γ))
      (biasRows β))
    zeros128

/-- Batch normalisation of `t` by its own column statistics. -/
def normR (t : FVec F S100000x128 .f32) (γ β : FVec F S128 .f32) : FVec F S100000x128 .f32 :=
  bnR t (meanR t) (varR t) γ β

/-! ## The layers -/

/-- The first layer (12 input features): aggregate, perceptron, batch-normalise. -/
def layer12 (h : FVec F S100000x12 .f32) (e : IVec S2x1600000 32) (w1 : FVec F S12x128 .f32) (b1 : FVec F S128 .f32)
    (w2 : FVec F S128x128 .f32) (b2 γ β : FVec F S128 .f32) : FVec F S100000x128 .f32 :=
  normR (mlp12 h (agg12 h (srcIdx e) (dstIdx e)) w1 b1 w2 b2) γ β

/-- A later layer (128 input features). -/
def layer128 (h : FVec F S100000x128 .f32) (e : IVec S2x1600000 32) (w1 : FVec F S128x128 .f32) (b1 : FVec F S128 .f32)
    (w2 : FVec F S128x128 .f32) (b2 γ β : FVec F S128 .f32) : FVec F S100000x128 .f32 :=
  normR (mlp128 h (agg128 h (srcIdx e) (dstIdx e)) w1 b1 w2 b2) γ β

/-! ## Readout -/

/-- Sum pooling per graph: the node rows scatter-added into zeros at each node's graph id (as a column). -/
def pool (h : FVec F S100000x128 .f32) (batch : IVec S100000 32) : FVec F S1024x128 .f32 :=
  Host.scatterAdd scatter_S1024x128_S100000x1_S100000x128_1_0_0_1
    (broadcastInDim S1024x128 ![] bcast_S_S1024x128 (constant S_ .f32 0x00000000#32))
    (broadcastInDim S100000x1 ![0] bcast_S100000_S100000x1_0 batch)
    h

/-- The three-matmul head: `max(max(g·w1 + b1, 0)·w2 + b2, 0)·w3 + b3`. -/
def headR (g : FVec F S1024x128 .f32) (rw1 : FVec F S128x512 .f32) (rb1 : FVec F S512 .f32)
    (rw2 : FVec F S512x256 .f32) (rb2 : FVec F S256 .f32) (rw3 : FVec F S256x12 .f32) (rb3 : FVec F S12 .f32) :
    FVec F S1024x12 .f32 :=
  addf
    (Host.dotGeneral dot_S1024x256_S256x12_S1024x12_1_0_0_1_n_n none
      (maximumf
        (addf
          (Host.dotGeneral dot_S1024x512_S512x256_S1024x256_1_0_0_1_n_n none
            (maximumf
              (addf (Host.dotGeneral dot_S1024x128_S128x512_S1024x512_1_0_0_1_n_n none g rw1)
                (broadcastInDim S1024x512 ![0, 1] bcast_S1x512_S1024x512_0_1 (broadcastInDim S1x512 ![1] bcast_S512_S1x512_1 rb1)))
              (broadcastInDim S1024x512 ![] bcast_S_S1024x512 (constant S_ .f32 0x00000000#32)))
            rw2)
          (broadcastInDim S1024x256 ![0, 1] bcast_S1x256_S1024x256_0_1 (broadcastInDim S1x256 ![1] bcast_S256_S1x256_1 rb2)))
        (broadcastInDim S1024x256 ![] bcast_S_S1024x256 (constant S_ .f32 0x00000000#32)))
      rw3)
    (broadcastInDim S1024x12 ![0, 1] bcast_S1x12_S1024x12_0_1 (broadcastInDim S1x12 ![1] bcast_S12_S1x12_1 rb3))

/-- The reference's result of its 27 arguments, in @main's argument order: node features, edge list, graph ids,
    then per layer `w1 b1 w2 b2 γ β`, then the head's three weight/bias pairs. -/
def refOut (a0 : FVec F S100000x12 .f32) (a1 : IVec S2x1600000 32) (a2 : IVec S100000 32)
    (a3 : FVec F S12x128 .f32) (a4 : FVec F S128 .f32) (a5 : FVec F S128x128 .f32) (a6 a7 a8 : FVec F S128 .f32)
    (a9 : FVec F S128x128 .f32) (a10 : FVec F S128 .f32) (a11 : FVec F S128x128 .f32) (a12 a13 a14 : FVec F S128 .f32)
    (a15 : FVec F S128x128 .f32) (a16 : FVec F S128 .f32) (a17 : FVec F S128x128 .f32) (a18 a19 a20 : FVec F S128 .f32)
    (a21 : FVec F S128x512 .f32) (a22 : FVec F S512 .f32) (a23 : FVec F S512x256 .f32) (a24 : FVec F S256 .f32)
    (a25 : FVec F S256x12 .f32) (a26 : FVec F S12 .f32) : FVec F S1024x12 .f32 :=
  headR
    (pool
      (layer128
        (layer128 (layer12 a0 a1 a3 a4 a5 a6 a7 a8) a1 a9 a10 a11 a12 a13 a14)
        a1 a15 a16 a17 a18 a19 a20)
      a2)
    a21 a22 a23 a24 a25 a26

end Cert.ReferenceIdeal.Hand

end
-- ==== Proof.Ref.Read.lean ====
/- Each stretch of the operation list read on its own, from ANY contents `W` of the device's buffers: the buffers a
   later stretch reads end at the stage's named function (Ref/Term.lean) of the contents `W` has at the stretch's
   inputs, and a buffer the stretch does not write keeps its contents. -/
import proofs.«142609_j54228257079879_1_alg».proof.Proof.Ref.Ops
import proofs.«142609_j54228257079879_1_alg».proof.Proof.Ref.Term

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-! ## The index rows and columns by name -/

/-- Row 0 of the edge list, flattened. -/
def srcRow (e : IVec S2x1600000 32) : IVec S1600000 32 :=
  shapeCast S1600000 (extractStridedSlice S1x1600000 ![0, 0] e slices_S2x1600000_S1x1600000_0_0) shapeCasts_S1x1600000_S1600000

/-- Row 1 of the edge list, flattened. -/
def dstRow (e : IVec S2x1600000 32) : IVec S1600000 32 :=
  shapeCast S1600000 (extractStridedSlice S1x1600000 ![1, 0] e slices_S2x1600000_S1x1600000_1_0) shapeCasts_S1x1600000_S1600000

/-- A flat index row as a column: a trailing unit axis. -/
def colOf (r : IVec S1600000 32) : IVec S1600000x1 32 :=
  broadcastInDim S1600000x1 ![0] bcast_S1600000_S1600000x1_0 r

/-- A flat index row with its negative entries wrapped by the node count, as a column. -/
def wrapCol (r : IVec S1600000 32) : IVec S1600000x1 32 :=
  colOf (select (cmpi .slt r (broadcastInDim S1600000 ![] bcast_S_S1600000 (constantI S_ 32 0#32)))
    (addi r (broadcastInDim S1600000 ![] bcast_S_S1600000 (constantI S_ 32 100000#32))) r)

theorem srcIdx_eq (e : IVec S2x1600000 32) : wrapCol (srcRow e) = srcIdx e := rfl
theorem dstIdx_eq (e : IVec S2x1600000 32) : colOf (dstRow e) = dstIdx e := rfl

/-! ## The stretches' results -/

set_option maxRecDepth 8192 in
set_option maxHeartbeats 2000000 in
theorem rd1_v1 (W : Valuation τ sig (Elt F)) :
    after ops1 W (Proc.devRef .tc main_v1) = srcRow (W (Proc.devRef .tc main_arg1)) := by
  simp only [ops1]
  after_results_simp
  all_goals rfl

set_option maxRecDepth 8192 in
set_option maxHeartbeats 2000000 in
theorem rd1_v3 (W : Valuation τ sig (Elt F)) :
    after ops1 W (Proc.devRef .tc main_v3) = dstRow (W (Proc.devRef .tc main_arg1)) := by
  simp only [ops1]
  after_results_simp
  all_goals rfl

set_option maxRecDepth 8192 in
set_option maxHeartbeats 2000000 in
theorem rd1_v9 (W : Valuation τ sig (Elt F)) :
    after ops1 W (Proc.devRef .tc main_v9) = srcIdx (W (Proc.devRef .tc main_arg1)) := by
  simp only [ops1]
  after_results_simp
  all_goals rfl

/-- A buffer stretch 1 does not write keeps its contents through it. -/
theorem keep1 (W : Valuation τ sig (Elt F)) (r : Ref sig .tc) (h : r ∉ ops1_W) :
    after ops1 W (Proc.devRef .tc r) = W (Proc.devRef .tc r) :=
  after_of_writes_sub ops1 W ops1_writes h

set_option maxRecDepth 8192 in
set_option maxHeartbeats 2000000 in
theorem rd2_v13 (W : Valuation τ sig (Elt F)) :
    after ops2 W (Proc.devRef .tc main_v13) = agg12 (W (Proc.devRef .tc main_arg0)) (W (Proc.devRef .tc main_v9)) (colOf (W (Proc.devRef .tc main_v3))) := by
  simp only [ops2]
  after_results_simp
  all_goals rfl

/-- A buffer stretch 2 does not write keeps its contents through it. -/
theorem keep2 (W : Valuation τ sig (Elt F)) (r : Ref sig .tc) (h : r ∉ ops2_W) :
    after ops2 W (Proc.devRef .tc r) = W (Proc.devRef .tc r) :=
  after_of_writes_sub ops2 W ops2_writes h

set_option maxRecDepth 8192 in
set_option maxHeartbeats 2000000 in
theorem rd3_v24 (W : Valuation τ sig (Elt F)) :
    after ops3 W (Proc.devRef .tc main_v24) = mlp12 (W (Proc.devRef .tc main_arg0)) (W (Proc.devRef .tc main_v13)) (W (Proc.devRef .tc main_arg3)) (W (Proc.devRef .tc main_arg4)) (W (Proc.devRef .tc main_arg5)) (W (Proc.devRef .tc main_arg6)) := by
  simp only [ops3]
  after_results_simp
  all_goals rfl

/-- A buffer stretch 3 does not write keeps its contents through it. -/
theorem keep3 (W : Valuation τ sig (Elt F)) (r : Ref sig .tc) (h : r ∉ ops3_W) :
    after ops3 W (Proc.devRef .tc r) = W (Proc.devRef .tc r) :=
  after_of_writes_sub ops3 W ops3_writes h

set_option maxRecDepth 8192 in
set_option maxHeartbeats 2000000 in
theorem rd4_v27 (W : Valuation τ sig (Elt F)) :
    after ops4 W (Proc.devRef .tc main_v27) = meanR (W (Proc.devRef .tc main_v24)) := by
  simp only [ops4]
  after_results_simp
  all_goals rfl

set_option maxRecDepth 8192 in
set_option maxHeartbeats 2000000 in
theorem rd4_v28 (W : Valuation τ sig (Elt F)) :
    after ops4 W (Proc.devRef .tc main_v28) = varR (W (Proc.devRef .tc main_v24)) := by
  simp only [ops4]
  after_results_simp
  all_goals rfl

/-- A buffer stretch 4 does not write keeps its contents through it. -/
theorem keep4 (W : Valuation τ sig (Elt F)) (r : Ref sig .tc) (h : r ∉ ops4_W) :
    after ops4 W (Proc.devRef .tc r) = W (Proc.devRef .tc r) :=
  after_of_writes_sub ops4 W ops4_writes h

set_option maxRecDepth 8192 in
set_option maxHeartbeats 2000000 in
theorem rd5_v45 (W : Valuation τ sig (Elt F)) :
    after ops5 W (Proc.devRef .tc main_v45) = bnR (W (Proc.devRef .tc main_v24)) (W (Proc.devRef .tc main_v27)) (W (Proc.devRef .tc main_v28)) (W (Proc.devRef .tc main_arg7)) (W (Proc.devRef .tc main_arg8)) := by
  simp only [ops5]
  after_results_simp
  all_goals rfl

/-- A buffer stretch 5 does not write keeps its contents through it. -/
theorem keep5 (W : Valuation τ sig (Elt F)) (r : Ref sig .tc) (h : r ∉ ops5_W) :
    after ops5 W (Proc.devRef .tc r) = W (Proc.devRef .tc r) :=
  after_of_writes_sub ops5 W ops5_writes h

set_option maxRecDepth 8192 in
set_option maxHeartbeats 2000000 in
theorem rd6_v51 (W : Valuation τ sig (Elt F)) :
    after (ops6 ++ ops7) W (Proc.devRef .tc main_v51) = wrapCol (W (Proc.devRef .tc main_v1)) := by
  simp only [ops6, ops7, List.cons_append, List.nil_append]
  after_results_simp
  all_goals rfl

/-- A buffer stretch 6 does not write keeps its contents through it. -/
theorem keep6 (W : Valuation τ sig (Elt F)) (r : Ref sig .tc) (h : r ∉ ops6_W ++ ops7_W) :
    after (ops6 ++ ops7) W (Proc.devRef .tc r) = W (Proc.devRef .tc r) := by
  rw [after_append, after_of_writes_sub ops7 _ ops7_writes (fun h' => h (List.mem_append_right _ h')),
    after_of_writes_sub ops6 _ ops6_writes (fun h' => h (List.mem_append_left _ h'))]

set_option maxRecDepth 8192 in
set_option maxHeartbeats 2000000 in
theorem rd7_v55 (W : Valuation τ sig (Elt F)) :
    after ops8 W (Proc.devRef .tc main_v55) = agg128 (W (Proc.devRef .tc main_v45)) (W (Proc.devRef .tc main_v51)) (colOf (W (Proc.devRef .tc main_v3))) := by
  simp only [ops8]
  after_results_simp
  all_goals rfl

/-- A buffer stretch 7 does not write keeps its contents through it. -/
theorem keep7 (W : Valuation τ sig (Elt F)) (r : Ref sig .tc) (h : r ∉ ops8_W) :
    after ops8 W (Proc.devRef .tc r) = W (Proc.devRef .tc r) :=
  after_of_writes_sub ops8 W ops8_writes h

set_option maxRecDepth 8192 in
set_option maxHeartbeats 2000000 in
theorem rd8_v66 (W : Valuation τ sig (Elt F)) :
    after ops9 W (Proc.devRef .tc main_v66) = mlp128 (W (Proc.devRef .tc main_v45)) (W (Proc.devRef .tc main_v55)) (W (Proc.devRef .tc main_arg9)) (W (Proc.devRef .tc main_arg10)) (W (Proc.devRef .tc main_arg11)) (W (Proc.devRef .tc main_arg12)) := by
  simp only [ops9]
  after_results_simp
  all_goals rfl

/-- A buffer stretch 8 does not write keeps its contents through it. -/
theorem keep8 (W : Valuation τ sig (Elt F)) (r : Ref sig .tc) (h : r ∉ ops9_W) :
    after ops9 W (Proc.devRef .tc r) = W (Proc.devRef .tc r) :=
  after_of_writes_sub ops9 W ops9_writes h

set_option maxRecDepth 8192 in
set_option maxHeartbeats 2000000 in
theorem rd9_v69 (W : Valuation τ sig (Elt F)) :
    after ops10 W (Proc.devRef .tc main_v69) = meanR (W (Proc.devRef .tc main_v66)) := by
  simp only [ops10]
  after_results_simp
  all_goals rfl

set_option maxRecDepth 8192 in
set_option maxHeartbeats 2000000 in
theorem rd9_v70 (W : Valuation τ sig (Elt F)) :
    after ops10 W (Proc.devRef .tc main_v70) = varR (W (Proc.devRef .tc main_v66)) := by
  simp only [ops10]
  after_results_simp
  all_goals rfl

/-- A buffer stretch 9 does not write keeps its contents through it. -/
theorem keep9 (W : Valuation τ sig (Elt F)) (r : Ref sig .tc) (h : r ∉ ops10_W) :
    after ops10 W (Proc.devRef .tc r) = W (Proc.devRef .tc r) :=
  after_of_writes_sub ops10 W ops10_writes h

set_option maxRecDepth 8192 in
set_option maxHeartbeats 2000000 in
theorem rd10_v87 (W : Valuation τ sig (Elt F)) :
    after ops11 W (Proc.devRef .tc main_v87) = bnR (W (Proc.devRef .tc main_v66)) (W (Proc.devRef .tc main_v69)) (W (Proc.devRef .tc main_v70)) (W (Proc.devRef .tc main_arg13)) (W (Proc.devRef .tc main_arg14)) := by
  simp only [ops11]
  after_results_simp
  all_goals rfl

/-- A buffer stretch 10 does not write keeps its contents through it. -/
theorem keep10 (W : Valuation τ sig (Elt F)) (r : Ref sig .tc) (h : r ∉ ops11_W) :
    after ops11 W (Proc.devRef .tc r) = W (Proc.devRef .tc r) :=
  after_of_writes_sub ops11 W ops11_writes h

set_option maxRecDepth 8192 in
set_option maxHeartbeats 2000000 in
theorem rd11_v93 (W : Valuation τ sig (Elt F)) :
    after ops12 W (Proc.devRef .tc main_v93) = wrapCol (W (Proc.devRef .tc main_v1)) := by
  simp only [ops12]
  after_results_simp
  all_goals rfl

/-- A buffer stretch 11 does not write keeps its contents through it. -/
theorem keep11 (W : Valuation τ sig (Elt F)) (r : Ref sig .tc) (h : r ∉ ops12_W) :
    after ops12 W (Proc.devRef .tc r) = W (Proc.devRef .tc r) :=
  after_of_writes_sub ops12 W ops12_writes h

set_option maxRecDepth 8192 in
set_option maxHeartbeats 2000000 in
theorem rd12_v97 (W : Valuation τ sig (Elt F)) :
    after ops13 W (Proc.devRef .tc main_v97) = agg128 (W (Proc.devRef .tc main_v87)) (W (Proc.devRef .tc main_v93)) (colOf (W (Proc.devRef .tc main_v3))) := by
  simp only [ops13]
  after_results_simp
  all_goals rfl

/-- A buffer stretch 12 does not write keeps its contents through it. -/
theorem keep12 (W : Valuation τ sig (Elt F)) (r : Ref sig .tc) (h : r ∉ ops13_W) :
    after ops13 W (Proc.devRef .tc r) = W (Proc.devRef .tc r) :=
  after_of_writes_sub ops13 W ops13_writes h

set_option maxRecDepth 8192 in
set_option maxHeartbeats 2000000 in
theorem rd13_v108 (W : Valuation τ sig (Elt F)) :
    after (ops14 ++ ops15) W (Proc.devRef .tc main_v108) = mlp128 (W (Proc.devRef .tc main_v87)) (W (Proc.devRef .tc main_v97)) (W (Proc.devRef .tc main_arg15)) (W (Proc.devRef .tc main_arg16)) (W (Proc.devRef .tc main_arg17)) (W (Proc.devRef .tc main_arg18)) := by
  simp only [ops14, ops15, List.cons_append, List.nil_append]
  after_results_simp
  all_goals rfl

/-- A buffer stretch 13 does not write keeps its contents through it. -/
theorem keep13 (W : Valuation τ sig (Elt F)) (r : Ref sig .tc) (h : r ∉ ops14_W ++ ops15_W) :
    after (ops14 ++ ops15) W (Proc.devRef .tc r) = W (Proc.devRef .tc r) := by
  rw [after_append, after_of_writes_sub ops15 _ ops15_writes (fun h' => h (List.mem_append_right _ h')),
    after_of_writes_sub ops14 _ ops14_writes (fun h' => h (List.mem_append_left _ h'))]

set_option maxRecDepth 8192 in
set_option maxHeartbeats 2000000 in
theorem rd14_v111 (W : Valuation τ sig (Elt F)) :
    after ops16 W (Proc.devRef .tc main_v111) = meanR (W (Proc.devRef .tc main_v108)) := by
  simp only [ops16]
  after_results_simp
  all_goals rfl

set_option maxRecDepth 8192 in
set_option maxHeartbeats 2000000 in
theorem rd14_v112 (W : Valuation τ sig (Elt F)) :
    after ops16 W (Proc.devRef .tc main_v112) = varR (W (Proc.devRef .tc main_v108)) := by
  simp only [ops16]
  after_results_simp
  all_goals rfl

/-- A buffer stretch 14 does not write keeps its contents through it. -/
theorem keep14 (W : Valuation τ sig (Elt F)) (r : Ref sig .tc) (h : r ∉ ops16_W) :
    after ops16 W (Proc.devRef .tc r) = W (Proc.devRef .tc r) :=
  after_of_writes_sub ops16 W ops16_writes h

set_option maxRecDepth 8192 in
set_option maxHeartbeats 2000000 in
theorem rd15_v129 (W : Valuation τ sig (Elt F)) :
    after ops17 W (Proc.devRef .tc main_v129) = bnR (W (Proc.devRef .tc main_v108)) (W (Proc.devRef .tc main_v111)) (W (Proc.devRef .tc main_v112)) (W (Proc.devRef .tc main_arg19)) (W (Proc.devRef .tc main_arg20)) := by
  simp only [ops17]
  after_results_simp
  all_goals rfl

/-- A buffer stretch 15 does not write keeps its contents through it. -/
theorem keep15 (W : Valuation τ sig (Elt F)) (r : Ref sig .tc) (h : r ∉ ops17_W) :
    after ops17 W (Proc.devRef .tc r) = W (Proc.devRef .tc r) :=
  after_of_writes_sub ops17 W ops17_writes h

set_option maxRecDepth 8192 in
set_option maxHeartbeats 2000000 in
theorem rd16_v132 (W : Valuation τ sig (Elt F)) :
    after ops18 W (Proc.devRef .tc main_v132) = pool (W (Proc.devRef .tc main_v129)) (W (Proc.devRef .tc main_arg2)) := by
  simp only [ops18]
  after_results_simp
  all_goals rfl

/-- A buffer stretch 16 does not write keeps its contents through it. -/
theorem keep16 (W : Valuation τ sig (Elt F)) (r : Ref sig .tc) (h : r ∉ ops18_W) :
    after ops18 W (Proc.devRef .tc r) = W (Proc.devRef .tc r) :=
  after_of_writes_sub ops18 W ops18_writes h

set_option maxRecDepth 8192 in
set_option maxHeartbeats 2000000 in
theorem rd17_v148 (W : Valuation τ sig (Elt F)) :
    after ops19 W (Proc.devRef .tc main_v148) = headR (W (Proc.devRef .tc main_v132)) (W (Proc.devRef .tc main_arg21)) (W (Proc.devRef .tc main_arg22)) (W (Proc.devRef .tc main_arg23)) (W (Proc.devRef .tc main_arg24)) (W (Proc.devRef .tc main_arg25)) (W (Proc.devRef .tc main_arg26)) := by
  simp only [ops19]
  after_results_simp
  all_goals rfl

/-- A buffer stretch 17 does not write keeps its contents through it. -/
theorem keep17 (W : Valuation τ sig (Elt F)) (r : Ref sig .tc) (h : r ∉ ops19_W) :
    after ops19 W (Proc.devRef .tc r) = W (Proc.devRef .tc r) :=
  after_of_writes_sub ops19 W ops19_writes h

end Cert.ReferenceIdeal.Hand

end
-- ==== Proof.Ref.Chain.lean ====
/- The stretches chained: the device's contents after the first K stretches, from launch contents `V0`, and what each
   buffer a later stretch reads holds then, as a term of `V0` at the argument buffers. The arguments themselves are
   written by no stretch. The last stretch leaves the result buffer at `refOut` of the arguments. -/
import proofs.«142609_j54228257079879_1_alg».proof.Proof.Ref.Read

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-! ## The network's intermediate arrays as terms of the launch contents -/

/-- Layer 1 before normalisation. -/
def T1 (V0 : Valuation τ sig (Elt F)) : FVec F S100000x128 .f32 :=
  mlp12 (V0 (Proc.devRef .tc main_arg0)) (agg12 (V0 (Proc.devRef .tc main_arg0)) (srcIdx (V0 (Proc.devRef .tc main_arg1))) (dstIdx (V0 (Proc.devRef .tc main_arg1)))) (V0 (Proc.devRef .tc main_arg3)) (V0 (Proc.devRef .tc main_arg4)) (V0 (Proc.devRef .tc main_arg5)) (V0 (Proc.devRef .tc main_arg6))
/-- Layer 1's output. -/
def H1 (V0 : Valuation τ sig (Elt F)) : FVec F S100000x128 .f32 := normR (T1 V0) (V0 (Proc.devRef .tc main_arg7)) (V0 (Proc.devRef .tc main_arg8))
/-- Layer 2 before normalisation. -/
def T2 (V0 : Valuation τ sig (Elt F)) : FVec F S100000x128 .f32 :=
  mlp128 (H1 V0) (agg128 (H1 V0) (srcIdx (V0 (Proc.devRef .tc main_arg1))) (dstIdx (V0 (Proc.devRef .tc main_arg1)))) (V0 (Proc.devRef .tc main_arg9)) (V0 (Proc.devRef .tc main_arg10)) (V0 (Proc.devRef .tc main_arg11)) (V0 (Proc.devRef .tc main_arg12))
/-- Layer 2's output. -/
def H2 (V0 : Valuation τ sig (Elt F)) : FVec F S100000x128 .f32 := normR (T2 V0) (V0 (Proc.devRef .tc main_arg13)) (V0 (Proc.devRef .tc main_arg14))
/-- Layer 3 before normalisation. -/
def T3 (V0 : Valuation τ sig (Elt F)) : FVec F S100000x128 .f32 :=
  mlp128 (H2 V0) (agg128 (H2 V0) (srcIdx (V0 (Proc.devRef .tc main_arg1))) (dstIdx (V0 (Proc.devRef .tc main_arg1)))) (V0 (Proc.devRef .tc main_arg15)) (V0 (Proc.devRef .tc main_arg16)) (V0 (Proc.devRef .tc main_arg17)) (V0 (Proc.devRef .tc main_arg18))
/-- Layer 3's output. -/
def H3 (V0 : Valuation τ sig (Elt F)) : FVec F S100000x128 .f32 := normR (T3 V0) (V0 (Proc.devRef .tc main_arg19)) (V0 (Proc.devRef .tc main_arg20))

/-- The head of the pooled third layer is the composed term of the 27 arguments. -/
theorem head_eq_refOut (V0 : Valuation τ sig (Elt F)) :
    headR (pool (H3 V0) (V0 (Proc.devRef .tc main_arg2))) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26))
      = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := rfl

/-! ## Written by no stretch -/

/-- The reference is in no stretch's list of written buffers. -/
abbrev NW (r : Ref sig .tc) : Prop :=
  r ∉ ops1_W ∧ r ∉ ops2_W ∧ r ∉ ops3_W ∧ r ∉ ops4_W ∧ r ∉ ops5_W ∧ r ∉ ops6_W ++ ops7_W ∧ r ∉ ops8_W ∧ r ∉ ops9_W ∧ r ∉ ops10_W ∧ r ∉ ops11_W ∧ r ∉ ops12_W ∧ r ∉ ops13_W ∧ r ∉ ops14_W ++ ops15_W ∧ r ∉ ops16_W ∧ r ∉ ops17_W ∧ r ∉ ops18_W ∧ r ∉ ops19_W

theorem nw_arg0 : NW main_arg0 := by decide
theorem nw_arg1 : NW main_arg1 := by decide
theorem nw_arg2 : NW main_arg2 := by decide
theorem nw_arg3 : NW main_arg3 := by decide
theorem nw_arg4 : NW main_arg4 := by decide
theorem nw_arg5 : NW main_arg5 := by decide
theorem nw_arg6 : NW main_arg6 := by decide
theorem nw_arg7 : NW main_arg7 := by decide
theorem nw_arg8 : NW main_arg8 := by decide
theorem nw_arg9 : NW main_arg9 := by decide
theorem nw_arg10 : NW main_arg10 := by decide
theorem nw_arg11 : NW main_arg11 := by decide
theorem nw_arg12 : NW main_arg12 := by decide
theorem nw_arg13 : NW main_arg13 := by decide
theorem nw_arg14 : NW main_arg14 := by decide
theorem nw_arg15 : NW main_arg15 := by decide
theorem nw_arg16 : NW main_arg16 := by decide
theorem nw_arg17 : NW main_arg17 := by decide
theorem nw_arg18 : NW main_arg18 := by decide
theorem nw_arg19 : NW main_arg19 := by decide
theorem nw_arg20 : NW main_arg20 := by decide
theorem nw_arg21 : NW main_arg21 := by decide
theorem nw_arg22 : NW main_arg22 := by decide
theorem nw_arg23 : NW main_arg23 := by decide
theorem nw_arg24 : NW main_arg24 := by decide
theorem nw_arg25 : NW main_arg25 := by decide
theorem nw_arg26 : NW main_arg26 := by decide

/-! ## The contents after each stretch -/

/-- The device's buffer contents after the first 1 stretch. -/
def val1 (V0 : Valuation τ sig (Elt F)) : Valuation τ sig (Elt F) := after ops1 V0
theorem val1_keep (V0 : Valuation τ sig (Elt F)) (r : Ref sig .tc) (h : r ∉ ops1_W) :
    val1 V0 (Proc.devRef .tc r) = V0 (Proc.devRef .tc r) := keep1 _ r h
theorem val1_nw (V0 : Valuation τ sig (Elt F)) (r : Ref sig .tc) (h : NW r) : val1 V0 (Proc.devRef .tc r) = V0 (Proc.devRef .tc r) :=
  val1_keep V0 r h.1
theorem val1_v1 (V0 : Valuation τ sig (Elt F)) : val1 V0 (Proc.devRef .tc main_v1) = srcRow (V0 (Proc.devRef .tc main_arg1)) := rd1_v1 V0
theorem val1_v3 (V0 : Valuation τ sig (Elt F)) : val1 V0 (Proc.devRef .tc main_v3) = dstRow (V0 (Proc.devRef .tc main_arg1)) := rd1_v3 V0
theorem val1_v9 (V0 : Valuation τ sig (Elt F)) : val1 V0 (Proc.devRef .tc main_v9) = srcIdx (V0 (Proc.devRef .tc main_arg1)) := rd1_v9 V0

/-- The device's buffer contents after the first 2 stretches. -/
def val2 (V0 : Valuation τ sig (Elt F)) : Valuation τ sig (Elt F) := after ops2 (val1 V0)
theorem val2_keep (V0 : Valuation τ sig (Elt F)) (r : Ref sig .tc) (h : r ∉ ops2_W) :
    val2 V0 (Proc.devRef .tc r) = val1 V0 (Proc.devRef .tc r) := keep2 _ r h
theorem val2_nw (V0 : Valuation τ sig (Elt F)) (r : Ref sig .tc) (h : NW r) : val2 V0 (Proc.devRef .tc r) = V0 (Proc.devRef .tc r) :=
  (val2_keep V0 r h.2.1).trans (val1_nw V0 r h)
theorem val2_v13 (V0 : Valuation τ sig (Elt F)) : val2 V0 (Proc.devRef .tc main_v13) = agg12 (V0 (Proc.devRef .tc main_arg0)) (srcIdx (V0 (Proc.devRef .tc main_arg1))) (dstIdx (V0 (Proc.devRef .tc main_arg1))) :=
  (rd2_v13 _).trans (by rw [val1_nw V0 main_arg0 nw_arg0, val1_v9 V0, val1_v3 V0] <;> rfl)
theorem val2_v1 (V0 : Valuation τ sig (Elt F)) : val2 V0 (Proc.devRef .tc main_v1) = srcRow (V0 (Proc.devRef .tc main_arg1)) :=
  (val2_keep V0 main_v1 (by decide)).trans (val1_v1 V0)
theorem val2_v3 (V0 : Valuation τ sig (Elt F)) : val2 V0 (Proc.devRef .tc main_v3) = dstRow (V0 (Proc.devRef .tc main_arg1)) :=
  (val2_keep V0 main_v3 (by decide)).trans (val1_v3 V0)

/-- The device's buffer contents after the first 3 stretches. -/
def val3 (V0 : Valuation τ sig (Elt F)) : Valuation τ sig (Elt F) := after ops3 (val2 V0)
theorem val3_keep (V0 : Valuation τ sig (Elt F)) (r : Ref sig .tc) (h : r ∉ ops3_W) :
    val3 V0 (Proc.devRef .tc r) = val2 V0 (Proc.devRef .tc r) := keep3 _ r h
theorem val3_nw (V0 : Valuation τ sig (Elt F)) (r : Ref sig .tc) (h : NW r) : val3 V0 (Proc.devRef .tc r) = V0 (Proc.devRef .tc r) :=
  (val3_keep V0 r h.2.2.1).trans (val2_nw V0 r h)
theorem val3_v24 (V0 : Valuation τ sig (Elt F)) : val3 V0 (Proc.devRef .tc main_v24) = T1 V0 :=
  (rd3_v24 _).trans (by rw [val2_nw V0 main_arg0 nw_arg0, val2_v13 V0, val2_nw V0 main_arg3 nw_arg3, val2_nw V0 main_arg4 nw_arg4, val2_nw V0 main_arg5 nw_arg5, val2_nw V0 main_arg6 nw_arg6] <;> rfl)
theorem val3_v1 (V0 : Valuation τ sig (Elt F)) : val3 V0 (Proc.devRef .tc main_v1) = srcRow (V0 (Proc.devRef .tc main_arg1)) :=
  (val3_keep V0 main_v1 (by decide)).trans (val2_v1 V0)
theorem val3_v3 (V0 : Valuation τ sig (Elt F)) : val3 V0 (Proc.devRef .tc main_v3) = dstRow (V0 (Proc.devRef .tc main_arg1)) :=
  (val3_keep V0 main_v3 (by decide)).trans (val2_v3 V0)

/-- The device's buffer contents after the first 4 stretches. -/
def val4 (V0 : Valuation τ sig (Elt F)) : Valuation τ sig (Elt F) := after ops4 (val3 V0)
theorem val4_keep (V0 : Valuation τ sig (Elt F)) (r : Ref sig .tc) (h : r ∉ ops4_W) :
    val4 V0 (Proc.devRef .tc r) = val3 V0 (Proc.devRef .tc r) := keep4 _ r h
theorem val4_nw (V0 : Valuation τ sig (Elt F)) (r : Ref sig .tc) (h : NW r) : val4 V0 (Proc.devRef .tc r) = V0 (Proc.devRef .tc r) :=
  (val4_keep V0 r h.2.2.2.1).trans (val3_nw V0 r h)
theorem val4_v27 (V0 : Valuation τ sig (Elt F)) : val4 V0 (Proc.devRef .tc main_v27) = meanR (T1 V0) :=
  (rd4_v27 _).trans (by rw [val3_v24 V0] <;> rfl)
theorem val4_v28 (V0 : Valuation τ sig (Elt F)) : val4 V0 (Proc.devRef .tc main_v28) = varR (T1 V0) :=
  (rd4_v28 _).trans (by rw [val3_v24 V0] <;> rfl)
theorem val4_v1 (V0 : Valuation τ sig (Elt F)) : val4 V0 (Proc.devRef .tc main_v1) = srcRow (V0 (Proc.devRef .tc main_arg1)) :=
  (val4_keep V0 main_v1 (by decide)).trans (val3_v1 V0)
theorem val4_v3 (V0 : Valuation τ sig (Elt F)) : val4 V0 (Proc.devRef .tc main_v3) = dstRow (V0 (Proc.devRef .tc main_arg1)) :=
  (val4_keep V0 main_v3 (by decide)).trans (val3_v3 V0)
theorem val4_v24 (V0 : Valuation τ sig (Elt F)) : val4 V0 (Proc.devRef .tc main_v24) = T1 V0 :=
  (val4_keep V0 main_v24 (by decide)).trans (val3_v24 V0)

/-- The device's buffer contents after the first 5 stretches. -/
def val5 (V0 : Valuation τ sig (Elt F)) : Valuation τ sig (Elt F) := after ops5 (val4 V0)
theorem val5_keep (V0 : Valuation τ sig (Elt F)) (r : Ref sig .tc) (h : r ∉ ops5_W) :
    val5 V0 (Proc.devRef .tc r) = val4 V0 (Proc.devRef .tc r) := keep5 _ r h
theorem val5_nw (V0 : Valuation τ sig (Elt F)) (r : Ref sig .tc) (h : NW r) : val5 V0 (Proc.devRef .tc r) = V0 (Proc.devRef .tc r) :=
  (val5_keep V0 r h.2.2.2.2.1).trans (val4_nw V0 r h)
theorem val5_v45 (V0 : Valuation τ sig (Elt F)) : val5 V0 (Proc.devRef .tc main_v45) = H1 V0 :=
  (rd5_v45 _).trans (by rw [val4_v24 V0, val4_v27 V0, val4_v28 V0, val4_nw V0 main_arg7 nw_arg7, val4_nw V0 main_arg8 nw_arg8] <;> rfl)
theorem val5_v1 (V0 : Valuation τ sig (Elt F)) : val5 V0 (Proc.devRef .tc main_v1) = srcRow (V0 (Proc.devRef .tc main_arg1)) :=
  (val5_keep V0 main_v1 (by decide)).trans (val4_v1 V0)
theorem val5_v3 (V0 : Valuation τ sig (Elt F)) : val5 V0 (Proc.devRef .tc main_v3) = dstRow (V0 (Proc.devRef .tc main_arg1)) :=
  (val5_keep V0 main_v3 (by decide)).trans (val4_v3 V0)

/-- The device's buffer contents after the first 6 stretches. -/
def val6 (V0 : Valuation τ sig (Elt F)) : Valuation τ sig (Elt F) := after (ops6 ++ ops7) (val5 V0)
theorem val6_keep (V0 : Valuation τ sig (Elt F)) (r : Ref sig .tc) (h : r ∉ ops6_W ++ ops7_W) :
    val6 V0 (Proc.devRef .tc r) = val5 V0 (Proc.devRef .tc r) := keep6 _ r h
theorem val6_nw (V0 : Valuation τ sig (Elt F)) (r : Ref sig .tc) (h : NW r) : val6 V0 (Proc.devRef .tc r) = V0 (Proc.devRef .tc r) :=
  (val6_keep V0 r h.2.2.2.2.2.1).trans (val5_nw V0 r h)
theorem val6_v51 (V0 : Valuation τ sig (Elt F)) : val6 V0 (Proc.devRef .tc main_v51) = srcIdx (V0 (Proc.devRef .tc main_arg1)) :=
  (rd6_v51 _).trans (by rw [val5_v1 V0] <;> rfl)
theorem val6_v1 (V0 : Valuation τ sig (Elt F)) : val6 V0 (Proc.devRef .tc main_v1) = srcRow (V0 (Proc.devRef .tc main_arg1)) :=
  (val6_keep V0 main_v1 (by decide)).trans (val5_v1 V0)
theorem val6_v3 (V0 : Valuation τ sig (Elt F)) : val6 V0 (Proc.devRef .tc main_v3) = dstRow (V0 (Proc.devRef .tc main_arg1)) :=
  (val6_keep V0 main_v3 (by decide)).trans (val5_v3 V0)
theorem val6_v45 (V0 : Valuation τ sig (Elt F)) : val6 V0 (Proc.devRef .tc main_v45) = H1 V0 :=
  (val6_keep V0 main_v45 (by decide)).trans (val5_v45 V0)

/-- The device's buffer contents after the first 7 stretches. -/
def val7 (V0 : Valuation τ sig (Elt F)) : Valuation τ sig (Elt F) := after ops8 (val6 V0)
theorem val7_keep (V0 : Valuation τ sig (Elt F)) (r : Ref sig .tc) (h : r ∉ ops8_W) :
    val7 V0 (Proc.devRef .tc r) = val6 V0 (Proc.devRef .tc r) := keep7 _ r h
theorem val7_nw (V0 : Valuation τ sig (Elt F)) (r : Ref sig .tc) (h : NW r) : val7 V0 (Proc.devRef .tc r) = V0 (Proc.devRef .tc r) :=
  (val7_keep V0 r h.2.2.2.2.2.2.1).trans (val6_nw V0 r h)
theorem val7_v55 (V0 : Valuation τ sig (Elt F)) : val7 V0 (Proc.devRef .tc main_v55) = agg128 (H1 V0) (srcIdx (V0 (Proc.devRef .tc main_arg1))) (dstIdx (V0 (Proc.devRef .tc main_arg1))) :=
  (rd7_v55 _).trans (by rw [val6_v45 V0, val6_v51 V0, val6_v3 V0] <;> rfl)
theorem val7_v1 (V0 : Valuation τ sig (Elt F)) : val7 V0 (Proc.devRef .tc main_v1) = srcRow (V0 (Proc.devRef .tc main_arg1)) :=
  (val7_keep V0 main_v1 (by decide)).trans (val6_v1 V0)
theorem val7_v3 (V0 : Valuation τ sig (Elt F)) : val7 V0 (Proc.devRef .tc main_v3) = dstRow (V0 (Proc.devRef .tc main_arg1)) :=
  (val7_keep V0 main_v3 (by decide)).trans (val6_v3 V0)
theorem val7_v45 (V0 : Valuation τ sig (Elt F)) : val7 V0 (Proc.devRef .tc main_v45) = H1 V0 :=
  (val7_keep V0 main_v45 (by decide)).trans (val6_v45 V0)

/-- The device's buffer contents after the first 8 stretches. -/
def val8 (V0 : Valuation τ sig (Elt F)) : Valuation τ sig (Elt F) := after ops9 (val7 V0)
theorem val8_keep (V0 : Valuation τ sig (Elt F)) (r : Ref sig .tc) (h : r ∉ ops9_W) :
    val8 V0 (Proc.devRef .tc r) = val7 V0 (Proc.devRef .tc r) := keep8 _ r h
theorem val8_nw (V0 : Valuation τ sig (Elt F)) (r : Ref sig .tc) (h : NW r) : val8 V0 (Proc.devRef .tc r) = V0 (Proc.devRef .tc r) :=
  (val8_keep V0 r h.2.2.2.2.2.2.2.1).trans (val7_nw V0 r h)
theorem val8_v66 (V0 : Valuation τ sig (Elt F)) : val8 V0 (Proc.devRef .tc main_v66) = T2 V0 :=
  (rd8_v66 _).trans (by rw [val7_v45 V0, val7_v55 V0, val7_nw V0 main_arg9 nw_arg9, val7_nw V0 main_arg10 nw_arg10, val7_nw V0 main_arg11 nw_arg11, val7_nw V0 main_arg12 nw_arg12] <;> rfl)
theorem val8_v1 (V0 : Valuation τ sig (Elt F)) : val8 V0 (Proc.devRef .tc main_v1) = srcRow (V0 (Proc.devRef .tc main_arg1)) :=
  (val8_keep V0 main_v1 (by decide)).trans (val7_v1 V0)
theorem val8_v3 (V0 : Valuation τ sig (Elt F)) : val8 V0 (Proc.devRef .tc main_v3) = dstRow (V0 (Proc.devRef .tc main_arg1)) :=
  (val8_keep V0 main_v3 (by decide)).trans (val7_v3 V0)

/-- The device's buffer contents after the first 9 stretches. -/
def val9 (V0 : Valuation τ sig (Elt F)) : Valuation τ sig (Elt F) := after ops10 (val8 V0)
theorem val9_keep (V0 : Valuation τ sig (Elt F)) (r : Ref sig .tc) (h : r ∉ ops10_W) :
    val9 V0 (Proc.devRef .tc r) = val8 V0 (Proc.devRef .tc r) := keep9 _ r h
theorem val9_nw (V0 : Valuation τ sig (Elt F)) (r : Ref sig .tc) (h : NW r) : val9 V0 (Proc.devRef .tc r) = V0 (Proc.devRef .tc r) :=
  (val9_keep V0 r h.2.2.2.2.2.2.2.2.1).trans (val8_nw V0 r h)
theorem val9_v69 (V0 : Valuation τ sig (Elt F)) : val9 V0 (Proc.devRef .tc main_v69) = meanR (T2 V0) :=
  (rd9_v69 _).trans (by rw [val8_v66 V0] <;> rfl)
theorem val9_v70 (V0 : Valuation τ sig (Elt F)) : val9 V0 (Proc.devRef .tc main_v70) = varR (T2 V0) :=
  (rd9_v70 _).trans (by rw [val8_v66 V0] <;> rfl)
theorem val9_v1 (V0 : Valuation τ sig (Elt F)) : val9 V0 (Proc.devRef .tc main_v1) = srcRow (V0 (Proc.devRef .tc main_arg1)) :=
  (val9_keep V0 main_v1 (by decide)).trans (val8_v1 V0)
theorem val9_v3 (V0 : Valuation τ sig (Elt F)) : val9 V0 (Proc.devRef .tc main_v3) = dstRow (V0 (Proc.devRef .tc main_arg1)) :=
  (val9_keep V0 main_v3 (by decide)).trans (val8_v3 V0)
theorem val9_v66 (V0 : Valuation τ sig (Elt F)) : val9 V0 (Proc.devRef .tc main_v66) = T2 V0 :=
  (val9_keep V0 main_v66 (by decide)).trans (val8_v66 V0)

/-- The device's buffer contents after the first 10 stretches. -/
def val10 (V0 : Valuation τ sig (Elt F)) : Valuation τ sig (Elt F) := after ops11 (val9 V0)
theorem val10_keep (V0 : Valuation τ sig (Elt F)) (r : Ref sig .tc) (h : r ∉ ops11_W) :
    val10 V0 (Proc.devRef .tc r) = val9 V0 (Proc.devRef .tc r) := keep10 _ r h
theorem val10_nw (V0 : Valuation τ sig (Elt F)) (r : Ref sig .tc) (h : NW r) : val10 V0 (Proc.devRef .tc r) = V0 (Proc.devRef .tc r) :=
  (val10_keep V0 r h.2.2.2.2.2.2.2.2.2.1).trans (val9_nw V0 r h)
theorem val10_v87 (V0 : Valuation τ sig (Elt F)) : val10 V0 (Proc.devRef .tc main_v87) = H2 V0 :=
  (rd10_v87 _).trans (by rw [val9_v66 V0, val9_v69 V0, val9_v70 V0, val9_nw V0 main_arg13 nw_arg13, val9_nw V0 main_arg14 nw_arg14] <;> rfl)
theorem val10_v1 (V0 : Valuation τ sig (Elt F)) : val10 V0 (Proc.devRef .tc main_v1) = srcRow (V0 (Proc.devRef .tc main_arg1)) :=
  (val10_keep V0 main_v1 (by decide)).trans (val9_v1 V0)
theorem val10_v3 (V0 : Valuation τ sig (Elt F)) : val10 V0 (Proc.devRef .tc main_v3) = dstRow (V0 (Proc.devRef .tc main_arg1)) :=
  (val10_keep V0 main_v3 (by decide)).trans (val9_v3 V0)

/-- The device's buffer contents after the first 11 stretches. -/
def val11 (V0 : Valuation τ sig (Elt F)) : Valuation τ sig (Elt F) := after ops12 (val10 V0)
theorem val11_keep (V0 : Valuation τ sig (Elt F)) (r : Ref sig .tc) (h : r ∉ ops12_W) :
    val11 V0 (Proc.devRef .tc r) = val10 V0 (Proc.devRef .tc r) := keep11 _ r h
theorem val11_nw (V0 : Valuation τ sig (Elt F)) (r : Ref sig .tc) (h : NW r) : val11 V0 (Proc.devRef .tc r) = V0 (Proc.devRef .tc r) :=
  (val11_keep V0 r h.2.2.2.2.2.2.2.2.2.2.1).trans (val10_nw V0 r h)
theorem val11_v93 (V0 : Valuation τ sig (Elt F)) : val11 V0 (Proc.devRef .tc main_v93) = srcIdx (V0 (Proc.devRef .tc main_arg1)) :=
  (rd11_v93 _).trans (by rw [val10_v1 V0] <;> rfl)
theorem val11_v3 (V0 : Valuation τ sig (Elt F)) : val11 V0 (Proc.devRef .tc main_v3) = dstRow (V0 (Proc.devRef .tc main_arg1)) :=
  (val11_keep V0 main_v3 (by decide)).trans (val10_v3 V0)
theorem val11_v87 (V0 : Valuation τ sig (Elt F)) : val11 V0 (Proc.devRef .tc main_v87) = H2 V0 :=
  (val11_keep V0 main_v87 (by decide)).trans (val10_v87 V0)

/-- The device's buffer contents after the first 12 stretches. -/
def val12 (V0 : Valuation τ sig (Elt F)) : Valuation τ sig (Elt F) := after ops13 (val11 V0)
theorem val12_keep (V0 : Valuation τ sig (Elt F)) (r : Ref sig .tc) (h : r ∉ ops13_W) :
    val12 V0 (Proc.devRef .tc r) = val11 V0 (Proc.devRef .tc r) := keep12 _ r h
theorem val12_nw (V0 : Valuation τ sig (Elt F)) (r : Ref sig .tc) (h : NW r) : val12 V0 (Proc.devRef .tc r) = V0 (Proc.devRef .tc r) :=
  (val12_keep V0 r h.2.2.2.2.2.2.2.2.2.2.2.1).trans (val11_nw V0 r h)
theorem val12_v97 (V0 : Valuation τ sig (Elt F)) : val12 V0 (Proc.devRef .tc main_v97) = agg128 (H2 V0) (srcIdx (V0 (Proc.devRef .tc main_arg1))) (dstIdx (V0 (Proc.devRef .tc main_arg1))) :=
  (rd12_v97 _).trans (by rw [val11_v87 V0, val11_v93 V0, val11_v3 V0] <;> rfl)
theorem val12_v87 (V0 : Valuation τ sig (Elt F)) : val12 V0 (Proc.devRef .tc main_v87) = H2 V0 :=
  (val12_keep V0 main_v87 (by decide)).trans (val11_v87 V0)

/-- The device's buffer contents after the first 13 stretches. -/
def val13 (V0 : Valuation τ sig (Elt F)) : Valuation τ sig (Elt F) := after (ops14 ++ ops15) (val12 V0)
theorem val13_keep (V0 : Valuation τ sig (Elt F)) (r : Ref sig .tc) (h : r ∉ ops14_W ++ ops15_W) :
    val13 V0 (Proc.devRef .tc r) = val12 V0 (Proc.devRef .tc r) := keep13 _ r h
theorem val13_nw (V0 : Valuation τ sig (Elt F)) (r : Ref sig .tc) (h : NW r) : val13 V0 (Proc.devRef .tc r) = V0 (Proc.devRef .tc r) :=
  (val13_keep V0 r h.2.2.2.2.2.2.2.2.2.2.2.2.1).trans (val12_nw V0 r h)
theorem val13_v108 (V0 : Valuation τ sig (Elt F)) : val13 V0 (Proc.devRef .tc main_v108) = T3 V0 :=
  (rd13_v108 _).trans (by rw [val12_v87 V0, val12_v97 V0, val12_nw V0 main_arg15 nw_arg15, val12_nw V0 main_arg16 nw_arg16, val12_nw V0 main_arg17 nw_arg17, val12_nw V0 main_arg18 nw_arg18] <;> rfl)

/-- The device's buffer contents after the first 14 stretches. -/
def val14 (V0 : Valuation τ sig (Elt F)) : Valuation τ sig (Elt F) := after ops16 (val13 V0)
theorem val14_keep (V0 : Valuation τ sig (Elt F)) (r : Ref sig .tc) (h : r ∉ ops16_W) :
    val14 V0 (Proc.devRef .tc r) = val13 V0 (Proc.devRef .tc r) := keep14 _ r h
theorem val14_nw (V0 : Valuation τ sig (Elt F)) (r : Ref sig .tc) (h : NW r) : val14 V0 (Proc.devRef .tc r) = V0 (Proc.devRef .tc r) :=
  (val14_keep V0 r h.2.2.2.2.2.2.2.2.2.2.2.2.2.1).trans (val13_nw V0 r h)
theorem val14_v111 (V0 : Valuation τ sig (Elt F)) : val14 V0 (Proc.devRef .tc main_v111) = meanR (T3 V0) :=
  (rd14_v111 _).trans (by rw [val13_v108 V0] <;> rfl)
theorem val14_v112 (V0 : Valuation τ sig (Elt F)) : val14 V0 (Proc.devRef .tc main_v112) = varR (T3 V0) :=
  (rd14_v112 _).trans (by rw [val13_v108 V0] <;> rfl)
theorem val14_v108 (V0 : Valuation τ sig (Elt F)) : val14 V0 (Proc.devRef .tc main_v108) = T3 V0 :=
  (val14_keep V0 main_v108 (by decide)).trans (val13_v108 V0)

/-- The device's buffer contents after the first 15 stretches. -/
def val15 (V0 : Valuation τ sig (Elt F)) : Valuation τ sig (Elt F) := after ops17 (val14 V0)
theorem val15_keep (V0 : Valuation τ sig (Elt F)) (r : Ref sig .tc) (h : r ∉ ops17_W) :
    val15 V0 (Proc.devRef .tc r) = val14 V0 (Proc.devRef .tc r) := keep15 _ r h
theorem val15_nw (V0 : Valuation τ sig (Elt F)) (r : Ref sig .tc) (h : NW r) : val15 V0 (Proc.devRef .tc r) = V0 (Proc.devRef .tc r) :=
  (val15_keep V0 r h.2.2.2.2.2.2.2.2.2.2.2.2.2.2.1).trans (val14_nw V0 r h)
theorem val15_v129 (V0 : Valuation τ sig (Elt F)) : val15 V0 (Proc.devRef .tc main_v129) = H3 V0 :=
  (rd15_v129 _).trans (by rw [val14_v108 V0, val14_v111 V0, val14_v112 V0, val14_nw V0 main_arg19 nw_arg19, val14_nw V0 main_arg20 nw_arg20] <;> rfl)

/-- The device's buffer contents after the first 16 stretches. -/
def val16 (V0 : Valuation τ sig (Elt F)) : Valuation τ sig (Elt F) := after ops18 (val15 V0)
theorem val16_keep (V0 : Valuation τ sig (Elt F)) (r : Ref sig .tc) (h : r ∉ ops18_W) :
    val16 V0 (Proc.devRef .tc r) = val15 V0 (Proc.devRef .tc r) := keep16 _ r h
theorem val16_nw (V0 : Valuation τ sig (Elt F)) (r : Ref sig .tc) (h : NW r) : val16 V0 (Proc.devRef .tc r) = V0 (Proc.devRef .tc r) :=
  (val16_keep V0 r h.2.2.2.2.2.2.2.2.2.2.2.2.2.2.2.1).trans (val15_nw V0 r h)
theorem val16_v132 (V0 : Valuation τ sig (Elt F)) : val16 V0 (Proc.devRef .tc main_v132) = pool (H3 V0) (V0 (Proc.devRef .tc main_arg2)) :=
  (rd16_v132 _).trans (by rw [val15_v129 V0, val15_nw V0 main_arg2 nw_arg2] <;> rfl)

/-- The device's buffer contents after the first 17 stretches. -/
def val17 (V0 : Valuation τ sig (Elt F)) : Valuation τ sig (Elt F) := after ops19 (val16 V0)
theorem val17_keep (V0 : Valuation τ sig (Elt F)) (r : Ref sig .tc) (h : r ∉ ops19_W) :
    val17 V0 (Proc.devRef .tc r) = val16 V0 (Proc.devRef .tc r) := keep17 _ r h
theorem val17_nw (V0 : Valuation τ sig (Elt F)) (r : Ref sig .tc) (h : NW r) : val17 V0 (Proc.devRef .tc r) = V0 (Proc.devRef .tc r) :=
  (val17_keep V0 r h.2.2.2.2.2.2.2.2.2.2.2.2.2.2.2.2).trans (val16_nw V0 r h)
theorem val17_v148 (V0 : Valuation τ sig (Elt F)) : val17 V0 (Proc.devRef .tc main_v148) = headR (pool (H3 V0) (V0 (Proc.devRef .tc main_arg2))) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) :=
  (rd17_v148 _).trans (by rw [val16_v132 V0, val16_nw V0 main_arg21 nw_arg21, val16_nw V0 main_arg22 nw_arg22, val16_nw V0 main_arg23 nw_arg23, val16_nw V0 main_arg24 nw_arg24, val16_nw V0 main_arg25 nw_arg25, val16_nw V0 main_arg26 nw_arg26] <;> rfl)

/-! ## The whole list -/

/-- Running all 242 operations is running the stretches in order. -/
theorem after_ops (V0 : Valuation τ sig (Elt F)) : after ops V0 = val17 V0 := by
  simp only [ops, opsP0, opsP1, opsP2, after_append, val17, val16, val15, val14, val13, val12, val11, val10, val9, val8, val7, val6, val5, val4, val3, val2, val1]

/-- The result buffer ends at the composed term of the arguments' contents. -/
theorem out_eq (V0 : Valuation τ sig (Elt F)) :
    after ops V0 (Proc.devRef .tc main_v148) = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  rw [after_ops]; exact (val17_v148 V0).trans (head_eq_refOut V0)

/-- A buffer no stretch writes ends as it began. -/
theorem kept_eq (V0 : Valuation τ sig (Elt F)) (r : Ref sig .tc) (h : NW r) :
    after ops V0 (Proc.devRef .tc r) = V0 (Proc.devRef .tc r) := by
  rw [after_ops]; exact val17_nw V0 r h

end Cert.ReferenceIdeal.Hand

end
-- ==== Proof.Ref.Run.lean ====
/- The reference program's run: on every device, for any float values, from any memory with zero counters, every
   weakly fair execution of @main terminates with the result buffer at `refOut` (Ref/Term.lean) of the arguments'
   launch contents and every argument buffer unchanged. -/
import proofs.«142609_j54228257079879_1_alg».proof.Proof.Ref.MainEq
import proofs.«142609_j54228257079879_1_alg».proof.Proof.Ref.Chain

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxRecDepth 8192 in
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v148) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨(h c main_v148).trans (out_eq (launchContents m c)),
      (h c main_arg0).trans (kept_eq (launchContents m c) main_arg0 nw_arg0),
      (h c main_arg1).trans (kept_eq (launchContents m c) main_arg1 nw_arg1),
      (h c main_arg2).trans (kept_eq (launchContents m c) main_arg2 nw_arg2),
      (h c main_arg3).trans (kept_eq (launchContents m c) main_arg3 nw_arg3),
      (h c main_arg4).trans (kept_eq (launchContents m c) main_arg4 nw_arg4),
      (h c main_arg5).trans (kept_eq (launchContents m c) main_arg5 nw_arg5),
      (h c main_arg6).trans (kept_eq (launchContents m c) main_arg6 nw_arg6),
      (h c main_arg7).trans (kept_eq (launchContents m c) main_arg7 nw_arg7),
      (h c main_arg8).trans (kept_eq (launchContents m c) main_arg8 nw_arg8),
      (h c main_arg9).trans (kept_eq (launchContents m c) main_arg9 nw_arg9),
      (h c main_arg10).trans (kept_eq (launchContents m c) main_arg10 nw_arg10),
      (h c main_arg11).trans (kept_eq (launchContents m c) main_arg11 nw_arg11),
      (h c main_arg12).trans (kept_eq (launchContents m c) main_arg12 nw_arg12),
      (h c main_arg13).trans (kept_eq (launchContents m c) main_arg13 nw_arg13),
      (h c main_arg14).trans (kept_eq (launchContents m c) main_arg14 nw_arg14),
      (h c main_arg15).trans (kept_eq (launchContents m c) main_arg15 nw_arg15),
      (h c main_arg16).trans (kept_eq (launchContents m c) main_arg16 nw_arg16),
      (h c main_arg17).trans (kept_eq (launchContents m c) main_arg17 nw_arg17),
      (h c main_arg18).trans (kept_eq (launchContents m c) main_arg18 nw_arg18),
      (h c main_arg19).trans (kept_eq (launchContents m c) main_arg19 nw_arg19),
      (h c main_arg20).trans (kept_eq (launchContents m c) main_arg20 nw_arg20),
      (h c main_arg21).trans (kept_eq (launchContents m c) main_arg21 nw_arg21),
      (h c main_arg22).trans (kept_eq (launchContents m c) main_arg22 nw_arg22),
      (h c main_arg23).trans (kept_eq (launchContents m c) main_arg23 nw_arg23),
      (h c main_arg24).trans (kept_eq (launchContents m c) main_arg24 nw_arg24),
      (h c main_arg25).trans (kept_eq (launchContents m c) main_arg25 nw_arg25),
      (h c main_arg26).trans (kept_eq (launchContents m c) main_arg26 nw_arg26)⟩)
    (run_seq scopedRefs_eq scopedSems_eq defs main (fun _ => ops) main_eq (fun _ => ops_sub) m ρ)

end Cert.ReferenceIdeal.Hand

end
-- ==== Proof.Bridge.HostEq.lean ====
/-
  The host operations of the two programs are the same functions.

  Per layer both programs form the neighbour sums of the node rows (gather the source rows, add them into the
  destination rows of a zero array), and before the readout the sums of the node rows per graph: literally the same
  operations on the same operands, so the two terms are equal by unfolding.  A bias, scale or shift vector reaches the
  layer mathematics as a one-row array; one program recasts the vector [c] as [1, c], which at (0, q) reads the vector
  at q, so the recast is the vector as a one-row array.
-/
import proofs.«142609_j54228257079879_1_alg».proof.Proof.KI.HostFns
import proofs.«142609_j54228257079879_1_alg».proof.Proof.Ref.Term
import proofs.«142609_j54228257079879_1_alg».proof.Proof.Math.Spec
import Idealize.ShloMosaic.Lib.Pipeline.Value

noncomputable section

namespace Cert.Bridge

open Idealize.ShloMosaic Idealize.ShloMosaic.ValueIdx
open Cert.Sage Cert.Gin
open Cert.KernelIdeal.Hand (row0 row1 aggK12 aggK128 poolK rowK rowK512 rowK256 rowK12)
open Cert.ReferenceIdeal.Hand (srcIdx dstIdx agg12 agg128 pool)

/-! ### The host operations are the same operations -/

/-- Neighbour sums of 12-wide rows. -/
theorem aggK12_eq (h : FVec Ideal Cert.KernelIdeal.S100000x12 .f32) (e : IVec Cert.KernelIdeal.S2x1600000 32) :
    aggK12 h (row0 e) (row1 e) = agg12 (F := Ideal) h (srcIdx e) (dstIdx e) := rfl

/-- Neighbour sums of 128-wide rows. -/
theorem aggK128_eq (h : FVec Ideal Cert.KernelIdeal.S100000x128 .f32) (e : IVec Cert.KernelIdeal.S2x1600000 32) :
    aggK128 h (row0 e) (row1 e) = agg128 (F := Ideal) h (srcIdx e) (dstIdx e) := rfl

/-- Per-graph sums. -/
theorem poolK_eq (h : FVec Ideal Cert.KernelIdeal.S100000x128 .f32) (b : IVec Cert.KernelIdeal.S100000 32) :
    poolK h b = pool (F := Ideal) h b := rfl

/-! ### A vector recast as a one-row array -/

/-- A vector [c] recast as the row [1, c] reads, at (u, q), the vector at q: the row-major position of (u, q) in
    [1, c] is 0 · c + q. -/
theorem shapeCast_c_1c_apply {α : Type} {c : ℕ} (x : (⟨1, ![c]⟩ : Shape).Idx → α)
    (h : (⟨1, ![c]⟩ : Shape).ShapeCasts ⟨2, ![1, c]⟩) (u : Fin 1) (q : Fin c) :
    shapeCast ⟨2, ![1, c]⟩ x h (ix2 u q) = x (ix1 q) :=
  shapeCast_apply x h _ _ (by
    have hu : u.val = 0 := by omega
    rw [Shape.rowMajor_val_two, Shape.rowMajor_val_one]
    show q.val = u.val * c + q.val
    rw [hu, Nat.zero_mul, Nat.zero_add])

/-- The recast of a vector is the vector as a one-row array. -/
theorem shapeCast_eq_rowVec {c : ℕ} (b : Arr1 c) (h : (⟨1, ![c]⟩ : Shape).ShapeCasts ⟨2, ![1, c]⟩) :
    (fun i => shapeCast ⟨2, ![1, c]⟩ b h i : Arr2 1 c) = rowVec b := by
  funext i
  obtain ⟨u, q, rfl⟩ : ∃ (u : Fin 1) (q : Fin c), i = ix2 u q := ⟨i 0, i 1, eq_ix2 i⟩
  rw [shapeCast_c_1c_apply]
  rfl

theorem rowK_eq (b : FVec Ideal Cert.KernelIdeal.S128 .f32) : (rowK b : Arr2 1 128) = rowVec b :=
  shapeCast_eq_rowVec b _
theorem rowK512_eq (b : FVec Ideal Cert.KernelIdeal.S512 .f32) : (rowK512 b : Arr2 1 512) = rowVec b :=
  shapeCast_eq_rowVec b _
theorem rowK256_eq (b : FVec Ideal Cert.KernelIdeal.S256 .f32) : (rowK256 b : Arr2 1 256) = rowVec b :=
  shapeCast_eq_rowVec b _
theorem rowK12_eq (b : FVec Ideal Cert.KernelIdeal.S12 .f32) : (rowK12 b : Arr2 1 12) = rowVec b :=
  shapeCast_eq_rowVec b _

end Cert.Bridge

end
-- ==== Proof.LibFiniteLits.lean ====
/-
  The binary32 literals of a graph-network / normalisation pipeline, read as extended reals:
  each denotes a real number, and the two small ones a POSITIVE real.

  * `0x00000000` is `0`, `0x3F800000` is `1`, `0x40000000` is `2`, `0x47C35000` is `100000`;
  * `0x2B8CBCCC` is `9223372 · 2⁻⁶³` (the binary32 nearest `10⁻¹²`), positive;
  * `0x3727C5AC` is `10995116 · 2⁻⁴⁰` (the binary32 nearest `10⁻⁵`), positive;
  * `0x7FC00000` (a NaN pattern) is `⊥`: NOT real.
-/
import proofs.«142609_j54228257079879_1_alg».proof.Proof.LibFinite

noncomputable section

namespace Cert.LibFinite

open Idealize.ShloMosaic

theorem ofBits_f32_zero : Ideal.ofBits .f32 0x00000000#32 = 0 := by simp [Ideal.ofBits, Ideal.ieee]
theorem ofBits_f32_one : Ideal.ofBits .f32 0x3F800000#32 = 1 := by
  simp [Ideal.ofBits, Ideal.ieee, -EReal.coe_mul]; norm_num
theorem ofBits_f32_two : Ideal.ofBits .f32 0x40000000#32 = ((2 : ℝ) : EReal) := by
  simp [Ideal.ofBits, Ideal.ieee, -EReal.coe_mul]; norm_num
theorem ofBits_f32_1e5 : Ideal.ofBits .f32 0x47C35000#32 = ((100000 : ℝ) : EReal) := by
  simp [Ideal.ofBits, Ideal.ieee, -EReal.coe_mul]; norm_num
theorem ofBits_f32_1em12 : Ideal.ofBits .f32 0x2B8CBCCC#32 = ((9223372 * (2 : ℝ) ^ (-63 : ℤ) : ℝ) : EReal) := by
  simp [Ideal.ofBits, Ideal.ieee, -EReal.coe_mul]
theorem ofBits_f32_1em5 : Ideal.ofBits .f32 0x3727C5AC#32 = ((10995116 * (2 : ℝ) ^ (-40 : ℤ) : ℝ) : EReal) := by
  simp [Ideal.ofBits, Ideal.ieee, -EReal.coe_mul]
theorem ofBits_f32_nan : Ideal.ofBits .f32 0x7FC00000#32 = ⊥ := by simp [Ideal.ofBits, Ideal.ieee]

theorem isReal_ofBits_zero : IsReal (Ideal.ofBits .f32 0x00000000#32) := ofBits_f32_zero ▸ isReal_zero
theorem isReal_ofBits_one : IsReal (Ideal.ofBits .f32 0x3F800000#32) := ofBits_f32_one ▸ isReal_one
theorem isPosReal_ofBits_one : IsPosReal (Ideal.ofBits .f32 0x3F800000#32) := ⟨1, one_pos, ofBits_f32_one⟩
theorem isPosReal_ofBits_two : IsPosReal (Ideal.ofBits .f32 0x40000000#32) := ⟨2, two_pos, ofBits_f32_two⟩
theorem isPosReal_ofBits_1e5 : IsPosReal (Ideal.ofBits .f32 0x47C35000#32) := ⟨100000, by norm_num, ofBits_f32_1e5⟩
theorem isPosReal_ofBits_1em12 : IsPosReal (Ideal.ofBits .f32 0x2B8CBCCC#32) := ⟨_, by positivity, ofBits_f32_1em12⟩
theorem isPosReal_ofBits_1em5 : IsPosReal (Ideal.ofBits .f32 0x3727C5AC#32) := ⟨_, by positivity, ofBits_f32_1em5⟩
theorem isReal_ofBits_two : IsReal (Ideal.ofBits .f32 0x40000000#32) := isPosReal_ofBits_two.isReal
theorem isReal_ofBits_1e5 : IsReal (Ideal.ofBits .f32 0x47C35000#32) := isPosReal_ofBits_1e5.isReal
theorem isReal_ofBits_1em12 : IsReal (Ideal.ofBits .f32 0x2B8CBCCC#32) := isPosReal_ofBits_1em12.isReal
theorem isReal_ofBits_1em5 : IsReal (Ideal.ofBits .f32 0x3727C5AC#32) := isPosReal_ofBits_1em5.isReal
theorem ofBits_1e5_ne_zero : Ideal.ofBits .f32 0x47C35000#32 ≠ 0 := isPosReal_ofBits_1e5.ne_zero

end Cert.LibFinite

end
-- ==== Proof.LibVariance.lean ====
/-
  The two forms of a variance.

  A batch normalisation's variance is written either as the mean of the squared deviations
  from the mean, `(∑ (x i - μ)²) / n` with `μ = (∑ x i) / n`, or as the mean of the squares
  minus the squared mean, `(∑ x i²) / n - μ * μ`.  Over the reals the two agree whenever `n` is
  the number of summands: `∑ (x i - μ)² = ∑ x i² - 2 μ ∑ x i + n μ² = ∑ x i² - n μ²`.  Over the
  extended reals they do NOT agree in general (with an infinite entry the first is `⊤`, the
  second `⊤ - ⊤ = ⊥`), so the law below assumes every summand is (the coercion of) a real
  number, moves to `ℝ` through the coercion and computes there.

  * `real_variance_forms`  : the identity in `ℝ`, over a finite set with `n` elements.
  * `variance_forms`       : the same between extended-real expressions with real summands,
                              with the quotients spelt `Ideal.div` (the exact quotient of the
                              ideal instance), over a finite set `s` with `(s.card : ℝ) = n`.
  * `variance_forms_univ`  : the same over a whole finite index type.
  * `isReal_mean`, `isReal_variance`, `variance_nonneg` : the mean and the variance of a real
    family are real, and the variance (in the deviation form) is nonnegative for `0 < n`;
    `isPosReal_variance_add` : adding a positive real (the `eps` under the reciprocal square
    root) gives a positive real, in either form.
-/
import proofs.«142609_j54228257079879_1_alg».proof.Proof.LibFinite

noncomputable section

namespace Cert.LibVariance

open Idealize.ShloMosaic Cert.LibFinite
open scoped BigOperators

/-! ### In the reals -/

/-- Sum of squared deviations from any centre `μ`: `∑ (f i - μ)² = ∑ f i² - 2 μ ∑ f i + |s| μ²`. -/
theorem real_sum_sq_dev {ι : Type*} (s : Finset ι) (f : ι → ℝ) (μ : ℝ) :
    ∑ i ∈ s, (f i - μ) * (f i - μ) = ∑ i ∈ s, f i * f i - 2 * μ * ∑ i ∈ s, f i + (s.card : ℝ) * (μ * μ) := by
  have h : ∀ i, (f i - μ) * (f i - μ) = f i * f i - 2 * μ * f i + μ * μ := fun i => by ring
  simp only [h, Finset.sum_add_distrib, Finset.sum_sub_distrib, ← Finset.mul_sum, Finset.sum_const, nsmul_eq_mul]
  ring

/-- The two forms of a variance agree in `ℝ` when `n` is the number of summands. -/
theorem real_variance_forms {ι : Type*} (s : Finset ι) (f : ι → ℝ) {n : ℝ} (hn : n ≠ 0) (hcard : (s.card : ℝ) = n) :
    (∑ i ∈ s, (f i - (∑ i ∈ s, f i) / n) * (f i - (∑ i ∈ s, f i) / n)) / n
      = (∑ i ∈ s, f i * f i) / n - (∑ i ∈ s, f i) / n * ((∑ i ∈ s, f i) / n) := by
  rw [real_sum_sq_dev, hcard]
  field_simp
  ring

/-! ### In the extended reals, real summands -/

/-- The mean of a real family (any nonzero real divisor) is real. -/
theorem isReal_mean {ι : Type*} (s : Finset ι) {x : ι → EReal} (hx : ∀ i ∈ s, IsReal (x i)) {n : ℝ} (hn : n ≠ 0) :
    IsReal (Ideal.div (∑ i ∈ s, x i) (n : EReal)) :=
  (IsReal.sum s x hx).div (isReal_coe n) (fun h => hn (EReal.coe_eq_zero.mp h))

/-- The two forms of a variance agree between extended-real expressions whose summands are real,
    when the real divisor `n` is the number of summands. -/
theorem variance_forms {ι : Type*} (s : Finset ι) {x : ι → EReal} (hx : ∀ i ∈ s, IsReal (x i)) {n : ℝ} (hn : n ≠ 0)
    (hcard : (s.card : ℝ) = n) :
    Ideal.div (∑ i ∈ s, (x i - Ideal.div (∑ i ∈ s, x i) (n : EReal)) * (x i - Ideal.div (∑ i ∈ s, x i) (n : EReal))) (n : EReal)
      = Ideal.div (∑ i ∈ s, x i * x i) (n : EReal)
        - Ideal.div (∑ i ∈ s, x i) (n : EReal) * Ideal.div (∑ i ∈ s, x i) (n : EReal) := by
  classical
  -- real witnesses on `s`; outside `s` the value is irrelevant
  have hx' : ∀ i ∈ s, x i = ((x i).toReal : EReal) := fun i hi => ((hx i hi).coe_toReal).symm
  set f : ι → ℝ := fun i => (x i).toReal with hf
  have e1 : ∑ i ∈ s, x i = ((∑ i ∈ s, f i : ℝ) : EReal) := by
    rw [coe_finset_sum]; exact Finset.sum_congr rfl fun i hi => hx' i hi
  have e2 : ∑ i ∈ s, x i * x i = ((∑ i ∈ s, f i * f i : ℝ) : EReal) := by
    rw [coe_finset_sum]
    exact Finset.sum_congr rfl fun i hi => by rw [EReal.coe_mul, ← hx' i hi]
  have e3 : ∑ i ∈ s, (x i - Ideal.div (∑ i ∈ s, x i) (n : EReal)) * (x i - Ideal.div (∑ i ∈ s, x i) (n : EReal))
      = ((∑ i ∈ s, (f i - (∑ i ∈ s, f i) / n) * (f i - (∑ i ∈ s, f i) / n) : ℝ) : EReal) := by
    rw [coe_finset_sum, e1, div_coe_coe _ hn]
    exact Finset.sum_congr rfl fun i hi => by rw [EReal.coe_mul, EReal.coe_sub, ← hx' i hi]
  rw [e3, e2, e1, div_coe_coe _ hn, div_coe_coe _ hn, div_coe_coe _ hn, ← EReal.coe_mul, ← EReal.coe_sub,
    real_variance_forms s f hn hcard]

/-- The two forms of a variance over a whole finite index type with `n` elements. -/
theorem variance_forms_univ {ι : Type*} [Fintype ι] {x : ι → EReal} (hx : AllReal x) {n : ℝ} (hn : n ≠ 0)
    (hcard : (Fintype.card ι : ℝ) = n) :
    Ideal.div (∑ i, (x i - Ideal.div (∑ i, x i) (n : EReal)) * (x i - Ideal.div (∑ i, x i) (n : EReal))) (n : EReal)
      = Ideal.div (∑ i, x i * x i) (n : EReal) - Ideal.div (∑ i, x i) (n : EReal) * Ideal.div (∑ i, x i) (n : EReal) :=
  variance_forms Finset.univ (fun i _ => hx i) hn (by rw [Finset.card_univ]; exact hcard)

/-- The variance of a real family, in the deviation form, is real. -/
theorem isReal_variance {ι : Type*} (s : Finset ι) {x : ι → EReal} (hx : ∀ i ∈ s, IsReal (x i)) {n : ℝ} (hn : n ≠ 0) :
    IsReal (Ideal.div (∑ i ∈ s, (x i - Ideal.div (∑ i ∈ s, x i) (n : EReal)) * (x i - Ideal.div (∑ i ∈ s, x i) (n : EReal)))
      (n : EReal)) :=
  (IsReal.sum s _ fun i hi => ((hx i hi).sub (isReal_mean s hx hn)).mul ((hx i hi).sub (isReal_mean s hx hn))).div
    (isReal_coe n) (fun h => hn (EReal.coe_eq_zero.mp h))

/-- The variance of a real family, in the deviation form, is nonnegative for a positive divisor. -/
theorem variance_nonneg {ι : Type*} (s : Finset ι) {x : ι → EReal} (hx : ∀ i ∈ s, IsReal (x i)) {n : ℝ} (hn : 0 < n) :
    0 ≤ Ideal.div (∑ i ∈ s, (x i - Ideal.div (∑ i ∈ s, x i) (n : EReal)) * (x i - Ideal.div (∑ i ∈ s, x i) (n : EReal)))
      (n : EReal) := by
  have hm := isReal_mean s hx hn.ne'
  have hs : IsReal (∑ i ∈ s, (x i - Ideal.div (∑ i ∈ s, x i) (n : EReal)) * (x i - Ideal.div (∑ i ∈ s, x i) (n : EReal))) :=
    IsReal.sum s _ fun i hi => ((hx i hi).sub hm).mul ((hx i hi).sub hm)
  have h0 : 0 ≤ ∑ i ∈ s, (x i - Ideal.div (∑ i ∈ s, x i) (n : EReal)) * (x i - Ideal.div (∑ i ∈ s, x i) (n : EReal)) :=
    sum_mul_self_nonneg s fun i hi => (hx i hi).sub hm
  obtain ⟨a, ha⟩ := hs
  rw [ha] at h0 ⊢
  rw [div_coe_coe a hn.ne']
  exact EReal.coe_nonneg.mpr (div_nonneg (EReal.coe_nonneg.mp h0) hn.le)

/-- The variance plus a positive real is a positive real (the argument of the reciprocal square root),
    in the deviation form. -/
theorem isPosReal_variance_add {ι : Type*} (s : Finset ι) {x : ι → EReal} (hx : ∀ i ∈ s, IsReal (x i)) {n : ℝ} (hn : 0 < n)
    {eps : EReal} (heps : IsPosReal eps) :
    IsPosReal (Ideal.div (∑ i ∈ s, (x i - Ideal.div (∑ i ∈ s, x i) (n : EReal)) * (x i - Ideal.div (∑ i ∈ s, x i) (n : EReal)))
      (n : EReal) + eps) :=
  IsPosReal.nonneg_add (isReal_variance s hx hn.ne') (variance_nonneg s hx hn) heps

/-- The same in the mean-of-squares form, when `n` is the number of summands. -/
theorem isPosReal_variance_add' {ι : Type*} (s : Finset ι) {x : ι → EReal} (hx : ∀ i ∈ s, IsReal (x i)) {n : ℝ} (hn : 0 < n)
    (hcard : (s.card : ℝ) = n) {eps : EReal} (heps : IsPosReal eps) :
    IsPosReal (Ideal.div (∑ i ∈ s, x i * x i) (n : EReal)
      - Ideal.div (∑ i ∈ s, x i) (n : EReal) * Ideal.div (∑ i ∈ s, x i) (n : EReal) + eps) := by
  rw [← variance_forms s hx hn.ne' hcard]
  exact isPosReal_variance_add s hx hn heps

end Cert.LibVariance

end
-- ==== Proof.Math.Laws.lean ====
/-
  Laws of the layer mathematics on extended reals.

  The extended reals are not a ring, so every identity here is between expressions whose leaves are
  (coercions of) real numbers.  The file shows

  * the float constants: the row count is the real `100000`, the variance offset is a positive real,
    the clipping zero is `0`;
  * real-valuedness of every stage of a layer from real-valuedness of its operands: the rows-against-columns
    product, the bias rows, the two-layer perceptron, the column sums, the mean, both forms of the variance,
    the normalisation and the readout;
  * the two forms of the variance agree over `100000` real rows (the divisor is the number of summands):
    mean of squares minus squared mean = mean of squared deviations;
  * the variance is nonnegative, and the variance plus the offset is a positive real, so the reciprocal
    square root is taken of a positive real.
-/
import proofs.«142609_j54228257079879_1_alg».proof.Proof.Math.Spec
import proofs.«142609_j54228257079879_1_alg».proof.Proof.LibFinite
import proofs.«142609_j54228257079879_1_alg».proof.Proof.LibFiniteLits
import proofs.«142609_j54228257079879_1_alg».proof.Proof.LibVariance

noncomputable section

namespace Cert.Gin

open Idealize.ShloMosaic Idealize.ShloMosaic.ValueIdx Cert.Sage Cert.LibFinite Cert.LibVariance
open scoped BigOperators

variable {n k c : Nat}

/-! ### The float constants -/

/-- The row count is the real number `100000`. -/
theorem nF_eq : nF = ((100000 : ℝ) : EReal) := ofBits_f32_1e5
theorem isPosReal_nF : IsPosReal nF := isPosReal_ofBits_1e5
theorem isReal_nF : IsReal nF := isPosReal_nF.isReal
theorem nF_ne_zero : nF ≠ 0 := isPosReal_nF.ne_zero
/-- The variance offset is a positive real. -/
theorem isPosReal_epsF : IsPosReal epsF := isPosReal_ofBits_1em5
theorem isReal_epsF : IsReal epsF := isPosReal_epsF.isReal
/-- The clipping zero is `0`. -/
theorem zeroF_eq : zeroF = 0 := ofBits_f32_zero
theorem isReal_zeroF : IsReal zeroF := isReal_ofBits_zero

/-! ### Real-valuedness of the row operations -/

/-- A rows-against-columns product of real arrays is real: every entry is a finite sum of products. -/
theorem allReal_rowsMul {a : Arr2 n k} {W : Arr2 k c} (ha : AllReal a) (hW : AllReal W) : AllReal (rowsMul a W) :=
  fun _ => IsReal.sum _ _ fun _ _ => (ha _).mul (hW _)

theorem allReal_addRowOf {v : Arr2 n c} {b : Arr2 1 c} (hv : AllReal v) (hb : AllReal b) : AllReal (addRowOf v b) :=
  fun i => (hv i).add (hb _)

theorem allReal_addRowClip {v : Arr2 n c} {b : Arr2 1 c} (hv : AllReal v) (hb : AllReal b) :
    AllReal (addRowClip v b) :=
  fun i => ((hv i).add (hb _)).max isReal_zeroF

/-- A clipped entry is nonnegative. -/
theorem addRowClip_nonneg (v : Arr2 n c) (b : Arr2 1 c) (i : (⟨2, ![n, c]⟩ : Shape).Idx) : 0 ≤ addRowClip v b i := by
  unfold addRowClip; rw [zeroF_eq]; exact le_max_right _ _

theorem allReal_rowVec {b : Arr1 c} (hb : AllReal b) : AllReal (rowVec b) := fun _ => hb _

/-- The two-layer perceptron of real operands is real. -/
theorem allReal_mlp {x a : Arr2 n k} {W1 : Arr2 k 128} {b1 : Arr2 1 128} {W2 : Arr2 128 128} {b2 : Arr2 1 128}
    (hx : AllReal x) (ha : AllReal a) (hW1 : AllReal W1) (hb1 : AllReal b1) (hW2 : AllReal W2) (hb2 : AllReal b2) :
    AllReal (mlp x a W1 b1 W2 b2) :=
  allReal_addRowOf (allReal_rowsMul (allReal_addRowClip (allReal_rowsMul (hx.add ha) hW1) hb1) hW2) hb2

/-- The readout of real operands is real. -/
theorem allReal_readout {g : Arr2 n 128} {W1 : Arr2 128 512} {b1 : Arr2 1 512} {W2 : Arr2 512 256} {b2 : Arr2 1 256}
    {W3 : Arr2 256 12} {b3 : Arr2 1 12} (hg : AllReal g) (hW1 : AllReal W1) (hb1 : AllReal b1) (hW2 : AllReal W2)
    (hb2 : AllReal b2) (hW3 : AllReal W3) (hb3 : AllReal b3) : AllReal (readout g W1 b1 W2 b2 W3 b3) :=
  allReal_addRowOf
    (allReal_rowsMul (allReal_addRowClip (allReal_rowsMul (allReal_addRowClip (allReal_rowsMul hg hW1) hb1) hW2) hb2) hW3)
    hb3

/-! ### Column statistics -/

/-- A column of a real array is a real family. -/
theorem allReal_col {t : Arr2 n 128} (ht : AllReal t) (q : Fin 128) : AllReal (fun p : Fin n => t (ix2 p q)) :=
  fun _ => ht _

theorem allReal_colSum {t : Arr2 n 128} (ht : AllReal t) : AllReal (colSum t) :=
  fun _ => IsReal.sum _ _ fun _ _ => ht _

theorem allReal_colSumSq {t : Arr2 n 128} (ht : AllReal t) : AllReal (colSumSq t) :=
  fun _ => IsReal.sum _ _ fun _ _ => (ht _).mul (ht _)

/-- A sum of squares of reals is nonnegative. -/
theorem colSumSq_nonneg {t : Arr2 n 128} (ht : AllReal t) (j : (⟨2, ![1, 128]⟩ : Shape).Idx) : 0 ≤ colSumSq t j :=
  sum_mul_self_nonneg _ fun _ _ => ht _

theorem allReal_meanK {s : Arr2 1 128} (hs : AllReal s) : AllReal (meanK s) :=
  fun j => (hs j).div isReal_nF nF_ne_zero

theorem allReal_varK {s sq : Arr2 1 128} (hs : AllReal s) (hsq : AllReal sq) : AllReal (varK s sq) :=
  fun j => ((hsq j).div isReal_nF nF_ne_zero).sub ((allReal_meanK hs j).mul (allReal_meanK hs j))

/-- The mean of squared deviations, written over the column as a family. -/
theorem varDev_apply (t : Arr2 n 128) (j : (⟨2, ![1, 128]⟩ : Shape).Idx) :
    varDev t j
      = Ideal.div (∑ p : Fin n, (t (ix2 p (colOf j)) - Ideal.div (∑ p : Fin n, t (ix2 p (colOf j))) ((100000 : ℝ) : EReal))
          * (t (ix2 p (colOf j)) - Ideal.div (∑ p : Fin n, t (ix2 p (colOf j))) ((100000 : ℝ) : EReal)))
          ((100000 : ℝ) : EReal) := by
  unfold varDev meanK colSum
  rw [nF_eq]

/-- Mean of squares minus squared mean, written over the column as a family. -/
theorem varK_apply (t : Arr2 n 128) (j : (⟨2, ![1, 128]⟩ : Shape).Idx) :
    varK (colSum t) (colSumSq t) j
      = Ideal.div (∑ p : Fin n, t (ix2 p (colOf j)) * t (ix2 p (colOf j))) ((100000 : ℝ) : EReal)
        - Ideal.div (∑ p : Fin n, t (ix2 p (colOf j))) ((100000 : ℝ) : EReal)
          * Ideal.div (∑ p : Fin n, t (ix2 p (colOf j))) ((100000 : ℝ) : EReal) := by
  unfold varK meanK colSum colSumSq
  rw [nF_eq]

theorem allReal_varDev {t : Arr2 n 128} (ht : AllReal t) : AllReal (varDev t) := by
  intro j
  rw [varDev_apply]
  exact isReal_variance Finset.univ (fun p _ => ht (ix2 p (colOf j))) (by norm_num)

/-- The variance is nonnegative. -/
theorem varDev_nonneg {t : Arr2 n 128} (ht : AllReal t) (j : (⟨2, ![1, 128]⟩ : Shape).Idx) : 0 ≤ varDev t j := by
  rw [varDev_apply]
  exact variance_nonneg Finset.univ (fun p _ => ht (ix2 p (colOf j))) (by norm_num)

/-- The variance plus the offset is a positive real. -/
theorem isPosReal_varDev_add {t : Arr2 n 128} (ht : AllReal t) (j : (⟨2, ![1, 128]⟩ : Shape).Idx) :
    IsPosReal (varDev t j + epsF) := by
  rw [varDev_apply]
  exact isPosReal_variance_add Finset.univ (fun p _ => ht (ix2 p (colOf j))) (by norm_num) isPosReal_epsF

/-- THE TWO FORMS OF THE VARIANCE AGREE over `100000` real rows: the divisor is the number of summands. -/
theorem varK_eq_varDev {t : Arr2 100000 128} (ht : AllReal t) : varK (colSum t) (colSumSq t) = varDev t := by
  funext j
  rw [varK_apply, varDev_apply]
  exact (variance_forms_univ (x := fun p : Fin 100000 => t (ix2 p (colOf j))) (fun p => ht _) (n := 100000)
    (by norm_num) (by rw [Fintype.card_fin]; norm_num)).symm

/-- The mean-of-squares form plus the offset is a positive real, over `100000` real rows. -/
theorem isPosReal_varK_add {t : Arr2 100000 128} (ht : AllReal t) (j : (⟨2, ![1, 128]⟩ : Shape).Idx) :
    IsPosReal (varK (colSum t) (colSumSq t) j + epsF) := by
  rw [varK_eq_varDev ht]; exact isPosReal_varDev_add ht j

theorem varK_nonneg {t : Arr2 100000 128} (ht : AllReal t) (j : (⟨2, ![1, 128]⟩ : Shape).Idx) :
    0 ≤ varK (colSum t) (colSumSq t) j := by
  rw [varK_eq_varDev ht]; exact varDev_nonneg ht j

/-! ### The normalisation -/

/-- The normalisation of real operands is real when every variance plus the offset is a positive real. -/
theorem allReal_bnRelu {t : Arr2 n 128} {mean var γ β : Arr2 1 128} (ht : AllReal t) (hm : AllReal mean)
    (hv : ∀ j, IsPosReal (var j + epsF)) (hγ : AllReal γ) (hβ : AllReal β) : AllReal (bnRelu t mean var γ β) :=
  fun i => (((((ht i).sub (hm _)).mul (hv _).rsqrt.isReal).mul (hγ _)).add (hβ _)).max isReal_zeroF

/-- A normalised entry is nonnegative. -/
theorem bnRelu_nonneg (t : Arr2 n 128) (mean var γ β : Arr2 1 128) (i : (⟨2, ![n, 128]⟩ : Shape).Idx) :
    0 ≤ bnRelu t mean var γ β i := by
  unfold bnRelu; rw [zeroF_eq]; exact le_max_right _ _

/-! ### A whole layer -/

/-- The two layer forms agree over `100000` rows when the perceptron's output is real. -/
theorem layerK_eq_layerR {x a : Arr2 100000 k} {W1 : Arr2 k 128} {b1 : Arr2 1 128} {W2 : Arr2 128 128}
    {b2 γ β : Arr2 1 128} (h : AllReal (mlp x a W1 b1 W2 b2)) :
    layerK x a W1 b1 W2 b2 γ β = layerR x a W1 b1 W2 b2 γ β := by
  unfold layerK layerR
  rw [varK_eq_varDev h]

/-- A layer of real operands is real (deviation form; any number of rows). -/
theorem allReal_layerR {x a : Arr2 n k} {W1 : Arr2 k 128} {b1 : Arr2 1 128} {W2 : Arr2 128 128} {b2 γ β : Arr2 1 128}
    (hx : AllReal x) (ha : AllReal a) (hW1 : AllReal W1) (hb1 : AllReal b1) (hW2 : AllReal W2) (hb2 : AllReal b2)
    (hγ : AllReal γ) (hβ : AllReal β) : AllReal (layerR x a W1 b1 W2 b2 γ β) := by
  have ht := allReal_mlp hx ha hW1 hb1 hW2 hb2
  exact allReal_bnRelu ht (allReal_meanK (allReal_colSum ht)) (isPosReal_varDev_add ht) hγ hβ

/-- A layer of real operands is real (mean-of-squares form; `100000` rows). -/
theorem allReal_layerK {x a : Arr2 100000 k} {W1 : Arr2 k 128} {b1 : Arr2 1 128} {W2 : Arr2 128 128}
    {b2 γ β : Arr2 1 128} (hx : AllReal x) (ha : AllReal a) (hW1 : AllReal W1) (hb1 : AllReal b1) (hW2 : AllReal W2)
    (hb2 : AllReal b2) (hγ : AllReal γ) (hβ : AllReal β) : AllReal (layerK x a W1 b1 W2 b2 γ β) := by
  rw [layerK_eq_layerR (allReal_mlp hx ha hW1 hb1 hW2 hb2)]
  exact allReal_layerR hx ha hW1 hb1 hW2 hb2 hγ hβ

end Cert.Gin

end
-- ==== Proof.LibGraphHost.lean ====
/-
  The row-wise pieces of a graph convolution against the forms a host program writes them in, at the ideal values.

    a host `dot_general` contracting the second axis of [n, k] with the first of [k, c]      is `rowsMul`;
    rows times a weight vector broadcast first to a column and then along the rows             is `scaleRows` of the
                                                                                                 vector recast as a column;
    rows plus a bias vector broadcast first to one row and then down the rows                  is `addRowOf` of the
                                                                                                 vector recast as one row;
    the same clipped below at a broadcast float zero                                           is `addRowClip`.
-/
import proofs.«142609_j54228257079879_1_alg».proof.Proof.LibGraphRows
import proofs.«142609_j54228257079879_1_alg».proof.Proof.LibKeepdims
import Idealize.ShloMosaic.Lib.Pipeline.Value
import Idealize.ShloMosaic.Lib.ValueLayout
import Idealize.ShloMosaic.PureOps.Ideal.Laws

noncomputable section

namespace Cert.Sage

open Idealize.ShloMosaic Idealize.ShloMosaic.ValueIdx
open scoped BigOperators

/-- The host's matrix product, at entry (p, q), is the row–column sum. -/
theorem dotGeneral_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂) :
    Host.dotGeneral (F := Ideal) D prec a W = rowsMul (n := n) (k := k) (c := c) a W := by
  funext i
  obtain ⟨p, q, rfl⟩ : ∃ (p : Fin n) (q : Fin c), i = ix2 p q := ⟨i 0, i 1, eq_ix2 i⟩
  show FloatOps.dotGeneral D prec .single a W (ix2 p q) = _
  rw [Ideal.dotGeneral_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

/-- A vector broadcast to a column and then along the rows reads, at (e, f), the vector at e. -/
theorem bcast_col_rows_apply {n c : Nat} {α : Type} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) (e : Fin n) (f : Fin c) :
    broadcastInDim ⟨2, ![n, c]⟩ ![0, 1] h2 (broadcastInDim ⟨2, ![n, 1]⟩ ![0] h1 v) (ix2 e f) = v (ix1 e) := by
  refine (broadcastInDim_apply _ h2 _ (ix2 e f) (ix2 e (0 : Fin 1)) fun ax => ?_).trans
    (broadcastInDim_apply _ h1 v (ix2 e (0 : Fin 1)) (ix1 e) fun ax => ?_)
  · match ax with
    | ⟨0, _⟩ =>
      show e.val = if n = 1 then 0 else e.val
      split
      · have := e.isLt; omega
      · rfl
    | ⟨1, _⟩ => rfl
  · match ax with
    | ⟨0, _⟩ =>
      show e.val = if n = 1 then 0 else e.val
      split
      · have := e.isLt; omega
      · rfl

/-- A vector broadcast to one row and then down the rows reads, at (r, q), the vector at q. -/
theorem bcast_row_rows_apply {n c : Nat} {α : Type} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (r : Fin n) (q : Fin c) :
    broadcastInDim ⟨2, ![n, c]⟩ ![0, 1] h2 (broadcastInDim ⟨2, ![1, c]⟩ ![1] h1 b) (ix2 r q) = b (ix1 q) := by
  refine (broadcastInDim_apply _ h2 _ (ix2 r q) (ix2 (0 : Fin 1) q) fun ax => ?_).trans
    (broadcastInDim_apply _ h1 b (ix2 (0 : Fin 1) q) (ix1 q) fun ax => ?_)
  · match ax with
    | ⟨0, _⟩ => rfl
    | ⟨1, _⟩ =>
      show q.val = if c = 1 then 0 else q.val
      split
      · have := q.isLt; omega
      · rfl
  · match ax with
    | ⟨0, _⟩ =>
      show q.val = if c = 1 then 0 else q.val
      split
      · have := q.isLt; omega
      · rfl

/-- Rows times the doubly broadcast weight vector: `scaleRows` of the vector recast as a column. -/
theorem scaleRows_col {n c : Nat} (H : FVec Ideal ⟨2, ![n, c]⟩ .f32) (v : FVec Ideal ⟨1, ![n]⟩ .f32)
    (hc : (⟨1, ![n]⟩ : Shape).ShapeCasts ⟨2, ![n, 1]⟩)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) :
    scaleRows (n := n) (c := c) H (shapeCast ⟨2, ![n, 1]⟩ v hc)
      = mulf H (broadcastInDim ⟨2, ![n, c]⟩ ![0, 1] h2 (broadcastInDim ⟨2, ![n, 1]⟩ ![0] h1 v)) := by
  funext i
  obtain ⟨e, f, rfl⟩ : ∃ (e : Fin n) (f : Fin c), i = ix2 e f := ⟨i 0, i 1, eq_ix2 i⟩
  rw [mulf_apply, bcast_col_rows_apply v h1 h2 e f]
  unfold scaleRows
  have : rowOf (ix2 e f) = e := Fin.ext rfl
  rw [this, Cert.LibKeepdims.shapeCast_a_a1_apply v hc e (0 : Fin 1)]

/-- Rows plus the doubly broadcast bias vector: `addRowOf` of the vector recast as one row. -/
theorem addRowOf_row {n c : Nat} (A : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) :
    addRowOf (n := n) (c := c) A (shapeCast ⟨2, ![1, c]⟩ b hc)
      = addf A (broadcastInDim ⟨2, ![n, c]⟩ ![0, 1] h2 (broadcastInDim ⟨2, ![1, c]⟩ ![1] h1 b)) := by
  funext i
  obtain ⟨r, q, rfl⟩ : ∃ (r : Fin n) (q : Fin c), i = ix2 r q := ⟨i 0, i 1, eq_ix2 i⟩
  rw [addf_apply, bcast_row_rows_apply b h1 h2 r q]
  unfold addRowOf
  have : colOf (ix2 r q) = q := Fin.ext rfl
  rw [this, shapeCast_a_1a_apply b hc (0 : Fin 1) q]

/-- The same clipped below at a broadcast float zero: `addRowClip`. -/
theorem addRowClip_row {n c : Nat} (A : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) :
    addRowClip (n := n) (c := c) A (shapeCast ⟨2, ![1, c]⟩ b hc)
      = maximumf (addf A (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 0x00000000#32)) := by
  funext i
  obtain ⟨r, q, rfl⟩ : ∃ (r : Fin n) (q : Fin c), i = ix2 r q := ⟨i 0, i 1, eq_ix2 i⟩
  rw [maximumf_apply, addf_apply, bcast_row_rows_apply b h1 h2 r q,
    broadcastInDim_apply _ h0 _ (ix2 r q) ix0 (fun ax => ax.elim0)]
  unfold addRowClip
  have : colOf (ix2 r q) = q := Fin.ext rfl
  rw [this, shapeCast_a_1a_apply b hc (0 : Fin 1) q]
  rfl

end Cert.Sage

end
-- ==== Proof.LibFiniteOps.lean ====
/-
  Real-valuedness through the array operations of a tensor program, read at the extended reals.

  For each operation: if every entry of each float operand is real (`Cert.LibFinite.AllReal`), so is
  every entry of the result.  The operations are those of the Idealize library
  (`Idealize.ShloMosaic`), at the ideal instance `Ideal` (floats are extended reals, exact):

  * elementwise: `constant`, `addf`, `subf`, `mulf`, `maximumf`, `minimumf`, `negf`, `divf` /
    `Host.divf` (divisor nonzero), `rsqrt` / `Host.rsqrt` (argument positive), `sitofp`, `select`,
    `extf` / `truncf` (the identity);
  * re-indexings — every entry of the result is an entry of the operand: `broadcast`, `broadcastTo`,
    `broadcastInDim`, `shapeCast`, `extractStridedSlice`, `Host.slice`, `Host.dynamicSlice`,
    `Host.reverse`, `transpose`, `concatenate`, `Host.gather` (whatever the indices);
  * contractions — a finite sum of products: `matmul`, `Host.dotGeneral`, `Host.dotGeneralAt`;
  * reductions — a finite sum: `Host.reduceAdd`, `multiReduction .add`; a sum of squares is `≥ 0`;
  * `Host.scatterAdd` — the operand plus a finite sum of updates (whatever the indices).
-/
import Idealize.ShloMosaic.PureOps.Ideal.Laws
import proofs.«142609_j54228257079879_1_alg».proof.Proof.LibFinite

noncomputable section

namespace Cert.LibFinite

open Idealize.ShloMosaic
open scoped BigOperators

/-! ### Elementwise -/

section Elementwise
variable {s : Shape} {φ : FTy}

theorem allReal_constant (s : Shape) {φ : FTy} {b : BitVec φ.bits} (h : IsReal (Ideal.ofBits φ b)) :
    AllReal (constant (F := Ideal) s φ b) := fun _ => h
theorem allPosReal_constant (s : Shape) {φ : FTy} {b : BitVec φ.bits} (h : IsPosReal (Ideal.ofBits φ b)) :
    AllPosReal (constant (F := Ideal) s φ b) := fun _ => h

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_minimumf {x y : FVec Ideal s φ} (hx : AllReal x) (hy : AllReal y) : AllReal (minimumf x y) :=
  fun i => (hx i).min (hy i)
theorem allReal_negf {x : FVec Ideal s φ} (hx : AllReal x) : AllReal (negf x) := fun i => (hx i).neg

theorem allPosReal_addf {x y : FVec Ideal s φ} (hx : AllPosReal x) (hy : AllPosReal y) : AllPosReal (addf x y) :=
  fun i => (hx i).add (hy i)
theorem allPosReal_mulf {x y : FVec Ideal s φ} (hx : AllPosReal x) (hy : AllPosReal y) : AllPosReal (mulf x y) :=
  fun i => (hx i).mul (hy i)
/-- Nonnegative reals plus positive reals: positive reals (a variance plus an epsilon). -/
theorem allPosReal_addf_of_nonneg {x y : FVec Ideal s φ} (hx : AllReal x) (hx0 : ∀ i, 0 ≤ x i) (hy : AllPosReal y) :
    AllPosReal (addf x y) := fun i => IsPosReal.nonneg_add (hx i) (hx0 i) (hy i)
/-- The maximum of reals and positive reals: positive reals (a degree clamped below by an epsilon). -/
theorem allPosReal_maximumf_right {x y : FVec Ideal s φ} (hx : AllReal x) (hy : AllPosReal y) :
    AllPosReal (maximumf x y) := fun i => IsPosReal.max_right (hx i) (hy i)
theorem allPosReal_maximumf_left {x y : FVec Ideal s φ} (hx : AllPosReal x) (hy : AllReal y) :
    AllPosReal (maximumf x y) := fun i => IsPosReal.max_left (hx i) (hy i)
/-- The square of a real array is nonnegative. -/
theorem mulf_self_nonneg {x : FVec Ideal s φ} (hx : AllReal x) (i : s.Idx) : 0 ≤ mulf x x i := (hx i).mul_self_nonneg

/-- Division by a nonzero real array (a kernel's `arith.divf`). -/
theorem allReal_divf {x y : FVec Ideal s φ} (hx : AllReal x) (hy : AllReal y) (hy0 : ∀ i, y i ≠ 0) :
    AllReal (divf x y) := fun i => (hx i).div (hy i) (hy0 i)
/-- Division by a nonzero real array (the host's `divide`). -/
theorem allReal_hostDivf {x y : FVec Ideal s φ} (hx : AllReal x) (hy : AllReal y) (hy0 : ∀ i, y i ≠ 0) :
    AllReal (Host.divf x y) := fun i => (hx i).div (hy i) (hy0 i)
theorem allReal_hostDivf_of_pos {x y : FVec Ideal s φ} (hx : AllReal x) (hy : AllPosReal y) :
    AllReal (Host.divf x y) := fun i => (hx i).div (hy i).isReal (hy i).ne_zero
theorem allPosReal_hostDivf {x y : FVec Ideal s φ} (hx : AllPosReal x) (hy : AllPosReal y) :
    AllPosReal (Host.divf x y) := fun i => (hx i).div (hy i)

/-- A nonnegative real divided by a positive real is nonnegative. -/
theorem div_nonneg_of_pos {x y : EReal} (hx : IsReal x) (hx0 : 0 ≤ x) (hy : IsPosReal y) : 0 ≤ Ideal.div x y := by
  obtain ⟨a, rfl⟩ := hx; obtain ⟨b, hb, rfl⟩ := hy
  rw [div_coe_coe a hb.ne']
  exact EReal.coe_nonneg.mpr (div_nonneg (EReal.coe_nonneg.mp hx0) hb.le)
theorem hostDivf_nonneg {x y : FVec Ideal s φ} (hx : AllReal x) (hx0 : ∀ i, 0 ≤ x i) (hy : AllPosReal y) (i : s.Idx) :
    0 ≤ Host.divf x y i := div_nonneg_of_pos (hx i) (hx0 i) (hy i)

/-- The reciprocal square root of positive reals (a kernel's `math.rsqrt`): positive reals. -/
theorem allPosReal_rsqrt {x : FVec Ideal s φ} (hx : AllPosReal x) : AllPosReal (rsqrt x) := fun i => (hx i).rsqrt
/-- The reciprocal square root of positive reals (the host's `rsqrt`): positive reals. -/
theorem allPosReal_hostRsqrt {x : FVec Ideal s φ} (hx : AllPosReal x) : AllPosReal (Host.rsqrt x) :=
  fun i => (hx i).rsqrt
theorem allReal_hostRsqrt {x : FVec Ideal s φ} (hx : AllPosReal x) : AllReal (Host.rsqrt x) :=
  (allPosReal_hostRsqrt hx).allReal

/-- An integer converted to a float is real. -/
theorem allReal_sitofp {w : Nat} (φ : FTy) (x : IVec s w) : AllReal (sitofp (F := Ideal) φ x) :=
  fun i => ⟨((x i).toInt : ℝ), rfl⟩
theorem sitofp_apply {w : Nat} (φ : FTy) (x : IVec s w) (i : s.Idx) :
    sitofp (F := Ideal) φ x i = (((x i).toInt : ℝ) : EReal) := rfl

/-- A change of format is the identity at the extended reals. -/
theorem allReal_extf {x : FVec Ideal s φ} (ψ : FTy) (h : φ.bits < ψ.bits) (hx : AllReal x) : AllReal (extf ψ x h) :=
  fun i => hx i
theorem allReal_truncf {x : FVec Ideal s φ} (ψ : FTy) (h : ψ.bits < φ.bits) (hx : AllReal x) : AllReal (truncf ψ x h) :=
  fun i => hx i

/-- A selection between two real arrays is real, whatever the condition. -/
theorem allReal_select {c : IVec s 1} {a b : s.Idx → EReal} (ha : AllReal a) (hb : AllReal b) : AllReal (select c a b) := by
  intro i
  show IsReal (if c i = 1 then a i else b i)
  split
  · exact ha i
  · exact hb i
/-- A selection is real where the chosen branch is. -/
theorem allReal_select_of {c : IVec s 1} {a b : s.Idx → EReal} (ha : ∀ i, c i = 1 → IsReal (a i))
    (hb : ∀ i, c i ≠ 1 → IsReal (b i)) : AllReal (select c a b) := by
  intro i
  show IsReal (if c i = 1 then a i else b i)
  split
  · next h => exact ha i h
  · next h => exact hb i h
/-- Where the condition holds everywhere, the selection is its first branch. -/
theorem select_eq_left {α : Type} {c : IVec s 1} {a b : s.Idx → α} (hc : ∀ i, c i = 1) : select c a b = a := by
  funext i
  show (if c i = 1 then a i else b i) = a i
  rw [if_pos (hc i)]
theorem allPosReal_select {c : IVec s 1} {a b : s.Idx → EReal} (ha : AllPosReal a) (hb : AllPosReal b) :
    AllPosReal (select c a b) := by
  intro i
  show IsPosReal (if c i = 1 then a i else b i)
  split
  · exact ha i
  · exact hb i

end Elementwise

/-! ### Re-indexings: every entry of the result is an entry of the operand -/

section Reindex
variable {s t : Shape}

theorem allReal_broadcast (t : Shape) {x : EReal} (hx : IsReal x) : AllReal (broadcast t x) := fun _ => hx
theorem allReal_broadcastTo (t : Shape) {x : s.Idx → EReal} (h : s.Broadcasts t) (hx : AllReal x) :
    AllReal (broadcastTo t x h) := fun _ => hx _
theorem allReal_broadcastInDim (t : Shape) (dims : Fin s.rank → Fin t.rank) (h : s.BroadcastsInDim t dims)
    {x : s.Idx → EReal} (hx : AllReal x) : AllReal (broadcastInDim t dims h x) := fun _ => hx _
theorem allPosReal_broadcastInDim (t : Shape) (dims : Fin s.rank → Fin t.rank) (h : s.BroadcastsInDim t dims)
    {x : s.Idx → EReal} (hx : AllPosReal x) : AllPosReal (broadcastInDim t dims h x) := fun _ => hx _
theorem allReal_shapeCast (t : Shape) {x : s.Idx → EReal} (h : s.ShapeCasts t) (hx : AllReal x) :
    AllReal (shapeCast t x h) := fun _ => hx _
theorem allPosReal_shapeCast (t : Shape) {x : s.Idx → EReal} (h : s.ShapeCasts t) (hx : AllPosReal x) :
    AllPosReal (shapeCast t x h) := fun _ => hx _
theorem allReal_extractStridedSlice (t : Shape) (off : Fin s.rank → Nat) {x : s.Idx → EReal} (h : s.Slices off t)
    (hx : AllReal x) : AllReal (extractStridedSlice t off x h) := fun _ => hx _
theorem allReal_hostSlice (t : Shape) (start strides : Fin s.rank → Nat) {x : s.Idx → EReal}
    (h : s.SlicesBy start strides t) (hx : AllReal x) : AllReal (Host.slice t start strides x h) := fun _ => hx _
theorem allReal_hostDynamicSlice (t : Shape) {x : s.Idx → EReal} (start : Fin s.rank → Int)
    (h : s.Slices (fun _ => 0) t) (hx : AllReal x) : AllReal (Host.dynamicSlice t x start h) := fun _ => hx _
theorem allReal_hostReverse (axes : List (Fin s.rank)) {x : s.Idx → EReal} (hx : AllReal x) :
    AllReal (Host.reverse axes x) := fun _ => hx _
theorem allReal_transpose (t : Shape) (perm : List (Fin s.rank)) {x : s.Idx → EReal} (h : s.Transposes perm t)
    (hx : AllReal x) : AllReal (transpose t perm x h) := fun _ => hx _

/-- A gather reads the operand at (clamped) indices: every entry of the result is an entry of the operand. -/
theorem allReal_hostGather {si : Shape} {w : Nat} (d : GatherDims s si t) {x : s.Idx → EReal} (idx : IVec si w)
    (hx : AllReal x) : AllReal (Host.gather d x idx) := fun _ => hx _
theorem allPosReal_hostGather {si : Shape} {w : Nat} (d : GatherDims s si t) {x : s.Idx → EReal} (idx : IVec si w)
    (hx : AllPosReal x) : AllPosReal (Host.gather d x idx) := fun _ => hx _

/-- A concatenation of real arrays is real. -/
theorem allReal_concatenate (t : Shape) (a : Fin t.rank) (xs : List ((s : Shape) × (s.Idx → EReal)))
    (h : Shape.Concatenates (xs.map (·.1)) t a) (hxs : ∀ p ∈ xs, AllReal p.2) : AllReal (concatenate t a xs h) :=
  fun _ => hxs _ (List.getElem_mem _) _

end Reindex

/-! ### Contractions: a finite sum of products -/

section Contract
variable {sl sr so : Shape} {φ₁ φ₂ : FTy}

theorem allReal_matmul (d : DotDims sl sr so) (prec : Option ContractPrecision) {lhs : FVec Ideal sl φ₁}
    {rhs : FVec Ideal sr φ₂} {acc : FVec Ideal so .f32} (hl : AllReal lhs) (hr : AllReal rhs) (ha : AllReal acc) :
    AllReal (matmul d prec lhs rhs acc) :=
  fun j => (ha j).add (IsReal.sum _ _ fun k _ => (hl _).mul (hr _))

theorem allReal_hostDotGeneral (d : DotDims sl sr so) (prec : Option ContractPrecision) {lhs : FVec Ideal sl φ₁}
    {rhs : FVec Ideal sr φ₂} (hl : AllReal lhs) (hr : AllReal rhs) : AllReal (Host.dotGeneral d prec lhs rhs) :=
  fun j => isReal_zero.add (IsReal.sum _ _ fun k _ => (hl _).mul (hr _))

theorem allReal_hostDotGeneralAt (sched : HostSchedule) (d : DotDims sl sr so) (prec : Option ContractPrecision)
    {lhs : FVec Ideal sl φ₁} {rhs : FVec Ideal sr φ₂} (hl : AllReal lhs) (hr : AllReal rhs) :
    AllReal (Host.dotGeneralAt sched d prec lhs rhs) :=
  fun j => isReal_zero.add (IsReal.sum _ _ fun k _ => (hl _).mul (hr _))

end Contract

/-! ### Reductions: a finite sum -/

section Reduce
variable {s t u : Shape} {φ : FTy} {axes : List (Fin s.rank)}

/-- The host's float sum: the initial value plus a finite sum of entries. -/
theorem allReal_hostReduceAdd {x : FVec Ideal s φ} {init : u.Idx → Ideal φ} (h : s.ReducesTo axes t) (hu : 0 < u.numel)
    (hx : AllReal x) (hi : AllReal init) : AllReal (Host.reduceAdd x init h hu) :=
  fun _ => (hi _).add (IsReal.sum _ _ fun i _ => hx i)

/-- The host's float sum of nonnegative entries from a nonnegative initial value is nonnegative. -/
theorem hostReduceAdd_nonneg {x : FVec Ideal s φ} {init : u.Idx → Ideal φ} (h : s.ReducesTo axes t) (hu : 0 < u.numel)
    (hx0 : ∀ i, 0 ≤ x i) (hi0 : ∀ i, 0 ≤ init i) (j : t.Idx) : 0 ≤ Host.reduceAdd x init h hu j :=
  add_nonneg (hi0 _) (Finset.sum_nonneg fun i _ => hx0 i)

/-- A kernel's `vector.multi_reduction <add>`: a finite sum of entries. -/
theorem allReal_multiReduction_add {src : FVec Ideal s φ} {acc : BitVec φ.bits} (h : s.Reduces axes t)
    (hφ : FKind.Formats φ) (hacc : acc = FKind.add.neutral φ hφ) (hx : AllReal src) :
    AllReal (multiReduction .add axes t src acc h hφ hacc) := by
  intro j
  show IsReal (∑ i ∈ Finset.univ.filter (fun i => h.drop i = j), src i)
  exact IsReal.sum _ _ fun i _ => hx i

end Reduce

/-! ### Scatter-add: the operand plus a finite sum of updates -/

section Scatter
variable {s si u : Shape} {φ : FTy} {w : Nat}

/-- The host's accumulating scatter: each operand entry plus the sum of the updates landing on it
    (those landing outside the operand are dropped); real if the operand and the updates are, whatever
    the indices. -/
theorem allReal_hostScatterAdd (d : ScatterDims s si u) {x : FVec Ideal s φ} (idx : IVec si w) {upd : FVec Ideal u φ}
    (hx : AllReal x) (hu : AllReal upd) : AllReal (Host.scatterAdd d x idx upd) :=
  fun i => (hx i).add (IsReal.sum _ _ fun j _ => hu j)

theorem allReal_hostScatterAddAt (sched : HostSchedule) (d : ScatterDims s si u) {x : FVec Ideal s φ} (idx : IVec si w)
    {upd : FVec Ideal u φ} (hx : AllReal x) (hu : AllReal upd) : AllReal (Host.scatterAddAt sched d x idx upd) :=
  fun i => (hx i).add (IsReal.sum _ _ fun j _ => hu j)

/-- The accumulating scatter read at an entry. -/
theorem hostScatterAdd_apply (d : ScatterDims s si u) (x : FVec Ideal s φ) (idx : IVec si w) (upd : FVec Ideal u φ)
    (i : s.Idx) :
    Host.scatterAdd d x idx upd i = x i + ∑ j ∈ Finset.univ.filter (fun j => d.resultIdx? j idx = some i), upd j := rfl

/-- Nonnegative operand and updates: nonnegative result (a degree). -/
theorem hostScatterAdd_nonneg (d : ScatterDims s si u) {x : FVec Ideal s φ} (idx : IVec si w) {upd : FVec Ideal u φ}
    (hx0 : ∀ i, 0 ≤ x i) (hu0 : ∀ j, 0 ≤ upd j) (i : s.Idx) : 0 ≤ Host.scatterAdd d x idx upd i :=
  add_nonneg (hx0 i) (Finset.sum_nonneg fun j _ => hu0 j)

end Scatter

end Cert.LibFinite

end
-- ==== Proof.Ref.ReadSpec.lean ====
/-
  The reference's layer functions read at an index, at the extended reals.

  Each named stage of the reference (the two-layer perceptron, the column mean, the column variance, the
  normalisation, the readout head) is, as a function on index sets, the corresponding index-level definition:

  * a host matrix product contracting the second axis of [n, k] with the first of [k, c] is the rows-against-columns sum;
  * a vector broadcast to one row and then down the rows, added to an array, adds entry q of the vector in column q;
    clipped below against a broadcast zero it is the clipped sum;
  * a reduction over the rows from 0 is the column sum, and divided by the row count it is the column mean;
  * the variance stage: the divisor `100000 - 0` is `100000`, it is positive, so the selection takes the quotient
    and never the not-a-number fallback; the quotient is the mean of squared deviations from the column mean;
  * the normalisation and the head compose pointwise operations with the above.

  With them a whole layer is the index-level layer (the variance as mean of squared deviations), and every stage is
  real-valued when its operands are.
-/
import proofs.«142609_j54228257079879_1_alg».proof.Proof.Ref.Term
import proofs.«142609_j54228257079879_1_alg».proof.Proof.Math.Spec
import proofs.«142609_j54228257079879_1_alg».proof.Proof.Math.Laws
import proofs.«142609_j54228257079879_1_alg».proof.Proof.LibGraphHost
import proofs.«142609_j54228257079879_1_alg».proof.Proof.LibFiniteOps
import proofs.«142609_j54228257079879_1_alg».proof.Proof.LibFinitePos
import proofs.«142609_j54228257079879_1_alg».proof.Proof.LibFiniteLits
import Idealize.ShloMosaic.Lib.IdealHost

noncomputable section

namespace Cert.ReferenceIdeal.Hand

open Cert.ReferenceIdeal Idealize.ShloMosaic Idealize.ShloMosaic.ValueIdx
open Cert.Sage Cert.Gin Cert.LibFinite
open scoped BigOperators

/-! ### Broadcasts of a vector and of a scalar, read at an index -/

/-- A vector given a leading unit axis reads, at (0, q), the vector at q. -/
theorem bcast_vec_row_apply {c : Nat} {α : Type} (b : (⟨1, ![c]⟩ : Shape).Idx → α)
    (h1 : (⟨1, ![c]⟩ : Shape).BroadcastsInDim ⟨2, ![1, c]⟩ (![1] : Fin 1 → Fin 2)) (q : Fin c) :
    broadcastInDim ⟨2, ![1, c]⟩ ![1] h1 b (ix2 (0 : Fin 1) q) = b (ix1 q) := by
  refine broadcastInDim_apply _ h1 b (ix2 (0 : Fin 1) q) (ix1 q) fun ax => ?_
  match ax with
  | ⟨0, _⟩ =>
    show q.val = if c = 1 then 0 else q.val
    split
    · have := q.isLt; omega
    · rfl

/-- A one-row array broadcast down the rows reads, at (r, q), the row at (0, q). -/
theorem bcast_row_down_apply {n c : Nat} {α : Type} (x : (⟨2, ![1, c]⟩ : Shape).Idx → α)
    (h2 : (⟨2, ![1, c]⟩ : Shape).BroadcastsInDim ⟨2, ![n, c]⟩ (![0, 1] : Fin 2 → Fin 2)) (r : Fin n) (q : Fin c) :
    broadcastInDim ⟨2, ![n, c]⟩ ![0, 1] h2 x (ix2 r q) = x (ix2 (0 : Fin 1) q) := by
  refine broadcastInDim_apply _ h2 x (ix2 r q) (ix2 (0 : Fin 1) q) fun ax => ?_
  match ax with
  | ⟨0, _⟩ => rfl
  | ⟨1, _⟩ =>
    show q.val = if c = 1 then 0 else q.val
    split
    · have := q.isLt; omega
    · rfl

/-- An array plus a vector spread over its rows adds entry q of the vector in column q. -/
theorem addf_bcastRow {n c : Nat} (A : FVec Ideal ⟨2, ![n, c]⟩ .f32) (b : FVec Ideal ⟨1, ![c]⟩ .f32)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) :
    addf A (broadcastInDim ⟨2, ![n, c]⟩ ![0, 1] h2 (broadcastInDim ⟨2, ![1, c]⟩ ![1] h1 b))
      = addRowOf (n := n) (c := c) A (rowVec b) := by
  funext i
  obtain ⟨r, q, rfl⟩ : ∃ (r : Fin n) (q : Fin c), i = ix2 r q := ⟨i 0, i 1, eq_ix2 i⟩
  rw [addf_apply, bcast_row_rows_apply b h1 h2 r q]
  rfl

/-- The same clipped below against a broadcast float zero. -/
theorem clip_bcastRow {n c : Nat} (A : FVec Ideal ⟨2, ![n, c]⟩ .f32) (b : FVec Ideal ⟨1, ![c]⟩ .f32)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) :
    maximumf (addf A (broadcastInDim ⟨2, ![n, c]⟩ ![0, 1] h2 (broadcastInDim ⟨2, ![1, c]⟩ ![1] h1 b)))
        (broadcastInDim ⟨2, ![n, c]⟩ ![] h0 (constant (F := Ideal) ⟨0, ![]⟩ .f32 0x00000000#32))
      = addRowClip (n := n) (c := c) A (rowVec b) := by
  funext i
  obtain ⟨r, q, rfl⟩ : ∃ (r : Fin n) (q : Fin c), i = ix2 r q := ⟨i 0, i 1, eq_ix2 i⟩
  rw [maximumf_apply, addf_apply, bcast_row_rows_apply b h1 h2 r q, broadcastInDim_scalar_apply]
  rfl

/-- A bias spread over the node rows reads, at (r, q), the bias at q. -/
theorem biasRows_apply (b : FVec Ideal S128 .f32) (r : Fin 100000) (q : Fin 128) :
    biasRows (F := Ideal) b (ix2 r q) = b (ix1 q) :=
  bcast_row_rows_apply b _ _ r q

/-- The array the rectifier compares against is the float zero everywhere. -/
theorem zeros128_apply (i : S100000x128.Idx) : zeros128 (F := Ideal) i = zeroF :=
  broadcastInDim_scalar_apply _ _ i

/-- An array on one row is determined by its reads at (0, q). -/
theorem ext_row {c : Nat} {x y : Arr2 1 c} (h : ∀ q : Fin c, x (ix2 (0 : Fin 1) q) = y (ix2 (0 : Fin 1) q)) : x = y := by
  funext j
  obtain ⟨u, q, rfl⟩ : ∃ (u : Fin 1) (q : Fin c), j = ix2 u q := ⟨j 0, j 1, eq_ix2 j⟩
  have hu : u = 0 := Subsingleton.elim _ _
  subst hu
  exact h q

/-! ### The host matrix products -/

theorem dot12_rows (a : FVec Ideal S100000x12 .f32) (W : FVec Ideal S12x128 .f32) :
    Host.dotGeneral (F := Ideal) dot_S100000x12_S12x128_S100000x128_1_0_0_1_n_n none a W
      = rowsMul (n := 100000) (k := 12) (c := 128) a W :=
  dotGeneral_rows _ rfl rfl (fun _ _ => rfl) (fun i q => DotDims.lhsIdx_val_of_single _ rfl i q)
    (fun i q => DotDims.rhsIdx_val_of_single _ rfl i q) (fun _ _ => rfl) none a W

theorem dot128_rows (a : FVec Ideal S100000x128 .f32) (W : FVec Ideal S128x128 .f32) :
    Host.dotGeneral (F := Ideal) dot_S100000x128_S128x128_S100000x128_1_0_0_1_n_n none a W
      = rowsMul (n := 100000) (k := 128) (c := 128) a W :=
  dotGeneral_rows _ rfl rfl (fun _ _ => rfl) (fun i q => DotDims.lhsIdx_val_of_single _ rfl i q)
    (fun i q => DotDims.rhsIdx_val_of_single _ rfl i q) (fun _ _ => rfl) none a W

theorem dotHead1_rows (a : FVec Ideal S1024x128 .f32) (W : FVec Ideal S128x512 .f32) :
    Host.dotGeneral (F := Ideal) dot_S1024x128_S128x512_S1024x512_1_0_0_1_n_n none a W
      = rowsMul (n := 1024) (k := 128) (c := 512) a W :=
  dotGeneral_rows _ rfl rfl (fun _ _ => rfl) (fun i q => DotDims.lhsIdx_val_of_single _ rfl i q)
    (fun i q => DotDims.rhsIdx_val_of_single _ rfl i q) (fun _ _ => rfl) none a W

theorem dotHead2_rows (a : FVec Ideal S1024x512 .f32) (W : FVec Ideal S512x256 .f32) :
    Host.dotGeneral (F := Ideal) dot_S1024x512_S512x256_S1024x256_1_0_0_1_n_n none a W
      = rowsMul (n := 1024) (k := 512) (c := 256) a W :=
  dotGeneral_rows _ rfl rfl (fun _ _ => rfl) (fun i q => DotDims.lhsIdx_val_of_single _ rfl i q)
    (fun i q => DotDims.rhsIdx_val_of_single _ rfl i q) (fun _ _ => rfl) none a W

theorem dotHead3_rows (a : FVec Ideal S1024x256 .f32) (W : FVec Ideal S256x12 .f32) :
    Host.dotGeneral (F := Ideal) dot_S1024x256_S256x12_S1024x12_1_0_0_1_n_n none a W
      = rowsMul (n := 1024) (k := 256) (c := 12) a W :=
  dotGeneral_rows _ rfl rfl (fun _ _ => rfl) (fun i q => DotDims.lhsIdx_val_of_single _ rfl i q)
    (fun i q => DotDims.rhsIdx_val_of_single _ rfl i q) (fun _ _ => rfl) none a W

/-! ### The two-layer perceptron -/

/-- The reference's perceptron on 12 input features is the index-level one. -/
theorem mlp12_apply (h a : FVec Ideal S100000x12 .f32) (w1 : FVec Ideal S12x128 .f32) (b1 : FVec Ideal S128 .f32)
    (w2 : FVec Ideal S128x128 .f32) (b2 : FVec Ideal S128 .f32) :
    mlp12 (F := Ideal) h a w1 b1 w2 b2
      = Cert.Gin.mlp (n := 100000) (k := 12) h a w1 (rowVec b1) w2 (rowVec b2) := by
  unfold mlp12 biasRows zeros128 Cert.Gin.mlp
  rw [dot12_rows, clip_bcastRow, dot128_rows, addf_bcastRow]
  rfl

/-- The reference's perceptron on 128 input features is the index-level one. -/
theorem mlp128_apply (h a : FVec Ideal S100000x128 .f32) (w1 : FVec Ideal S128x128 .f32) (b1 : FVec Ideal S128 .f32)
    (w2 : FVec Ideal S128x128 .f32) (b2 : FVec Ideal S128 .f32) :
    mlp128 (F := Ideal) h a w1 b1 w2 b2
      = Cert.Gin.mlp (n := 100000) (k := 128) h a w1 (rowVec b1) w2 (rowVec b2) := by
  unfold mlp128 biasRows zeros128 Cert.Gin.mlp
  rw [dot128_rows (addf h a) w1, clip_bcastRow, dot128_rows, addf_bcastRow]
  rfl

/-! ### Column sums, mean and variance -/

/-- The rows of a 100000 x 128 array dropped: the shape relation a sum over the rows is read through. -/
theorem red0 : S100000x128.Reduces [0] S128 := by decide

/-- The source index over column q with row coordinate p is (p, q). -/
theorem red0_lift (q : Fin 128) (p : Fin 100000) : red0.lift (ix1 q) p = ix2 p q := by
  funext c
  apply Fin.ext
  match c with
  | ⟨0, _⟩ => rfl
  | ⟨1, _⟩ => rfl

/-- A reduction over the rows from a zero is the column sum. -/
theorem colReduce_apply (t : FVec Ideal S100000x128 .f32) (h' : S100000x128.ReducesTo [0] S128) (hu : 0 < S_.numel)
    (q : Fin 128) :
    Host.reduceAdd (F := Ideal) t (constant S_ .f32 0x00000000#32) h' hu (ix1 q) = ∑ p : Fin 100000, t (ix2 p q) := by
  rw [hostReduceAdd_single_apply t _ h' red0 hu (ix1 q), constant_apply, ofBits_f32_zero, zero_add]
  exact Finset.sum_congr rfl fun (p : Fin 100000) _ => congrArg t (red0_lift q p)

/-- The reference's column mean is the index-level mean of the column sum. -/
theorem meanR_apply (t : FVec Ideal S100000x128 .f32) (q : Fin 128) :
    meanR (F := Ideal) t (ix1 q) = meanK (colSum (n := 100000) t) (ix2 (0 : Fin 1) q) := by
  unfold meanR
  rw [hostDivf_apply, colReduce_apply, broadcastInDim_scalar_apply, constant_apply]
  rfl

/-- The variance's divisor, the row count less the integer zero as a float, is the row count. -/
theorem varCount_apply (i : S_.Idx) : varCount (F := Ideal) i = nF := by
  unfold varCount
  rw [subf_apply, constant_apply, Cert.LibFinite.sitofp_apply]
  show nF - (((0#32 : BitVec 32).toInt : ℝ) : EReal) = nF
  simp

/-- The divisor is positive: the comparison bit is set. -/
theorem varCount_pos_bit (i : S_.Idx) :
    cmpf .ogt (varCount (F := Ideal)) (constant S_ .f32 0x00000000#32) i = 1 := by
  rw [cmpf_apply, varCount_apply, constant_apply, ofBits_f32_zero]
  show BitVec.ofBool (decide ((0 : EReal) < nF)) = 1
  rw [decide_eq_true isPosReal_nF.pos]
  rfl

/-- A deviation from the column mean. -/
theorem centered_apply (t : FVec Ideal S100000x128 .f32) (p : Fin 100000) (q : Fin 128) :
    centered (F := Ideal) t (ix2 p q) = t (ix2 p q) - meanK (colSum (n := 100000) t) (ix2 (0 : Fin 1) q) := by
  unfold centered
  rw [subf_apply, bcast_row_down_apply, hostDivf_apply, bcast_vec_row_apply, colReduce_apply,
    broadcastInDim_scalar_apply, constant_apply]
  rfl

/-- The reference's column variance is the mean of squared deviations: the divisor is positive, so the
    selection never takes its not-a-number branch. -/
theorem varR_apply (t : FVec Ideal S100000x128 .f32) (q : Fin 128) :
    varR (F := Ideal) t (ix1 q) = varDev (n := 100000) t (ix2 (0 : Fin 1) q) := by
  unfold varR
  rw [select_eq_left (fun i => by rw [broadcastInDim_scalar_apply]; exact varCount_pos_bit _)]
  rw [hostDivf_apply, colReduce_apply, broadcastInDim_scalar_apply, varCount_apply]
  simp only [mulf_apply, centered_apply]
  rfl

/-- The mean as a one-row array. -/
theorem rowVec_meanR (t : FVec Ideal S100000x128 .f32) :
    rowVec (meanR (F := Ideal) t) = meanK (colSum (n := 100000) t) :=
  ext_row fun q => meanR_apply t q

/-- The variance as a one-row array. -/
theorem rowVec_varR (t : FVec Ideal S100000x128 .f32) : rowVec (varR (F := Ideal) t) = varDev (n := 100000) t :=
  ext_row fun q => varR_apply t q

/-! ### The normalisation and a whole layer -/

/-- The reference's normalisation is the index-level one of the statistics as one-row arrays. -/
theorem bnR_apply (t : FVec Ideal S100000x128 .f32) (mean var γ β : FVec Ideal S128 .f32) :
    bnR (F := Ideal) t mean var γ β
      = bnRelu (n := 100000) t (rowVec mean) (rowVec var) (rowVec γ) (rowVec β) := by
  funext i
  obtain ⟨r, q, rfl⟩ : ∃ (r : Fin 100000) (q : Fin 128), i = ix2 r q := ⟨i 0, i 1, eq_ix2 i⟩
  unfold bnR
  rw [maximumf_apply, addf_apply, mulf_apply, mulf_apply, subf_apply, biasRows_apply, biasRows_apply,
    biasRows_apply, biasRows_apply, zeros128_apply]
  rfl

/-- Normalising by the array's own statistics. -/
theorem normR_apply (t : FVec Ideal S100000x128 .f32) (γ β : FVec Ideal S128 .f32) :
    normR (F := Ideal) t γ β
      = bnRelu (n := 100000) t (meanK (colSum (n := 100000) t)) (varDev (n := 100000) t) (rowVec γ) (rowVec β) := by
  unfold normR
  rw [bnR_apply, rowVec_meanR, rowVec_varR]

/-- The first layer is the index-level layer, the variance as mean of squared deviations. -/
theorem layer12_apply (h : FVec Ideal S100000x12 .f32) (e : IVec S2x1600000 32) (w1 : FVec Ideal S12x128 .f32)
    (b1 : FVec Ideal S128 .f32) (w2 : FVec Ideal S128x128 .f32) (b2 γ β : FVec Ideal S128 .f32) :
    layer12 (F := Ideal) h e w1 b1 w2 b2 γ β
      = layerR (n := 100000) (k := 12) h (agg12 h (srcIdx e) (dstIdx e)) w1 (rowVec b1) w2 (rowVec b2)
          (rowVec γ) (rowVec β) := by
  unfold layer12 layerR
  rw [normR_apply, mlp12_apply]

/-- A later layer likewise. -/
theorem layer128_apply (h : FVec Ideal S100000x128 .f32) (e : IVec S2x1600000 32) (w1 : FVec Ideal S128x128 .f32)
    (b1 : FVec Ideal S128 .f32) (w2 : FVec Ideal S128x128 .f32) (b2 γ β : FVec Ideal S128 .f32) :
    layer128 (F := Ideal) h e w1 b1 w2 b2 γ β
      = layerR (n := 100000) (k := 128) h (agg128 h (srcIdx e) (dstIdx e)) w1 (rowVec b1) w2 (rowVec b2)
          (rowVec γ) (rowVec β) := by
  unfold layer128 layerR
  rw [normR_apply, mlp128_apply]

/-! ### The readout head -/

/-- The reference's head is the index-level readout. -/
theorem headR_apply (g : FVec Ideal S1024x128 .f32) (rw1 : FVec Ideal S128x512 .f32) (rb1 : FVec Ideal S512 .f32)
    (rw2 : FVec Ideal S512x256 .f32) (rb2 : FVec Ideal S256 .f32) (rw3 : FVec Ideal S256x12 .f32)
    (rb3 : FVec Ideal S12 .f32) :
    headR (F := Ideal) g rw1 rb1 rw2 rb2 rw3 rb3
      = readout (n := 1024) g rw1 (rowVec rb1) rw2 (rowVec rb2) rw3 (rowVec rb3) := by
  unfold headR readout
  rw [dotHead1_rows, clip_bcastRow, dotHead2_rows, clip_bcastRow, dotHead3_rows, addf_bcastRow]

/-- The reference's result as the index-level network of its arguments. -/
theorem refOut_apply (a0 : FVec Ideal S100000x12 .f32) (a1 : IVec S2x1600000 32) (a2 : IVec S100000 32)
    (a3 : FVec Ideal S12x128 .f32) (a4 : FVec Ideal S128 .f32) (a5 : FVec Ideal S128x128 .f32)
    (a6 a7 a8 : FVec Ideal S128 .f32) (a9 : FVec Ideal S128x128 .f32) (a10 : FVec Ideal S128 .f32)
    (a11 : FVec Ideal S128x128 .f32) (a12 a13 a14 : FVec Ideal S128 .f32) (a15 : FVec Ideal S128x128 .f32)
    (a16 : FVec Ideal S128 .f32) (a17 : FVec Ideal S128x128 .f32) (a18 a19 a20 : FVec Ideal S128 .f32)
    (a21 : FVec Ideal S128x512 .f32) (a22 : FVec Ideal S512 .f32) (a23 : FVec Ideal S512x256 .f32)
    (a24 : FVec Ideal S256 .f32) (a25 : FVec Ideal S256x12 .f32) (a26 : FVec Ideal S12 .f32) :
    refOut (F := Ideal) a0 a1 a2 a3 a4 a5 a6 a7 a8 a9 a10 a11 a12 a13 a14 a15 a16 a17 a18 a19 a20 a21 a22 a23 a24 a25 a26
      = readout (n := 1024)
          (pool
            (layer128 (F := Ideal)
              (layer128 (F := Ideal) (layer12 (F := Ideal) a0 a1 a3 a4 a5 a6 a7 a8) a1 a9 a10 a11 a12 a13 a14)
              a1 a15 a16 a17 a18 a19 a20)
            a2)
          a21 (rowVec a22) a23 (rowVec a24) a25 (rowVec a26) := by
  unfold refOut
  rw [headR_apply]

/-! ### Real-valuedness of the stages -/

/-- Neighbour sums of real rows are real: zeros plus finite sums of gathered entries. -/
theorem allReal_agg12 {h : FVec Ideal S100000x12 .f32} (si di : IVec S1600000x1 32) (hh : AllReal h) :
    AllReal (agg12 (F := Ideal) h si di) :=
  allReal_hostScatterAdd _ _ (allReal_broadcastInDim _ _ _ (allReal_constant _ isReal_ofBits_zero))
    (allReal_hostGather _ _ hh)

theorem allReal_agg128 {h : FVec Ideal S100000x128 .f32} (si di : IVec S1600000x1 32) (hh : AllReal h) :
    AllReal (agg128 (F := Ideal) h si di) :=
  allReal_hostScatterAdd _ _ (allReal_broadcastInDim _ _ _ (allReal_constant _ isReal_ofBits_zero))
    (allReal_hostGather _ _ hh)

/-- Per-graph sums of real rows are real. -/
theorem allReal_pool {h : FVec Ideal S100000x128 .f32} (batch : IVec S100000 32) (hh : AllReal h) :
    AllReal (pool (F := Ideal) h batch) :=
  allReal_hostScatterAdd _ _ (allReal_broadcastInDim _ _ _ (allReal_constant _ isReal_ofBits_zero)) hh

theorem allReal_mlp12 {h a : FVec Ideal S100000x12 .f32} {w1 : FVec Ideal S12x128 .f32} {b1 : FVec Ideal S128 .f32}
    {w2 : FVec Ideal S128x128 .f32} {b2 : FVec Ideal S128 .f32} (hh : AllReal h) (ha : AllReal a) (hw1 : AllReal w1)
    (hb1 : AllReal b1) (hw2 : AllReal w2) (hb2 : AllReal b2) : AllReal (mlp12 (F := Ideal) h a w1 b1 w2 b2) := by
  rw [mlp12_apply]
  exact allReal_mlp hh ha hw1 (allReal_rowVec hb1) hw2 (allReal_rowVec hb2)

theorem allReal_mlp128 {h a : FVec Ideal S100000x128 .f32} {w1 : FVec Ideal S128x128 .f32} {b1 : FVec Ideal S128 .f32}
    {w2 : FVec Ideal S128x128 .f32} {b2 : FVec Ideal S128 .f32} (hh : AllReal h) (ha : AllReal a) (hw1 : AllReal w1)
    (hb1 : AllReal b1) (hw2 : AllReal w2) (hb2 : AllReal b2) : AllReal (mlp128 (F := Ideal) h a w1 b1 w2 b2) := by
  rw [mlp128_apply]
  exact allReal_mlp hh ha hw1 (allReal_rowVec hb1) hw2 (allReal_rowVec hb2)

theorem allReal_meanR {t : FVec Ideal S100000x128 .f32} (ht : AllReal t) : AllReal (meanR (F := Ideal) t) := by
  intro j
  obtain ⟨q, rfl⟩ : ∃ q : Fin 128, j = ix1 q := ⟨j 0, eq_ix1 j⟩
  rw [meanR_apply]
  exact allReal_meanK (allReal_colSum ht) _

theorem allReal_varR {t : FVec Ideal S100000x128 .f32} (ht : AllReal t) : AllReal (varR (F := Ideal) t) := by
  intro j
  obtain ⟨q, rfl⟩ : ∃ q : Fin 128, j = ix1 q := ⟨j 0, eq_ix1 j⟩
  rw [varR_apply]
  exact allReal_varDev ht _

/-- The reference's variance is nonnegative. -/
theorem varR_nonneg {t : FVec Ideal S100000x128 .f32} (ht : AllReal t) (j : S128.Idx) : 0 ≤ varR (F := Ideal) t j := by
  obtain ⟨q, rfl⟩ : ∃ q : Fin 128, j = ix1 q := ⟨j 0, eq_ix1 j⟩
  rw [varR_apply]
  exact varDev_nonneg ht _

/-- The reference's variance plus the offset is a positive real. -/
theorem isPosReal_varR_add {t : FVec Ideal S100000x128 .f32} (ht : AllReal t) (j : S128.Idx) :
    IsPosReal (varR (F := Ideal) t j + epsF) := by
  obtain ⟨q, rfl⟩ : ∃ q : Fin 128, j = ix1 q := ⟨j 0, eq_ix1 j⟩
  rw [varR_apply]
  exact isPosReal_varDev_add ht _

theorem allReal_normR {t : FVec Ideal S100000x128 .f32} {γ β : FVec Ideal S128 .f32} (ht : AllReal t) (hγ : AllReal γ)
    (hβ : AllReal β) : AllReal (normR (F := Ideal) t γ β) := by
  rw [normR_apply]
  exact allReal_bnRelu ht (allReal_meanK (allReal_colSum ht)) (isPosReal_varDev_add ht) (allReal_rowVec hγ)
    (allReal_rowVec hβ)

theorem allReal_layer12 {h : FVec Ideal S100000x12 .f32} (e : IVec S2x1600000 32) {w1 : FVec Ideal S12x128 .f32}
    {b1 : FVec Ideal S128 .f32} {w2 : FVec Ideal S128x128 .f32} {b2 γ β : FVec Ideal S128 .f32} (hh : AllReal h)
    (hw1 : AllReal w1) (hb1 : AllReal b1) (hw2 : AllReal w2) (hb2 : AllReal b2) (hγ : AllReal γ) (hβ : AllReal β) :
    AllReal (layer12 (F := Ideal) h e w1 b1 w2 b2 γ β) := by
  unfold layer12
  exact allReal_normR (allReal_mlp12 hh (allReal_agg12 _ _ hh) hw1 hb1 hw2 hb2) hγ hβ

theorem allReal_layer128 {h : FVec Ideal S100000x128 .f32} (e : IVec S2x1600000 32) {w1 : FVec Ideal S128x128 .f32}
    {b1 : FVec Ideal S128 .f32} {w2 : FVec Ideal S128x128 .f32} {b2 γ β : FVec Ideal S128 .f32} (hh : AllReal h)
    (hw1 : AllReal w1) (hb1 : AllReal b1) (hw2 : AllReal w2) (hb2 : AllReal b2) (hγ : AllReal γ) (hβ : AllReal β) :
    AllReal (layer128 (F := Ideal) h e w1 b1 w2 b2 γ β) := by
  unfold layer128
  exact allReal_normR (allReal_mlp128 hh (allReal_agg128 _ _ hh) hw1 hb1 hw2 hb2) hγ hβ

theorem allReal_headR {g : FVec Ideal S1024x128 .f32} {rw1 : FVec Ideal S128x512 .f32} {rb1 : FVec Ideal S512 .f32}
    {rw2 : FVec Ideal S512x256 .f32} {rb2 : FVec Ideal S256 .f32} {rw3 : FVec Ideal S256x12 .f32}
    {rb3 : FVec Ideal S12 .f32} (hg : AllReal g) (hw1 : AllReal rw1) (hb1 : AllReal rb1) (hw2 : AllReal rw2)
    (hb2 : AllReal rb2) (hw3 : AllReal rw3) (hb3 : AllReal rb3) :
    AllReal (headR (F := Ideal) g rw1 rb1 rw2 rb2 rw3 rb3) := by
  rw [headR_apply]
  exact allReal_readout hg hw1 (allReal_rowVec hb1) hw2 (allReal_rowVec hb2) hw3 (allReal_rowVec hb3)

end Cert.ReferenceIdeal.Hand

end
-- ==== Proof.Bridge.OutEq.lean ====
/-
  The two programs' result functions agree on real arguments.

  Both programs compute, per layer, the neighbour sums of the node rows, the two-layer perceptron of the rows plus
  their neighbour sums, and the normalisation of every column by its mean and variance over all rows; then the sums of
  the node rows per graph and a three-layer readout.  The neighbour sums, the per-graph sums and the one-row forms of
  the bias, scale and shift vectors are the same in the two programs.  The layers differ in the form of the variance
  only: mean of squares minus squared mean against mean of squared deviations, which agree when the perceptron's
  output is real, and it is real when the arguments are.  Every layer's output is again real, so the agreement passes
  through the three layers, the per-graph sums and the readout.
-/
import proofs.«142609_j54228257079879_1_alg».proof.Proof.Bridge.HostEq
import proofs.«142609_j54228257079879_1_alg».proof.Proof.KI.KerOut
import proofs.«142609_j54228257079879_1_alg».proof.Proof.Ref.ReadSpec
import proofs.«142609_j54228257079879_1_alg».proof.Proof.Math.Laws

noncomputable section

namespace Cert.Bridge

open Idealize.ShloMosaic Idealize.ShloMosaic.ValueIdx
open Cert.Sage Cert.Gin Cert.LibFinite
open Cert.KernelIdeal.Hand (row0 row1 aggK12 aggK128 poolK rowK rowK512 rowK256 rowK12 kLayer12 kLayer128 kerOut)
open Cert.ReferenceIdeal.Hand (srcIdx dstIdx agg12 agg128 pool layer12 layer128 refOut)

/-! ### A layer -/

/-- The first layer: the two programs' layers agree on real operands. The perceptron's output is real, so the
    two forms of the variance agree. -/
theorem kLayer12_eq {x : FVec Ideal Cert.KernelIdeal.S100000x12 .f32} (e : IVec Cert.KernelIdeal.S2x1600000 32)
    {w1 : FVec Ideal Cert.KernelIdeal.S12x128 .f32} {b1 : FVec Ideal Cert.KernelIdeal.S128 .f32}
    {w2 : FVec Ideal Cert.KernelIdeal.S128x128 .f32} {b2 : FVec Ideal Cert.KernelIdeal.S128 .f32} (γ β : FVec Ideal Cert.KernelIdeal.S128 .f32)
    (hx : AllReal x) (hw1 : AllReal w1) (hb1 : AllReal b1) (hw2 : AllReal w2) (hb2 : AllReal b2) :
    kLayer12 x e w1 b1 w2 b2 γ β = layer12 (F := Ideal) x e w1 b1 w2 b2 γ β := by
  unfold kLayer12
  rw [aggK12_eq, rowK_eq, rowK_eq, rowK_eq, rowK_eq, Cert.ReferenceIdeal.Hand.layer12_apply]
  exact layerK_eq_layerR
    (allReal_mlp hx (Cert.ReferenceIdeal.Hand.allReal_agg12 _ _ hx) hw1 (allReal_rowVec hb1) hw2 (allReal_rowVec hb2))

/-- The later layers: the two programs' layers agree on real operands. The perceptron's output is real, so the
    two forms of the variance agree. -/
theorem kLayer128_eq {x : FVec Ideal Cert.KernelIdeal.S100000x128 .f32} (e : IVec Cert.KernelIdeal.S2x1600000 32)
    {w1 : FVec Ideal Cert.KernelIdeal.S128x128 .f32} {b1 : FVec Ideal Cert.KernelIdeal.S128 .f32}
    {w2 : FVec Ideal Cert.KernelIdeal.S128x128 .f32} {b2 : FVec Ideal Cert.KernelIdeal.S128 .f32} (γ β : FVec Ideal Cert.KernelIdeal.S128 .f32)
    (hx : AllReal x) (hw1 : AllReal w1) (hb1 : AllReal b1) (hw2 : AllReal w2) (hb2 : AllReal b2) :
    kLayer128 x e w1 b1 w2 b2 γ β = layer128 (F := Ideal) x e w1 b1 w2 b2 γ β := by
  unfold kLayer128
  rw [aggK128_eq, rowK_eq, rowK_eq, rowK_eq, rowK_eq, Cert.ReferenceIdeal.Hand.layer128_apply]
  exact layerK_eq_layerR
    (allReal_mlp hx (Cert.ReferenceIdeal.Hand.allReal_agg128 _ _ hx) hw1 (allReal_rowVec hb1) hw2 (allReal_rowVec hb2))

/-! ### The whole network -/

/-- THE RESULT FUNCTIONS AGREE on real arguments: layer by layer (each layer's output is real again), then the
    per-graph sums and the readout, which are the same functions of the same operands. -/
theorem out_eq
    (a0 : FVec Ideal Cert.KernelIdeal.S100000x12 .f32)
    (a1 : IVec Cert.KernelIdeal.S2x1600000 32)
    (a2 : IVec Cert.KernelIdeal.S100000 32)
    (a3 : FVec Ideal Cert.KernelIdeal.S12x128 .f32)
    (a4 : FVec Ideal Cert.KernelIdeal.S128 .f32)
    (a5 : FVec Ideal Cert.KernelIdeal.S128x128 .f32)
    (a6 : FVec Ideal Cert.KernelIdeal.S128 .f32)
    (a7 : FVec Ideal Cert.KernelIdeal.S128 .f32)
    (a8 : FVec Ideal Cert.KernelIdeal.S128 .f32)
    (a9 : FVec Ideal Cert.KernelIdeal.S128x128 .f32)
    (a10 : FVec Ideal Cert.KernelIdeal.S128 .f32)
    (a11 : FVec Ideal Cert.KernelIdeal.S128x128 .f32)
    (a12 : FVec Ideal Cert.KernelIdeal.S128 .f32)
    (a13 : FVec Ideal Cert.KernelIdeal.S128 .f32)
    (a14 : FVec Ideal Cert.KernelIdeal.S128 .f32)
    (a15 : FVec Ideal Cert.KernelIdeal.S128x128 .f32)
    (a16 : FVec Ideal Cert.KernelIdeal.S128 .f32)
    (a17 : FVec Ideal Cert.KernelIdeal.S128x128 .f32)
    (a18 : FVec Ideal Cert.KernelIdeal.S128 .f32)
    (a19 : FVec Ideal Cert.KernelIdeal.S128 .f32)
    (a20 : FVec Ideal Cert.KernelIdeal.S128 .f32)
    (a21 : FVec Ideal Cert.KernelIdeal.S128x512 .f32)
    (a22 : FVec Ideal Cert.KernelIdeal.S512 .f32)
    (a23 : FVec Ideal Cert.KernelIdeal.S512x256 .f32)
    (a24 : FVec Ideal Cert.KernelIdeal.S256 .f32)
    (a25 : FVec Ideal Cert.KernelIdeal.S256x12 .f32)
    (a26 : FVec Ideal Cert.KernelIdeal.S12 .f32)
    (h0 : AllReal a0) (h3 : AllReal a3) (h4 : AllReal a4) (h5 : AllReal a5) (h6 : AllReal a6) (h7 : AllReal a7) (h8 : AllReal a8) (h9 : AllReal a9) (h10 : AllReal a10) (h11 : AllReal a11) (h12 : AllReal a12) (h13 : AllReal a13) (h14 : AllReal a14) (h15 : AllReal a15) (h16 : AllReal a16) (h17 : AllReal a17) (h18 : AllReal a18) (h19 : AllReal a19) (h20 : AllReal a20) (h21 : AllReal a21) (h22 : AllReal a22) (h23 : AllReal a23) (h24 : AllReal a24) (h25 : AllReal a25) (h26 : AllReal a26) :
    kerOut a0 a1 a2 a3 a4 a5 a6 a7 a8 a9 a10 a11 a12 a13 a14 a15 a16 a17 a18 a19 a20 a21 a22 a23 a24 a25 a26 = refOut (F := Ideal) a0 a1 a2 a3 a4 a5 a6 a7 a8 a9 a10 a11 a12 a13 a14 a15 a16 a17 a18 a19 a20 a21 a22 a23 a24 a25 a26 := by
  have r1 : AllReal (layer12 (F := Ideal) a0 a1 a3 a4 a5 a6 a7 a8) :=
    Cert.ReferenceIdeal.Hand.allReal_layer12 a1 h0 h3 h4 h5 h6 h7 h8
  have r2 : AllReal (layer128 (F := Ideal) (layer12 (F := Ideal) a0 a1 a3 a4 a5 a6 a7 a8) a1 a9 a10 a11 a12 a13 a14) :=
    Cert.ReferenceIdeal.Hand.allReal_layer128 a1 r1 h9 h10 h11 h12 h13 h14
  unfold kerOut
  rw [kLayer12_eq a1 a7 a8 h0 h3 h4 h5 h6, kLayer128_eq a1 a13 a14 r1 h9 h10 h11 h12,
    kLayer128_eq a1 a19 a20 r2 h15 h16 h17 h18, poolK_eq, rowK512_eq, rowK256_eq, rowK12_eq,
    Cert.ReferenceIdeal.Hand.refOut_apply]

end Cert.Bridge

end
-- ==== Proof.Math.Pre.lean ====
/-
  The finiteness precondition, read back.

  The precondition tests each float argument x by jnp.all(|x| < +inf): the absolute value of every
  entry is compared (strictly below) with the f32 pattern 0x7F800000, which denotes +inf; the comparisons
  are reduced by "and" over all axes, and the 25 results are conjoined.  Over the extended reals
  |x| = max x (-x), and |⊤| = |⊥| = ⊤ is not below ⊤, so an entry passing the test is the coercion of a
  real number.  One generic lemma decodes a single jnp.all; the theorem applies it to each argument.
-/
import Idealize.ShloMosaic.Lib.ReduceAll
import Idealize.ShloMosaic.Lib.ValueIdx
import proofs.«142609_j54228257079879_1_alg».proof.Pre_finite_inputs
import proofs.«142609_j54228257079879_1_alg».proof.Proof.LibFinite

set_option maxRecDepth 16384

noncomputable section

namespace Cert.Gin

open Idealize.ShloMosaic
open Cert.LibFinite
open Cert.Pre_finite_inputs (S_)

/-- A rank-0 array has one index. -/
instance : Subsingleton S_.Idx := ⟨fun a b => funext fun d => d.elim0⟩

/-- The f32 pattern 0x7F800000 denotes +inf. -/
theorem ofBits_inf : Ideal.ofBits .f32 0x7F800000#32 = (⊤ : EReal) := by simp [Ideal.ofBits, Ideal.ieee]

/-- An extended real whose absolute value is strictly below +inf is real. -/
theorem isReal_of_abs_lt_inf (x : EReal)
    (h : FloatOps.cmpf (F := Ideal) (φ := .f32) .olt (FloatOps.hostAbsf (F := Ideal) (φ := .f32) x)
          (FloatOps.ofBits (F := Ideal) .f32 0x7F800000#32) = 1#1) : IsReal x := by
  change BitVec.ofBool (decide (max x (-x) < Ideal.ofBits .f32 0x7F800000#32)) = 1#1 at h
  rw [ofBits_inf] at h
  induction x using EReal.rec with
  | bot => simp at h
  | top => simp at h
  | coe r => exact ⟨r, rfl⟩

/-- One jnp.all(|x| < +inf), of any shape: if the reduction by "and" over all axes is 1, every entry of x is real. -/
theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    AllReal x := fun i =>
  isReal_of_abs_lt_inf (x i) (Host.reduce_andi_all _ _ hr hu _ e i)

/-- THE PRECONDITION DECODED: every float argument is a family of reals. -/
theorem allReal_of_pre [Cert.Pre_finite_inputs.Facts]
    (a0 : FVec Ideal Cert.Pre_finite_inputs.S100000x12 .f32)
    (a1 : IVec Cert.Pre_finite_inputs.S2x1600000 32)
    (a2 : IVec Cert.Pre_finite_inputs.S100000 32)
    (a3 : FVec Ideal Cert.Pre_finite_inputs.S12x128 .f32)
    (a4 : FVec Ideal Cert.Pre_finite_inputs.S128 .f32)
    (a5 : FVec Ideal Cert.Pre_finite_inputs.S128x128 .f32)
    (a6 : FVec Ideal Cert.Pre_finite_inputs.S128 .f32)
    (a7 : FVec Ideal Cert.Pre_finite_inputs.S128 .f32)
    (a8 : FVec Ideal Cert.Pre_finite_inputs.S128 .f32)
    (a9 : FVec Ideal Cert.Pre_finite_inputs.S128x128 .f32)
    (a10 : FVec Ideal Cert.Pre_finite_inputs.S128 .f32)
    (a11 : FVec Ideal Cert.Pre_finite_inputs.S128x128 .f32)
    (a12 : FVec Ideal Cert.Pre_finite_inputs.S128 .f32)
    (a13 : FVec Ideal Cert.Pre_finite_inputs.S128 .f32)
    (a14 : FVec Ideal Cert.Pre_finite_inputs.S128 .f32)
    (a15 : FVec Ideal Cert.Pre_finite_inputs.S128x128 .f32)
    (a16 : FVec Ideal Cert.Pre_finite_inputs.S128 .f32)
    (a17 : FVec Ideal Cert.Pre_finite_inputs.S128x128 .f32)
    (a18 : FVec Ideal Cert.Pre_finite_inputs.S128 .f32)
    (a19 : FVec Ideal Cert.Pre_finite_inputs.S128 .f32)
    (a20 : FVec Ideal Cert.Pre_finite_inputs.S128 .f32)
    (a21 : FVec Ideal Cert.Pre_finite_inputs.S128x512 .f32)
    (a22 : FVec Ideal Cert.Pre_finite_inputs.S512 .f32)
    (a23 : FVec Ideal Cert.Pre_finite_inputs.S512x256 .f32)
    (a24 : FVec Ideal Cert.Pre_finite_inputs.S256 .f32)
    (a25 : FVec Ideal Cert.Pre_finite_inputs.S256x12 .f32)
    (a26 : FVec Ideal Cert.Pre_finite_inputs.S12 .f32)
    (h : Cert.Pre_finite_inputs.fn (F := Ideal) a0 a1 a2 a3 a4 a5 a6 a7 a8 a9 a10 a11 a12 a13 a14 a15 a16 a17 a18 a19 a20 a21 a22 a23 a24 a25 a26 = fun _ => 1#1) :
    AllReal a0 ∧
    AllReal a3 ∧
    AllReal a4 ∧
    AllReal a5 ∧
    AllReal a6 ∧
    AllReal a7 ∧
    AllReal a8 ∧
    AllReal a9 ∧
    AllReal a10 ∧
    AllReal a11 ∧
    AllReal a12 ∧
    AllReal a13 ∧
    AllReal a14 ∧
    AllReal a15 ∧
    AllReal a16 ∧
    AllReal a17 ∧
    AllReal a18 ∧
    AllReal a19 ∧
    AllReal a20 ∧
    AllReal a21 ∧
    AllReal a22 ∧
    AllReal a23 ∧
    AllReal a24 ∧
    AllReal a25 ∧
    AllReal a26 := by
  have e := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7] at e
  simp only [andi, IntOp.andi_eq_one] at e
  obtain ⟨⟨⟨⟨⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩ := e
  exact ⟨allReal_of_all a0 _ _ _ h0,
    allReal_of_all a3 _ _ _ h3,
    allReal_of_all a4 _ _ _ h4,
    allReal_of_all a5 _ _ _ h5,
    allReal_of_all a6 _ _ _ h6,
    allReal_of_all a7 _ _ _ h7,
    allReal_of_all a8 _ _ _ h8,
    allReal_of_all a9 _ _ _ h9,
    allReal_of_all a10 _ _ _ h10,
    allReal_of_all a11 _ _ _ h11,
    allReal_of_all a12 _ _ _ h12,
    allReal_of_all a13 _ _ _ h13,
    allReal_of_all a14 _ _ _ h14,
    allReal_of_all a15 _ _ _ h15,
    allReal_of_all a16 _ _ _ h16,
    allReal_of_all a17 _ _ _ h17,
    allReal_of_all a18 _ _ _ h18,
    allReal_of_all a19 _ _ _ h19,
    allReal_of_all a20 _ _ _ h20,
    allReal_of_all a21 _ _ _ h21,
    allReal_of_all a22 _ _ _ h22,
    allReal_of_all a23 _ _ _ h23,
    allReal_of_all a24 _ _ _ h24,
    allReal_of_all a25 _ _ _ h25,
    allReal_of_all a26 _ _ _ h26⟩

end Cert.Gin

end
-- ==== Proof.lean ====
/-
  The certificate of a three-layer graph network: per layer, neighbour sums on the host, a kernel computing a two-layer
  perceptron on 2000-row blocks and accumulating the column sums and column sums of squares over the 50 blocks, the mean
  and the variance (mean of squares minus squared mean) on the host, a kernel normalising, scaling, shifting and clipping;
  then the node rows added into their graphs' rows and a kernel applying the readout.
  The frames: the kernel program, as printed and idealized, is run region by region (Proof/K/Run.lean, Proof/KI/Run.lean);
  the reference is a host program (Proof/Ref/Run.lean). The idealized kernel program's result is read off its run as one
  function of the arguments (Proof/KI/Chain.lean), the reference's likewise (Proof/Ref/Term.lean, Proof/Ref/ReadSpec.lean).
  The two functions agree on real arguments (Proof/Bridge/OutEq.lean): the only law that is not a regrouping of sums is that
  mean of squares minus squared mean equals the mean of squared deviations, which holds on real numbers; the precondition
  says every float argument is real (Proof/Math/Pre.lean), and every intermediate value stays real because each variance
  plus the positive epsilon is positive.
-/
import proofs.«142609_j54228257079879_1_alg».proof.Defs
import proofs.«142609_j54228257079879_1_alg».proof.Proof.Gen.Kernel
import proofs.«142609_j54228257079879_1_alg».proof.Proof.Gen.KernelIdeal
import proofs.«142609_j54228257079879_1_alg».proof.Proof.Gen.ReferenceIdeal
import proofs.«142609_j54228257079879_1_alg».proof.Proof.Gen.Pre_finite_inputs
import proofs.«142609_j54228257079879_1_alg».proof.Proof.K.Run
import proofs.«142609_j54228257079879_1_alg».proof.Proof.KI.Run
import proofs.«142609_j54228257079879_1_alg».proof.Proof.KI.Chain
import proofs.«142609_j54228257079879_1_alg».proof.Proof.Ref.Run
import proofs.«142609_j54228257079879_1_alg».proof.Proof.Bridge.OutEq
import proofs.«142609_j54228257079879_1_alg».proof.Proof.Math.Pre
import Idealize.ShloMosaic.Adequacy
import Idealize.ShloMosaic.Init

set_option maxRecDepth 16384

noncomputable section

namespace Cert.Proof

open Idealize.ShloMosaic Idealize.SL.Sem

/-- The kernel program as printed runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a host program: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- The reference's result function at equal arguments. -/
theorem refOut_congr
    {x0 y0 : FVec Ideal Cert.ReferenceIdeal.S100000x12 .f32}
    {x1 y1 : IVec Cert.ReferenceIdeal.S2x1600000 32}
    {x2 y2 : IVec Cert.ReferenceIdeal.S100000 32}
    {x3 y3 : FVec Ideal Cert.ReferenceIdeal.S12x128 .f32}
    {x4 y4 : FVec Ideal Cert.ReferenceIdeal.S128 .f32}
    {x5 y5 : FVec Ideal Cert.ReferenceIdeal.S128x128 .f32}
    {x6 y6 : FVec Ideal Cert.ReferenceIdeal.S128 .f32}
    {x7 y7 : FVec Ideal Cert.ReferenceIdeal.S128 .f32}
    {x8 y8 : FVec Ideal Cert.ReferenceIdeal.S128 .f32}
    {x9 y9 : FVec Ideal Cert.ReferenceIdeal.S128x128 .f32}
    {x10 y10 : FVec Ideal Cert.ReferenceIdeal.S128 .f32}
    {x11 y11 : FVec Ideal Cert.ReferenceIdeal.S128x128 .f32}
    {x12 y12 : FVec Ideal Cert.ReferenceIdeal.S128 .f32}
    {x13 y13 : FVec Ideal Cert.ReferenceIdeal.S128 .f32}
    {x14 y14 : FVec Ideal Cert.ReferenceIdeal.S128 .f32}
    {x15 y15 : FVec Ideal Cert.ReferenceIdeal.S128x128 .f32}
    {x16 y16 : FVec Ideal Cert.ReferenceIdeal.S128 .f32}
    {x17 y17 : FVec Ideal Cert.ReferenceIdeal.S128x128 .f32}
    {x18 y18 : FVec Ideal Cert.ReferenceIdeal.S128 .f32}
    {x19 y19 : FVec Ideal Cert.ReferenceIdeal.S128 .f32}
    {x20 y20 : FVec Ideal Cert.ReferenceIdeal.S128 .f32}
    {x21 y21 : FVec Ideal Cert.ReferenceIdeal.S128x512 .f32}
    {x22 y22 : FVec Ideal Cert.ReferenceIdeal.S512 .f32}
    {x23 y23 : FVec Ideal Cert.ReferenceIdeal.S512x256 .f32}
    {x24 y24 : FVec Ideal Cert.ReferenceIdeal.S256 .f32}
    {x25 y25 : FVec Ideal Cert.ReferenceIdeal.S256x12 .f32}
    {x26 y26 : FVec Ideal Cert.ReferenceIdeal.S12 .f32}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) (e19 : x19 = y19) (e20 : x20 = y20) (e21 : x21 = y21) (e22 : x22 = y22) (e23 : x23 = y23) (e24 : x24 = y24) (e25 : x25 = y25) (e26 : x26 = y26) :
    Cert.ReferenceIdeal.Hand.refOut (F := Ideal) x0 x1 x2 x3 x4 x5 x6 x7 x8 x9 x10 x11 x12 x13 x14 x15 x16 x17 x18 x19 x20 x21 x22 x23 x24 x25 x26
      = Cert.ReferenceIdeal.Hand.refOut (F := Ideal) y0 y1 y2 y3 y4 y5 y6 y7 y8 y9 y10 y11 y12 y13 y14 y15 y16 y17 y18 y19 y20 y21 y22 y23 y24 y25 y26 := by
  subst e0 e1 e2 e3 e4 e5 e6 e7 e8 e9 e10 e11 e12 e13 e14 e15 e16 e17 e18 e19 e20 e21 e22 e23 e24 e25 e26
  rfl

/-- Both idealized programs end with the same result: the kernel program's run ends at its function of the arguments,
    the reference's at its own, and the two agree on the real arguments the precondition grants. -/
theorem algebraic : Cert.algebraic_KernelIdeal_ReferenceIdeal := by
  intro m ρ m' ρ' hpre hagree
  refine ⟨fun c => Cert.KernelIdeal.Hand.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)), ?_, ?_⟩
  · exact (θ_run (Cert.KernelIdeal.defs (F := Ideal)) _ _).mono
      (fun r h c => ⟨(h c).1.trans (Cert.KernelIdeal.Hand.result_eq m ρ c), (h c).2⟩)
      (Cert.KernelIdeal.Hand.run_result (F := Ideal) m ρ)
  · refine (θ_run (Cert.ReferenceIdeal.defs (F := Ideal)) _ _).mono (fun r h c => ⟨(h c).1.trans ?_, (h c).2⟩)
      (Cert.ReferenceIdeal.Hand.run (F := Ideal) m' ρ')
    obtain ⟨e0, e1, e2, e3, e4, e5, e6, e7, e8, e9, e10, e11, e12, e13, e14, e15, e16, e17, e18, e19, e20, e21, e22, e23, e24, e25, e26⟩ := hagree c
    obtain ⟨h0, h3, h4, h5, h6, h7, h8, h9, h10, h11, h12, h13, h14, h15, h16, h17, h18, h19, h20, h21, h22, h23, h24, h25, h26⟩ := Cert.Gin.allReal_of_pre _ _ _ _ _ _ _ _ _ _ _ _ _ _ _ _ _ _ _ _ _ _ _ _ _ _ _ (hpre c)
    exact (refOut_congr e0 e1 e2 e3 e4 e5 e6 e7 e8 e9 e10 e11 e12 e13 e14 e15 e16 e17 e18 e19 e20 e21 e22 e23 e24 e25 e26).trans
      (Cert.Bridge.out_eq _ _ _ _ _ _ _ _ _ _ _ _ _ _ _ _ _ _ _ _ _ _ _ _ _ _ _ h0 h3 h4 h5 h6 h7 h8 h9 h10 h11 h12 h13 h14 h15 h16 h17 h18 h19 h20 h21 h22 h23 h24 h25 h26).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
